-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v204) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1000x4 : Shape := ⟨3, ![32, 1000, 4]⟩
abbrev S32x1000x81 : Shape := ⟨3, ![32, 1000, 81]⟩
abbrev S32x100x4 : Shape := ⟨3, ![32, 100, 4]⟩
abbrev S32x100 : Shape := ⟨2, ![32, 100]⟩
abbrev S_ : Shape := ⟨0, ![]⟩
abbrev S32x1000x2 : Shape := ⟨3, ![32, 1000, 2]⟩
abbrev S32x100x2 : Shape := ⟨3, ![32, 100, 2]⟩

class Facts : Prop where
  bcast_S_S32x1000x4 : S_.BroadcastsInDim S32x1000x4 (![] : Fin 0 → Fin S32x1000x4.rank)
  reducesTo_S32x1000x4_S_d0_1_2 : S32x1000x4.ReducesTo [0, 1, 2] S_
  h_S_ : 0 < S_.numel
  bcast_S_S32x1000x81 : S_.BroadcastsInDim S32x1000x81 (![] : Fin 0 → Fin S32x1000x81.rank)
  reducesTo_S32x1000x81_S_d0_1_2 : S32x1000x81.ReducesTo [0, 1, 2] S_
  bcast_S_S32x100x4 : S_.BroadcastsInDim S32x100x4 (![] : Fin 0 → Fin S32x100x4.rank)
  reducesTo_S32x100x4_S_d0_1_2 : S32x100x4.ReducesTo [0, 1, 2] S_
  slices_S32x1000x4_S32x1000x2_0_0_2 : S32x1000x4.Slices ![0, 0, 2] S32x1000x2
  bcast_S_S32x1000x2 : S_.BroadcastsInDim S32x1000x2 (![] : Fin 0 → Fin S32x1000x2.rank)
  reducesTo_S32x1000x2_S_d0_1_2 : S32x1000x2.ReducesTo [0, 1, 2] S_
  slices_S32x100x4_S32x100x2_0_0_2 : S32x100x4.Slices ![0, 0, 2] S32x100x2
  bcast_S_S32x100x2 : S_.BroadcastsInDim S32x100x2 (![] : Fin 0 → Fin S32x100x2.rank)
  reducesTo_S32x100x2_S_d0_1_2 : S32x100x2.ReducesTo [0, 1, 2] S_

variable [Facts]

def fn_part1 {F : FTy → Type} [FloatOps F] (main_arg2 : FVec F S32x100x4 .f32) (main_v13 : IVec S_ 1) (main_v16 : IVec S32x1000x2 1) : IVec S_ 1 :=
  let main_c_5 : IVec S_ 1 := constantI S_ 1 1#1
  let main_v17 : IVec S_ 1 := (fun x v => Host.reduce IntOp.andi x v reducesTo_S32x1000x2_S_d0_1_2 h_S_) main_v16 main_c_5
  let main_v18 : IVec S_ 1 := andi main_v13 main_v17
  let main_v19 : FVec F S32x100x2 .f32 := (extractStridedSlice S32x100x2 ![0, 0, 2] · slices_S32x100x4_S32x100x2_0_0_2) main_arg2
  let main_cst_6 : FVec F S_ .f32 := constant S_ .f32 0x00000000#32
  let main_v20 : FVec F S32x100x2 .f32 := broadcastInDim S32x100x2 ![] bcast_S_S32x100x2 main_cst_6
  let main_v21 : IVec S32x100x2 1 := cmpf .une main_v19 main_v20
  let main_c_7 : IVec S_ 1 := constantI S_ 1 1#1
  let main_v22 : IVec S_ 1 := (fun x v => Host.reduce IntOp.andi x v reducesTo_S32x100x2_S_d0_1_2 h_S_) main_v21 main_c_7
  let main_v23 : IVec S_ 1 := andi main_v18 main_v22
  main_v23

def fn {F : FTy → Type} [FloatOps F] (main_arg0 : FVec F S32x1000x4 .f32) (main_arg1 : FVec F S32x1000x81 .f32) (main_arg2 : FVec F S32x100x4 .f32) (main_arg3 : IVec S32x100 32) : IVec S_ 1 :=
  let main_v0 : FVec F S32x1000x4 .f32 := Host.absf main_arg0
  let main_cst : FVec F S_ .f32 := constant S_ .f32 0x7F800000#32
  let main_v1 : FVec F S32x1000x4 .f32 := broadcastInDim S32x1000x4 ![] bcast_S_S32x1000x4 main_cst
  let main_v2 : IVec S32x1000x4 1 := cmpf .olt main_v0 main_v1
  let main_c : IVec S_ 1 := constantI S_ 1 1#1
  let main_v3 : IVec S_ 1 := (fun x v => Host.reduce IntOp.andi x v reducesTo_S32x1000x4_S_d0_1_2 h_S_) main_v2 main_c
  let main_v4 : FVec F S32x1000x81 .f32 := Host.absf main_arg1
  let main_cst_0 : FVec F S_ .f32 := constant S_ .f32 0x7F800000#32
  let main_v5 : FVec F S32x1000x81 .f32 := broadcastInDim S32x1000x81 ![] bcast_S_S32x1000x81 main_cst_0
  let main_v6 : IVec S32x1000x81 1 := cmpf .olt main_v4 main_v5
  let main_c_1 : IVec S_ 1 := constantI S_ 1 1#1
  let main_v7 : IVec S_ 1 := (fun x v => Host.reduce IntOp.andi x v reducesTo_S32x1000x81_S_d0_1_2 h_S_) main_v6 main_c_1
  let main_v8 : IVec S_ 1 := andi main_v3 main_v7
  let main_v9 : FVec F S32x100x4 .f32 := Host.absf main_arg2
  let main_cst_2 : FVec F S_ .f32 := constant S_ .f32 0x7F800000#32
  let main_v10 : FVec F S32x100x4 .f32 := broadcastInDim S32x100x4 ![] bcast_S_S32x100x4 main_cst_2
  let main_v11 : IVec S32x100x4 1 := cmpf .olt main_v9 main_v10
  let main_c_3 : IVec S_ 1 := constantI S_ 1 1#1
  let main_v12 : IVec S_ 1 := (fun x v => Host.reduce IntOp.andi x v reducesTo_S32x100x4_S_d0_1_2 h_S_) main_v11 main_c_3
  let main_v13 : IVec S_ 1 := andi main_v8 main_v12
  let main_v14 : FVec F S32x1000x2 .f32 := (extractStridedSlice S32x1000x2 ![0, 0, 2] · slices_S32x1000x4_S32x1000x2_0_0_2) main_arg0
  let main_cst_4 : FVec F S_ .f32 := constant S_ .f32 0x00000000#32
  let main_v15 : FVec F S32x1000x2 .f32 := broadcastInDim S32x1000x2 ![] bcast_S_S32x1000x2 main_cst_4
  let main_v16 : IVec S32x1000x2 1 := cmpf .une main_v14 main_v15
  fn_part1 (F := F) main_arg2 main_v13 main_v16
-- ==== Kernel.lean ====
abbrev S32x1000x4 : Shape := ⟨3, ![32, 1000, 4]⟩
abbrev S32x1000x81 : Shape := ⟨3, ![32, 1000, 81]⟩
abbrev S32x100x4 : Shape := ⟨3, ![32, 100, 4]⟩
abbrev S32x100 : Shape := ⟨2, ![32, 100]⟩
abbrev S32x1000x1 : Shape := ⟨3, ![32, 1000, 1]⟩
abbrev S32x1000 : Shape := ⟨2, ![32, 1000]⟩
abbrev S_ : Shape := ⟨0, ![]⟩
abbrev S32x1000x80 : Shape := ⟨3, ![32, 1000, 80]⟩
abbrev S32x100x1 : Shape := ⟨3, ![32, 100, 1]⟩
abbrev S1x1x80 : Shape := ⟨3, ![1, 1, 80]⟩
abbrev S32x100x80 : Shape := ⟨3, ![32, 100, 80]⟩
abbrev S32x1000x2 : Shape := ⟨3, ![32, 1000, 2]⟩
abbrev S32x100x2 : Shape := ⟨3, ![32, 100, 2]⟩
abbrev S32x1x1 : Shape := ⟨3, ![32, 1, 1]⟩
abbrev S1x1000x2 : Shape := ⟨3, ![1, 1000, 2]⟩
abbrev S1x1000x80 : Shape := ⟨3, ![1, 1000, 80]⟩
abbrev S1x200x2 : Shape := ⟨3, ![1, 200, 2]⟩
abbrev S1x200x80 : Shape := ⟨3, ![1, 200, 80]⟩
abbrev S1x1x1 : Shape := ⟨3, ![1, 1, 1]⟩
abbrev S1000x2 : Shape := ⟨2, ![1000, 2]⟩
abbrev S1000x80 : Shape := ⟨2, ![1000, 80]⟩
abbrev S200x2 : Shape := ⟨2, ![200, 2]⟩
abbrev S200x80 : Shape := ⟨2, ![200, 80]⟩
abbrev S1000x1 : Shape := ⟨2, ![1000, 1]⟩
abbrev S200x1 : Shape := ⟨2, ![200, 1]⟩
abbrev S1x200 : Shape := ⟨2, ![1, 200]⟩
abbrev S1000x200 : Shape := ⟨2, ![1000, 200]⟩
abbrev S1x1000x200 : Shape := ⟨3, ![1, 1000, 200]⟩
abbrev S1 : Shape := ⟨1, ![1]⟩
abbrev S32 : Shape := ⟨1, ![32]⟩
abbrev S1x100x2 : Shape := ⟨3, ![1, 100, 2]⟩
abbrev S1x100x80 : Shape := ⟨3, ![1, 100, 80]⟩
abbrev S100x2 : Shape := ⟨2, ![100, 2]⟩
abbrev S100x80 : Shape := ⟨2, ![100, 80]⟩
abbrev S100x1 : Shape := ⟨2, ![100, 1]⟩
abbrev S100x200 : Shape := ⟨2, ![100, 200]⟩
abbrev S1x100x200 : Shape := ⟨3, ![1, 100, 200]⟩
abbrev S1x100 : Shape := ⟨2, ![1, 100]⟩
abbrev S100x100 : Shape := ⟨2, ![100, 100]⟩
abbrev S1x100x100 : Shape := ⟨3, ![1, 100, 100]⟩

abbrev nBuf : Space → Nat
  | .hbm => 67
  | .vmem => 45
  | .smem => 0
  | _ => 0

abbrev bufTy : (tb : Table) → Fin (tcTables nBuf tb) → BufTy
  | .hbm, ⟨0, _⟩ => ⟨S32x1000x4, .f32⟩
  | .hbm, ⟨1, _⟩ => ⟨S32x1000x81, .f32⟩
  | .hbm, ⟨2, _⟩ => ⟨S32x100x4, .f32⟩
  | .hbm, ⟨3, _⟩ => ⟨S32x100, .i32⟩
  | .hbm, ⟨4, _⟩ => ⟨S32x1000x1, .f32⟩
  | .hbm, ⟨5, _⟩ => ⟨S32x1000, .f32⟩
  | .hbm, ⟨6, _⟩ => ⟨S32x1000, .f32⟩
  | .hbm, ⟨7, _⟩ => ⟨S32x1000, .f32⟩
  | .hbm, ⟨8, _⟩ => ⟨S_, .f32⟩
  | .hbm, ⟨9, _⟩ => ⟨S32x1000, .f32⟩
  | .hbm, ⟨10, _⟩ => ⟨S32x1000, .f32⟩
  | .hbm, ⟨11, _⟩ => ⟨S_, .f32⟩
  | .hbm, ⟨12, _⟩ => ⟨S32x1000, .f32⟩
  | .hbm, ⟨13, _⟩ => ⟨S32x1000, .f32⟩
  | .hbm, ⟨14, _⟩ => ⟨S32x1000x1, .f32⟩
  | .hbm, ⟨15, _⟩ => ⟨S32x1000x80, .f32⟩
  | .hbm, ⟨16, _⟩ => ⟨S_, .f32⟩
  | .hbm, ⟨17, _⟩ => ⟨S32x1000, .f32⟩
  | .hbm, ⟨18, _⟩ => ⟨S_, .f32⟩
  | .hbm, ⟨19, _⟩ => ⟨S32x1000, .f32⟩
  | .hbm, ⟨20, _⟩ => ⟨S32x1000, .f32⟩
  | .hbm, ⟨21, _⟩ => ⟨S32x1000x1, .f32⟩
  | .hbm, ⟨22, _⟩ => ⟨S32x1000x80, .f32⟩
  | .hbm, ⟨23, _⟩ => ⟨S32x1000x80, .f32⟩
  | .hbm, ⟨24, _⟩ => ⟨S32x1000x80, .f32⟩
  | .hbm, ⟨25, _⟩ => ⟨S_, .f32⟩
  | .hbm, ⟨26, _⟩ => ⟨S32x1000, .f32⟩
  | .hbm, ⟨27, _⟩ => ⟨S32x1000x1, .f32⟩
  | .hbm, ⟨28, _⟩ => ⟨S32x1000x80, .f32⟩
  | .hbm, ⟨29, _⟩ => ⟨S32x1000x80, .f32⟩
  | .hbm, ⟨30, _⟩ => ⟨S32x1000x80, .f32⟩
  | .hbm, ⟨31, _⟩ => ⟨S32x1000x80, .f32⟩
  | .hbm, ⟨32, _⟩ => ⟨S32x100x1, .i32⟩
  | .hbm, ⟨33, _⟩ => ⟨S1x1x80, .i32⟩
  | .hbm, ⟨34, _⟩ => ⟨S32x100x80, .i32⟩
  | .hbm, ⟨35, _⟩ => ⟨S32x100x80, .i32⟩
  | .hbm, ⟨36, _⟩ => ⟨S32x100x80, .i1⟩
  | .hbm, ⟨37, _⟩ => ⟨S32x100x80, .f32⟩
  | .hbm, ⟨38, _⟩ => ⟨S32x1000x2, .f32⟩
  | .hbm, ⟨39, _⟩ => ⟨S32x1000x2, .f32⟩
  | .hbm, ⟨40, _⟩ => ⟨S_, .f32⟩
  | .hbm, ⟨41, _⟩ => ⟨S32x1000x2, .f32⟩
  | .hbm, ⟨42, _⟩ => ⟨S32x1000x2, .f32⟩
  | .hbm, ⟨43, _⟩ => ⟨S32x1000x2, .f32⟩
  | .hbm, ⟨44, _⟩ => ⟨S32x100x2, .f32⟩
  | .hbm, ⟨45, _⟩ => ⟨S32x100x2, .f32⟩
  | .hbm, ⟨46, _⟩ => ⟨S_, .f32⟩
  | .hbm, ⟨47, _⟩ => ⟨S32x100x2, .f32⟩
  | .hbm, ⟨48, _⟩ => ⟨S32x100x2, .f32⟩
  | .hbm, ⟨49, _⟩ => ⟨S32x100x2, .f32⟩
  | .hbm, ⟨50, _⟩ => ⟨S32x1x1, .f32⟩
  | .hbm, ⟨51, _⟩ => ⟨S32, .f32⟩
  | .hbm, ⟨52, _⟩ => ⟨S32x1x1, .f32⟩
  | .hbm, ⟨53, _⟩ => ⟨S32, .f32⟩
  | .hbm, ⟨54, _⟩ => ⟨S32x1x1, .f32⟩
  | .hbm, ⟨55, _⟩ => ⟨S32, .f32⟩
  | .hbm, ⟨56, _⟩ => ⟨S32, .f32⟩
  | .hbm, ⟨57, _⟩ => ⟨S_, .f32⟩
  | .hbm, ⟨58, _⟩ => ⟨S32, .f32⟩
  | .hbm, ⟨59, _⟩ => ⟨S32, .f32⟩
  | .hbm, ⟨60, _⟩ => ⟨S32, .f32⟩
  | .hbm, ⟨61, _⟩ => ⟨S32, .f32⟩
  | .hbm, ⟨62, _⟩ => ⟨S32, .f32⟩
  | .hbm, ⟨63, _⟩ => ⟨S32, .f32⟩
  | .hbm, ⟨64, _⟩ => ⟨S_, .f32⟩
  | .hbm, ⟨65, _⟩ => ⟨S_, .f32⟩
  | .hbm, ⟨66, _⟩ => ⟨S_, .f32⟩
  | .local _ .vmem, ⟨0, _⟩ => ⟨S1x1000x2, .f32⟩
  | .local _ .vmem, ⟨1, _⟩ => ⟨S1x1000x2, .f32⟩
  | .local _ .vmem, ⟨2, _⟩ => ⟨S1x1000x2, .f32⟩
  | .local _ .vmem, ⟨3, _⟩ => ⟨S1x1000x2, .f32⟩
  | .local _ .vmem, ⟨4, _⟩ => ⟨S1x1000x80, .f32⟩
  | .local _ .vmem, ⟨5, _⟩ => ⟨S1x1000x80, .f32⟩
  | .local _ .vmem, ⟨6, _⟩ => ⟨S1x200x2, .f32⟩
  | .local _ .vmem, ⟨7, _⟩ => ⟨S1x200x2, .f32⟩
  | .local _ .vmem, ⟨8, _⟩ => ⟨S1x200x2, .f32⟩
  | .local _ .vmem, ⟨9, _⟩ => ⟨S1x200x2, .f32⟩
  | .local _ .vmem, ⟨10, _⟩ => ⟨S1x200x80, .f32⟩
  | .local _ .vmem, ⟨11, _⟩ => ⟨S1x200x80, .f32⟩
  | .local _ .vmem, ⟨12, _⟩ => ⟨S1x1x1, .f32⟩
  | .local _ .vmem, ⟨13, _⟩ => ⟨S1x1x1, .f32⟩
  | .local _ .vmem, ⟨14, _⟩ => ⟨S1x1x1, .f32⟩
  | .local _ .vmem, ⟨15, _⟩ => ⟨S1x100x2, .f32⟩
  | .local _ .vmem, ⟨16, _⟩ => ⟨S1x100x2, .f32⟩
  | .local _ .vmem, ⟨17, _⟩ => ⟨S1x100x2, .f32⟩
  | .local _ .vmem, ⟨18, _⟩ => ⟨S1x100x2, .f32⟩
  | .local _ .vmem, ⟨19, _⟩ => ⟨S1x100x80, .f32⟩
  | .local _ .vmem, ⟨20, _⟩ => ⟨S1x100x80, .f32⟩
  | .local _ .vmem, ⟨21, _⟩ => ⟨S1x200x2, .f32⟩
  | .local _ .vmem, ⟨22, _⟩ => ⟨S1x200x2, .f32⟩
  | .local _ .vmem, ⟨23, _⟩ => ⟨S1x200x2, .f32⟩
  | .local _ .vmem, ⟨24, _⟩ => ⟨S1x200x2, .f32⟩
  | .local _ .vmem, ⟨25, _⟩ => ⟨S1x200x80, .f32⟩
  | .local _ .vmem, ⟨26, _⟩ => ⟨S1x200x80, .f32⟩
  | .local _ .vmem, ⟨27, _⟩ => ⟨S1x1x1, .f32⟩
  | .local _ .vmem, ⟨28, _⟩ => ⟨S1x1x1, .f32⟩
  | .local _ .vmem, ⟨29, _⟩ => ⟨S1x1x1, .f32⟩
  | .local _ .vmem, ⟨30, _⟩ => ⟨S1x100x2, .f32⟩
  | .local _ .vmem, ⟨31, _⟩ => ⟨S1x100x2, .f32⟩
  | .local _ .vmem, ⟨32, _⟩ => ⟨S1x100x2, .f32⟩
  | .local _ .vmem, ⟨33, _⟩ => ⟨S1x100x2, .f32⟩
  | .local _ .vmem, ⟨34, _⟩ => ⟨S1x100x80, .f32⟩
  | .local _ .vmem, ⟨35, _⟩ => ⟨S1x100x80, .f32⟩
  | .local _ .vmem, ⟨36, _⟩ => ⟨S1x100x2, .f32⟩
  | .local _ .vmem, ⟨37, _⟩ => ⟨S1x100x2, .f32⟩
  | .local _ .vmem, ⟨38, _⟩ => ⟨S1x100x2, .f32⟩
  | .local _ .vmem, ⟨39, _⟩ => ⟨S1x100x2, .f32⟩
  | .local _ .vmem, ⟨40, _⟩ => ⟨S1x100x80, .f32⟩
  | .local _ .vmem, ⟨41, _⟩ => ⟨S1x100x80, .f32⟩
  | .local _ .vmem, ⟨42, _⟩ => ⟨S1x1x1, .f32⟩
  | .local _ .vmem, ⟨43, _⟩ => ⟨S1x1x1, .f32⟩
  | .local _ .vmem, ⟨44, _⟩ => ⟨S1x1x1, .f32⟩
  | _, _ => ⟨S32x1000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_7 : Ref sig .tc := ⟨.hbm, 64, rfl⟩
abbrev main_v47 : Ref sig .tc := ⟨.hbm, 65, rfl⟩
abbrev main_v48 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc1_stg6_0 : Ref sig .tc := ⟨.vmem, 27, rfl⟩
abbrev cc1_stg6_1 : Ref sig .tc := ⟨.vmem, 28, rfl⟩
abbrev cc1_scratch0 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg2_1 : Ref sig .tc := ⟨.vmem, 35, rfl⟩
abbrev cc2_stg3_0 : Ref sig .tc := ⟨.vmem, 36, rfl⟩
abbrev cc2_stg3_1 : Ref sig .tc := ⟨.vmem, 37, rfl⟩
abbrev cc2_stg4_0 : Ref sig .tc := ⟨.vmem, 38, rfl⟩
abbrev cc2_stg4_1 : Ref sig .tc := ⟨.vmem, 39, rfl⟩
abbrev cc2_stg5_0 : Ref sig .tc := ⟨.vmem, 40, rfl⟩
abbrev cc2_stg5_1 : Ref sig .tc := ⟨.vmem, 41, rfl⟩
abbrev cc2_stg6_0 : Ref sig .tc := ⟨.vmem, 42, rfl⟩
abbrev cc2_stg6_1 : Ref sig .tc := ⟨.vmem, 43, rfl⟩
abbrev cc2_scratch0 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem3_1 : DmaSem sig := 35
abbrev cc2_sem4_0 : DmaSem sig := 36
abbrev cc2_sem4_1 : DmaSem sig := 37
abbrev cc2_sem5_0 : DmaSem sig := 38
abbrev cc2_sem5_1 : DmaSem sig := 39
abbrev cc2_sem6_0 : DmaSem sig := 40
abbrev cc2_sem6_1 : DmaSem sig := 41

abbrev nD : Nat := 1
abbrev τ : Topo := Topo.v7x

variable {F : FTy → Type} [FloatOps F]

abbrev grid0 : Pipeline.Grid := ⟨2, ![32, 5], ![false, false]⟩

def k0_cond2 (i : grid0.Coords) : BitVec 1 :=
  let arg1 : BitVec 32 := BitVec.ofNat 32 (i 1).val
  let c4_i32 : BitVec 32 := 4#32
  let v105 : BitVec 1 := Scalar.cmpi .eq arg1 c4_i32
  let v106 : BitVec 32 := Scalar.extui v105
  let c0_i32_31 : BitVec 32 := 0#32
  let v107 : BitVec 1 := Scalar.cmpi .ne v106 c0_i32_31
  v107

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1000x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1000x80 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x200x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x200x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x200x80 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![32, 5], ![false, false]⟩

def k1_cond2 (i : grid1.Coords) : BitVec 1 :=
  let arg1 : BitVec 32 := BitVec.ofNat 32 (i 1).val
  let c4_i32 : BitVec 32 := 4#32
  let v105 : BitVec 1 := Scalar.cmpi .eq arg1 c4_i32
  let v106 : BitVec 32 := Scalar.extui v105
  let c0_i32_31 : BitVec 32 := 0#32
  let v107 : BitVec 1 := Scalar.cmpi .ne v106 c0_i32_31
  v107

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x100x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x100x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x100x80 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x200x2 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x200x2 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x200x80 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x1x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev grid2 : Pipeline.Grid := ⟨2, ![32, 1], ![false, false]⟩

def k2_cond2 (i : grid2.Coords) : BitVec 1 :=
  let arg1 : BitVec 32 := BitVec.ofNat 32 (i 1).val
  let c0_i32_31 : BitVec 32 := 0#32
  let v105 : BitVec 1 := Scalar.cmpi .eq arg1 c0_i32_31
  let v106 : BitVec 32 := Scalar.extui v105
  let c0_i32_32 : BitVec 32 := 0#32
  let v107 : BitVec 1 := Scalar.cmpi .ne v106 c0_i32_32
  v107

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x100x2 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x100x2 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x100x80 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x100x2 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x100x2 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x100x80 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1x1x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

class Facts₀ : Prop where
  slices_S32x1000x81_S32x1000x1_0_0_80 : S32x1000x81.Slices ![0, 0, 80] S32x1000x1
  shapeCasts_S32x1000x1_S32x1000 : S32x1000x1.ShapeCasts S32x1000
  bcast_S_S32x1000 : S_.BroadcastsInDim S32x1000 (![] : Fin 0 → Fin S32x1000.rank)
  bcast_S32x1000_S32x1000x1_0_1 : S32x1000.BroadcastsInDim S32x1000x1 (![0, 1] : Fin 2 → Fin S32x1000x1.rank)
  slices_S32x1000x81_S32x1000x80_0_0_0 : S32x1000x81.Slices ![0, 0, 0] S32x1000x80
  reducesTo_S32x1000x80_S32x1000_d2 : S32x1000x80.ReducesTo [2] S32x1000
  h_S_ : 0 < S_.numel
  bcast_S32x1000x1_S32x1000x80_0_1_2 : S32x1000x1.BroadcastsInDim S32x1000x80 (![0, 1, 2] : Fin 3 → Fin S32x1000x80.rank)
  bcast_S32x100_S32x100x1_0_1 : S32x100.BroadcastsInDim S32x100x1 (![0, 1] : Fin 2 → Fin S32x100x1.rank)
  bcast_S32x100x1_S32x100x80_0_1_2 : S32x100x1.BroadcastsInDim S32x100x80 (![0, 1, 2] : Fin 3 → Fin S32x100x80.rank)
  bcast_S1x1x80_S32x100x80_0_1_2 : S1x1x80.BroadcastsInDim S32x100x80 (![0, 1, 2] : Fin 3 → Fin S32x100x80.rank)
  slices_S32x1000x4_S32x1000x2_0_0_0 : S32x1000x4.Slices ![0, 0, 0] S32x1000x2
  slices_S32x1000x4_S32x1000x2_0_0_2 : S32x1000x4.Slices ![0, 0, 2] S32x1000x2
  bcast_S_S32x1000x2 : S_.BroadcastsInDim S32x1000x2 (![] : Fin 0 → Fin S32x1000x2.rank)
  slices_S32x100x4_S32x100x2_0_0_0 : S32x100x4.Slices ![0, 0, 0] S32x100x2
  slices_S32x100x4_S32x100x2_0_0_2 : S32x100x4.Slices ![0, 0, 2] S32x100x2
  bcast_S_S32x100x2 : S_.BroadcastsInDim S32x100x2 (![] : Fin 0 → Fin S32x100x2.rank)
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  inb_S1x1000x2_S1x1000x2_0_0_0 : ∀ a, (![0, 0, 0] : Fin 3 → Nat) a + S1x1000x2.size a ≤ S1x1000x2.size a
  h_S1x1000x2 : 0 < S1x1000x2.numel
  shapeCasts_S1x1000x2_S1000x2 : S1x1000x2.ShapeCasts S1000x2
  inb_S1x1000x80_S1x1000x80_0_0_0 : ∀ a, (![0, 0, 0] : Fin 3 → Nat) a + S1x1000x80.size a ≤ S1x1000x80.size a
  h_S1x1000x80 : 0 < S1x1000x80.numel
  shapeCasts_S1x1000x80_S1000x80 : S1x1000x80.ShapeCasts S1000x80
  inb_S1x200x2_S1x200x2_0_0_0 : ∀ a, (![0, 0, 0] : Fin 3 → Nat) a + S1x200x2.size a ≤ S1x200x2.size a
  h_S1x200x2 : 0 < S1x200x2.numel
  shapeCasts_S1x200x2_S200x2 : S1x200x2.ShapeCasts S200x2
  inb_S1x200x80_S1x200x80_0_0_0 : ∀ a, (![0, 0, 0] : Fin 3 → Nat) a + S1x200x80.size a ≤ S1x200x80.size a
  h_S1x200x80 : 0 < S1x200x80.numel
  shapeCasts_S1x200x80_S200x80 : S1x200x80.ShapeCasts S200x80
  slices_S1000x2_o0_0_S1000x1 : S1000x2.Slices ![0, 0] S1000x1
  slices_S1000x2_o0_1_S1000x1 : S1000x2.Slices ![0, 1] S1000x1
  slices_S200x2_o0_0_S200x1 : S200x2.Slices ![0, 0] S200x1
  slices_S200x2_o0_1_S200x1 : S200x2.Slices ![0, 1] S200x1
  transposes_S200x1_p1_0_S1x200 : S200x1.Transposes [1, 0] S1x200
  broadcasts_S1000x1_S1000x200 : S1000x1.Broadcasts S1000x200
  broadcasts_S1x200_S1000x200 : S1x200.Broadcasts S1000x200
  shapeCasts_S1000x200_S1x1000x200 : S1000x200.ShapeCasts S1x1000x200
  reduces_S1x1000x200_S1 : S1x1000x200.Reduces [1, 2] S1
  shapeCasts_S1_S1x1x1 : S1.ShapeCasts S1x1x1
  inpos_S1x1x1_p0_0_0 : ∀ a, (![0, 0, 0] : Fin 3 → Nat) a < S1x1x1.size a
  shapeCasts_S32x1x1_S32 : S32x1x1.ShapeCasts S32
  inb_S1x100x2_S1x100x2_0_0_0 : ∀ a, (![0, 0, 0] : Fin 3 → Nat) a + S1x100x2.size a ≤ S1x100x2.size a
  h_S1x100x2 : 0 < S1x100x2.numel
  shapeCasts_S1x100x2_S100x2 : S1x100x2.ShapeCasts S100x2
  inb_S1x100x80_S1x100x80_0_0_0 : ∀ a, (![0, 0, 0] : Fin 3 → Nat) a + S1x100x80.size a ≤ S1x100x80.size a
  h_S1x100x80 : 0 < S1x100x80.numel
  shapeCasts_S1x100x80_S100x80 : S1x100x80.ShapeCasts S100x80
  slices_S100x2_o0_0_S100x1 : S100x2.Slices ![0, 0] S100x1
  slices_S100x2_o0_1_S100x1 : S100x2.Slices ![0, 1] S100x1
  broadcasts_S100x1_S100x200 : S100x1.Broadcasts S100x200
  broadcasts_S1x200_S100x200 : S1x200.Broadcasts S100x200
  shapeCasts_S100x200_S1x100x200 : S100x200.ShapeCasts S1x100x200
  reduces_S1x100x200_S1 : S1x100x200.Reduces [1, 2] S1
  transposes_S100x1_p1_0_S1x100 : S100x1.Transposes [1, 0] S1x100
  broadcasts_S100x1_S100x100 : S100x1.Broadcasts S100x100
  broadcasts_S1x100_S100x100 : S1x100.Broadcasts S100x100
  shapeCasts_S100x100_S1x100x100 : S100x100.ShapeCasts S1x100x100
  reduces_S1x100x100_S1 : S1x100x100.Reduces [1, 2] S1
  bcast_S_S32 : S_.BroadcastsInDim S32 (![] : Fin 0 → Fin S32.rank)
  reducesTo_S32_S_d0 : S32.ReducesTo [0] S_
  dot_S1000x80_S200x80_S1000x200_1_1_0_0_n_n_wf : DotDims.WF S1000x80 S200x80 S1000x200 [1] [1] [0] [0] [] []
  dot_S100x80_S200x80_S100x200_1_1_0_0_n_n_wf : DotDims.WF S100x80 S200x80 S100x200 [1] [1] [0] [0] [] []
  dot_S100x80_S100x80_S100x100_1_1_0_0_n_n_wf : DotDims.WF S100x80 S100x80 S100x100 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1000x2.size a ≤ S32x1000x2.size a
  hwx0_0 : ∀ i : grid0.Coords, EltTy.bits .f32 = 32 ∨ (Rect.block (s := S32x1000x2) S1x1000x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1000x2.size a ≤ S32x1000x2.size a
  hwx0_1 : ∀ i : grid0.Coords, EltTy.bits .f32 = 32 ∨ (Rect.block (s := S32x1000x2) S1x1000x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1000x80.size a ≤ S32x1000x80.size a
  hwx0_2 : ∀ i : grid0.Coords, EltTy.bits .f32 = 32 ∨ (Rect.block (s := S32x1000x80) S1x1000x80.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x200x2.size a ≤ S32x1000x2.size a
  hwx0_3 : ∀ i : grid0.Coords, EltTy.bits .f32 = 32 ∨ (Rect.block (s := S32x1000x2) S1x200x2.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x200x2.size a ≤ S32x1000x2.size a
  hwx0_4 : ∀ i : grid0.Coords, EltTy.bits .f32 = 32 ∨ (Rect.block (s := S32x1000x2) S1x200x2.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x200x80.size a ≤ S32x1000x80.size a
  hwx0_5 : ∀ i : grid0.Coords, EltTy.bits .f32 = 32 ∨ (Rect.block (s := S32x1000x80) S1x200x80.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1.size a ≤ S32x1x1.size a
  hwx0_6 : ∀ i : grid0.Coords, EltTy.bits .f32 = 32 ∨ (Rect.block (s := S32x1x1) S1x1x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x100x2.size a ≤ S32x100x2.size a
  hwx1_0 : ∀ i : grid1.Coords, EltTy.bits .f32 = 32 ∨ (Rect.block (s := S32x100x2) S1x100x2.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x100x2.size a ≤ S32x100x2.size a
  hwx1_1 : ∀ i : grid1.Coords, EltTy.bits .f32 = 32 ∨ (Rect.block (s := S32x100x2) S1x100x2.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x100x80.size a ≤ S32x100x80.size a
  hwx1_2 : ∀ i : grid1.Coords, EltTy.bits .f32 = 32 ∨ (Rect.block (s := S32x100x80) S1x100x80.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x200x2.size a ≤ S32x1000x2.size a
  hwx1_3 : ∀ i : grid1.Coords, EltTy.bits .f32 = 32 ∨ (Rect.block (s := S32x1000x2) S1x200x2.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x200x2.size a ≤ S32x1000x2.size a
  hwx1_4 : ∀ i : grid1.Coords, EltTy.bits .f32 = 32 ∨ (Rect.block (s := S32x1000x2) S1x200x2.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x200x80.size a ≤ S32x1000x80.size a
  hwx1_5 : ∀ i : grid1.Coords, EltTy.bits .f32 = 32 ∨ (Rect.block (s := S32x1000x80) S1x200x80.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1x1.size a ≤ S32x1x1.size a
  hwx1_6 : ∀ i : grid1.Coords, EltTy.bits .f32 = 32 ∨ (Rect.block (s := S32x1x1) S1x1x1.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x100x2.size a ≤ S32x100x2.size a
  hwx2_0 : ∀ i : grid2.Coords, EltTy.bits .f32 = 32 ∨ (Rect.block (s := S32x100x2) S1x100x2.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x100x2.size a ≤ S32x100x2.size a
  hwx2_1 : ∀ i : grid2.Coords, EltTy.bits .f32 = 32 ∨ (Rect.block (s := S32x100x2) S1x100x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x100x80.size a ≤ S32x100x80.size a
  hwx2_2 : ∀ i : grid2.Coords, EltTy.bits .f32 = 32 ∨ (Rect.block (s := S32x100x80) S1x100x80.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x100x2.size a ≤ S32x100x2.size a
  hwx2_3 : ∀ i : grid2.Coords, EltTy.bits .f32 = 32 ∨ (Rect.block (s := S32x100x2) S1x100x2.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x100x2.size a ≤ S32x100x2.size a
  hwx2_4 : ∀ i : grid2.Coords, EltTy.bits .f32 = 32 ∨ (Rect.block (s := S32x100x2) S1x100x2.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x100x80.size a ≤ S32x100x80.size a
  hwx2_5 : ∀ i : grid2.Coords, EltTy.bits .f32 = 32 ∨ (Rect.block (s := S32x100x80) S1x100x80.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x1x1.size a ≤ S32x1x1.size a
  hwx2_6 : ∀ i : grid2.Coords, EltTy.bits .f32 = 32 ∨ (Rect.block (s := S32x1x1) S1x1x1.size (cc2_transform_6 i) (hinb2_6 i)).WholeWords (EltTy.packing .f32)

variable [Facts₀]

def dot_S1000x80_S200x80_S1000x200_1_1_0_0_n_n : DotDims S1000x80 S200x80 S1000x200 where
  lhsContracting := [1]
  rhsContracting := [1]
  lhsNonContracting := [0]
  rhsNonContracting := [0]
  lhsBatch := []
  rhsBatch := []
  wf := dot_S1000x80_S200x80_S1000x200_1_1_0_0_n_n_wf
def dot_S100x80_S200x80_S100x200_1_1_0_0_n_n : DotDims S100x80 S200x80 S100x200 where
  lhsContracting := [1]
  rhsContracting := [1]
  lhsNonContracting := [0]
  rhsNonContracting := [0]
  lhsBatch := []
  rhsBatch := []
  wf := dot_S100x80_S200x80_S100x200_1_1_0_0_n_n_wf
def dot_S100x80_S100x80_S100x100_1_1_0_0_n_n : DotDims S100x80 S100x80 S100x100 where
  lhsContracting := [1]
  rhsContracting := [1]
  lhsNonContracting := [0]
  rhsNonContracting := [0]
  lhsBatch := []
  rhsBatch := []
  wf := dot_S100x80_S100x80_S100x100_1_1_0_0_n_n_wf

abbrev win0_0 : Pipeline.Window sig grid0 :=
  Pipeline.Window.ofSpec (Memref.whole main_v24) S1x1000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S1x1000x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x1000x80.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x200x2.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x200x2.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1x200x80.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v34) S1x1x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v29) S1x100x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S1x100x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1x100x80.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x200x2.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x200x2.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v22) S1x200x80.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v36) S1x1x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v29) S1x100x2.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S1x100x2.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v23) S1x100x80.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v29) S1x100x2.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v33) S1x100x2.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v23) S1x100x80.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v38) S1x1x1.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

class Facts : Prop extends Facts₀ where

variable [Facts]
-- ==== ReferenceIdeal.lean ====
abbrev S32x1000x4 : Shape := ⟨3, ![32, 1000, 4]⟩
abbrev S32x1000x81 : Shape := ⟨3, ![32, 1000, 81]⟩
abbrev S32x100x4 : Shape := ⟨3, ![32, 100, 4]⟩
abbrev S32x100 : Shape := ⟨2, ![32, 100]⟩
abbrev S32x1000x1 : Shape := ⟨3, ![32, 1000, 1]⟩
abbrev S32x1000 : Shape := ⟨2, ![32, 1000]⟩
abbrev S_ : Shape := ⟨0, ![]⟩
abbrev S32x1000x80 : Shape := ⟨3, ![32, 1000, 80]⟩
abbrev S32x100x1 : Shape := ⟨3, ![32, 100, 1]⟩
abbrev S1x1x80 : Shape := ⟨3, ![1, 1, 80]⟩
abbrev S32x100x80 : Shape := ⟨3, ![32, 100, 80]⟩
abbrev S32x1000x2 : Shape := ⟨3, ![32, 1000, 2]⟩
abbrev S32x100x2 : Shape := ⟨3, ![32, 100, 2]⟩
abbrev S32x80x1000 : Shape := ⟨3, ![32, 80, 1000]⟩
abbrev S32x100x1000 : Shape := ⟨3, ![32, 100, 1000]⟩
abbrev S32x100x1x2 : Shape := ⟨4, ![32, 100, 1, 2]⟩
abbrev S32x1x1000x2 : Shape := ⟨4, ![32, 1, 1000, 2]⟩
abbrev S32x100x1000x2 : Shape := ⟨4, ![32, 100, 1000, 2]⟩
abbrev S32x1x1000 : Shape := ⟨3, ![32, 1, 1000]⟩
abbrev S32 : Shape := ⟨1, ![32]⟩
abbrev S32x80x100 : Shape := ⟨3, ![32, 80, 100]⟩
abbrev S32x100x100 : Shape := ⟨3, ![32, 100, 100]⟩
abbrev S32x1x100x2 : Shape := ⟨4, ![32, 1, 100, 2]⟩
abbrev S32x100x100x2 : Shape := ⟨4, ![32, 100, 100, 2]⟩
abbrev S32x1x100 : Shape := ⟨3, ![32, 1, 100]⟩
abbrev S32x1000x1000 : Shape := ⟨3, ![32, 1000, 1000]⟩
abbrev S32x1000x1x2 : Shape := ⟨4, ![32, 1000, 1, 2]⟩
abbrev S32x1000x1000x2 : Shape := ⟨4, ![32, 1000, 1000, 2]⟩

abbrev nBuf : Space → Nat
  | .hbm => 256
  | .vmem => 0
  | .smem => 0
  | _ => 0

abbrev hbmTy0_0 (i : Nat) : BufTy := match i % 128 with
  | 0 => ⟨S32x1000x4, .f32⟩
  | 1 => ⟨S32x1000x81, .f32⟩
  | 2 => ⟨S32x100x4, .f32⟩
  | 3 => ⟨S32x100, .i32⟩
  | 4 => ⟨S32x1000x1, .f32⟩
  | 5 => ⟨S32x1000, .f32⟩
  | 6 => ⟨S32x1000, .f32⟩
  | 7 => ⟨S32x1000, .f32⟩
  | 8 => ⟨S_, .f32⟩
  | 9 => ⟨S32x1000, .f32⟩
  | 10 => ⟨S32x1000, .f32⟩
  | 11 => ⟨S_, .f32⟩
  | 12 => ⟨S32x1000, .f32⟩
  | 13 => ⟨S32x1000, .f32⟩
  | 14 => ⟨S32x1000x1, .f32⟩
  | 15 => ⟨S32x1000x80, .f32⟩
  | 16 => ⟨S_, .f32⟩
  | 17 => ⟨S32x1000, .f32⟩
  | 18 => ⟨S_, .f32⟩
  | 19 => ⟨S32x1000, .f32⟩
  | 20 => ⟨S32x1000, .f32⟩
  | 21 => ⟨S32x1000x1, .f32⟩
  | 22 => ⟨S32x1000x80, .f32⟩
  | 23 => ⟨S32x1000x80, .f32⟩
  | 24 => ⟨S32x1000x80, .f32⟩
  | 25 => ⟨S_, .f32⟩
  | 26 => ⟨S32x1000, .f32⟩
  | 27 => ⟨S32x1000x1, .f32⟩
  | 28 => ⟨S32x1000x80, .f32⟩
  | 29 => ⟨S32x1000x80, .f32⟩
  | 30 => ⟨S32x1000x80, .f32⟩
  | 31 => ⟨S32x1000x80, .f32⟩
  | 32 => ⟨S32x100x1, .i32⟩
  | 33 => ⟨S1x1x80, .i32⟩
  | 34 => ⟨S32x100x80, .i32⟩
  | 35 => ⟨S32x100x80, .i32⟩
  | 36 => ⟨S32x100x80, .i1⟩
  | 37 => ⟨S32x100x80, .f32⟩
  | 38 => ⟨S32x1000x2, .f32⟩
  | 39 => ⟨S32x1000x2, .f32⟩
  | 40 => ⟨S_, .f32⟩
  | 41 => ⟨S32x1000x2, .f32⟩
  | 42 => ⟨S32x1000x2, .f32⟩
  | 43 => ⟨S32x1000x2, .f32⟩
  | 44 => ⟨S32x100x2, .f32⟩
  | 45 => ⟨S32x100x2, .f32⟩
  | 46 => ⟨S_, .f32⟩
  | 47 => ⟨S32x100x2, .f32⟩
  | 48 => ⟨S32x100x2, .f32⟩
  | 49 => ⟨S32x100x2, .f32⟩
  | 50 => ⟨S32x80x1000, .f32⟩
  | 51 => ⟨S32x100x1000, .f32⟩
  | 52 => ⟨S32x100x1x2, .f32⟩
  | 53 => ⟨S_, .f32⟩
  | 54 => ⟨S32x100x1x2, .f32⟩
  | 55 => ⟨S32x100x1x2, .f32⟩
  | 56 => ⟨S32x1x1000x2, .f32⟩
  | 57 => ⟨S_, .f32⟩
  | 58 => ⟨S32x1x1000x2, .f32⟩
  | 59 => ⟨S32x1x1000x2, .f32⟩
  | 60 => ⟨S32x100x1000x2, .f32⟩
  | 61 => ⟨S32x100x1000x2, .f32⟩
  | 62 => ⟨S32x100x1000x2, .f32⟩
  | 63 => ⟨S32x100x1x2, .f32⟩
  | 64 => ⟨S32x100x1x2, .f32⟩
  | 65 => ⟨S32x1x1000x2, .f32⟩
  | 66 => ⟨S32x1x1000x2, .f32⟩
  | 67 => ⟨S32x100x1000x2, .f32⟩
  | 68 => ⟨S32x100x1000x2, .f32⟩
  | 69 => ⟨S32x100x1000x2, .f32⟩
  | 70 => ⟨S32x100x1000x2, .f32⟩
  | 71 => ⟨S32x100x1000x2, .f32⟩
  | 72 => ⟨S32x100x1000x2, .f32⟩
  | 73 => ⟨S_, .f32⟩
  | 74 => ⟨S32x100x1000, .f32⟩
  | 75 => ⟨S32x100x2, .f32⟩
  | 76 => ⟨S32x100x2, .f32⟩
  | 77 => ⟨S_, .f32⟩
  | 78 => ⟨S32x100, .f32⟩
  | 79 => ⟨S32x100x1, .f32⟩
  | 80 => ⟨S32x100x1000, .f32⟩
  | 81 => ⟨S32x100x1000, .f32⟩
  | 82 => ⟨S32x1000x2, .f32⟩
  | 83 => ⟨S32x1000x2, .f32⟩
  | 84 => ⟨S_, .f32⟩
  | 85 => ⟨S32x1000, .f32⟩
  | 86 => ⟨S32x1x1000, .f32⟩
  | 87 => ⟨S32x100x1000, .f32⟩
  | 88 => ⟨S32x100x1000, .f32⟩
  | 89 => ⟨S32x100x1000x2, .f32⟩
  | 90 => ⟨S_, .f32⟩
  | 91 => ⟨S32x100x1000, .f32⟩
  | 92 => ⟨S32x100x2, .f32⟩
  | 93 => ⟨S_, .f32⟩
  | 94 => ⟨S32x100, .f32⟩
  | 95 => ⟨S32x100x1, .f32⟩
  | 96 => ⟨S32x100x1000, .f32⟩
  | 97 => ⟨S32x100x1000, .f32⟩
  | 98 => ⟨S32x1000x2, .f32⟩
  | 99 => ⟨S_, .f32⟩
  | 100 => ⟨S32x1000, .f32⟩
  | 101 => ⟨S32x1x1000, .f32⟩
  | 102 => ⟨S32x100x1000, .f32⟩
  | 103 => ⟨S32x100x1000, .f32⟩
  | 104 => ⟨S32x100x1000, .f32⟩
  | 105 => ⟨S_, .f32⟩
  | 106 => ⟨S32x100x1000, .f32⟩
  | 107 => ⟨S32x100x1000, .f32⟩
  | 108 => ⟨S_, .f32⟩
  | 109 => ⟨S32x100x1000, .f32⟩
  | 110 => ⟨S32x100x1000, .f32⟩
  | 111 => ⟨S32x100x1000, .f32⟩
  | 112 => ⟨S32x100x1000, .f32⟩
  | 113 => ⟨S_, .f32⟩
  | 114 => ⟨S32, .f32⟩
  | 115 => ⟨S32x80x100, .f32⟩
  | 116 => ⟨S32x100x100, .f32⟩
  | 117 => ⟨S32x100x1x2, .f32⟩
  | 118 => ⟨S_, .f32⟩
  | 119 => ⟨S32x100x1x2, .f32⟩
  | 120 => ⟨S32x100x1x2, .f32⟩
  | 121 => ⟨S32x1x100x2, .f32⟩
  | 122 => ⟨S_, .f32⟩
  | 123 => ⟨S32x1x100x2, .f32⟩
  | 124 => ⟨S32x1x100x2, .f32⟩
  | 125 => ⟨S32x100x100x2, .f32⟩
  | 126 => ⟨S32x100x100x2, .f32⟩
  | 127 => ⟨S32x100x100x2, .f32⟩
  | _ => ⟨S32x1000x4, .f32⟩

abbrev hbmTy0_1 (i : Nat) : BufTy := match i % 128 with
  | 0 => ⟨S32x100x1x2, .f32⟩
  | 1 => ⟨S32x100x1x2, .f32⟩
  | 2 => ⟨S32x1x100x2, .f32⟩
  | 3 => ⟨S32x1x100x2, .f32⟩
  | 4 => ⟨S32x100x100x2, .f32⟩
  | 5 => ⟨S32x100x100x2, .f32⟩
  | 6 => ⟨S32x100x100x2, .f32⟩
  | 7 => ⟨S32x100x100x2, .f32⟩
  | 8 => ⟨S32x100x100x2, .f32⟩
  | 9 => ⟨S32x100x100x2, .f32⟩
  | 10 => ⟨S_, .f32⟩
  | 11 => ⟨S32x100x100, .f32⟩
  | 12 => ⟨S32x100x2, .f32⟩
  | 13 => ⟨S32x100x2, .f32⟩
  | 14 => ⟨S_, .f32⟩
  | 15 => ⟨S32x100, .f32⟩
  | 16 => ⟨S32x100x1, .f32⟩
  | 17 => ⟨S32x100x100, .f32⟩
  | 18 => ⟨S32x100x100, .f32⟩
  | 19 => ⟨S32x100x2, .f32⟩
  | 20 => ⟨S32x100x2, .f32⟩
  | 21 => ⟨S_, .f32⟩
  | 22 => ⟨S32x100, .f32⟩
  | 23 => ⟨S32x1x100, .f32⟩
  | 24 => ⟨S32x100x100, .f32⟩
  | 25 => ⟨S32x100x100, .f32⟩
  | 26 => ⟨S32x100x100x2, .f32⟩
  | 27 => ⟨S_, .f32⟩
  | 28 => ⟨S32x100x100, .f32⟩
  | 29 => ⟨S32x100x2, .f32⟩
  | 30 => ⟨S_, .f32⟩
  | 31 => ⟨S32x100, .f32⟩
  | 32 => ⟨S32x100x1, .f32⟩
  | 33 => ⟨S32x100x100, .f32⟩
  | 34 => ⟨S32x100x100, .f32⟩
  | 35 => ⟨S32x100x2, .f32⟩
  | 36 => ⟨S_, .f32⟩
  | 37 => ⟨S32x100, .f32⟩
  | 38 => ⟨S32x1x100, .f32⟩
  | 39 => ⟨S32x100x100, .f32⟩
  | 40 => ⟨S32x100x100, .f32⟩
  | 41 => ⟨S32x100x100, .f32⟩
  | 42 => ⟨S_, .f32⟩
  | 43 => ⟨S32x100x100, .f32⟩
  | 44 => ⟨S32x100x100, .f32⟩
  | 45 => ⟨S_, .f32⟩
  | 46 => ⟨S32x100x100, .f32⟩
  | 47 => ⟨S32x100x100, .f32⟩
  | 48 => ⟨S32x100x100, .f32⟩
  | 49 => ⟨S32x100x100, .f32⟩
  | 50 => ⟨S_, .f32⟩
  | 51 => ⟨S32, .f32⟩
  | 52 => ⟨S32x80x1000, .f32⟩
  | 53 => ⟨S32x1000x1000, .f32⟩
  | 54 => ⟨S32x1000x1x2, .f32⟩
  | 55 => ⟨S_, .f32⟩
  | 56 => ⟨S32x1000x1x2, .f32⟩
  | 57 => ⟨S32x1000x1x2, .f32⟩
  | 58 => ⟨S32x1x1000x2, .f32⟩
  | 59 => ⟨S_, .f32⟩
  | 60 => ⟨S32x1x1000x2, .f32⟩
  | 61 => ⟨S32x1x1000x2, .f32⟩
  | 62 => ⟨S32x1000x1000x2, .f32⟩
  | 63 => ⟨S32x1000x1000x2, .f32⟩
  | 64 => ⟨S32x1000x1000x2, .f32⟩
  | 65 => ⟨S32x1000x1x2, .f32⟩
  | 66 => ⟨S32x1000x1x2, .f32⟩
  | 67 => ⟨S32x1x1000x2, .f32⟩
  | 68 => ⟨S32x1x1000x2, .f32⟩
  | 69 => ⟨S32x1000x1000x2, .f32⟩
  | 70 => ⟨S32x1000x1000x2, .f32⟩
  | 71 => ⟨S32x1000x1000x2, .f32⟩
  | 72 => ⟨S32x1000x1000x2, .f32⟩
  | 73 => ⟨S32x1000x1000x2, .f32⟩
  | 74 => ⟨S32x1000x1000x2, .f32⟩
  | 75 => ⟨S_, .f32⟩
  | 76 => ⟨S32x1000x1000, .f32⟩
  | 77 => ⟨S32x1000x2, .f32⟩
  | 78 => ⟨S32x1000x2, .f32⟩
  | 79 => ⟨S_, .f32⟩
  | 80 => ⟨S32x1000, .f32⟩
  | 81 => ⟨S32x1000x1, .f32⟩
  | 82 => ⟨S32x1000x1000, .f32⟩
  | 83 => ⟨S32x1000x1000, .f32⟩
  | 84 => ⟨S32x1000x2, .f32⟩
  | 85 => ⟨S32x1000x2, .f32⟩
  | 86 => ⟨S_, .f32⟩
  | 87 => ⟨S32x1000, .f32⟩
  | 88 => ⟨S32x1x1000, .f32⟩
  | 89 => ⟨S32x1000x1000, .f32⟩
  | 90 => ⟨S32x1000x1000, .f32⟩
  | 91 => ⟨S32x1000x1000x2, .f32⟩
  | 92 => ⟨S_, .f32⟩
  | 93 => ⟨S32x1000x1000, .f32⟩
  | 94 => ⟨S32x1000x2, .f32⟩
  | 95 => ⟨S_, .f32⟩
  | 96 => ⟨S32x1000, .f32⟩
  | 97 => ⟨S32x1000x1, .f32⟩
  | 98 => ⟨S32x1000x1000, .f32⟩
  | 99 => ⟨S32x1000x1000, .f32⟩
  | 100 => ⟨S32x1000x2, .f32⟩
  | 101 => ⟨S_, .f32⟩
  | 102 => ⟨S32x1000, .f32⟩
  | 103 => ⟨S32x1x1000, .f32⟩
  | 104 => ⟨S32x1000x1000, .f32⟩
  | 105 => ⟨S32x1000x1000, .f32⟩
  | 106 => ⟨S32x1000x1000, .f32⟩
  | 107 => ⟨S_, .f32⟩
  | 108 => ⟨S32x1000x1000, .f32⟩
  | 109 => ⟨S32x1000x1000, .f32⟩
  | 110 => ⟨S_, .f32⟩
  | 111 => ⟨S32x1000x1000, .f32⟩
  | 112 => ⟨S32x1000x1000, .f32⟩
  | 113 => ⟨S32x1000x1000, .f32⟩
  | 114 => ⟨S32x1000x1000, .f32⟩
  | 115 => ⟨S_, .f32⟩
  | 116 => ⟨S32, .f32⟩
  | 117 => ⟨S32, .f32⟩
  | 118 => ⟨S_, .f32⟩
  | 119 => ⟨S32, .f32⟩
  | 120 => ⟨S32, .f32⟩
  | 121 => ⟨S32, .f32⟩
  | 122 => ⟨S32, .f32⟩
  | 123 => ⟨S32, .f32⟩
  | 124 => ⟨S32, .f32⟩
  | 125 => ⟨S_, .f32⟩
  | 126 => ⟨S_, .f32⟩
  | 127 => ⟨S_, .f32⟩
  | _ => ⟨S32x1000x4, .f32⟩

abbrev hbmTy (i : Nat) : BufTy := match i / 128 with
  | 0 => hbmTy0_0 i
  | 1 => hbmTy0_1 i
  | _ => ⟨S32x1000x4, .f32⟩

abbrev bufTy : (tb : Table) → Fin (tcTables nBuf tb) → BufTy
  | .hbm, ⟨i, _⟩ => hbmTy i
  | _, _ => ⟨S32x1000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_8 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_9 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_10 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_11 : Ref sig .tc := ⟨.hbm, 90, rfl⟩
abbrev main_v69 : Ref sig .tc := ⟨.hbm, 91, rfl⟩
abbrev main_v70 : Ref sig .tc := ⟨.hbm, 92, rfl⟩
abbrev main_cst_12 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_13 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_14 : Ref sig .tc := ⟨.hbm, 105, rfl⟩
abbrev main_v81 : Ref sig .tc := ⟨.hbm, 106, rfl⟩
abbrev main_v82 : Ref sig .tc := ⟨.hbm, 107, rfl⟩
abbrev main_cst_15 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_16 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_cst_17 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_cst_18 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_cst_19 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_cst_20 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_cst_21 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_cst_22 : Ref sig .tc := ⟨.hbm, 155, rfl⟩
abbrev main_v123 : Ref sig .tc := ⟨.hbm, 156, rfl⟩
abbrev main_v124 : Ref sig .tc := ⟨.hbm, 157, rfl⟩
abbrev main_cst_23 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_cst_24 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_cst_25 : Ref sig .tc := ⟨.hbm, 170, rfl⟩
abbrev main_v135 : Ref sig .tc := ⟨.hbm, 171, rfl⟩
abbrev main_v136 : Ref sig .tc := ⟨.hbm, 172, rfl⟩
abbrev main_cst_26 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_cst_27 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_cst_28 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_cst_29 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_cst_30 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_cst_31 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_cst_32 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_cst_33 : Ref sig .tc := ⟨.hbm, 220, rfl⟩
abbrev main_v177 : Ref sig .tc := ⟨.hbm, 221, rfl⟩
abbrev main_v178 : Ref sig .tc := ⟨.hbm, 222, rfl⟩
abbrev main_cst_34 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_cst_35 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_cst_36 : Ref sig .tc := ⟨.hbm, 235, rfl⟩
abbrev main_v189 : Ref sig .tc := ⟨.hbm, 236, rfl⟩
abbrev main_v190 : Ref sig .tc := ⟨.hbm, 237, rfl⟩
abbrev main_cst_37 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_cst_38 : Ref sig .tc := ⟨.hbm, 243, rfl⟩
abbrev main_v195 : Ref sig .tc := ⟨.hbm, 244, rfl⟩
abbrev main_v196 : Ref sig .tc := ⟨.hbm, 245, rfl⟩
abbrev main_cst_39 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_cst_40 : Ref sig .tc := ⟨.hbm, 253, rfl⟩
abbrev main_v203 : Ref sig .tc := ⟨.hbm, 254, rfl⟩
abbrev main_v204 : Ref sig .tc := ⟨.hbm, 255, rfl⟩

abbrev nD : Nat := 1
abbrev τ : Topo := Topo.v7x

variable {F : FTy → Type} [FloatOps F]

class Facts₀ : Prop where
  slices_S32x1000x81_S32x1000x1_0_0_80 : S32x1000x81.Slices ![0, 0, 80] S32x1000x1
  shapeCasts_S32x1000x1_S32x1000 : S32x1000x1.ShapeCasts S32x1000
  bcast_S_S32x1000 : S_.BroadcastsInDim S32x1000 (![] : Fin 0 → Fin S32x1000.rank)
  bcast_S32x1000_S32x1000x1_0_1 : S32x1000.BroadcastsInDim S32x1000x1 (![0, 1] : Fin 2 → Fin S32x1000x1.rank)
  slices_S32x1000x81_S32x1000x80_0_0_0 : S32x1000x81.Slices ![0, 0, 0] S32x1000x80
  reducesTo_S32x1000x80_S32x1000_d2 : S32x1000x80.ReducesTo [2] S32x1000
  h_S_ : 0 < S_.numel
  bcast_S32x1000x1_S32x1000x80_0_1_2 : S32x1000x1.BroadcastsInDim S32x1000x80 (![0, 1, 2] : Fin 3 → Fin S32x1000x80.rank)
  bcast_S32x100_S32x100x1_0_1 : S32x100.BroadcastsInDim S32x100x1 (![0, 1] : Fin 2 → Fin S32x100x1.rank)
  bcast_S32x100x1_S32x100x80_0_1_2 : S32x100x1.BroadcastsInDim S32x100x80 (![0, 1, 2] : Fin 3 → Fin S32x100x80.rank)
  bcast_S1x1x80_S32x100x80_0_1_2 : S1x1x80.BroadcastsInDim S32x100x80 (![0, 1, 2] : Fin 3 → Fin S32x100x80.rank)
  slices_S32x1000x4_S32x1000x2_0_0_0 : S32x1000x4.Slices ![0, 0, 0] S32x1000x2
  slices_S32x1000x4_S32x1000x2_0_0_2 : S32x1000x4.Slices ![0, 0, 2] S32x1000x2
  bcast_S_S32x1000x2 : S_.BroadcastsInDim S32x1000x2 (![] : Fin 0 → Fin S32x1000x2.rank)
  slices_S32x100x4_S32x100x2_0_0_0 : S32x100x4.Slices ![0, 0, 0] S32x100x2
  slices_S32x100x4_S32x100x2_0_0_2 : S32x100x4.Slices ![0, 0, 2] S32x100x2
  bcast_S_S32x100x2 : S_.BroadcastsInDim S32x100x2 (![] : Fin 0 → Fin S32x100x2.rank)
  transposes_S32x1000x80_S32x80x1000_0_2_1 : S32x1000x80.Transposes [0, 2, 1] S32x80x1000
  bcast_S32x100x2_S32x100x1x2_0_1_3 : S32x100x2.BroadcastsInDim S32x100x1x2 (![0, 1, 3] : Fin 3 → Fin S32x100x1x2.rank)
  bcast_S_S32x100x1x2 : S_.BroadcastsInDim S32x100x1x2 (![] : Fin 0 → Fin S32x100x1x2.rank)
  bcast_S32x1000x2_S32x1x1000x2_0_2_3 : S32x1000x2.BroadcastsInDim S32x1x1000x2 (![0, 2, 3] : Fin 3 → Fin S32x1x1000x2.rank)
  bcast_S_S32x1x1000x2 : S_.BroadcastsInDim S32x1x1000x2 (![] : Fin 0 → Fin S32x1x1000x2.rank)
  bcast_S32x100x1x2_S32x100x1000x2_0_1_2_3 : S32x100x1x2.BroadcastsInDim S32x100x1000x2 (![0, 1, 2, 3] : Fin 4 → Fin S32x100x1000x2.rank)
  bcast_S32x1x1000x2_S32x100x1000x2_0_1_2_3 : S32x1x1000x2.BroadcastsInDim S32x100x1000x2 (![0, 1, 2, 3] : Fin 4 → Fin S32x100x1000x2.rank)
  reducesTo_S32x100x1000x2_S32x100x1000_d3 : S32x100x1000x2.ReducesTo [3] S32x100x1000
  reducesTo_S32x100x2_S32x100_d2 : S32x100x2.ReducesTo [2] S32x100
  bcast_S32x100x1_S32x100x1000_0_1_2 : S32x100x1.BroadcastsInDim S32x100x1000 (![0, 1, 2] : Fin 3 → Fin S32x100x1000.rank)
  reducesTo_S32x1000x2_S32x1000_d2 : S32x1000x2.ReducesTo [2] S32x1000
  bcast_S32x1000_S32x1x1000_0_2 : S32x1000.BroadcastsInDim S32x1x1000 (![0, 2] : Fin 2 → Fin S32x1x1000.rank)
  bcast_S32x1x1000_S32x100x1000_0_1_2 : S32x1x1000.BroadcastsInDim S32x100x1000 (![0, 1, 2] : Fin 3 → Fin S32x100x1000.rank)
  bcast_S_S32x100x1000 : S_.BroadcastsInDim S32x100x1000 (![] : Fin 0 → Fin S32x100x1000.rank)
  reducesTo_S32x100x1000_S32_d1_2 : S32x100x1000.ReducesTo [1, 2] S32
  transposes_S32x100x80_S32x80x100_0_2_1 : S32x100x80.Transposes [0, 2, 1] S32x80x100
  bcast_S32x100x2_S32x1x100x2_0_2_3 : S32x100x2.BroadcastsInDim S32x1x100x2 (![0, 2, 3] : Fin 3 → Fin S32x1x100x2.rank)
  bcast_S_S32x1x100x2 : S_.BroadcastsInDim S32x1x100x2 (![] : Fin 0 → Fin S32x1x100x2.rank)
  bcast_S32x100x1x2_S32x100x100x2_0_1_2_3 : S32x100x1x2.BroadcastsInDim S32x100x100x2 (![0, 1, 2, 3] : Fin 4 → Fin S32x100x100x2.rank)
  bcast_S32x1x100x2_S32x100x100x2_0_1_2_3 : S32x1x100x2.BroadcastsInDim S32x100x100x2 (![0, 1, 2, 3] : Fin 4 → Fin S32x100x100x2.rank)
  reducesTo_S32x100x100x2_S32x100x100_d3 : S32x100x100x2.ReducesTo [3] S32x100x100
  bcast_S32x100x1_S32x100x100_0_1_2 : S32x100x1.BroadcastsInDim S32x100x100 (![0, 1, 2] : Fin 3 → Fin S32x100x100.rank)
  bcast_S32x100_S32x1x100_0_2 : S32x100.BroadcastsInDim S32x1x100 (![0, 2] : Fin 2 → Fin S32x1x100.rank)
  bcast_S32x1x100_S32x100x100_0_1_2 : S32x1x100.BroadcastsInDim S32x100x100 (![0, 1, 2] : Fin 3 → Fin S32x100x100.rank)
  bcast_S_S32x100x100 : S_.BroadcastsInDim S32x100x100 (![] : Fin 0 → Fin S32x100x100.rank)
  reducesTo_S32x100x100_S32_d1_2 : S32x100x100.ReducesTo [1, 2] S32
  bcast_S32x1000x2_S32x1000x1x2_0_1_3 : S32x1000x2.BroadcastsInDim S32x1000x1x2 (![0, 1, 3] : Fin 3 → Fin S32x1000x1x2.rank)
  bcast_S_S32x1000x1x2 : S_.BroadcastsInDim S32x1000x1x2 (![] : Fin 0 → Fin S32x1000x1x2.rank)
  bcast_S32x1000x1x2_S32x1000x1000x2_0_1_2_3 : S32x1000x1x2.BroadcastsInDim S32x1000x1000x2 (![0, 1, 2, 3] : Fin 4 → Fin S32x1000x1000x2.rank)
  bcast_S32x1x1000x2_S32x1000x1000x2_0_1_2_3 : S32x1x1000x2.BroadcastsInDim S32x1000x1000x2 (![0, 1, 2, 3] : Fin 4 → Fin S32x1000x1000x2.rank)
  reducesTo_S32x1000x1000x2_S32x1000x1000_d3 : S32x1000x1000x2.ReducesTo [3] S32x1000x1000
  bcast_S32x1000x1_S32x1000x1000_0_1_2 : S32x1000x1.BroadcastsInDim S32x1000x1000 (![0, 1, 2] : Fin 3 → Fin S32x1000x1000.rank)
  bcast_S32x1x1000_S32x1000x1000_0_1_2 : S32x1x1000.BroadcastsInDim S32x1000x1000 (![0, 1, 2] : Fin 3 → Fin S32x1000x1000.rank)
  bcast_S_S32x1000x1000 : S_.BroadcastsInDim S32x1000x1000 (![] : Fin 0 → Fin S32x1000x1000.rank)
  reducesTo_S32x1000x1000_S32_d1_2 : S32x1000x1000.ReducesTo [1, 2] S32
  bcast_S_S32 : S_.BroadcastsInDim S32 (![] : Fin 0 → Fin S32.rank)
  reducesTo_S32_S_d0 : S32.ReducesTo [0] S_
  dot_S32x100x80_S32x80x1000_S32x100x1000_2_1_1_2_0_0_wf : DotDims.WF S32x100x80 S32x80x1000 S32x100x1000 [2] [1] [1] [2] [0] [0]
  dot_S32x100x80_S32x80x100_S32x100x100_2_1_1_2_0_0_wf : DotDims.WF S32x100x80 S32x80x100 S32x100x100 [2] [1] [1] [2] [0] [0]
  dot_S32x1000x80_S32x80x1000_S32x1000x1000_2_1_1_2_0_0_wf : DotDims.WF S32x1000x80 S32x80x1000 S32x1000x1000 [2] [1] [1] [2] [0] [0]

variable [Facts₀]

def dot_S32x100x80_S32x80x1000_S32x100x1000_2_1_1_2_0_0 : DotDims S32x100x80 S32x80x1000 S32x100x1000 where
  lhsContracting := [2]
  rhsContracting := [1]
  lhsNonContracting := [1]
  rhsNonContracting := [2]
  lhsBatch := [0]
  rhsBatch := [0]
  wf := dot_S32x100x80_S32x80x1000_S32x100x1000_2_1_1_2_0_0_wf
def dot_S32x100x80_S32x80x100_S32x100x100_2_1_1_2_0_0 : DotDims S32x100x80 S32x80x100 S32x100x100 where
  lhsContracting := [2]
  rhsContracting := [1]
  lhsNonContracting := [1]
  rhsNonContracting := [2]
  lhsBatch := [0]
  rhsBatch := [0]
  wf := dot_S32x100x80_S32x80x100_S32x100x100_2_1_1_2_0_0_wf
def dot_S32x1000x80_S32x80x1000_S32x1000x1000_2_1_1_2_0_0 : DotDims S32x1000x80 S32x80x1000 S32x1000x1000 where
  lhsContracting := [2]
  rhsContracting := [1]
  lhsNonContracting := [1]
  rhsNonContracting := [2]
  lhsBatch := [0]
  rhsBatch := [0]
  wf := dot_S32x1000x80_S32x80x1000_S32x1000x1000_2_1_1_2_0_0_wf

class Facts : Prop extends Facts₀ where

variable [Facts]
-- ==== Proof.Segs.lean ====
/-
  The three kernel regions of the program as segments of its run.

  Between two items of the program a core holds every unscoped buffer whole at known contents, beside its
  generator register at some state and nothing owed. A region takes its windows' arrays out of those buffers at
  the contents it is entered with, runs its pipeline over its proof data, and puts the arrays back: each input
  array as it was, the output array at what the write-backs leave. Where two input windows read ONE array
  (a set of boxes paired with itself) the array is held in two halves of its share, one per window, split on
  entry and joined on exit; both halves hold the entry contents throughout, since no input is written.
-/
import proofs.«120005_j50079318672069_1_alg».proof.Proof.Gen.KernelIdeal.Launch
import proofs.«120005_j50079318672069_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Tactic

noncomputable section

namespace Cert.KernelIdeal.GenR

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- No core owes another anything: no level is assigned. -/
abbrev Lz : GSem nD τ sig → Finset Unit := fun _ => ∅
abbrev lvz : GSem nD τ sig → Unit → ℕ := fun _ _ => 0

/-- What rides beside the buffers through every item: the core's generator register at some state and its dues, at
    nothing. -/
abbrev Rr (c : Dev nD) : sProp 𝕄 := iprop((∃ r, prngReg c r) ∗ ∃ W, owes (c : Thread nD τ) (0 : CellTallies nD τ sig Unit) W)

/-- The three regions' proof data as one family: a literal match, so that the family at a numeral is that
    region's data. -/
def pdats (d0 : (c : Dev nD) → Dat τ (Elt F) Unit ℕ (UR sig nD τ) ℕ cfg0 c) (d1 : (c : Dev nD) → Dat τ (Elt F) Unit ℕ (UR sig nD τ) ℕ cfg1 c)
    (d2 : (c : Dev nD) → Dat τ (Elt F) Unit ℕ (UR sig nD τ) ℕ cfg2 c) :
    (p : Fin 3) → (c : Dev nD) → Dat τ (Elt F) Unit ℕ (UR sig nD τ) ℕ (Pipeline.pin (pcfgs (F := F)) adm p) c
  | ⟨0, _⟩ => fun c => d0 c
  | ⟨1, _⟩ => fun c => d1 c
  | ⟨2, _⟩ => fun c => d2 c

/-- Seven terms under a commutative, associative operation: the fourth, fifth and sixth paired with the first, second and
    third. -/
theorem shuffle7 {α : Type _} (op : α → α → α) [Std.Commutative op] [Std.Associative op] (a0 a1 a2 a3 a4 a5 a6 : α) :
    op a0 (op a1 (op a2 (op a3 (op a4 (op a5 a6))))) = op (op a0 a3) (op (op a1 a4) (op (op a2 a5) a6)) := by
  ac_rfl

/-- The shares region 0 holds its input arrays at: windows `w` and `w + 3` read ONE array, the first through its
    left half, the second through its right half; the output array whole. -/
def qsh0 : Fin 7 → PosShare TreeShare
  | ⟨0, _⟩ => fullShare.left
  | ⟨1, _⟩ => fullShare.left
  | ⟨2, _⟩ => fullShare.left
  | ⟨3, _⟩ => fullShare.right
  | ⟨4, _⟩ => fullShare.right
  | ⟨5, _⟩ => fullShare.right
  | ⟨6, _⟩ => fullShare

/-- The distinct buffers behind region 0's seven windows. -/
theorem img0 : Finset.univ.image (Pipeline.arrRef spec0) = ({main_v24, main_v28, main_v22, main_v34} : Finset (Ref sig .tc)) := by decide

section Shared0
variable (c : Dev nD) (d : Dat τ (Elt F) Unit ℕ (UR sig nD τ) ℕ cfg0 c) (hq : ∀ w, d.q w = qsh0 w)
  (V : (b : Ref sig .tc) → Buf (Elt F) ((c : Thread nD τ).loc b))
  (Fw : (w : Fin cfg0.W) → Buf (Elt F) ((cfg0.win w).arr.view.loc (c : Thread nD τ)))
  (hF : ∀ w, Fw w = V (Pipeline.arrRef spec0 w))

include hq hF in
/-- Region 0's arrays at contents read off `V` are the four buffers behind them, each whole at `V`: an array two
    windows read is the two halves of its share. -/
theorem arrays_eq_arrBufs0 : d.arrays Fw = (Pipeline.arrBufs spec0 c V : sProp 𝕄) := by
  classical
  unfold Pipeline.arrBufs Dat.arrays
  rw [img0, bigSep_W0]
  rw [bigSep_insert (by decide), bigSep_insert (by decide), bigSep_insert (by decide), bigSep_singleton]
  have e : ∀ (w : Fin cfg0.W) (q : PosShare TreeShare), d.share w = q →
      ((View.loc (c : Thread nD τ) (cfg0.win w).arr.view ↦[(cfg0.win w).arr.view.set]{d.share w} Fw w : sProp 𝕄))
        = (((c : Thread nD τ).loc (Pipeline.arrRef spec0 w)) ↦{q} V (Pipeline.arrRef spec0 w)) := fun w q hq' => by
    rw [(arr_whole0 w).set_eq_univ, hF, hq']
  have sL : ∀ w : Fin cfg0.W, (cfg0.win w).isOut = false → d.share w = qsh0 w := fun w h => by
    unfold Dat.share; rw [h]; exact hq w
  have sO : ∀ w : Fin cfg0.W, (cfg0.win w).isOut = true → d.share w = fullShare := fun w h => by
    unfold Dat.share; rw [h]; rfl
  have hs : ∀ r : Ref sig .tc, ((((c : Thread nD τ).loc r) ↦{fullShare} V r : sProp 𝕄))
      = iprop((((c : Thread nD τ).loc r) ↦{fullShare.left} V r) ∗ ((c : Thread nD τ).loc r) ↦{fullShare.right} V r) := fun r =>
    BI.Entails.antisymm (pointsTo_share (PosShare.mem_left_op_right fullShare)).1 (pointsTo_share (PosShare.mem_left_op_right fullShare)).2
  have E6 := e 6 fullShare (sO 6 (by decide))
  have E5 := congrArg₂ BI.sep (e 5 fullShare.right (sL 5 (by decide))) E6
  have E4 := congrArg₂ BI.sep (e 4 fullShare.right (sL 4 (by decide))) E5
  have E3 := congrArg₂ BI.sep (e 3 fullShare.right (sL 3 (by decide))) E4
  have E2 := congrArg₂ BI.sep (e 2 fullShare.left (sL 2 (by decide))) E3
  have E1 := congrArg₂ BI.sep (e 1 fullShare.left (sL 1 (by decide))) E2
  have E0 := congrArg₂ BI.sep (e 0 fullShare.left (sL 0 (by decide))) E1
  refine E0.trans ?_
  have H2 := congrArg₂ BI.sep (hs main_v22) (rfl : ((((c : Thread nD τ).loc main_v34) ↦{fullShare} V main_v34 : sProp 𝕄)) = _)
  have H1 := congrArg₂ BI.sep (hs main_v28) H2
  have H0 := congrArg₂ BI.sep (hs main_v24) H1
  refine Eq.trans ?_ H0.symm
  show (iprop(((c : Thread nD τ).loc main_v24 ↦{fullShare.left} V main_v24) ∗ ((c : Thread nD τ).loc main_v28 ↦{fullShare.left} V main_v28) ∗ ((c : Thread nD τ).loc main_v22 ↦{fullShare.left} V main_v22)
        ∗ ((c : Thread nD τ).loc main_v24 ↦{fullShare.right} V main_v24) ∗ ((c : Thread nD τ).loc main_v28 ↦{fullShare.right} V main_v28) ∗ ((c : Thread nD τ).loc main_v22 ↦{fullShare.right} V main_v22)
        ∗ ((c : Thread nD τ).loc main_v34 ↦{fullShare} V main_v34)) : sProp 𝕄)
      = iprop((((c : Thread nD τ).loc main_v24 ↦{fullShare.left} V main_v24) ∗ ((c : Thread nD τ).loc main_v24 ↦{fullShare.right} V main_v24))
        ∗ (((c : Thread nD τ).loc main_v28 ↦{fullShare.left} V main_v28) ∗ ((c : Thread nD τ).loc main_v28 ↦{fullShare.right} V main_v28))
        ∗ (((c : Thread nD τ).loc main_v22 ↦{fullShare.left} V main_v22) ∗ ((c : Thread nD τ).loc main_v22 ↦{fullShare.right} V main_v22))
        ∗ ((c : Thread nD τ).loc main_v34 ↦{fullShare} V main_v34))
  exact shuffle7 (fun a b : sProp 𝕄 => BI.sep a b) _ _ _ _ _ _ _
end Shared0

/-- The shares region 2 holds its input arrays at: windows `w` and `w + 3` read ONE array, the first through its
    left half, the second through its right half; the output array whole. -/
def qsh2 : Fin 7 → PosShare TreeShare
  | ⟨0, _⟩ => fullShare.left
  | ⟨1, _⟩ => fullShare.left
  | ⟨2, _⟩ => fullShare.left
  | ⟨3, _⟩ => fullShare.right
  | ⟨4, _⟩ => fullShare.right
  | ⟨5, _⟩ => fullShare.right
  | ⟨6, _⟩ => fullShare

/-- The distinct buffers behind region 2's seven windows. -/
theorem img2 : Finset.univ.image (Pipeline.arrRef spec2) = ({main_v29, main_v33, main_v23, main_v38} : Finset (Ref sig .tc)) := by decide

section Shared2
variable (c : Dev nD) (d : Dat τ (Elt F) Unit ℕ (UR sig nD τ) ℕ cfg2 c) (hq : ∀ w, d.q w = qsh2 w)
  (V : (b : Ref sig .tc) → Buf (Elt F) ((c : Thread nD τ).loc b))
  (Fw : (w : Fin cfg2.W) → Buf (Elt F) ((cfg2.win w).arr.view.loc (c : Thread nD τ)))
  (hF : ∀ w, Fw w = V (Pipeline.arrRef spec2 w))

include hq hF in
/-- Region 2's arrays at contents read off `V` are the four buffers behind them, each whole at `V`: an array two
    windows read is the two halves of its share. -/
theorem arrays_eq_arrBufs2 : d.arrays Fw = (Pipeline.arrBufs spec2 c V : sProp 𝕄) := by
  classical
  unfold Pipeline.arrBufs Dat.arrays
  rw [img2, bigSep_W2]
  rw [bigSep_insert (by decide), bigSep_insert (by decide), bigSep_insert (by decide), bigSep_singleton]
  have e : ∀ (w : Fin cfg2.W) (q : PosShare TreeShare), d.share w = q →
      ((View.loc (c : Thread nD τ) (cfg2.win w).arr.view ↦[(cfg2.win w).arr.view.set]{d.share w} Fw w : sProp 𝕄))
        = (((c : Thread nD τ).loc (Pipeline.arrRef spec2 w)) ↦{q} V (Pipeline.arrRef spec2 w)) := fun w q hq' => by
    rw [(arr_whole2 w).set_eq_univ, hF, hq']
  have sL : ∀ w : Fin cfg2.W, (cfg2.win w).isOut = false → d.share w = qsh2 w := fun w h => by
    unfold Dat.share; rw [h]; exact hq w
  have sO : ∀ w : Fin cfg2.W, (cfg2.win w).isOut = true → d.share w = fullShare := fun w h => by
    unfold Dat.share; rw [h]; rfl
  have hs : ∀ r : Ref sig .tc, ((((c : Thread nD τ).loc r) ↦{fullShare} V r : sProp 𝕄))
      = iprop((((c : Thread nD τ).loc r) ↦{fullShare.left} V r) ∗ ((c : Thread nD τ).loc r) ↦{fullShare.right} V r) := fun r =>
    BI.Entails.antisymm (pointsTo_share (PosShare.mem_left_op_right fullShare)).1 (pointsTo_share (PosShare.mem_left_op_right fullShare)).2
  have E6 := e 6 fullShare (sO 6 (by decide))
  have E5 := congrArg₂ BI.sep (e 5 fullShare.right (sL 5 (by decide))) E6
  have E4 := congrArg₂ BI.sep (e 4 fullShare.right (sL 4 (by decide))) E5
  have E3 := congrArg₂ BI.sep (e 3 fullShare.right (sL 3 (by decide))) E4
  have E2 := congrArg₂ BI.sep (e 2 fullShare.left (sL 2 (by decide))) E3
  have E1 := congrArg₂ BI.sep (e 1 fullShare.left (sL 1 (by decide))) E2
  have E0 := congrArg₂ BI.sep (e 0 fullShare.left (sL 0 (by decide))) E1
  refine E0.trans ?_
  have H2 := congrArg₂ BI.sep (hs main_v23) (rfl : ((((c : Thread nD τ).loc main_v38) ↦{fullShare} V main_v38 : sProp 𝕄)) = _)
  have H1 := congrArg₂ BI.sep (hs main_v33) H2
  have H0 := congrArg₂ BI.sep (hs main_v29) H1
  refine Eq.trans ?_ H0.symm
  show (iprop(((c : Thread nD τ).loc main_v29 ↦{fullShare.left} V main_v29) ∗ ((c : Thread nD τ).loc main_v33 ↦{fullShare.left} V main_v33) ∗ ((c : Thread nD τ).loc main_v23 ↦{fullShare.left} V main_v23)
        ∗ ((c : Thread nD τ).loc main_v29 ↦{fullShare.right} V main_v29) ∗ ((c : Thread nD τ).loc main_v33 ↦{fullShare.right} V main_v33) ∗ ((c : Thread nD τ).loc main_v23 ↦{fullShare.right} V main_v23)
        ∗ ((c : Thread nD τ).loc main_v38 ↦{fullShare} V main_v38)) : sProp 𝕄)
      = iprop((((c : Thread nD τ).loc main_v29 ↦{fullShare.left} V main_v29) ∗ ((c : Thread nD τ).loc main_v29 ↦{fullShare.right} V main_v29))
        ∗ (((c : Thread nD τ).loc main_v33 ↦{fullShare.left} V main_v33) ∗ ((c : Thread nD τ).loc main_v33 ↦{fullShare.right} V main_v33))
        ∗ (((c : Thread nD τ).loc main_v23 ↦{fullShare.left} V main_v23) ∗ ((c : Thread nD τ).loc main_v23 ↦{fullShare.right} V main_v23))
        ∗ ((c : Thread nD τ).loc main_v38 ↦{fullShare} V main_v38))
  exact shuffle7 (fun a b : sProp 𝕄 => BI.sep a b) _ _ _ _ _ _ _
end Shared2

section Records

variable (d0 : (c : Dev nD) → Dat τ (Elt F) Unit ℕ (UR sig nD τ) ℕ cfg0 c) (d1 : (c : Dev nD) → Dat τ (Elt F) Unit ℕ (UR sig nD τ) ℕ cfg1 c)
  (d2 : (c : Dev nD) → Dat τ (Elt F) Unit ℕ (UR sig nD τ) ℕ cfg2 c)
  (Win Wout : Dev nD → Valuation τ sig (Elt F))

set_option backward.isDefEq.respectTransparency.types false in
/-- The region of call 0 (a set of boxes paired with itself): windows `w` and `w + 3` read one array, held in the two
    halves of its share. Entered with every unscoped buffer at `Win`, left with them at `Wout`: the output array at what
    the write-backs leave (`hF`), every other buffer as entered (`hrest`). -/
def reg0 (hA : ∀ c w, (d0 c).A w = Win c (Pipeline.arrRef spec0 w)) (hq : ∀ c w, (d0 c).q w = qsh0 w)
    (howed : ∀ c t, (d0 c).owed t = 0) (hrec : ∀ c t, (d0 c).recorded t = Set.univ)
    (hbody : ∀ c, BodyObligation (d0 c) (defs₀ (F := F)) Variants.none () Set.univ)
    (hin : ∀ c, Pipeline.ΦA spec0 c ⊢ (d0 c).Φ 0) (hout : ∀ c, (d0 c).Φ (Fin.last cfg0.N) ⊢ Pipeline.ΦA spec0 c)
    (hF : ∀ c w, (d0 c).arrAt w cfg0.N = Wout c (Pipeline.arrRef spec0 w))
    (hrest : ∀ c (b : Ref sig .tc), b ∉ Finset.univ.image (Pipeline.arrRef spec0) → Wout c b = Win c b) :
    Pipeline.RegionSeg (pcfgs (F := F)) adm (pdats d0 d1 d2) () defs₀ Variants.none Lz lvz 0 where
  win := winFacts₀0
  block_pos := block_pos0
  stage_whole := stage_whole0
  K := PEmpty
  osem k := k.elim
  ho := Pipeline.OwnSemFacts.none _
  hbody c := (hbody c).loose
  hwaits := Pipeline.hwaits_of_owed_zero _ _ _ _ Lz lvz 0 fun c t => howed c t
  pre c := iprop(StableHlo.held (c : Thread nD τ) (Pipeline.ucRefs τ sig) (Win c) ∗ Rr c)
  post c := iprop(StableHlo.held (c : Thread nD τ) (Pipeline.ucRefs τ sig) (Wout c) ∗ Rr c)
  X c := iprop(∃ r, prngReg c r)
  Y c := iprop(∃ r, prngReg c r)
  Z c := Pipeline.unscopedRest (Ix := Unit) (Name := ℕ) (U := UR sig nD τ) (Lvl := ℕ) spec0 c (fun b => Win c b)
  hentry c := by
    rw [Pipeline.ownSems0_none]
    have hsplit : (unscopedBufs c (fun b => Win c b) : sProp 𝕄)
        = iprop((pdats d0 d1 d2 0 c).arrays ((pdats d0 d1 d2 0 c).arrAt · 0) ∗ Pipeline.unscopedRest spec0 c (fun b => Win c b)) := by
      rw [Pipeline.unscopedBufs_split₀ (Pipeline.pin (pcfgs (F := F)) adm) 0 winFacts₀0.arr_unscoped c (fun b => Win c b)]
      exact congrArg₂ BI.sep (arrays_eq_arrBufs0 c (d0 c) (hq c) (fun b => Win c b) ((d0 c).arrAt · 0) (fun w => hA c w)).symm rfl
    rw [Pipeline.unscopedBufs_held] at hsplit
    rw [hsplit]
    iintro ⟨⟨⟨Ha, Hrest⟩, Hp, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [show (pdats d0 d1 d2 0 c).recorded 0 = Set.univ from hrec c 0]; trivial)
      rw [show (pdats d0 d1 d2 0 c).owed 0 = 0 from howed c 0]
      iexact HO
    isplitl [Hp]; · iexact Hp
    iexact Hrest
  hin c :=
    (show _ ⊢ (Pipeline.ΦA spec0 c : sProp 𝕄) from by
      unfold Pipeline.ΦA
      iintro ⟨Hp, -, Hr⟩
      isplitl [Hr]; · iexact Hr
      iexact Hp).trans (hin c)
  hout c := by
    rw [Pipeline.ownSems0_none]
    exact (hout c).trans (show (Pipeline.ΦA spec0 c : sProp 𝕄) ⊢ _ from by
      unfold Pipeline.ΦA
      iintro ⟨Hr, Hp⟩
      isplitl [Hp]; · iexact Hp
      isplitr; · iempintro
      iexact Hr)
  hexit c := by
    have hjoin : iprop((pdats d0 d1 d2 0 c).arrays ((pdats d0 d1 d2 0 c).arrAt · cfg0.N) ∗ Pipeline.unscopedRest spec0 c (fun b => Win c b))
        = (unscopedBufs c (fun b => Wout c b) : sProp 𝕄) := by
      rw [Pipeline.unscopedBufs_split₀ (Pipeline.pin (pcfgs (F := F)) adm) 0 winFacts₀0.arr_unscoped c (fun b => Wout c b)]
      refine congrArg₂ BI.sep (arrays_eq_arrBufs0 c (d0 c) (hq c) (fun b => Wout c b) ((d0 c).arrAt · cfg0.N) (fun w => hF c w)) ?_
      unfold Pipeline.unscopedRest
      exact (bigSep_congr fun b hb => by beta_reduce; rw [hrest c b (Finset.mem_sdiff.mp hb).2])
    rw [Pipeline.unscopedBufs_held] at hjoin
    have hjoin' := Entails.of_eq hjoin
    iintro ⟨Ha, HO, HY, Hrest⟩
    imodintro
    isplitl [Ha Hrest]
    · iapply hjoin'; isplitl [Ha] <;> iassumption
    isplitl [HY]; · iexact HY
    unfold Pipeline.Dat.owesAt Pipeline.owesWithin
    icases HO with ⟨%W, -, HO⟩; iexists W
    rw [show (pdats d0 d1 d2 0 c).owed (Fin.last _) = 0 from howed c _]
    iexact HO

set_option backward.isDefEq.respectTransparency.types false in
/-- The region of the second call (ground truth against predictions): its six input arrays are distinct buffers,
    each held whole. Entered with every unscoped buffer at `Win`, left with them at `Wout`: the output array at what
    the write-backs leave (`hF`), every other buffer as entered (`hrest`). -/
def reg1 (hA : ∀ c w, (d1 c).A w = Win c (Pipeline.arrRef spec1 w)) (hq : ∀ c w, (d1 c).q w = fullShare)
    (howed : ∀ c t, (d1 c).owed t = 0) (hrec : ∀ c t, (d1 c).recorded t = Set.univ)
    (hbody : ∀ c, BodyObligation (d1 c) (defs₀ (F := F)) Variants.none () Set.univ)
    (hin : ∀ c, Pipeline.ΦA spec1 c ⊢ (d1 c).Φ 0) (hout : ∀ c, (d1 c).Φ (Fin.last cfg1.N) ⊢ Pipeline.ΦA spec1 c)
    (hF : ∀ c w, (d1 c).arrAt w cfg1.N = Wout c (Pipeline.arrRef spec1 w))
    (hrest : ∀ c (b : Ref sig .tc), b ∉ Finset.univ.image (Pipeline.arrRef spec1) → Wout c b = Win c b) :
    Pipeline.RegionSeg (pcfgs (F := F)) adm (pdats d0 d1 d2) () defs₀ Variants.none Lz lvz 1 where
  win := launch1.win.to₀
  block_pos := launch1.block_pos
  stage_whole := launch1.stage_whole
  K := PEmpty
  osem k := k.elim
  ho := Pipeline.OwnSemFacts.none _
  hbody c := (hbody c).loose
  hwaits := Pipeline.hwaits_of_owed_zero _ _ _ _ Lz lvz 1 fun c t => howed c t
  pre c := iprop(StableHlo.held (c : Thread nD τ) (Pipeline.ucRefs τ sig) (Win c) ∗ Rr c)
  post c := iprop(StableHlo.held (c : Thread nD τ) (Pipeline.ucRefs τ sig) (Wout c) ∗ Rr c)
  X c := iprop(∃ r, prngReg c r)
  Y c := iprop(∃ r, prngReg c r)
  Z c := Pipeline.unscopedRest (Ix := Unit) (Name := ℕ) (U := UR sig nD τ) (Lvl := ℕ) spec1 c (fun b => Win c b)
  hentry c := by
    rw [Pipeline.ownSems0_none]
    have hsplit := Pipeline.arrays_of_unscopedBufs (p := 1) (pcfgs (F := F)) adm (pdats d0 d1 d2) launch1.win launch1.arr_whole c
      ((pdats d0 d1 d2 1 c).share_full fun w => hq c w) (fun b => Win c b) fun w => hA c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [show (pdats d0 d1 d2 1 c).recorded 0 = Set.univ from hrec c 0]; trivial)
      rw [show (pdats d0 d1 d2 1 c).owed 0 = 0 from howed c 0]
      iexact HO
    isplitl [Hp]; · iexact Hp
    iexact Hrest
  hin c :=
    (show _ ⊢ (Pipeline.ΦA spec1 c : sProp 𝕄) from by
      unfold Pipeline.ΦA
      iintro ⟨Hp, -, Hr⟩
      isplitl [Hr]; · iexact Hr
      iexact Hp).trans (hin c)
  hout c := by
    rw [Pipeline.ownSems0_none]
    exact (hout c).trans (show (Pipeline.ΦA spec1 c : sProp 𝕄) ⊢ _ from by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats d0 d1 d2) ((pdats d0 d1 d2 1 c).share_full fun w => hq c w)
      (fun b => Win c b) (fun b => Wout c b) ((pdats d0 d1 d2 1 c).arrAt · cfg1.N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats d0 d1 d2 1 c).owed (Fin.last _) = 0 from howed c _]
    iexact HO

set_option backward.isDefEq.respectTransparency.types false in
/-- The region of call 2 (a set of boxes paired with itself): windows `w` and `w + 3` read one array, held in the two
    halves of its share. Entered with every unscoped buffer at `Win`, left with them at `Wout`: the output array at what
    the write-backs leave (`hF`), every other buffer as entered (`hrest`). -/
def reg2 (hA : ∀ c w, (d2 c).A w = Win c (Pipeline.arrRef spec2 w)) (hq : ∀ c w, (d2 c).q w = qsh2 w)
    (howed : ∀ c t, (d2 c).owed t = 0) (hrec : ∀ c t, (d2 c).recorded t = Set.univ)
    (hbody : ∀ c, BodyObligation (d2 c) (defs₀ (F := F)) Variants.none () Set.univ)
    (hin : ∀ c, Pipeline.ΦA spec2 c ⊢ (d2 c).Φ 0) (hout : ∀ c, (d2 c).Φ (Fin.last cfg2.N) ⊢ Pipeline.ΦA spec2 c)
    (hF : ∀ c w, (d2 c).arrAt w cfg2.N = Wout c (Pipeline.arrRef spec2 w))
    (hrest : ∀ c (b : Ref sig .tc), b ∉ Finset.univ.image (Pipeline.arrRef spec2) → Wout c b = Win c b) :
    Pipeline.RegionSeg (pcfgs (F := F)) adm (pdats d0 d1 d2) () defs₀ Variants.none Lz lvz 2 where
  win := winFacts₀2
  block_pos := block_pos2
  stage_whole := stage_whole2
  K := PEmpty
  osem k := k.elim
  ho := Pipeline.OwnSemFacts.none _
  hbody c := (hbody c).loose
  hwaits := Pipeline.hwaits_of_owed_zero _ _ _ _ Lz lvz 2 fun c t => howed c t
  pre c := iprop(StableHlo.held (c : Thread nD τ) (Pipeline.ucRefs τ sig) (Win c) ∗ Rr c)
  post c := iprop(StableHlo.held (c : Thread nD τ) (Pipeline.ucRefs τ sig) (Wout c) ∗ Rr c)
  X c := iprop(∃ r, prngReg c r)
  Y c := iprop(∃ r, prngReg c r)
  Z c := Pipeline.unscopedRest (Ix := Unit) (Name := ℕ) (U := UR sig nD τ) (Lvl := ℕ) spec2 c (fun b => Win c b)
  hentry c := by
    rw [Pipeline.ownSems0_none]
    have hsplit : (unscopedBufs c (fun b => Win c b) : sProp 𝕄)
        = iprop((pdats d0 d1 d2 2 c).arrays ((pdats d0 d1 d2 2 c).arrAt · 0) ∗ Pipeline.unscopedRest spec2 c (fun b => Win c b)) := by
      rw [Pipeline.unscopedBufs_split₀ (Pipeline.pin (pcfgs (F := F)) adm) 2 winFacts₀2.arr_unscoped c (fun b => Win c b)]
      exact congrArg₂ BI.sep (arrays_eq_arrBufs2 c (d2 c) (hq c) (fun b => Win c b) ((d2 c).arrAt · 0) (fun w => hA c w)).symm rfl
    rw [Pipeline.unscopedBufs_held] at hsplit
    rw [hsplit]
    iintro ⟨⟨⟨Ha, Hrest⟩, Hp, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [show (pdats d0 d1 d2 2 c).recorded 0 = Set.univ from hrec c 0]; trivial)
      rw [show (pdats d0 d1 d2 2 c).owed 0 = 0 from howed c 0]
      iexact HO
    isplitl [Hp]; · iexact Hp
    iexact Hrest
  hin c :=
    (show _ ⊢ (Pipeline.ΦA spec2 c : sProp 𝕄) from by
      unfold Pipeline.ΦA
      iintro ⟨Hp, -, Hr⟩
      isplitl [Hr]; · iexact Hr
      iexact Hp).trans (hin c)
  hout c := by
    rw [Pipeline.ownSems0_none]
    exact (hout c).trans (show (Pipeline.ΦA spec2 c : sProp 𝕄) ⊢ _ from by
      unfold Pipeline.ΦA
      iintro ⟨Hr, Hp⟩
      isplitl [Hp]; · iexact Hp
      isplitr; · iempintro
      iexact Hr)
  hexit c := by
    have hjoin : iprop((pdats d0 d1 d2 2 c).arrays ((pdats d0 d1 d2 2 c).arrAt · cfg2.N) ∗ Pipeline.unscopedRest spec2 c (fun b => Win c b))
        = (unscopedBufs c (fun b => Wout c b) : sProp 𝕄) := by
      rw [Pipeline.unscopedBufs_split₀ (Pipeline.pin (pcfgs (F := F)) adm) 2 winFacts₀2.arr_unscoped c (fun b => Wout c b)]
      refine congrArg₂ BI.sep (arrays_eq_arrBufs2 c (d2 c) (hq c) (fun b => Wout c b) ((d2 c).arrAt · cfg2.N) (fun w => hF c w)) ?_
      unfold Pipeline.unscopedRest
      exact (bigSep_congr fun b hb => by beta_reduce; rw [hrest c b (Finset.mem_sdiff.mp hb).2])
    rw [Pipeline.unscopedBufs_held] at hjoin
    have hjoin' := Entails.of_eq hjoin
    iintro ⟨Ha, HO, HY, Hrest⟩
    imodintro
    isplitl [Ha Hrest]
    · iapply hjoin'; isplitl [Ha] <;> iassumption
    isplitl [HY]; · iexact HY
    unfold Pipeline.Dat.owesAt Pipeline.owesWithin
    icases HO with ⟨%W, -, HO⟩; iexists W
    rw [show (pdats d0 d1 d2 2 c).owed (Fin.last _) = 0 from howed c _]
    iexact HO

end Records

end Cert.KernelIdeal.GenR

end
-- ==== Proof.RunCond.lean ====
/-
  The run of the three-region program with its result named.

  Between two items of the program a core's unscoped buffers are known: the launch memory, then the fold of each
  stretch of host operations, then, after a region, the same with the region's output array at what the region
  leaves. Given a record per region, entered from and left at those contents, the program runs to the end, and the
  final memory holds every unscoped buffer at the last of these valuations: in particular the result, and each
  argument, which no item writes.
-/
import proofs.«120005_j50079318672069_1_alg».proof.Proof.Gen.KernelIdeal.Regions

noncomputable section

namespace Cert.KernelIdeal.GenR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- The run of the whole program, given the three regions' records: every weakly fair execution from memory `m` with zero
    counters terminates, and every final memory holds the result at what the last valuation says (the host
    operations' fold over the launch memory and what the regions leave) and each argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c)) :
    θ_run defs (onTc (τ := τ) (main (F := F))) ⟨m, fun _ => 0, ρ⟩ (fun r => ∀ c : Dev nD,
      r.2.mem ((c.tc : Thread nD τ).loc main_v48) = V9 m outs c main_v48
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V9 m outs c))
    (hch := fun c => ⟨.rfl, .rfl, .rfl, hpre0 c, hpost0 c, hpre1 c, hpost1 c, hpre2 c, hpost2 c, sep_mono .rfl (hE3 c)⟩)
    (hinit := ?_) (QY := fun c s => s.mem ((c.tc : Thread nD τ).loc main_v48) = V9 m outs c main_v48 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V9 m outs c) s') $$ [Hh HSI]
    · isplitl [Hh] <;> iassumption
    icases Hr with ⟨%h, HSI⟩
    imodintro
    isplitr
    · ipureintro
      exact ⟨h (Proc.devRef .tc main_v48) (Finset.mem_filter.mpr ⟨StableHlo.devRef_mem_tcRefs main_v48, by decide⟩),
        (h (Proc.devRef .tc main_arg0) (Finset.mem_filter.mpr ⟨StableHlo.devRef_mem_tcRefs main_arg0, by decide⟩)).trans (V9_main_arg0 m outs c),
        (h (Proc.devRef .tc main_arg1) (Finset.mem_filter.mpr ⟨StableHlo.devRef_mem_tcRefs main_arg1, by decide⟩)).trans (V9_main_arg1 m outs c),
        (h (Proc.devRef .tc main_arg2) (Finset.mem_filter.mpr ⟨StableHlo.devRef_mem_tcRefs main_arg2, by decide⟩)).trans (V9_main_arg2 m outs c),
        (h (Proc.devRef .tc main_arg3) (Finset.mem_filter.mpr ⟨StableHlo.devRef_mem_tcRefs main_arg3, by decide⟩)).trans (V9_main_arg3 m outs c)⟩
    · iexact HSI

end Cert.KernelIdeal.GenR

end
-- ==== Proof.Run.lean ====
/-
  The program's run from the three regions' proof data.

  What the regions leave is three buffers per core: the output arrays of the three calls. A region's output
  array ends at what its write-backs leave; its input arrays, which nothing writes, end as they were entered;
  every other buffer is untouched. With a record per region over those contents, the program runs to its end
  with the result at the last valuation and the arguments as launched.
-/
import proofs.«120005_j50079318672069_1_alg».proof.Proof.Segs
import proofs.«120005_j50079318672069_1_alg».proof.Proof.RunCond
import Mathlib.Tactic.IntervalCases

noncomputable section

namespace Cert.KernelIdeal.GenR

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the three regions leave, from the three output arrays' final contents; any other buffer is never asked
    for (it is given its launch contents). The item's number plays no part: each output array belongs to one region. -/
def outsOf (o4 : (c : Dev nD) → Buf (Elt F) ((c : Thread nD τ).loc main_v34)) (o6 : (c : Dev nD) → Buf (Elt F) ((c : Thread nD τ).loc main_v36))
    (o8 : (c : Dev nD) → Buf (Elt F) ((c : Thread nD τ).loc main_v38)) : Outs (F := F) :=
  fun _ r c => if h4 : r = main_v34 then h4 ▸ o4 c else if h6 : r = main_v36 then h6 ▸ o6 c else if h8 : r = main_v38 then h8 ▸ o8 c
    else m ((c : Thread nD τ).loc r)

section Outs
variable (o4 : (c : Dev nD) → Buf (Elt F) ((c : Thread nD τ).loc main_v34)) (o6 : (c : Dev nD) → Buf (Elt F) ((c : Thread nD τ).loc main_v36))
  (o8 : (c : Dev nD) → Buf (Elt F) ((c : Thread nD τ).loc main_v38))

theorem outsOf_v34 (J : ℕ) (c : Dev nD) : outsOf m o4 o6 o8 J main_v34 c = o4 c := by
  unfold outsOf; rw [dif_pos rfl]
theorem outsOf_v36 (J : ℕ) (c : Dev nD) : outsOf m o4 o6 o8 J main_v36 c = o6 c := by
  unfold outsOf; rw [dif_neg (by decide), dif_pos rfl]
theorem outsOf_v38 (J : ℕ) (c : Dev nD) : outsOf m o4 o6 o8 J main_v38 c = o8 c := by
  unfold outsOf; rw [dif_neg (by decide), dif_neg (by decide), dif_pos rfl]

end Outs

section Run
variable (d0 : (c : Dev nD) → Dat τ (Elt F) Unit ℕ (UR sig nD τ) ℕ cfg0 c) (d1 : (c : Dev nD) → Dat τ (Elt F) Unit ℕ (UR sig nD τ) ℕ cfg1 c)
  (d2 : (c : Dev nD) → Dat τ (Elt F) Unit ℕ (UR sig nD τ) ℕ cfg2 c)
  (o4 : (c : Dev nD) → Buf (Elt F) ((c : Thread nD τ).loc main_v34)) (o6 : (c : Dev nD) → Buf (Elt F) ((c : Thread nD τ).loc main_v36))
  (o8 : (c : Dev nD) → Buf (Elt F) ((c : Thread nD τ).loc main_v38))

theorem hF0_0 (hA : ∀ c w, (d0 c).A w = V3 m c (Pipeline.arrRef spec0 w)) (c : Dev nD) :
    (d0 c).arrAt 0 cfg0.N = V4 m (outsOf m o4 o6 o8) c (Pipeline.arrRef spec0 0) :=
  ((d0 c).arrAt_in 0 (by decide) _).trans ((hA c 0).trans (V4_of m (outsOf m o4 o6 o8) c main_v24 (by decide)).symm)

theorem hF0_1 (hA : ∀ c w, (d0 c).A w = V3 m c (Pipeline.arrRef spec0 w)) (c : Dev nD) :
    (d0 c).arrAt 1 cfg0.N = V4 m (outsOf m o4 o6 o8) c (Pipeline.arrRef spec0 1) :=
  ((d0 c).arrAt_in 1 (by decide) _).trans ((hA c 1).trans (V4_of m (outsOf m o4 o6 o8) c main_v28 (by decide)).symm)

theorem hF0_2 (hA : ∀ c w, (d0 c).A w = V3 m c (Pipeline.arrRef spec0 w)) (c : Dev nD) :
    (d0 c).arrAt 2 cfg0.N = V4 m (outsOf m o4 o6 o8) c (Pipeline.arrRef spec0 2) :=
  ((d0 c).arrAt_in 2 (by decide) _).trans ((hA c 2).trans (V4_of m (outsOf m o4 o6 o8) c main_v22 (by decide)).symm)

theorem hF0_3 (hA : ∀ c w, (d0 c).A w = V3 m c (Pipeline.arrRef spec0 w)) (c : Dev nD) :
    (d0 c).arrAt 3 cfg0.N = V4 m (outsOf m o4 o6 o8) c (Pipeline.arrRef spec0 3) :=
  ((d0 c).arrAt_in 3 (by decide) _).trans ((hA c 3).trans (V4_of m (outsOf m o4 o6 o8) c main_v24 (by decide)).symm)

theorem hF0_4 (hA : ∀ c w, (d0 c).A w = V3 m c (Pipeline.arrRef spec0 w)) (c : Dev nD) :
    (d0 c).arrAt 4 cfg0.N = V4 m (outsOf m o4 o6 o8) c (Pipeline.arrRef spec0 4) :=
  ((d0 c).arrAt_in 4 (by decide) _).trans ((hA c 4).trans (V4_of m (outsOf m o4 o6 o8) c main_v28 (by decide)).symm)

theorem hF0_5 (hA : ∀ c w, (d0 c).A w = V3 m c (Pipeline.arrRef spec0 w)) (c : Dev nD) :
    (d0 c).arrAt 5 cfg0.N = V4 m (outsOf m o4 o6 o8) c (Pipeline.arrRef spec0 5) :=
  ((d0 c).arrAt_in 5 (by decide) _).trans ((hA c 5).trans (V4_of m (outsOf m o4 o6 o8) c main_v22 (by decide)).symm)

theorem hF0_6 (ho : ∀ c, o4 c = (d0 c).arrAt 6 cfg0.N) (c : Dev nD) :
    (d0 c).arrAt 6 cfg0.N = V4 m (outsOf m o4 o6 o8) c (Pipeline.arrRef spec0 6) := by
  show (d0 c).arrAt 6 cfg0.N = V4 m (outsOf m o4 o6 o8) c main_v34
  have h : V4 m (outsOf m o4 o6 o8) c main_v34 = outsOf m o4 o6 o8 4 main_v34 c := Function.update_self _ _ _
  rw [h, outsOf_v34 m o4 o6 o8 4 c, ho c]

/-- Region 0's arrays at its exit: each input array as it was entered (no input is written), the output array at what
    the write-backs leave. -/
theorem hF0 (hA : ∀ c w, (d0 c).A w = V3 m c (Pipeline.arrRef spec0 w)) (ho : ∀ c, o4 c = (d0 c).arrAt 6 cfg0.N) (c : Dev nD) (w : Fin cfg0.W) :
    (d0 c).arrAt w cfg0.N = V4 m (outsOf m o4 o6 o8) c (Pipeline.arrRef spec0 w) := by
  obtain ⟨k, hk⟩ := w
  have h7 : k < 7 := hk
  interval_cases k
  · exact hF0_0 m d0 o4 o6 o8 hA c
  · exact hF0_1 m d0 o4 o6 o8 hA c
  · exact hF0_2 m d0 o4 o6 o8 hA c
  · exact hF0_3 m d0 o4 o6 o8 hA c
  · exact hF0_4 m d0 o4 o6 o8 hA c
  · exact hF0_5 m d0 o4 o6 o8 hA c
  · exact hF0_6 m d0 o4 o6 o8 ho c

/-- Region 0 leaves every buffer that is no array of its windows as it found it. -/
theorem hrest0 (c : Dev nD) (b : Ref sig .tc) (hb : b ∉ Finset.univ.image (Pipeline.arrRef spec0)) :
    V4 m (outsOf m o4 o6 o8) c b = V3 m c b :=
  V4_of m (outsOf m o4 o6 o8) c b fun hmem => hb (by
    rw [List.mem_singleton.mp hmem]; exact Finset.mem_image.mpr ⟨6, Finset.mem_univ _, rfl⟩)

theorem hF1_0 (hA : ∀ c w, (d1 c).A w = V5 m (outsOf m o4 o6 o8) c (Pipeline.arrRef spec1 w)) (c : Dev nD) :
    (d1 c).arrAt 0 cfg1.N = V6 m (outsOf m o4 o6 o8) c (Pipeline.arrRef spec1 0) :=
  ((d1 c).arrAt_in 0 (by decide) _).trans ((hA c 0).trans (V6_of m (outsOf m o4 o6 o8) c main_v29 (by decide)).symm)

theorem hF1_1 (hA : ∀ c w, (d1 c).A w = V5 m (outsOf m o4 o6 o8) c (Pipeline.arrRef spec1 w)) (c : Dev nD) :
    (d1 c).arrAt 1 cfg1.N = V6 m (outsOf m o4 o6 o8) c (Pipeline.arrRef spec1 1) :=
  ((d1 c).arrAt_in 1 (by decide) _).trans ((hA c 1).trans (V6_of m (outsOf m o4 o6 o8) c main_v33 (by decide)).symm)

theorem hF1_2 (hA : ∀ c w, (d1 c).A w = V5 m (outsOf m o4 o6 o8) c (Pipeline.arrRef spec1 w)) (c : Dev nD) :
    (d1 c).arrAt 2 cfg1.N = V6 m (outsOf m o4 o6 o8) c (Pipeline.arrRef spec1 2) :=
  ((d1 c).arrAt_in 2 (by decide) _).trans ((hA c 2).trans (V6_of m (outsOf m o4 o6 o8) c main_v23 (by decide)).symm)

theorem hF1_3 (hA : ∀ c w, (d1 c).A w = V5 m (outsOf m o4 o6 o8) c (Pipeline.arrRef spec1 w)) (c : Dev nD) :
    (d1 c).arrAt 3 cfg1.N = V6 m (outsOf m o4 o6 o8) c (Pipeline.arrRef spec1 3) :=
  ((d1 c).arrAt_in 3 (by decide) _).trans ((hA c 3).trans (V6_of m (outsOf m o4 o6 o8) c main_v24 (by decide)).symm)

theorem hF1_4 (hA : ∀ c w, (d1 c).A w = V5 m (outsOf m o4 o6 o8) c (Pipeline.arrRef spec1 w)) (c : Dev nD) :
    (d1 c).arrAt 4 cfg1.N = V6 m (outsOf m o4 o6 o8) c (Pipeline.arrRef spec1 4) :=
  ((d1 c).arrAt_in 4 (by decide) _).trans ((hA c 4).trans (V6_of m (outsOf m o4 o6 o8) c main_v28 (by decide)).symm)

theorem hF1_5 (hA : ∀ c w, (d1 c).A w = V5 m (outsOf m o4 o6 o8) c (Pipeline.arrRef spec1 w)) (c : Dev nD) :
    (d1 c).arrAt 5 cfg1.N = V6 m (outsOf m o4 o6 o8) c (Pipeline.arrRef spec1 5) :=
  ((d1 c).arrAt_in 5 (by decide) _).trans ((hA c 5).trans (V6_of m (outsOf m o4 o6 o8) c main_v22 (by decide)).symm)

theorem hF1_6 (ho : ∀ c, o6 c = (d1 c).arrAt 6 cfg1.N) (c : Dev nD) :
    (d1 c).arrAt 6 cfg1.N = V6 m (outsOf m o4 o6 o8) c (Pipeline.arrRef spec1 6) := by
  show (d1 c).arrAt 6 cfg1.N = V6 m (outsOf m o4 o6 o8) c main_v36
  have h : V6 m (outsOf m o4 o6 o8) c main_v36 = outsOf m o4 o6 o8 6 main_v36 c := Function.update_self _ _ _
  rw [h, outsOf_v36 m o4 o6 o8 6 c, ho c]

/-- Region 1's arrays at its exit: each input array as it was entered (no input is written), the output array at what
    the write-backs leave. -/
theorem hF1 (hA : ∀ c w, (d1 c).A w = V5 m (outsOf m o4 o6 o8) c (Pipeline.arrRef spec1 w)) (ho : ∀ c, o6 c = (d1 c).arrAt 6 cfg1.N) (c : Dev nD) (w : Fin cfg1.W) :
    (d1 c).arrAt w cfg1.N = V6 m (outsOf m o4 o6 o8) c (Pipeline.arrRef spec1 w) := by
  obtain ⟨k, hk⟩ := w
  have h7 : k < 7 := hk
  interval_cases k
  · exact hF1_0 m d1 o4 o6 o8 hA c
  · exact hF1_1 m d1 o4 o6 o8 hA c
  · exact hF1_2 m d1 o4 o6 o8 hA c
  · exact hF1_3 m d1 o4 o6 o8 hA c
  · exact hF1_4 m d1 o4 o6 o8 hA c
  · exact hF1_5 m d1 o4 o6 o8 hA c
  · exact hF1_6 m d1 o4 o6 o8 ho c

/-- Region 1 leaves every buffer that is no array of its windows as it found it. -/
theorem hrest1 (c : Dev nD) (b : Ref sig .tc) (hb : b ∉ Finset.univ.image (Pipeline.arrRef spec1)) :
    V6 m (outsOf m o4 o6 o8) c b = V5 m (outsOf m o4 o6 o8) c b :=
  V6_of m (outsOf m o4 o6 o8) c b fun hmem => hb (by
    rw [List.mem_singleton.mp hmem]; exact Finset.mem_image.mpr ⟨6, Finset.mem_univ _, rfl⟩)

theorem hF2_0 (hA : ∀ c w, (d2 c).A w = V7 m (outsOf m o4 o6 o8) c (Pipeline.arrRef spec2 w)) (c : Dev nD) :
    (d2 c).arrAt 0 cfg2.N = V8 m (outsOf m o4 o6 o8) c (Pipeline.arrRef spec2 0) :=
  ((d2 c).arrAt_in 0 (by decide) _).trans ((hA c 0).trans (V8_of m (outsOf m o4 o6 o8) c main_v29 (by decide)).symm)

theorem hF2_1 (hA : ∀ c w, (d2 c).A w = V7 m (outsOf m o4 o6 o8) c (Pipeline.arrRef spec2 w)) (c : Dev nD) :
    (d2 c).arrAt 1 cfg2.N = V8 m (outsOf m o4 o6 o8) c (Pipeline.arrRef spec2 1) :=
  ((d2 c).arrAt_in 1 (by decide) _).trans ((hA c 1).trans (V8_of m (outsOf m o4 o6 o8) c main_v33 (by decide)).symm)

theorem hF2_2 (hA : ∀ c w, (d2 c).A w = V7 m (outsOf m o4 o6 o8) c (Pipeline.arrRef spec2 w)) (c : Dev nD) :
    (d2 c).arrAt 2 cfg2.N = V8 m (outsOf m o4 o6 o8) c (Pipeline.arrRef spec2 2) :=
  ((d2 c).arrAt_in 2 (by decide) _).trans ((hA c 2).trans (V8_of m (outsOf m o4 o6 o8) c main_v23 (by decide)).symm)

theorem hF2_3 (hA : ∀ c w, (d2 c).A w = V7 m (outsOf m o4 o6 o8) c (Pipeline.arrRef spec2 w)) (c : Dev nD) :
    (d2 c).arrAt 3 cfg2.N = V8 m (outsOf m o4 o6 o8) c (Pipeline.arrRef spec2 3) :=
  ((d2 c).arrAt_in 3 (by decide) _).trans ((hA c 3).trans (V8_of m (outsOf m o4 o6 o8) c main_v29 (by decide)).symm)

theorem hF2_4 (hA : ∀ c w, (d2 c).A w = V7 m (outsOf m o4 o6 o8) c (Pipeline.arrRef spec2 w)) (c : Dev nD) :
    (d2 c).arrAt 4 cfg2.N = V8 m (outsOf m o4 o6 o8) c (Pipeline.arrRef spec2 4) :=
  ((d2 c).arrAt_in 4 (by decide) _).trans ((hA c 4).trans (V8_of m (outsOf m o4 o6 o8) c main_v33 (by decide)).symm)

theorem hF2_5 (hA : ∀ c w, (d2 c).A w = V7 m (outsOf m o4 o6 o8) c (Pipeline.arrRef spec2 w)) (c : Dev nD) :
    (d2 c).arrAt 5 cfg2.N = V8 m (outsOf m o4 o6 o8) c (Pipeline.arrRef spec2 5) :=
  ((d2 c).arrAt_in 5 (by decide) _).trans ((hA c 5).trans (V8_of m (outsOf m o4 o6 o8) c main_v23 (by decide)).symm)

theorem hF2_6 (ho : ∀ c, o8 c = (d2 c).arrAt 6 cfg2.N) (c : Dev nD) :
    (d2 c).arrAt 6 cfg2.N = V8 m (outsOf m o4 o6 o8) c (Pipeline.arrRef spec2 6) := by
  show (d2 c).arrAt 6 cfg2.N = V8 m (outsOf m o4 o6 o8) c main_v38
  have h : V8 m (outsOf m o4 o6 o8) c main_v38 = outsOf m o4 o6 o8 8 main_v38 c := Function.update_self _ _ _
  rw [h, outsOf_v38 m o4 o6 o8 8 c, ho c]

/-- Region 2's arrays at its exit: each input array as it was entered (no input is written), the output array at what
    the write-backs leave. -/
theorem hF2 (hA : ∀ c w, (d2 c).A w = V7 m (outsOf m o4 o6 o8) c (Pipeline.arrRef spec2 w)) (ho : ∀ c, o8 c = (d2 c).arrAt 6 cfg2.N) (c : Dev nD) (w : Fin cfg2.W) :
    (d2 c).arrAt w cfg2.N = V8 m (outsOf m o4 o6 o8) c (Pipeline.arrRef spec2 w) := by
  obtain ⟨k, hk⟩ := w
  have h7 : k < 7 := hk
  interval_cases k
  · exact hF2_0 m d2 o4 o6 o8 hA c
  · exact hF2_1 m d2 o4 o6 o8 hA c
  · exact hF2_2 m d2 o4 o6 o8 hA c
  · exact hF2_3 m d2 o4 o6 o8 hA c
  · exact hF2_4 m d2 o4 o6 o8 hA c
  · exact hF2_5 m d2 o4 o6 o8 hA c
  · exact hF2_6 m d2 o4 o6 o8 ho c

/-- Region 2 leaves every buffer that is no array of its windows as it found it. -/
theorem hrest2 (c : Dev nD) (b : Ref sig .tc) (hb : b ∉ Finset.univ.image (Pipeline.arrRef spec2)) :
    V8 m (outsOf m o4 o6 o8) c b = V7 m (outsOf m o4 o6 o8) c b :=
  V8_of m (outsOf m o4 o6 o8) c b fun hmem => hb (by
    rw [List.mem_singleton.mp hmem]; exact Finset.mem_image.mpr ⟨6, Finset.mem_univ _, rfl⟩)

end Run

section RunOf
variable (d0 : (c : Dev nD) → Dat τ (Elt F) Unit ℕ (UR sig nD τ) ℕ cfg0 c) (d1 : (c : Dev nD) → Dat τ (Elt F) Unit ℕ (UR sig nD τ) ℕ cfg1 c)
  (d2 : (c : Dev nD) → Dat τ (Elt F) Unit ℕ (UR sig nD τ) ℕ cfg2 c)
  (o4 : (c : Dev nD) → Buf (Elt F) ((c : Thread nD τ).loc main_v34)) (o6 : (c : Dev nD) → Buf (Elt F) ((c : Thread nD τ).loc main_v36))
  (o8 : (c : Dev nD) → Buf (Elt F) ((c : Thread nD τ).loc main_v38))

set_option backward.isDefEq.respectTransparency.types false in
/-- THE RUN. Given the three regions' proof data — each entered at the contents the items before it leave, its
    shares, nothing owed, its body obligation, its invariant from and back to the class's — and the three output
    arrays' final contents named, every weakly fair execution of the program from memory `m` with zero counters
    terminates, and the final memory holds the result at the last valuation and every argument as launched. -/
theorem run_of
    (hA0 : ∀ c w, (d0 c).A w = V3 m c (Pipeline.arrRef spec0 w)) (hq0 : ∀ c w, (d0 c).q w = qsh0 w)
    (howed0 : ∀ c t, (d0 c).owed t = 0) (hrec0 : ∀ c t, (d0 c).recorded t = Set.univ)
    (hbody0 : ∀ c, BodyObligation (d0 c) (defs₀ (F := F)) Variants.none () Set.univ)
    (hin0 : ∀ c, Pipeline.ΦA spec0 c ⊢ (d0 c).Φ 0) (hout0 : ∀ c, (d0 c).Φ (Fin.last cfg0.N) ⊢ Pipeline.ΦA spec0 c)
    (ho4 : ∀ c, o4 c = (d0 c).arrAt 6 cfg0.N)
    (hA1 : ∀ c w, (d1 c).A w = V5 m (outsOf m o4 o6 o8) c (Pipeline.arrRef spec1 w)) (hq1 : ∀ c w, (d1 c).q w = fullShare)
    (howed1 : ∀ c t, (d1 c).owed t = 0) (hrec1 : ∀ c t, (d1 c).recorded t = Set.univ)
    (hbody1 : ∀ c, BodyObligation (d1 c) (defs₀ (F := F)) Variants.none () Set.univ)
    (hin1 : ∀ c, Pipeline.ΦA spec1 c ⊢ (d1 c).Φ 0) (hout1 : ∀ c, (d1 c).Φ (Fin.last cfg1.N) ⊢ Pipeline.ΦA spec1 c)
    (ho6 : ∀ c, o6 c = (d1 c).arrAt 6 cfg1.N)
    (hA2 : ∀ c w, (d2 c).A w = V7 m (outsOf m o4 o6 o8) c (Pipeline.arrRef spec2 w)) (hq2 : ∀ c w, (d2 c).q w = qsh2 w)
    (howed2 : ∀ c t, (d2 c).owed t = 0) (hrec2 : ∀ c t, (d2 c).recorded t = Set.univ)
    (hbody2 : ∀ c, BodyObligation (d2 c) (defs₀ (F := F)) Variants.none () Set.univ)
    (hin2 : ∀ c, Pipeline.ΦA spec2 c ⊢ (d2 c).Φ 0) (hout2 : ∀ c, (d2 c).Φ (Fin.last cfg2.N) ⊢ Pipeline.ΦA spec2 c)
    (ho8 : ∀ c, o8 c = (d2 c).arrAt 6 cfg2.N) :
    θ_run defs (onTc (τ := τ) (main (F := F))) ⟨m, fun _ => 0, ρ⟩ (fun r => ∀ c : Dev nD,
      r.2.mem ((c.tc : Thread nD τ).loc main_v48) = V9 m (outsOf m o4 o6 o8) c main_v48
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_cond m (emb₁ (Ix := Unit) (Name := ℕ) (Lvl := ℕ)) () Variants.none Lz lvz (fun _ _ => rfl) ρ (outsOf m o4 o6 o8) (pdats d0 d1 d2)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ => Rr)
    (hE0 := Pipeline.initEach Lz lvz fun c => by
      iintro ⟨⟨-, HO, -, Hp, -⟩, -⟩
      imodintro
      isplitl [Hp]; · iexists _; iexact Hp
      iexists ∅; iexact HO)
    (hE3 := fun c => by iintro ⟨-, HO⟩; iexact HO)
    (R0 := reg0 d0 d1 d2 (V3 m) (V4 m (outsOf m o4 o6 o8)) hA0 hq0 howed0 hrec0 hbody0 hin0 hout0
      (hF0 m d0 o4 o6 o8 hA0 ho4) (hrest0 m o4 o6 o8))
    (hpre0 := fun c => .rfl) (hpost0 := fun c => .rfl)
    (R1 := reg1 d0 d1 d2 (V5 m (outsOf m o4 o6 o8)) (V6 m (outsOf m o4 o6 o8)) hA1 hq1 howed1 hrec1 hbody1 hin1 hout1
      (hF1 m d1 o4 o6 o8 hA1 ho6) (hrest1 m o4 o6 o8))
    (hpre1 := fun c => .rfl) (hpost1 := fun c => .rfl)
    (R2 := reg2 d0 d1 d2 (V7 m (outsOf m o4 o6 o8)) (V8 m (outsOf m o4 o6 o8)) hA2 hq2 howed2 hrec2 hbody2 hin2 hout2
      (hF2 m d2 o4 o6 o8 hA2 ho8) (hrest2 m o4 o6 o8))
    (hpre2 := fun c => .rfl) (hpost2 := fun c => .rfl)

end RunOf

end Cert.KernelIdeal.GenR

end
-- ==== Proof.Reg0.Runs.lean ====
/-
  What the case runs of the predicted × predicted pair-sum kernel share.

  The kernel runs on the grid (image b, tile j) of 32 × 5 points; point t has b = t / 5 and j = t % 5. Its body
  has two conditionals on j: at the first tile (j = 0) the carried accumulator is reset to zero before use, at the
  last tile (j = 4) the accumulator is copied to the output block. Here: the two conditions in closed form, where
  the output window is idle and where it is written back, the staging memrefs the body is called with at a point,
  each window's block of its array, and the region invariant with the accumulator split off.
-/
import proofs.«120005_j50079318672069_1_alg».proof.Proof.Gen.KernelIdeal.Launch
import proofs.«120005_j50079318672069_1_alg».proof.Proof.Gen.KernelIdeal.Skeleton
import proofs.«120005_j50079318672069_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.GenR

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the buffers' contents when the region is entered: the parameter the region's half is stated at
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (where it is not
    fetched its block index has not moved), for any proof data whose array is the entry contents and whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (where it is not
    fetched its block index has not moved), for any proof data whose array is the entry contents and whose body
    leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (where it is not
    fetched its block index has not moved), for any proof data whose array is the entry contents and whose body
    leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (where it is not
    fetched its block index has not moved), for any proof data whose array is the entry contents and whose body
    leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (where it is not
    fetched its block index has not moved), for any proof data whose array is the entry contents and whose body
    leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not (where it is not
    fetched its block index has not moved), for any proof data whose array is the entry contents and whose body
    leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's two conditions -/

/-- The first conditional's condition (the tile is the image's first), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 5). -/
theorem hcond0_0 : ∀ t : Fin cfg0.N, cond0_0 (grid0.coords t) ↔ t.val % 5 = 0 :=
  (by decide +kernel : ∀ t : Fin grid0.N, cond0_0 (grid0.coords t) ↔ t.val % 5 = 0)

/-- The second conditional's condition (the tile is the image's last), from the grid coordinates. -/
abbrev cond0_1 (i : grid0.Coords) : Prop := k0_cond2 i = 1#1
/-- It holds at the points ≡ 4 (mod 5). -/
theorem hcond0_1 : ∀ t : Fin cfg0.N, cond0_1 (grid0.coords t) ↔ t.val % 5 = 4 :=
  (by decide +kernel : ∀ t : Fin grid0.N, cond0_1 (grid0.coords t) ↔ t.val % 5 = 4)

/-! ## Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Off the last tile the body stores nothing into the output window: it is idle there, -/
theorem idleAt0_6 : ∀ t : Fin cfg0.N, ¬cond0_1 (grid0.coords t) → cfg0.idle 6 (grid0.coords t) = true := by decide +kernel
/-- and its block is not written back there. -/
theorem noFlush0_6 : ∀ t : Fin cfg0.N, ¬cond0_1 (grid0.coords t) → (cfg0.win 6).flush t = false := by decide +kernel
/-- At the last tile the output window is live. -/
theorem liveAt0_6 : ∀ t : Fin cfg0.N, cond0_1 (grid0.coords t) → cfg0.idle 6 (grid0.coords t) = false := by decide +kernel

/-! ## The memrefs the body is called with -/

/-- One staging buffer of the output window, through which its contents are stated (the choice does not matter). -/
abbrev VO0_6 : View sig .tc .vmem S1x1x1 .f32 := (Memref.whole cc0_stg6_0 : Memref sig .tc .vmem S1x1x1 .f32).view
abbrev ms0_0 (t : Fin cfg0.N) : Memref sig .tc .vmem S1x1000x2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1000x2 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1000x80 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x200x2 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x200x2 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x200x80 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x1 .f32 := win0_6.stage (cfg0.slots t 6)
abbrev hs0_6 (t : Fin cfg0.N) : (ms0_6 t).IsWhole := hstage0_6 ((cfg0.slots t 6).cast nbuf0_6)
/-- The accumulator: a whole scoped buffer of the kernel's own, passed beside the windows and carried between points. -/
abbrev scM0_0 : Memref sig .tc .vmem S1x1x1 .f32 := Memref.whole cc0_scratch0
/-- The same as a view: what it holds is stated through it. -/
abbrev VS0_0 : View sig .tc .vmem S1x1x1 .f32 := scM0_0.view

/-- The other scoped buffers of the core (the other calls' staging buffers and accumulators), carried unopened. -/
abbrev rest0 (c : Dev nD) : sProp 𝕄 :=
  Pipeline.scopedRestBut (Ix := Unit) (Name := ℕ) (U := UR sig nD τ) (Lvl := ℕ) (Val := Elt F) spec0 c [cc0_scratch0]

/-- The region invariant of the class with the accumulator split off as a memref owned at some contents. -/
theorem PhiA0_eq (c : Dev nD) :
    (Pipeline.ΦA spec0 c : sProp 𝕄)
      = iprop(iprop((∃ d, owns (c : Thread nD τ) scM0_0 fullShare d) ∗ rest0 (F := F) c) ∗ (∃ r, prngReg c r)) := by
  unfold Pipeline.ΦA; rw [scopedRest0_split]; simp only [scM0_0, owns_whole]; try rfl

end Cert.KernelIdeal.GenR

end
-- ==== Proof.Reg0.RunA.lean ====
/-
  The body of the predicted × predicted pair-sum kernel run at the first tile of an image (the accumulator is reset, nothing is copied out): on whole staging memrefs holding the
  six input blocks, the output block's buffer and the accumulator, the body runs to a state with the inputs as they
  were and the stores it made listed per buffer (last first).
-/
import proofs.«120005_j50079318672069_1_alg».proof.Proof.Reg0.Runs

set_option maxRecDepth 16384

noncomputable section

namespace Cert.KernelIdeal.GenR

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in the output block's buffer (`L6`) and in the accumulator (`LS0`), last first, at
    the first tile of an image (the accumulator is reset, nothing is copied out), with the proof that the body runs to the continuation holding them. -/
noncomputable def kernelRun0_A (c : Dev nD) (i : grid0.Coords) (arg2 : Memref sig .tc .vmem S1x1000x2 .f32) (harg2 : arg2.IsWhole) (arg3 : Memref sig .tc .vmem S1x1000x2 .f32) (harg3 : arg3.IsWhole) (arg4 : Memref sig .tc .vmem S1x1000x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : cond0_0 i) (hc1 : ¬cond0_1 i)
    (x2 : Vec F S1x1000x2 .f32) (x3 : Vec F S1x1000x2 .f32) (x4 : Vec F S1x1000x80 .f32) (x5 : Vec F S1x200x2 .f32) (x6 : Vec F S1x200x2 .f32) (x7 : Vec F S1x200x80 .f32) :
    Σ' (L6 : List (View.Piece (Elt F) S1x1x1 .f32)), { LS0 : List (View.Piece (Elt F) S1x1x1 .f32) //
      ∀ (xi6 : Vec F S1x1x1 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi6 ∗ (∃ d, owns (c : Thread nD τ) arg9 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__pairwise_sum_kernel i arg2 harg2 arg3 harg3 arg4 harg4 arg5 harg5 arg6 harg6 arg7 harg7 arg8 harg8 arg9 harg9) K } := by
  refine ⟨[], ?_, fun xi6 E K => ?run⟩
  case run =>
    simp only [cc0__pairwise_sum_kernel_eq_skeleton]; unfold cc0__pairwise_sum_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    iexists _; iexact HS0

end Cert.KernelIdeal.GenR

end
-- ==== Proof.Reg0.RunB.lean ====
/-
  The body of the predicted × predicted pair-sum kernel run at a middle tile (no reset, nothing copied out): on whole staging memrefs holding the
  six input blocks, the output block's buffer and the accumulator, the body runs to a state with the inputs as they
  were and the stores it made listed per buffer (last first).
-/
import proofs.«120005_j50079318672069_1_alg».proof.Proof.Reg0.RunA

set_option maxRecDepth 16384

noncomputable section

namespace Cert.KernelIdeal.GenR

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in the output block's buffer (`L6`) and in the accumulator (`LS0`), last first, at
    a middle tile (no reset, nothing copied out), with the proof that the body runs to the continuation holding them. -/
noncomputable def kernelRun0_B (c : Dev nD) (i : grid0.Coords) (arg2 : Memref sig .tc .vmem S1x1000x2 .f32) (harg2 : arg2.IsWhole) (arg3 : Memref sig .tc .vmem S1x1000x2 .f32) (harg3 : arg3.IsWhole) (arg4 : Memref sig .tc .vmem S1x1000x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : ¬cond0_0 i) (hc1 : ¬cond0_1 i)
    (x2 : Vec F S1x1000x2 .f32) (x3 : Vec F S1x1000x2 .f32) (x4 : Vec F S1x1000x80 .f32) (x5 : Vec F S1x200x2 .f32) (x6 : Vec F S1x200x2 .f32) (x7 : Vec F S1x200x80 .f32) (xs0 : Vec F S1x1x1 .f32) :
    Σ' (L6 : List (View.Piece (Elt F) S1x1x1 .f32)), { LS0 : List (View.Piece (Elt F) S1x1x1 .f32) //
      ∀ (xi6 : Vec F S1x1x1 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi6 ∗ owns (c : Thread nD τ) arg9 fullShare xs0
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__pairwise_sum_kernel i arg2 harg2 arg3 harg3 arg4 harg4 arg5 harg5 arg6 harg6 arg7 harg7 arg8 harg8 arg9 harg9) K } := by
  refine ⟨[], ?_, fun xi6 E K => ?run⟩
  case run =>
    simp only [cc0__pairwise_sum_kernel_eq_skeleton]; unfold cc0__pairwise_sum_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hfs0
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    iexists _; iexact HS0

end Cert.KernelIdeal.GenR

end
-- ==== Proof.Reg0.RunC.lean ====
/-
  The body of the predicted × predicted pair-sum kernel run at the last tile of an image (no reset, the accumulator is copied to the output block): on whole staging memrefs holding the
  six input blocks, the output block's buffer and the accumulator, the body runs to a state with the inputs as they
  were and the stores it made listed per buffer (last first).
-/
import proofs.«120005_j50079318672069_1_alg».proof.Proof.Reg0.RunB

set_option maxRecDepth 16384

noncomputable section

namespace Cert.KernelIdeal.GenR

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in the output block's buffer (`L6`) and in the accumulator (`LS0`), last first, at
    the last tile of an image (no reset, the accumulator is copied to the output block), with the proof that the body runs to the continuation holding them. -/
noncomputable def kernelRun0_C (c : Dev nD) (i : grid0.Coords) (arg2 : Memref sig .tc .vmem S1x1000x2 .f32) (harg2 : arg2.IsWhole) (arg3 : Memref sig .tc .vmem S1x1000x2 .f32) (harg3 : arg3.IsWhole) (arg4 : Memref sig .tc .vmem S1x1000x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : ¬cond0_0 i) (hc1 : cond0_1 i)
    (x2 : Vec F S1x1000x2 .f32) (x3 : Vec F S1x1000x2 .f32) (x4 : Vec F S1x1000x80 .f32) (x5 : Vec F S1x200x2 .f32) (x6 : Vec F S1x200x2 .f32) (x7 : Vec F S1x200x80 .f32) (xs0 : Vec F S1x1x1 .f32) :
    Σ' (L6 : List (View.Piece (Elt F) S1x1x1 .f32)), { LS0 : List (View.Piece (Elt F) S1x1x1 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg9 fullShare xs0
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0__pairwise_sum_kernel i arg2 harg2 arg3 harg3 arg4 harg4 arg5 harg5 arg6 harg6 arg7 harg7 arg8 harg8 arg9 harg9) K } := by
  refine ⟨?_, ?_, fun E K => ?run⟩
  case run =>
    simp only [cc0__pairwise_sum_kernel_eq_skeleton]; unfold cc0__pairwise_sum_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hfs0
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    iexists _; iexact HS0

end Cert.KernelIdeal.GenR

end
-- ==== Proof.Reg0.lean ====
/-
  The predicted × predicted pair-sum kernel, below its region record, at any entry contents `V` of the core's buffers.

  Per case of the body's two conditionals (first tile, middle tile, last tile) what the run's stores leave in the
  accumulator and in the output block's buffer; these point by point along the grid (`outsAt0`: the accumulator
  after point t is the case's stores over what point t − 1 left, except at a first tile where it is reset first);
  the region invariant that carries the accumulator at the previous point's contents; the proof data; the body
  obligation; and the value equations: the accumulator after a point is one step (`step0`: the kernel's
  arithmetic on the six input blocks, added to the accumulator) from zero at a first tile and from the previous
  point's accumulator elsewhere, and at a last tile the output block's buffer holds the accumulator.
-/
import proofs.«120005_j50079318672069_1_alg».proof.Proof.Reg0.RunC

set_option maxRecDepth 16384

noncomputable section

namespace Cert.KernelIdeal.GenR

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the output block's buffer and in the accumulator -/

/-- What the case's stores leave in the output block's buffer, read back (no store: a placeholder nothing consults, the window being idle and not written back there). -/
def out0_A_6 (c : Dev nD) (i : grid0.Coords) (arg2 : Memref sig .tc .vmem S1x1000x2 .f32) (harg2 : arg2.IsWhole) (arg3 : Memref sig .tc .vmem S1x1000x2 .f32) (harg3 : arg3.IsWhole) (arg4 : Memref sig .tc .vmem S1x1000x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : cond0_0 i) (hc1 : ¬cond0_1 i)
    (x2 : Vec F S1x1000x2 .f32) (x3 : Vec F S1x1000x2 .f32) (x4 : Vec F S1x1000x80 .f32) (x5 : Vec F S1x200x2 .f32) (x6 : Vec F S1x200x2 .f32) (x7 : Vec F S1x200x80 .f32) : Vec F S1x1x1 .f32 :=
  VO0_6.read (Elt F) (VO0_6.writes (Elt F) VO0_6.junk (kernelRun0_A c i arg2 harg2 arg3 harg3 arg4 harg4 arg5 harg5 arg6 harg6 arg7 harg7 arg8 harg8 arg9 harg9 hc0 hc1 x2 x3 x4 x5 x6 x7).1)

/-- The case's stores into the accumulator cover it. -/
theorem scover0_A_0 (c : Dev nD) (i : grid0.Coords) (arg2 : Memref sig .tc .vmem S1x1000x2 .f32) (harg2 : arg2.IsWhole) (arg3 : Memref sig .tc .vmem S1x1000x2 .f32) (harg3 : arg3.IsWhole) (arg4 : Memref sig .tc .vmem S1x1000x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : cond0_0 i) (hc1 : ¬cond0_1 i)
    (x2 : Vec F S1x1000x2 .f32) (x3 : Vec F S1x1000x2 .f32) (x4 : Vec F S1x1000x80 .f32) (x5 : Vec F S1x200x2 .f32) (x6 : Vec F S1x200x2 .f32) (x7 : Vec F S1x200x80 .f32) (y : S1x1x1.Idx) :
    ∃ pc ∈ (kernelRun0_A c i arg2 harg2 arg3 harg3 arg4 harg4 arg5 harg5 arg6 harg6 arg7 harg7 arg8 harg8 arg9 harg9 hc0 hc1 x2 x3 x4 x5 x6 x7).2.1, y ∈ pc.1.set :=
  View.cover_of_tiledL (kernelRun0_A c i arg2 harg2 arg3 harg3 arg4 harg4 arg5 harg5 arg6 harg6 arg7 harg7 arg8 harg8 arg9 harg9 hc0 hc1 x2 x3 x4 x5 x6 x7).2.1 S1x1x1.size (by sl_kernel_rfl) y

/-- What the case leaves in the accumulator: its stores read back. -/
def sout0_A_0 (c : Dev nD) (i : grid0.Coords) (arg2 : Memref sig .tc .vmem S1x1000x2 .f32) (harg2 : arg2.IsWhole) (arg3 : Memref sig .tc .vmem S1x1000x2 .f32) (harg3 : arg3.IsWhole) (arg4 : Memref sig .tc .vmem S1x1000x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : cond0_0 i) (hc1 : ¬cond0_1 i)
    (x2 : Vec F S1x1000x2 .f32) (x3 : Vec F S1x1000x2 .f32) (x4 : Vec F S1x1000x80 .f32) (x5 : Vec F S1x200x2 .f32) (x6 : Vec F S1x200x2 .f32) (x7 : Vec F S1x200x80 .f32) : Vec F S1x1x1 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x2 x3 x4 x5 x6 x7).2.1)

/-- What the case's stores leave in the output block's buffer, read back (no store: a placeholder nothing consults, the window being idle and not written back there). -/
def out0_B_6 (c : Dev nD) (i : grid0.Coords) (arg2 : Memref sig .tc .vmem S1x1000x2 .f32) (harg2 : arg2.IsWhole) (arg3 : Memref sig .tc .vmem S1x1000x2 .f32) (harg3 : arg3.IsWhole) (arg4 : Memref sig .tc .vmem S1x1000x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : ¬cond0_0 i) (hc1 : ¬cond0_1 i)
    (x2 : Vec F S1x1000x2 .f32) (x3 : Vec F S1x1000x2 .f32) (x4 : Vec F S1x1000x80 .f32) (x5 : Vec F S1x200x2 .f32) (x6 : Vec F S1x200x2 .f32) (x7 : Vec F S1x200x80 .f32) (xs0 : Vec F S1x1x1 .f32) : Vec F S1x1x1 .f32 :=
  VO0_6.read (Elt F) (VO0_6.writes (Elt F) VO0_6.junk (kernelRun0_B c i arg2 harg2 arg3 harg3 arg4 harg4 arg5 harg5 arg6 harg6 arg7 harg7 arg8 harg8 arg9 harg9 hc0 hc1 x2 x3 x4 x5 x6 x7 xs0).1)

/-- The case's stores into the accumulator cover it. -/
theorem scover0_B_0 (c : Dev nD) (i : grid0.Coords) (arg2 : Memref sig .tc .vmem S1x1000x2 .f32) (harg2 : arg2.IsWhole) (arg3 : Memref sig .tc .vmem S1x1000x2 .f32) (harg3 : arg3.IsWhole) (arg4 : Memref sig .tc .vmem S1x1000x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : ¬cond0_0 i) (hc1 : ¬cond0_1 i)
    (x2 : Vec F S1x1000x2 .f32) (x3 : Vec F S1x1000x2 .f32) (x4 : Vec F S1x1000x80 .f32) (x5 : Vec F S1x200x2 .f32) (x6 : Vec F S1x200x2 .f32) (x7 : Vec F S1x200x80 .f32) (xs0 : Vec F S1x1x1 .f32) (y : S1x1x1.Idx) :
    ∃ pc ∈ (kernelRun0_B c i arg2 harg2 arg3 harg3 arg4 harg4 arg5 harg5 arg6 harg6 arg7 harg7 arg8 harg8 arg9 harg9 hc0 hc1 x2 x3 x4 x5 x6 x7 xs0).2.1, y ∈ pc.1.set :=
  View.cover_of_tiledL (kernelRun0_B c i arg2 harg2 arg3 harg3 arg4 harg4 arg5 harg5 arg6 harg6 arg7 harg7 arg8 harg8 arg9 harg9 hc0 hc1 x2 x3 x4 x5 x6 x7 xs0).2.1 S1x1x1.size (by sl_kernel_rfl) y

/-- What the case leaves in the accumulator: its stores read back. -/
def sout0_B_0 (c : Dev nD) (i : grid0.Coords) (arg2 : Memref sig .tc .vmem S1x1000x2 .f32) (harg2 : arg2.IsWhole) (arg3 : Memref sig .tc .vmem S1x1000x2 .f32) (harg3 : arg3.IsWhole) (arg4 : Memref sig .tc .vmem S1x1000x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : ¬cond0_0 i) (hc1 : ¬cond0_1 i)
    (x2 : Vec F S1x1000x2 .f32) (x3 : Vec F S1x1000x2 .f32) (x4 : Vec F S1x1000x80 .f32) (x5 : Vec F S1x200x2 .f32) (x6 : Vec F S1x200x2 .f32) (x7 : Vec F S1x200x80 .f32) (xs0 : Vec F S1x1x1 .f32) : Vec F S1x1x1 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x2 x3 x4 x5 x6 x7 xs0).2.1)

/-- At a last tile the stores into the output block's buffer cover it. -/
theorem cover0_C_6 (c : Dev nD) (i : grid0.Coords) (arg2 : Memref sig .tc .vmem S1x1000x2 .f32) (harg2 : arg2.IsWhole) (arg3 : Memref sig .tc .vmem S1x1000x2 .f32) (harg3 : arg3.IsWhole) (arg4 : Memref sig .tc .vmem S1x1000x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : ¬cond0_0 i) (hc1 : cond0_1 i)
    (x2 : Vec F S1x1000x2 .f32) (x3 : Vec F S1x1000x2 .f32) (x4 : Vec F S1x1000x80 .f32) (x5 : Vec F S1x200x2 .f32) (x6 : Vec F S1x200x2 .f32) (x7 : Vec F S1x200x80 .f32) (xs0 : Vec F S1x1x1 .f32) (y : S1x1x1.Idx) :
    ∃ pc ∈ (kernelRun0_C c i arg2 harg2 arg3 harg3 arg4 harg4 arg5 harg5 arg6 harg6 arg7 harg7 arg8 harg8 arg9 harg9 hc0 hc1 x2 x3 x4 x5 x6 x7 xs0).1, y ∈ pc.1.set :=
  View.cover_of_tiledL (kernelRun0_C c i arg2 harg2 arg3 harg3 arg4 harg4 arg5 harg5 arg6 harg6 arg7 harg7 arg8 harg8 arg9 harg9 hc0 hc1 x2 x3 x4 x5 x6 x7 xs0).1 S1x1x1.size (by sl_kernel_rfl) y

/-- What the case's stores leave in the output block's buffer, read back. -/
def out0_C_6 (c : Dev nD) (i : grid0.Coords) (arg2 : Memref sig .tc .vmem S1x1000x2 .f32) (harg2 : arg2.IsWhole) (arg3 : Memref sig .tc .vmem S1x1000x2 .f32) (harg3 : arg3.IsWhole) (arg4 : Memref sig .tc .vmem S1x1000x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : ¬cond0_0 i) (hc1 : cond0_1 i)
    (x2 : Vec F S1x1000x2 .f32) (x3 : Vec F S1x1000x2 .f32) (x4 : Vec F S1x1000x80 .f32) (x5 : Vec F S1x200x2 .f32) (x6 : Vec F S1x200x2 .f32) (x7 : Vec F S1x200x80 .f32) (xs0 : Vec F S1x1x1 .f32) : Vec F S1x1x1 .f32 :=
  VO0_6.read (Elt F) (VO0_6.writes (Elt F) VO0_6.junk (kernelRun0_C c i arg2 harg2 arg3 harg3 arg4 harg4 arg5 harg5 arg6 harg6 arg7 harg7 arg8 harg8 arg9 harg9 hc0 hc1 x2 x3 x4 x5 x6 x7 xs0).1)

/-- The case's stores into the accumulator cover it. -/
theorem scover0_C_0 (c : Dev nD) (i : grid0.Coords) (arg2 : Memref sig .tc .vmem S1x1000x2 .f32) (harg2 : arg2.IsWhole) (arg3 : Memref sig .tc .vmem S1x1000x2 .f32) (harg3 : arg3.IsWhole) (arg4 : Memref sig .tc .vmem S1x1000x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : ¬cond0_0 i) (hc1 : cond0_1 i)
    (x2 : Vec F S1x1000x2 .f32) (x3 : Vec F S1x1000x2 .f32) (x4 : Vec F S1x1000x80 .f32) (x5 : Vec F S1x200x2 .f32) (x6 : Vec F S1x200x2 .f32) (x7 : Vec F S1x200x80 .f32) (xs0 : Vec F S1x1x1 .f32) (y : S1x1x1.Idx) :
    ∃ pc ∈ (kernelRun0_C c i arg2 harg2 arg3 harg3 arg4 harg4 arg5 harg5 arg6 harg6 arg7 harg7 arg8 harg8 arg9 harg9 hc0 hc1 x2 x3 x4 x5 x6 x7 xs0).2.1, y ∈ pc.1.set :=
  View.cover_of_tiledL (kernelRun0_C c i arg2 harg2 arg3 harg3 arg4 harg4 arg5 harg5 arg6 harg6 arg7 harg7 arg8 harg8 arg9 harg9 hc0 hc1 x2 x3 x4 x5 x6 x7 xs0).2.1 S1x1x1.size (by sl_kernel_rfl) y

/-- What the case leaves in the accumulator: its stores read back. -/
def sout0_C_0 (c : Dev nD) (i : grid0.Coords) (arg2 : Memref sig .tc .vmem S1x1000x2 .f32) (harg2 : arg2.IsWhole) (arg3 : Memref sig .tc .vmem S1x1000x2 .f32) (harg3 : arg3.IsWhole) (arg4 : Memref sig .tc .vmem S1x1000x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : ¬cond0_0 i) (hc1 : cond0_1 i)
    (x2 : Vec F S1x1000x2 .f32) (x3 : Vec F S1x1000x2 .f32) (x4 : Vec F S1x1000x80 .f32) (x5 : Vec F S1x200x2 .f32) (x6 : Vec F S1x200x2 .f32) (x7 : Vec F S1x200x80 .f32) (xs0 : Vec F S1x1x1 .f32) : Vec F S1x1x1 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x2 x3 x4 x5 x6 x7 xs0).2.1)

section
variable (V : (c : Dev nD) → (b : Ref sig .tc) → Buf (Elt F) ((c : Thread nD τ).loc b))

/-! ## Point by point -/

/-- THE ACCUMULATION. What the output block's buffer (first component) and the accumulator (second) hold after the
    body at position `n`: the case the closed forms select at `n`, run at the point's memrefs and input blocks, over
    the accumulator that position `n − 1` left (a first tile does not read it). -/
def outsAt0 (c : Dev nD) : (n : ℕ) → n < cfg0.N → Vec F S1x1x1 .f32 × Vec F S1x1x1 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if h0 : (n + 1) % 5 = 0 then
      if h1 : (n + 1) % 5 = 4 then
        False.elim (by omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩))
    else
      if h1 : (n + 1) % 5 = 4 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2)

/-- `outsAt0` at a first tile. -/
theorem outsAt0_A (c : Dev nD) (t : Fin cfg0.N) (h0 : t.val % 5 = 0) (h1 : ¬t.val % 5 = 4) :
    outsAt0 V c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)) := by
  obtain ⟨n, hn⟩ := t
  cases n with
  | zero => exact rfl
  | succ n => exact (dif_pos h0).trans ((dif_neg h1).trans rfl)

/-- `outsAt0` at a middle tile: over what the point before left. -/
theorem outsAt0_B (c : Dev nD) (t : Fin cfg0.N) (h0 : ¬t.val % 5 = 0) (h1 : ¬t.val % 5 = 4) :
    outsAt0 V c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a last tile: over what the point before left. -/
theorem outsAt0_C (c : Dev nD) (t : Fin cfg0.N) (h0 : ¬t.val % 5 = 0) (h1 : t.val % 5 = 4) :
    outsAt0 V c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The invariant before position `n`: before the first point the class's (every scoped buffer that is no staging
    buffer at some contents, the generator register at some state); afterwards the same with the accumulator at what
    the point before left in it. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 (F := F) c) ∗ (∃ r, prngReg c r)) := by
  cases n with
  | zero => exact absurd rfl hz
  | succ n => rfl

/-! ## The proof data -/

/-- The shares held of the windows' arrays. -/
def q0 : Fin 7 → PosShare TreeShare := fun | 0 => fullShare.left | 1 => fullShare.left | 2 => fullShare.left | 3 => fullShare.right | 4 => fullShare.right | 5 => fullShare.right | 6 => fullShare | ⟨_ + 7, h⟩ => absurd h (Nat.not_lt.2 (Nat.le_add_left _ _))

/-- The proof data on core `c`: the arrays as the region finds them; after the body at point `t` each input's
    buffer at its block and the output's at `outsAt0`'s first component; the invariant `PhiS0`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
  Φ t := PhiS0 V c t.val (Nat.le_of_lt_succ t.isLt)
  q := q0
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 8000000 in
/-- The body at any point: the inputs' memrefs hold their blocks; the closed forms say which case the point is in,
    so that case's run applies; the invariant hands the body the accumulator at what the point before left (at
    anything before the first point) and takes it back at this point's contents; the output block's buffer is handed
    back untouched off the last tile and at the case's stores on it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  have hN : t.val < 160 := lt_of_lt_of_eq t.isLt (show cfg0.N = 160 from N_0)
  by_cases h0 : t.val % 5 = 0
  · by_cases h1 : t.val % 5 = 4
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [Dat.leavesExact_idle (dat0 V c) 6 t (idleAt0_6 t (fun h => h1 ((hcond0_1 t).mp h))) (noFlush0_6 t (fun h => h1 ((hcond0_1 t).mp h)))]
      rw [outsAt0_A V c t h0 h1]
      unfold sout0_A_0; (try dsimp only)
      by_cases hz : t.val = 0
      ·
        rw [PhiS0_castSucc V c t, PhiS0_zero V c _ _ hz, PhiA0_eq]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      ·
        rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · have hz : t.val ≠ 0 := fun e => h0 (by rw [e])
    by_cases h1 : t.val % 5 = 4
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t ((hcond0_1 t).mpr h1)], after0_6]
      rw [outsAt0_C V c t h0 h1]
      unfold out0_C_6 sout0_C_0; (try dsimp only)
      ·
        rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        iintro ⟨H0, H1, H2, H3, H4, H5, ⟨%e6, H6⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover0_C_6 c _ _ _ _ _ _ _ _ _ _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [Dat.leavesExact_idle (dat0 V c) 6 t (idleAt0_6 t (fun h => h1 ((hcond0_1 t).mp h))) (noFlush0_6 t (fun h => h1 ((hcond0_1 t).mp h)))]
      rw [outsAt0_B V c t h0 h1]
      unfold sout0_B_0; (try dsimp only)
      ·
        rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 160 := N_0; omega)

end

end Cert.KernelIdeal.GenR

end
-- ==== Proof.Reg1.Runs.lean ====
/-
  What the case runs of the ground-truth × predicted pair-sum kernel share.

  The kernel runs on the grid (image b, tile j) of 32 × 5 points; point t has b = t / 5 and j = t % 5. Its body
  has two conditionals on j: at the first tile (j = 0) the carried accumulator is reset to zero before use, at the
  last tile (j = 4) the accumulator is copied to the output block. Here: the two conditions in closed form, where
  the output window is idle and where it is written back, the staging memrefs the body is called with at a point,
  each window's block of its array, and the region invariant with the accumulator split off.
-/
import proofs.«120005_j50079318672069_1_alg».proof.Proof.Gen.KernelIdeal.Launch
import proofs.«120005_j50079318672069_1_alg».proof.Proof.Gen.KernelIdeal.Skeleton
import proofs.«120005_j50079318672069_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.GenR

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the buffers' contents when the region is entered: the parameter the region's half is stated at
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (where it is not
    fetched its block index has not moved), for any proof data whose array is the entry contents and whose body
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (where it is not
    fetched its block index has not moved), for any proof data whose array is the entry contents and whose body
    leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (where it is not
    fetched its block index has not moved), for any proof data whose array is the entry contents and whose body
    leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (where it is not
    fetched its block index has not moved), for any proof data whose array is the entry contents and whose body
    leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (where it is not
    fetched its block index has not moved), for any proof data whose array is the entry contents and whose body
    leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not (where it is not
    fetched its block index has not moved), for any proof data whose array is the entry contents and whose body
    leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's two conditions -/

/-- The first conditional's condition (the tile is the image's first), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 5). -/
theorem hcond1_0 : ∀ t : Fin cfg1.N, cond1_0 (grid1.coords t) ↔ t.val % 5 = 0 :=
  (by decide +kernel : ∀ t : Fin grid1.N, cond1_0 (grid1.coords t) ↔ t.val % 5 = 0)

/-- The second conditional's condition (the tile is the image's last), from the grid coordinates. -/
abbrev cond1_1 (i : grid1.Coords) : Prop := k1_cond2 i = 1#1
/-- It holds at the points ≡ 4 (mod 5). -/
theorem hcond1_1 : ∀ t : Fin cfg1.N, cond1_1 (grid1.coords t) ↔ t.val % 5 = 4 :=
  (by decide +kernel : ∀ t : Fin grid1.N, cond1_1 (grid1.coords t) ↔ t.val % 5 = 4)

/-! ## Where the windows are idle -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Off the last tile the body stores nothing into the output window: it is idle there, -/
theorem idleAt1_6 : ∀ t : Fin cfg1.N, ¬cond1_1 (grid1.coords t) → cfg1.idle 6 (grid1.coords t) = true := by decide +kernel
/-- and its block is not written back there. -/
theorem noFlush1_6 : ∀ t : Fin cfg1.N, ¬cond1_1 (grid1.coords t) → (cfg1.win 6).flush t = false := by decide +kernel
/-- At the last tile the output window is live. -/
theorem liveAt1_6 : ∀ t : Fin cfg1.N, cond1_1 (grid1.coords t) → cfg1.idle 6 (grid1.coords t) = false := by decide +kernel

/-! ## The memrefs the body is called with -/

/-- One staging buffer of the output window, through which its contents are stated (the choice does not matter). -/
abbrev VO1_6 : View sig .tc .vmem S1x1x1 .f32 := (Memref.whole cc1_stg6_0 : Memref sig .tc .vmem S1x1x1 .f32).view
abbrev ms1_0 (t : Fin cfg1.N) : Memref sig .tc .vmem S1x100x2 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x100x2 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x100x80 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x200x2 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x200x2 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x200x80 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1x1 .f32 := win1_6.stage (cfg1.slots t 6)
abbrev hs1_6 (t : Fin cfg1.N) : (ms1_6 t).IsWhole := hstage1_6 ((cfg1.slots t 6).cast nbuf1_6)
/-- The accumulator: a whole scoped buffer of the kernel's own, passed beside the windows and carried between points. -/
abbrev scM1_0 : Memref sig .tc .vmem S1x1x1 .f32 := Memref.whole cc1_scratch0
/-- The same as a view: what it holds is stated through it. -/
abbrev VS1_0 : View sig .tc .vmem S1x1x1 .f32 := scM1_0.view

/-- The other scoped buffers of the core (the other calls' staging buffers and accumulators), carried unopened. -/
abbrev rest1 (c : Dev nD) : sProp 𝕄 :=
  Pipeline.scopedRestBut (Ix := Unit) (Name := ℕ) (U := UR sig nD τ) (Lvl := ℕ) (Val := Elt F) spec1 c [cc1_scratch0]

/-- The region invariant of the class with the accumulator split off as a memref owned at some contents. -/
theorem PhiA1_eq (c : Dev nD) :
    (Pipeline.ΦA spec1 c : sProp 𝕄)
      = iprop(iprop((∃ d, owns (c : Thread nD τ) scM1_0 fullShare d) ∗ rest1 (F := F) c) ∗ (∃ r, prngReg c r)) := by
  unfold Pipeline.ΦA; rw [scopedRest1_split]; simp only [scM1_0, owns_whole]; try rfl

end Cert.KernelIdeal.GenR

end
-- ==== Proof.Reg1.RunA.lean ====
/-
  The body of the ground-truth × predicted pair-sum kernel run at the first tile of an image (the accumulator is reset, nothing is copied out): on whole staging memrefs holding the
  six input blocks, the output block's buffer and the accumulator, the body runs to a state with the inputs as they
  were and the stores it made listed per buffer (last first).
-/
import proofs.«120005_j50079318672069_1_alg».proof.Proof.Reg1.Runs

set_option maxRecDepth 16384

noncomputable section

namespace Cert.KernelIdeal.GenR

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in the output block's buffer (`L6`) and in the accumulator (`LS0`), last first, at
    the first tile of an image (the accumulator is reset, nothing is copied out), with the proof that the body runs to the continuation holding them. -/
noncomputable def kernelRun1_A (c : Dev nD) (i : grid1.Coords) (arg2 : Memref sig .tc .vmem S1x100x2 .f32) (harg2 : arg2.IsWhole) (arg3 : Memref sig .tc .vmem S1x100x2 .f32) (harg3 : arg3.IsWhole) (arg4 : Memref sig .tc .vmem S1x100x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : cond1_0 i) (hc1 : ¬cond1_1 i)
    (x2 : Vec F S1x100x2 .f32) (x3 : Vec F S1x100x2 .f32) (x4 : Vec F S1x100x80 .f32) (x5 : Vec F S1x200x2 .f32) (x6 : Vec F S1x200x2 .f32) (x7 : Vec F S1x200x80 .f32) :
    Σ' (L6 : List (View.Piece (Elt F) S1x1x1 .f32)), { LS0 : List (View.Piece (Elt F) S1x1x1 .f32) //
      ∀ (xi6 : Vec F S1x1x1 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi6 ∗ (∃ d, owns (c : Thread nD τ) arg9 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__pairwise_sum_kernel i arg2 harg2 arg3 harg3 arg4 harg4 arg5 harg5 arg6 harg6 arg7 harg7 arg8 harg8 arg9 harg9) K } := by
  refine ⟨[], ?_, fun xi6 E K => ?run⟩
  case run =>
    simp only [cc1__pairwise_sum_kernel_eq_skeleton]; unfold cc1__pairwise_sum_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    iexists _; iexact HS0

end Cert.KernelIdeal.GenR

end
-- ==== Proof.Reg1.RunB.lean ====
/-
  The body of the ground-truth × predicted pair-sum kernel run at a middle tile (no reset, nothing copied out): on whole staging memrefs holding the
  six input blocks, the output block's buffer and the accumulator, the body runs to a state with the inputs as they
  were and the stores it made listed per buffer (last first).
-/
import proofs.«120005_j50079318672069_1_alg».proof.Proof.Reg1.RunA

set_option maxRecDepth 16384

noncomputable section

namespace Cert.KernelIdeal.GenR

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in the output block's buffer (`L6`) and in the accumulator (`LS0`), last first, at
    a middle tile (no reset, nothing copied out), with the proof that the body runs to the continuation holding them. -/
noncomputable def kernelRun1_B (c : Dev nD) (i : grid1.Coords) (arg2 : Memref sig .tc .vmem S1x100x2 .f32) (harg2 : arg2.IsWhole) (arg3 : Memref sig .tc .vmem S1x100x2 .f32) (harg3 : arg3.IsWhole) (arg4 : Memref sig .tc .vmem S1x100x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : ¬cond1_1 i)
    (x2 : Vec F S1x100x2 .f32) (x3 : Vec F S1x100x2 .f32) (x4 : Vec F S1x100x80 .f32) (x5 : Vec F S1x200x2 .f32) (x6 : Vec F S1x200x2 .f32) (x7 : Vec F S1x200x80 .f32) (xs0 : Vec F S1x1x1 .f32) :
    Σ' (L6 : List (View.Piece (Elt F) S1x1x1 .f32)), { LS0 : List (View.Piece (Elt F) S1x1x1 .f32) //
      ∀ (xi6 : Vec F S1x1x1 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi6 ∗ owns (c : Thread nD τ) arg9 fullShare xs0
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__pairwise_sum_kernel i arg2 harg2 arg3 harg3 arg4 harg4 arg5 harg5 arg6 harg6 arg7 harg7 arg8 harg8 arg9 harg9) K } := by
  refine ⟨[], ?_, fun xi6 E K => ?run⟩
  case run =>
    simp only [cc1__pairwise_sum_kernel_eq_skeleton]; unfold cc1__pairwise_sum_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hfs0
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    iexists _; iexact HS0

end Cert.KernelIdeal.GenR

end
-- ==== Proof.Reg1.RunC.lean ====
/-
  The body of the ground-truth × predicted pair-sum kernel run at the last tile of an image (no reset, the accumulator is copied to the output block): on whole staging memrefs holding the
  six input blocks, the output block's buffer and the accumulator, the body runs to a state with the inputs as they
  were and the stores it made listed per buffer (last first).
-/
import proofs.«120005_j50079318672069_1_alg».proof.Proof.Reg1.RunB

set_option maxRecDepth 16384

noncomputable section

namespace Cert.KernelIdeal.GenR

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in the output block's buffer (`L6`) and in the accumulator (`LS0`), last first, at
    the last tile of an image (no reset, the accumulator is copied to the output block), with the proof that the body runs to the continuation holding them. -/
noncomputable def kernelRun1_C (c : Dev nD) (i : grid1.Coords) (arg2 : Memref sig .tc .vmem S1x100x2 .f32) (harg2 : arg2.IsWhole) (arg3 : Memref sig .tc .vmem S1x100x2 .f32) (harg3 : arg3.IsWhole) (arg4 : Memref sig .tc .vmem S1x100x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : cond1_1 i)
    (x2 : Vec F S1x100x2 .f32) (x3 : Vec F S1x100x2 .f32) (x4 : Vec F S1x100x80 .f32) (x5 : Vec F S1x200x2 .f32) (x6 : Vec F S1x200x2 .f32) (x7 : Vec F S1x200x80 .f32) (xs0 : Vec F S1x1x1 .f32) :
    Σ' (L6 : List (View.Piece (Elt F) S1x1x1 .f32)), { LS0 : List (View.Piece (Elt F) S1x1x1 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg9 fullShare xs0
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc1__pairwise_sum_kernel i arg2 harg2 arg3 harg3 arg4 harg4 arg5 harg5 arg6 harg6 arg7 harg7 arg8 harg8 arg9 harg9) K } := by
  refine ⟨?_, ?_, fun E K => ?run⟩
  case run =>
    simp only [cc1__pairwise_sum_kernel_eq_skeleton]; unfold cc1__pairwise_sum_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hfs0
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    iexists _; iexact HS0

end Cert.KernelIdeal.GenR

end
-- ==== Proof.Reg1.lean ====
/-
  The ground-truth × predicted pair-sum kernel, below its region record, at any entry contents `V` of the core's buffers.

  Per case of the body's two conditionals (first tile, middle tile, last tile) what the run's stores leave in the
  accumulator and in the output block's buffer; these point by point along the grid (`outsAt1`: the accumulator
  after point t is the case's stores over what point t − 1 left, except at a first tile where it is reset first);
  the region invariant that carries the accumulator at the previous point's contents; the proof data; the body
  obligation; and the value equations: the accumulator after a point is one step (`step1`: the kernel's
  arithmetic on the six input blocks, added to the accumulator) from zero at a first tile and from the previous
  point's accumulator elsewhere, and at a last tile the output block's buffer holds the accumulator.
-/
import proofs.«120005_j50079318672069_1_alg».proof.Proof.Reg1.RunC

set_option maxRecDepth 16384

noncomputable section

namespace Cert.KernelIdeal.GenR

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the output block's buffer and in the accumulator -/

/-- What the case's stores leave in the output block's buffer, read back (no store: a placeholder nothing consults, the window being idle and not written back there). -/
def out1_A_6 (c : Dev nD) (i : grid1.Coords) (arg2 : Memref sig .tc .vmem S1x100x2 .f32) (harg2 : arg2.IsWhole) (arg3 : Memref sig .tc .vmem S1x100x2 .f32) (harg3 : arg3.IsWhole) (arg4 : Memref sig .tc .vmem S1x100x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : cond1_0 i) (hc1 : ¬cond1_1 i)
    (x2 : Vec F S1x100x2 .f32) (x3 : Vec F S1x100x2 .f32) (x4 : Vec F S1x100x80 .f32) (x5 : Vec F S1x200x2 .f32) (x6 : Vec F S1x200x2 .f32) (x7 : Vec F S1x200x80 .f32) : Vec F S1x1x1 .f32 :=
  VO1_6.read (Elt F) (VO1_6.writes (Elt F) VO1_6.junk (kernelRun1_A c i arg2 harg2 arg3 harg3 arg4 harg4 arg5 harg5 arg6 harg6 arg7 harg7 arg8 harg8 arg9 harg9 hc0 hc1 x2 x3 x4 x5 x6 x7).1)

/-- The case's stores into the accumulator cover it. -/
theorem scover1_A_0 (c : Dev nD) (i : grid1.Coords) (arg2 : Memref sig .tc .vmem S1x100x2 .f32) (harg2 : arg2.IsWhole) (arg3 : Memref sig .tc .vmem S1x100x2 .f32) (harg3 : arg3.IsWhole) (arg4 : Memref sig .tc .vmem S1x100x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : cond1_0 i) (hc1 : ¬cond1_1 i)
    (x2 : Vec F S1x100x2 .f32) (x3 : Vec F S1x100x2 .f32) (x4 : Vec F S1x100x80 .f32) (x5 : Vec F S1x200x2 .f32) (x6 : Vec F S1x200x2 .f32) (x7 : Vec F S1x200x80 .f32) (y : S1x1x1.Idx) :
    ∃ pc ∈ (kernelRun1_A c i arg2 harg2 arg3 harg3 arg4 harg4 arg5 harg5 arg6 harg6 arg7 harg7 arg8 harg8 arg9 harg9 hc0 hc1 x2 x3 x4 x5 x6 x7).2.1, y ∈ pc.1.set :=
  View.cover_of_tiledL (kernelRun1_A c i arg2 harg2 arg3 harg3 arg4 harg4 arg5 harg5 arg6 harg6 arg7 harg7 arg8 harg8 arg9 harg9 hc0 hc1 x2 x3 x4 x5 x6 x7).2.1 S1x1x1.size (by sl_kernel_rfl) y

/-- What the case leaves in the accumulator: its stores read back. -/
def sout1_A_0 (c : Dev nD) (i : grid1.Coords) (arg2 : Memref sig .tc .vmem S1x100x2 .f32) (harg2 : arg2.IsWhole) (arg3 : Memref sig .tc .vmem S1x100x2 .f32) (harg3 : arg3.IsWhole) (arg4 : Memref sig .tc .vmem S1x100x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : cond1_0 i) (hc1 : ¬cond1_1 i)
    (x2 : Vec F S1x100x2 .f32) (x3 : Vec F S1x100x2 .f32) (x4 : Vec F S1x100x80 .f32) (x5 : Vec F S1x200x2 .f32) (x6 : Vec F S1x200x2 .f32) (x7 : Vec F S1x200x80 .f32) : Vec F S1x1x1 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x2 x3 x4 x5 x6 x7).2.1)

/-- What the case's stores leave in the output block's buffer, read back (no store: a placeholder nothing consults, the window being idle and not written back there). -/
def out1_B_6 (c : Dev nD) (i : grid1.Coords) (arg2 : Memref sig .tc .vmem S1x100x2 .f32) (harg2 : arg2.IsWhole) (arg3 : Memref sig .tc .vmem S1x100x2 .f32) (harg3 : arg3.IsWhole) (arg4 : Memref sig .tc .vmem S1x100x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : ¬cond1_1 i)
    (x2 : Vec F S1x100x2 .f32) (x3 : Vec F S1x100x2 .f32) (x4 : Vec F S1x100x80 .f32) (x5 : Vec F S1x200x2 .f32) (x6 : Vec F S1x200x2 .f32) (x7 : Vec F S1x200x80 .f32) (xs0 : Vec F S1x1x1 .f32) : Vec F S1x1x1 .f32 :=
  VO1_6.read (Elt F) (VO1_6.writes (Elt F) VO1_6.junk (kernelRun1_B c i arg2 harg2 arg3 harg3 arg4 harg4 arg5 harg5 arg6 harg6 arg7 harg7 arg8 harg8 arg9 harg9 hc0 hc1 x2 x3 x4 x5 x6 x7 xs0).1)

/-- The case's stores into the accumulator cover it. -/
theorem scover1_B_0 (c : Dev nD) (i : grid1.Coords) (arg2 : Memref sig .tc .vmem S1x100x2 .f32) (harg2 : arg2.IsWhole) (arg3 : Memref sig .tc .vmem S1x100x2 .f32) (harg3 : arg3.IsWhole) (arg4 : Memref sig .tc .vmem S1x100x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : ¬cond1_1 i)
    (x2 : Vec F S1x100x2 .f32) (x3 : Vec F S1x100x2 .f32) (x4 : Vec F S1x100x80 .f32) (x5 : Vec F S1x200x2 .f32) (x6 : Vec F S1x200x2 .f32) (x7 : Vec F S1x200x80 .f32) (xs0 : Vec F S1x1x1 .f32) (y : S1x1x1.Idx) :
    ∃ pc ∈ (kernelRun1_B c i arg2 harg2 arg3 harg3 arg4 harg4 arg5 harg5 arg6 harg6 arg7 harg7 arg8 harg8 arg9 harg9 hc0 hc1 x2 x3 x4 x5 x6 x7 xs0).2.1, y ∈ pc.1.set :=
  View.cover_of_tiledL (kernelRun1_B c i arg2 harg2 arg3 harg3 arg4 harg4 arg5 harg5 arg6 harg6 arg7 harg7 arg8 harg8 arg9 harg9 hc0 hc1 x2 x3 x4 x5 x6 x7 xs0).2.1 S1x1x1.size (by sl_kernel_rfl) y

/-- What the case leaves in the accumulator: its stores read back. -/
def sout1_B_0 (c : Dev nD) (i : grid1.Coords) (arg2 : Memref sig .tc .vmem S1x100x2 .f32) (harg2 : arg2.IsWhole) (arg3 : Memref sig .tc .vmem S1x100x2 .f32) (harg3 : arg3.IsWhole) (arg4 : Memref sig .tc .vmem S1x100x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : ¬cond1_1 i)
    (x2 : Vec F S1x100x2 .f32) (x3 : Vec F S1x100x2 .f32) (x4 : Vec F S1x100x80 .f32) (x5 : Vec F S1x200x2 .f32) (x6 : Vec F S1x200x2 .f32) (x7 : Vec F S1x200x80 .f32) (xs0 : Vec F S1x1x1 .f32) : Vec F S1x1x1 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x2 x3 x4 x5 x6 x7 xs0).2.1)

/-- At a last tile the stores into the output block's buffer cover it. -/
theorem cover1_C_6 (c : Dev nD) (i : grid1.Coords) (arg2 : Memref sig .tc .vmem S1x100x2 .f32) (harg2 : arg2.IsWhole) (arg3 : Memref sig .tc .vmem S1x100x2 .f32) (harg3 : arg3.IsWhole) (arg4 : Memref sig .tc .vmem S1x100x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : cond1_1 i)
    (x2 : Vec F S1x100x2 .f32) (x3 : Vec F S1x100x2 .f32) (x4 : Vec F S1x100x80 .f32) (x5 : Vec F S1x200x2 .f32) (x6 : Vec F S1x200x2 .f32) (x7 : Vec F S1x200x80 .f32) (xs0 : Vec F S1x1x1 .f32) (y : S1x1x1.Idx) :
    ∃ pc ∈ (kernelRun1_C c i arg2 harg2 arg3 harg3 arg4 harg4 arg5 harg5 arg6 harg6 arg7 harg7 arg8 harg8 arg9 harg9 hc0 hc1 x2 x3 x4 x5 x6 x7 xs0).1, y ∈ pc.1.set :=
  View.cover_of_tiledL (kernelRun1_C c i arg2 harg2 arg3 harg3 arg4 harg4 arg5 harg5 arg6 harg6 arg7 harg7 arg8 harg8 arg9 harg9 hc0 hc1 x2 x3 x4 x5 x6 x7 xs0).1 S1x1x1.size (by sl_kernel_rfl) y

/-- What the case's stores leave in the output block's buffer, read back. -/
def out1_C_6 (c : Dev nD) (i : grid1.Coords) (arg2 : Memref sig .tc .vmem S1x100x2 .f32) (harg2 : arg2.IsWhole) (arg3 : Memref sig .tc .vmem S1x100x2 .f32) (harg3 : arg3.IsWhole) (arg4 : Memref sig .tc .vmem S1x100x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : cond1_1 i)
    (x2 : Vec F S1x100x2 .f32) (x3 : Vec F S1x100x2 .f32) (x4 : Vec F S1x100x80 .f32) (x5 : Vec F S1x200x2 .f32) (x6 : Vec F S1x200x2 .f32) (x7 : Vec F S1x200x80 .f32) (xs0 : Vec F S1x1x1 .f32) : Vec F S1x1x1 .f32 :=
  VO1_6.read (Elt F) (VO1_6.writes (Elt F) VO1_6.junk (kernelRun1_C c i arg2 harg2 arg3 harg3 arg4 harg4 arg5 harg5 arg6 harg6 arg7 harg7 arg8 harg8 arg9 harg9 hc0 hc1 x2 x3 x4 x5 x6 x7 xs0).1)

/-- The case's stores into the accumulator cover it. -/
theorem scover1_C_0 (c : Dev nD) (i : grid1.Coords) (arg2 : Memref sig .tc .vmem S1x100x2 .f32) (harg2 : arg2.IsWhole) (arg3 : Memref sig .tc .vmem S1x100x2 .f32) (harg3 : arg3.IsWhole) (arg4 : Memref sig .tc .vmem S1x100x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : cond1_1 i)
    (x2 : Vec F S1x100x2 .f32) (x3 : Vec F S1x100x2 .f32) (x4 : Vec F S1x100x80 .f32) (x5 : Vec F S1x200x2 .f32) (x6 : Vec F S1x200x2 .f32) (x7 : Vec F S1x200x80 .f32) (xs0 : Vec F S1x1x1 .f32) (y : S1x1x1.Idx) :
    ∃ pc ∈ (kernelRun1_C c i arg2 harg2 arg3 harg3 arg4 harg4 arg5 harg5 arg6 harg6 arg7 harg7 arg8 harg8 arg9 harg9 hc0 hc1 x2 x3 x4 x5 x6 x7 xs0).2.1, y ∈ pc.1.set :=
  View.cover_of_tiledL (kernelRun1_C c i arg2 harg2 arg3 harg3 arg4 harg4 arg5 harg5 arg6 harg6 arg7 harg7 arg8 harg8 arg9 harg9 hc0 hc1 x2 x3 x4 x5 x6 x7 xs0).2.1 S1x1x1.size (by sl_kernel_rfl) y

/-- What the case leaves in the accumulator: its stores read back. -/
def sout1_C_0 (c : Dev nD) (i : grid1.Coords) (arg2 : Memref sig .tc .vmem S1x100x2 .f32) (harg2 : arg2.IsWhole) (arg3 : Memref sig .tc .vmem S1x100x2 .f32) (harg3 : arg3.IsWhole) (arg4 : Memref sig .tc .vmem S1x100x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : cond1_1 i)
    (x2 : Vec F S1x100x2 .f32) (x3 : Vec F S1x100x2 .f32) (x4 : Vec F S1x100x80 .f32) (x5 : Vec F S1x200x2 .f32) (x6 : Vec F S1x200x2 .f32) (x7 : Vec F S1x200x80 .f32) (xs0 : Vec F S1x1x1 .f32) : Vec F S1x1x1 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x2 x3 x4 x5 x6 x7 xs0).2.1)

section
variable (V : (c : Dev nD) → (b : Ref sig .tc) → Buf (Elt F) ((c : Thread nD τ).loc b))

/-! ## Point by point -/

/-- THE ACCUMULATION. What the output block's buffer (first component) and the accumulator (second) hold after the
    body at position `n`: the case the closed forms select at `n`, run at the point's memrefs and input blocks, over
    the accumulator that position `n − 1` left (a first tile does not read it). -/
def outsAt1 (c : Dev nD) : (n : ℕ) → n < cfg1.N → Vec F S1x1x1 .f32 × Vec F S1x1x1 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 5 = 0 then
      if h1 : (n + 1) % 5 = 4 then
        False.elim (by omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 5 = 4 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)
      else
        (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)

/-- `outsAt1` at a first tile. -/
theorem outsAt1_A (c : Dev nD) (t : Fin cfg1.N) (h0 : t.val % 5 = 0) (h1 : ¬t.val % 5 = 4) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

/-- `outsAt1` at a middle tile: over what the point before left. -/
theorem outsAt1_B (c : Dev nD) (t : Fin cfg1.N) (h0 : ¬t.val % 5 = 0) (h1 : ¬t.val % 5 = 4) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last tile: over what the point before left. -/
theorem outsAt1_C (c : Dev nD) (t : Fin cfg1.N) (h0 : ¬t.val % 5 = 0) (h1 : t.val % 5 = 4) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The invariant before position `n`: before the first point the class's (every scoped buffer that is no staging
    buffer at some contents, the generator register at some state); afterwards the same with the accumulator at what
    the point before left in it. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ rest1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ rest1 (F := F) c) ∗ (∃ r, prngReg c r)) := by
  cases n with
  | zero => exact absurd rfl hz
  | succ n => rfl

/-! ## The proof data -/

/-- The shares held of the windows' arrays. -/
def q1 : Fin 7 → PosShare TreeShare := fun _ => fullShare

/-- The proof data on core `c`: the arrays as the region finds them; after the body at point `t` each input's
    buffer at its block and the output's at `outsAt1`'s first component; the invariant `PhiS1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q := q1
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
/-- The body at any point: the inputs' memrefs hold their blocks; the closed forms say which case the point is in,
    so that case's run applies; the invariant hands the body the accumulator at what the point before left (at
    anything before the first point) and takes it back at this point's contents; the output block's buffer is handed
    back untouched off the last tile and at the case's stores on it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 160 := lt_of_lt_of_eq t.isLt (show cfg1.N = 160 from N_1)
  by_cases h0 : t.val % 5 = 0
  · by_cases h1 : t.val % 5 = 4
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6 t (fun h => h1 ((hcond1_1 t).mp h))) (noFlush1_6 t (fun h => h1 ((hcond1_1 t).mp h)))]
      rw [outsAt1_A V c t h0 h1]
      unfold sout1_A_0; (try dsimp only)
      by_cases hz : t.val = 0
      ·
        rw [PhiS1_castSucc V c t, PhiS1_zero V c _ _ hz, PhiA1_eq]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      ·
        rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · have hz : t.val ≠ 0 := fun e => h0 (by rw [e])
    by_cases h1 : t.val % 5 = 4
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t ((hcond1_1 t).mpr h1)], after1_6]
      rw [outsAt1_C V c t h0 h1]
      unfold out1_C_6 sout1_C_0; (try dsimp only)
      ·
        rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        iintro ⟨H0, H1, H2, H3, H4, H5, ⟨%e6, H6⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover1_C_6 c _ _ _ _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6 t (fun h => h1 ((hcond1_1 t).mp h))) (noFlush1_6 t (fun h => h1 ((hcond1_1 t).mp h)))]
      rw [outsAt1_B V c t h0 h1]
      unfold sout1_B_0; (try dsimp only)
      ·
        rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 160 := N_1; omega)

end

end Cert.KernelIdeal.GenR

end
-- ==== Proof.Reg2.Runs.lean ====
/-
  The ground-truth × ground-truth pair sums (the third kernel region; its grid is 32 images by one tile):
  what the run of its body and the region's proof data share. The body has two conditionals on the tile
  coordinate `j`: "`j` is the first tile" (the scratch accumulator is reset to zero) and "`j` is the last
  tile" (the accumulator is copied to the output block). With one tile per image both hold at every grid
  point. Also: every window is live at every point, the staging memrefs of the seven windows at a point,
  the scratch accumulator as a memref, and the region's invariant with the accumulator's buffer named.
-/
import proofs.«120005_j50079318672069_1_alg».proof.Proof.Gen.KernelIdeal.Launch
import proofs.«120005_j50079318672069_1_alg».proof.Proof.Gen.KernelIdeal.Skeleton
import proofs.«120005_j50079318672069_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.GenR

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]

local notation "𝕄" => MT nD τ sig Unit (Elt F) ℕ (UR sig nD τ) ℕ

/-! ## The body's two conditions -/

/-- "The tile is the image's first": the condition under which the body resets the accumulator, as the body
    computes it from the tile coordinate. -/
abbrev cond2_0 (i : grid2.Coords) : Prop := (Scalar.cmpi .ne (Scalar.extui (Scalar.cmpi .eq (BitVec.ofNat 32 (i 1).val) 0#32)) 0#32) = 1#1
/-- It holds at every point: an image has one tile. -/
theorem hcond2_0 : ∀ t : Fin cfg2.N, cond2_0 (grid2.coords t) :=
  (by decide +kernel : ∀ t : Fin grid2.N, cond2_0 (grid2.coords t))

/-- "The tile is the image's last": the condition under which the body copies the accumulator out. -/
abbrev cond2_1 (i : grid2.Coords) : Prop := k2_cond2 i = 1#1
/-- It holds at every point. -/
theorem hcond2_1 : ∀ t : Fin cfg2.N, cond2_1 (grid2.coords t) :=
  (by decide +kernel : ∀ t : Fin grid2.N, cond2_1 (grid2.coords t))

/-! ## Every window is live at every point -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
/-- The output block is stored into at every point (every tile is a last tile). -/
theorem liveAt2_6 : ∀ t : Fin cfg2.N, cfg2.idle 6 (grid2.coords t) = false := by decide +kernel

/-! ## The memrefs the body is called with -/

/-- One staging buffer of the output window, through which its contents are stated (the choice does not matter). -/
abbrev VO2_6 : View sig .tc .vmem S1x1x1 .f32 := (Memref.whole cc2_stg6_0 : Memref sig .tc .vmem S1x1x1 .f32).view
/-- Each window's current staging memref at point `t`, and its wholeness. -/
abbrev ms2_0 (t : Fin cfg2.N) : Memref sig .tc .vmem S1x100x2 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x100x2 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x100x80 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x100x2 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x100x2 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x100x80 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x1x1 .f32 := win2_6.stage (cfg2.slots t 6)
abbrev hs2_6 (t : Fin cfg2.N) : (ms2_6 t).IsWhole := hstage2_6 ((cfg2.slots t 6).cast nbuf2_6)
/-- The scratch accumulator: a whole scoped buffer of the kernel's own, passed beside the windows. -/
abbrev scM2_0 : Memref sig .tc .vmem S1x1x1 .f32 := Memref.whole cc2_scratch0
/-- The same as a view: what the accumulator holds is stated through it. -/
abbrev VS2_0 : View sig .tc .vmem S1x1x1 .f32 := scM2_0.view

/-- The region's invariant with the accumulator's buffer as a memref owned at some contents, the core's other scoped
    buffers unopened, and the generator register at some state. -/
theorem PhiA2_eq (c : Dev nD) :
    (Pipeline.ΦA spec2 c : sProp 𝕄)
      = iprop(iprop(iprop((∃ d, owns (c : Thread nD τ) scM2_0 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

end Cert.KernelIdeal.GenR

end
-- ==== Proof.Reg2.RunD.lean ====
/-
  The ground-truth × ground-truth pair sums: the run of the kernel body at a grid point, in its one control
  case (the tile is both the image's first and its last): on whole staging memrefs, the six inputs' at given
  contents and the output's and the scratch accumulator's at anything, the body runs to the continuation with
  the inputs' as they were and the output's and the accumulator's each with the body's stores written into it.
  The stores (the pieces, last first) are what the run finds.
-/
import proofs.«120005_j50079318672069_1_alg».proof.Proof.Reg2.Runs

set_option maxRecDepth 16384

noncomputable section

namespace Cert.KernelIdeal.GenR

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]

local notation "𝕄" => MT nD τ sig Unit (Elt F) ℕ (UR sig nD τ) ℕ

-- (the run's proof term is large: the definition's epilogue walks it past the default budget)
set_option maxHeartbeats 1000000 in
/-- The body's run in the one control case: both conditionals taken. -/
noncomputable def kernelRun2_D (c : Dev nD) (i : grid2.Coords) (arg2 : Memref sig .tc .vmem S1x100x2 .f32) (harg2 : arg2.IsWhole) (arg3 : Memref sig .tc .vmem S1x100x2 .f32) (harg3 : arg3.IsWhole) (arg4 : Memref sig .tc .vmem S1x100x80 .f32) (harg4 : arg4.IsWhole) (arg5 : Memref sig .tc .vmem S1x100x2 .f32) (harg5 : arg5.IsWhole) (arg6 : Memref sig .tc .vmem S1x100x2 .f32) (harg6 : arg6.IsWhole) (arg7 : Memref sig .tc .vmem S1x100x80 .f32) (harg7 : arg7.IsWhole) (arg8 : Memref sig .tc .vmem S1x1x1 .f32) (harg8 : arg8.IsWhole) (arg9 : Memref sig .tc .vmem S1x1x1 .f32) (harg9 : arg9.IsWhole) (hc0 : cond2_0 i) (hc1 : cond2_1 i)
    (x0 : Vec F S1x100x2 .f32) (x1 : Vec F S1x100x2 .f32) (x2 : Vec F S1x100x80 .f32) (x3 : Vec F S1x100x2 .f32) (x4 : Vec F S1x100x2 .f32) (x5 : Vec F S1x100x80 .f32) :
    Σ' (L6 : List (View.Piece (Elt F) S1x1x1 .f32)), { LS0 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc2__pairwise_sum_kernel i arg2 harg2 arg3 harg3 arg4 harg4 arg5 harg5 arg6 harg6 arg7 harg7 arg8 harg8 arg9 harg9) K } := by
  refine ⟨?_, ?_, fun E K => ?run⟩
  case run =>
    simp only [cc2__pairwise_sum_kernel_eq_skeleton]; unfold cc2__pairwise_sum_kernel_skel
    simp only [k2_part1_eq_skeleton, k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.GenR

end
-- ==== Proof.Reg2.lean ====
/-
  The ground-truth × ground-truth pair sums (the third kernel region), at the buffers' contents `V` when the
  region is entered: each window's block at a grid point; what the body leaves in the output block's staging
  buffer and in the scratch accumulator at each point; the region's proof data — the six input windows at a
  half share each of their arrays (windows `w` and `w + 3` read one array), the output at the full share;
  the body obligation; the invariant's entry and exit; and the value equations: at every point the body resets
  the accumulator, adds the point's pair sum to it, and copies it to the output block.
-/
import proofs.«120005_j50079318672069_1_alg».proof.Proof.Reg2.RunD
import Idealize.ShloMosaic.Lib.Pipeline.Value

set_option maxRecDepth 16384

noncomputable section

namespace Cert.KernelIdeal.GenR

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, for any proof data whose array is
    `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## What the body leaves in the output block and in the accumulator -/

/-- The body's stores into the output block's staging buffer cover it. -/
theorem cover2_D_6 (c : Dev nD) (i : grid2.Coords) (arg2 : Memref sig .tc .vmem S1x100x2 .f32) (harg2 : arg2.IsWhole) (arg3 : Memref sig .tc .vmem S1x100x2 .f32) (harg3 : arg3.IsWhole) (arg4 : Memref sig .tc .vmem S1x100x80 .f32) (harg4 : arg4.IsWhole) (arg5 : Memref sig .tc .vmem S1x100x2 .f32) (harg5 : arg5.IsWhole) (arg6 : Memref sig .tc .vmem S1x100x2 .f32) (harg6 : arg6.IsWhole) (arg7 : Memref sig .tc .vmem S1x100x80 .f32) (harg7 : arg7.IsWhole) (arg8 : Memref sig .tc .vmem S1x1x1 .f32) (harg8 : arg8.IsWhole) (arg9 : Memref sig .tc .vmem S1x1x1 .f32) (harg9 : arg9.IsWhole) (hc0 : cond2_0 i) (hc1 : cond2_1 i)
    (x0 : Vec F S1x100x2 .f32) (x1 : Vec F S1x100x2 .f32) (x2 : Vec F S1x100x80 .f32) (x3 : Vec F S1x100x2 .f32) (x4 : Vec F S1x100x2 .f32) (x5 : Vec F S1x100x80 .f32) (y : S1x1x1.Idx) :
    ∃ pc ∈ (kernelRun2_D c i arg2 harg2 arg3 harg3 arg4 harg4 arg5 harg5 arg6 harg6 arg7 harg7 arg8 harg8 arg9 harg9 hc0 hc1 x0 x1 x2 x3 x4 x5).1, y ∈ pc.1.set :=
  View.cover_of_tiledL (kernelRun2_D c i arg2 harg2 arg3 harg3 arg4 harg4 arg5 harg5 arg6 harg6 arg7 harg7 arg8 harg8 arg9 harg9 hc0 hc1 x0 x1 x2 x3 x4 x5).1 S1x1x1.size (by sl_kernel_rfl) y

/-- What the body leaves in the output block's staging buffer: its stores read back. -/
def out2_D_6 (c : Dev nD) (i : grid2.Coords) (arg2 : Memref sig .tc .vmem S1x100x2 .f32) (harg2 : arg2.IsWhole) (arg3 : Memref sig .tc .vmem S1x100x2 .f32) (harg3 : arg3.IsWhole) (arg4 : Memref sig .tc .vmem S1x100x80 .f32) (harg4 : arg4.IsWhole) (arg5 : Memref sig .tc .vmem S1x100x2 .f32) (harg5 : arg5.IsWhole) (arg6 : Memref sig .tc .vmem S1x100x2 .f32) (harg6 : arg6.IsWhole) (arg7 : Memref sig .tc .vmem S1x100x80 .f32) (harg7 : arg7.IsWhole) (arg8 : Memref sig .tc .vmem S1x1x1 .f32) (harg8 : arg8.IsWhole) (arg9 : Memref sig .tc .vmem S1x1x1 .f32) (harg9 : arg9.IsWhole) (hc0 : cond2_0 i) (hc1 : cond2_1 i)
    (x0 : Vec F S1x100x2 .f32) (x1 : Vec F S1x100x2 .f32) (x2 : Vec F S1x100x80 .f32) (x3 : Vec F S1x100x2 .f32) (x4 : Vec F S1x100x2 .f32) (x5 : Vec F S1x100x80 .f32) : Vec F S1x1x1 .f32 :=
  VO2_6.read (Elt F) (VO2_6.writes (Elt F) VO2_6.junk (kernelRun2_D c i arg2 harg2 arg3 harg3 arg4 harg4 arg5 harg5 arg6 harg6 arg7 harg7 arg8 harg8 arg9 harg9 hc0 hc1 x0 x1 x2 x3 x4 x5).1)

/-- The body's stores into the accumulator cover it. -/
theorem scover2_D_0 (c : Dev nD) (i : grid2.Coords) (arg2 : Memref sig .tc .vmem S1x100x2 .f32) (harg2 : arg2.IsWhole) (arg3 : Memref sig .tc .vmem S1x100x2 .f32) (harg3 : arg3.IsWhole) (arg4 : Memref sig .tc .vmem S1x100x80 .f32) (harg4 : arg4.IsWhole) (arg5 : Memref sig .tc .vmem S1x100x2 .f32) (harg5 : arg5.IsWhole) (arg6 : Memref sig .tc .vmem S1x100x2 .f32) (harg6 : arg6.IsWhole) (arg7 : Memref sig .tc .vmem S1x100x80 .f32) (harg7 : arg7.IsWhole) (arg8 : Memref sig .tc .vmem S1x1x1 .f32) (harg8 : arg8.IsWhole) (arg9 : Memref sig .tc .vmem S1x1x1 .f32) (harg9 : arg9.IsWhole) (hc0 : cond2_0 i) (hc1 : cond2_1 i)
    (x0 : Vec F S1x100x2 .f32) (x1 : Vec F S1x100x2 .f32) (x2 : Vec F S1x100x80 .f32) (x3 : Vec F S1x100x2 .f32) (x4 : Vec F S1x100x2 .f32) (x5 : Vec F S1x100x80 .f32) (y : S1x1x1.Idx) :
    ∃ pc ∈ (kernelRun2_D c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun2_D c i arg2 harg2 arg3 harg3 arg4 harg4 arg5 harg5 arg6 harg6 arg7 harg7 arg8 harg8 arg9 harg9 hc0 hc1 x0 x1 x2 x3 x4 x5).2.1 S1x1x1.size (by sl_kernel_rfl) y

/-- What the body leaves in the accumulator: its stores read back. -/
def sout2_D_0 (c : Dev nD) (i : grid2.Coords) (arg2 : Memref sig .tc .vmem S1x100x2 .f32) (harg2 : arg2.IsWhole) (arg3 : Memref sig .tc .vmem S1x100x2 .f32) (harg3 : arg3.IsWhole) (arg4 : Memref sig .tc .vmem S1x100x80 .f32) (harg4 : arg4.IsWhole) (arg5 : Memref sig .tc .vmem S1x100x2 .f32) (harg5 : arg5.IsWhole) (arg6 : Memref sig .tc .vmem S1x100x2 .f32) (harg6 : arg6.IsWhole) (arg7 : Memref sig .tc .vmem S1x100x80 .f32) (harg7 : arg7.IsWhole) (arg8 : Memref sig .tc .vmem S1x1x1 .f32) (harg8 : arg8.IsWhole) (arg9 : Memref sig .tc .vmem S1x1x1 .f32) (harg9 : arg9.IsWhole) (hc0 : cond2_0 i) (hc1 : cond2_1 i)
    (x0 : Vec F S1x100x2 .f32) (x1 : Vec F S1x100x2 .f32) (x2 : Vec F S1x100x80 .f32) (x3 : Vec F S1x100x2 .f32) (x4 : Vec F S1x100x2 .f32) (x5 : Vec F S1x100x80 .f32) : Vec F S1x1x1 .f32 :=
  VS2_0.read (Elt F) (VS2_0.writes (Elt F) VS2_0.junk (kernelRun2_D c i arg2 harg2 arg3 harg3 arg4 harg4 arg5 harg5 arg6 harg6 arg7 harg7 arg8 harg8 arg9 harg9 hc0 hc1 x0 x1 x2 x3 x4 x5).2.1)

/-- What the output block's staging buffer (first component) and the accumulator (second) hold after the body
    at position `n`: the body run at the point's memrefs and input blocks. Every point resets the accumulator,
    so nothing is taken from the point before. -/
def outsAt2 (c : Dev nD) (n : ℕ) (hn : n < cfg2.N) : Vec F S1x1x1 .f32 × Vec F S1x1x1 .f32 :=
  (out2_D_6 c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) (ms2_3 ⟨n, hn⟩) (hs2_3 ⟨n, hn⟩) (ms2_4 ⟨n, hn⟩) (hs2_4 ⟨n, hn⟩) (ms2_5 ⟨n, hn⟩) (hs2_5 ⟨n, hn⟩) (ms2_6 ⟨n, hn⟩) (hs2_6 ⟨n, hn⟩) scM2_0 (Memref.isWhole_whole _) (hcond2_0 ⟨n, hn⟩) (hcond2_1 ⟨n, hn⟩) (iblk2 V c 0 ⟨n, hn⟩) (iblk2 V c 1 ⟨n, hn⟩) (iblk2 V c 2 ⟨n, hn⟩) (iblk2 V c 3 ⟨n, hn⟩) (iblk2 V c 4 ⟨n, hn⟩) (iblk2 V c 5 ⟨n, hn⟩), sout2_D_0 c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) (ms2_3 ⟨n, hn⟩) (hs2_3 ⟨n, hn⟩) (ms2_4 ⟨n, hn⟩) (hs2_4 ⟨n, hn⟩) (ms2_5 ⟨n, hn⟩) (hs2_5 ⟨n, hn⟩) (ms2_6 ⟨n, hn⟩) (hs2_6 ⟨n, hn⟩) scM2_0 (Memref.isWhole_whole _) (hcond2_0 ⟨n, hn⟩) (hcond2_1 ⟨n, hn⟩) (iblk2 V c 0 ⟨n, hn⟩) (iblk2 V c 1 ⟨n, hn⟩) (iblk2 V c 2 ⟨n, hn⟩) (iblk2 V c 3 ⟨n, hn⟩) (iblk2 V c 4 ⟨n, hn⟩) (iblk2 V c 5 ⟨n, hn⟩))

theorem outsAt2_D (c : Dev nD) (t : Fin cfg2.N) :
    outsAt2 V c t.val t.isLt = (out2_D_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (hcond2_0 t) (hcond2_1 t) (iblk2 V c 0 t) (iblk2 V c 1 t) (iblk2 V c 2 t) (iblk2 V c 3 t) (iblk2 V c 4 t) (iblk2 V c 5 t), sout2_D_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (hcond2_0 t) (hcond2_1 t) (iblk2 V c 0 t) (iblk2 V c 1 t) (iblk2 V c 2 t) (iblk2 V c 3 t) (iblk2 V c 4 t) (iblk2 V c 5 t)) := rfl

/-! ## The invariant -/

/-- The region's invariant before position `n`: before the first point the accumulator at anything; afterwards at
    what the point before left in it; the core's other scoped buffers and the generator register at anything. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2) ∗ Pipeline.scopedRestBut (Ix := Unit) (Name := ℕ) (U := UR sig nD τ) (Lvl := ℕ) (Val := Elt F) spec2 c [cc2_scratch0]) ∗ (∃ r, prngReg c r)))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare ((outsAt2 V c n hn).2) ∗ Pipeline.scopedRestBut (Ix := Unit) (Name := ℕ) (U := UR sig nD τ) (Lvl := ℕ) (Val := Elt F) spec2 c [cc2_scratch0]) ∗ (∃ r, prngReg c r))) := rfl

theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2) ∗ Pipeline.scopedRestBut (Ix := Unit) (Name := ℕ) (U := UR sig nD τ) (Lvl := ℕ) (Val := Elt F) spec2 c [cc2_scratch0]) ∗ (∃ r, prngReg c r))) := by
  cases n with
  | zero => exact absurd rfl hz
  | succ n => rfl

/-! ## The proof data -/

/-- The shares of the windows' arrays: windows `w` and `w + 3` read one array, each at a half; the output's array whole. -/
def q2 : Fin 7 → PosShare TreeShare
  | ⟨0, _⟩ => fullShare.left
  | ⟨1, _⟩ => fullShare.left
  | ⟨2, _⟩ => fullShare.left
  | ⟨3, _⟩ => fullShare.right
  | ⟨4, _⟩ => fullShare.right
  | ⟨5, _⟩ => fullShare.right
  | ⟨6, _⟩ => fullShare

/-- The region's proof data on core `c`: the arrays as the region finds them; after the body at point `t` each
    input's buffer at its block and the output's at `outsAt2`; the invariant `PhiS2`; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
  Φ t := PhiS2 V c t.val (Nat.le_of_lt_succ t.isLt)
  q := q2
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in
/-- The body at any point: the inputs' memrefs hold their blocks, so the run applies; the invariant hands the body the
    accumulator (at anything, or at what the point before left, which the reset overwrites) and takes it back at this
    point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  rw [show (dat2 V c).leavesExact 6 t = owns (c : Thread nD τ) (ms2_6 t) fullShare ((dat2 V c).after 6 t) from by
    unfold Dat.leavesExact; rw [liveAt2_6 t], after2_6]
  rw [outsAt2_D V c t]
  unfold out2_D_6 sout2_D_0; (try dsimp only)
  by_cases hz : t.val = 0
  · rw [PhiS2_castSucc V c t, PhiS2_zero V c _ _ hz, PhiA2_eq]
    iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun2_D c (grid2.coords t) _ _ _ _ _ _ _ _ _ _ _ _ _ _ _ _ (hcond2_0 t) (hcond2_1 t) (iblk2 V c 0 t) (iblk2 V c 1 t) (iblk2 V c 2 t) (iblk2 V c 3 t) (iblk2 V c 4 t) (iblk2 V c 5 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    iintro ⟨H0, H1, H2, H3, H4, H5, ⟨%e6, H6⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover2_D_0 c _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (cover2_D_6 c _ _ _ _ _ _ _ _ _ _ _ _ _ _ _ _ _ _ _ _ _ _ _ _ _)
  · rw [PhiS2_castSucc V c t, PhiS2_pos V c _ _ hz]
    iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun2_D c (grid2.coords t) _ _ _ _ _ _ _ _ _ _ _ _ _ _ _ _ (hcond2_0 t) (hcond2_1 t) (iblk2 V c 0 t) (iblk2 V c 1 t) (iblk2 V c 2 t) (iblk2 V c 3 t) (iblk2 V c 4 t) (iblk2 V c 5 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexists _; iexact HS0
    iintro ⟨H0, H1, H2, H3, H4, H5, ⟨%e6, H6⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover2_D_0 c _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (cover2_D_6 c _ _ _ _ _ _ _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives the launch's back: the accumulator's contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hrest⟩, Hg⟩
  isplitl [HS0 Hrest]
  · isplitl [HS0]
    · iexists _; iexact HS0
    iexact Hrest
  iexact Hg

/-- The same after the last point. -/
theorem hout2 (c : Dev nD) : (dat2 V c).Φ (Fin.last cfg2.N) ⊢ Pipeline.ΦA spec2 c :=
  Phi_out2 V c _ (by rw [Fin.val_last]; have : cfg2.N = 32 := N_2; omega)

/-! ## The value equations -/

theorem hzero2 : (![0, 0, 0] : Fin 3 → Nat) = fun _ => 0 := funext fun a => by fin_cases a <;> rfl

/-- One point's step of the accumulation as a function of the six input blocks and the accumulator it adds to: the
    accumulator plus the sum, over all pairs of a box of the first set and a box of the second, of the matrix product of the
    two class-weight blocks at the pair times the exponential of half the pairwise term computed from the centres and variances. -/
abbrev step2 (x2 x3 : Vec F S1x100x2 .f32) (x4 : Vec F S1x100x80 .f32) (x5 x6 : Vec F S1x100x2 .f32) (x7 : Vec F S1x100x80 .f32)
    (acc : Vec F S1x1x1 .f32) : FVec F S1x1x1 .f32 :=
  Gen.k2_pay1 (Gen.k2_pay5 x4) (Gen.k2_pay8 x7)
    (Gen.k2_pay23 (Gen.k2_pay9 x2) (Gen.k2_pay10 x2) (Gen.k2_pay11 x3) (Gen.k2_pay12 x3) (Gen.k2_pay13 x5) (Gen.k2_pay14 x5)
      (Gen.k2_pay15 x6) (Gen.k2_pay16 x6) (Gen.k2_pay17 x3) (Gen.k2_pay18 x3) (Gen.k2_pay19 x6) (Gen.k2_pay20 x6)
      (Gen.k2_pay21 x6) (Gen.k2_pay22 x6))
    Gen.k2_pay24 acc

/-- The body leaves in the accumulator one step from the zero block: its last store's value, whose accumulator operand
    is the read-back of the reset's store. -/
theorem sout2_D_0_eq (c : Dev nD) (i : grid2.Coords) (arg2 : Memref sig .tc .vmem S1x100x2 .f32) (harg2 : arg2.IsWhole) (arg3 : Memref sig .tc .vmem S1x100x2 .f32) (harg3 : arg3.IsWhole) (arg4 : Memref sig .tc .vmem S1x100x80 .f32) (harg4 : arg4.IsWhole) (arg5 : Memref sig .tc .vmem S1x100x2 .f32) (harg5 : arg5.IsWhole) (arg6 : Memref sig .tc .vmem S1x100x2 .f32) (harg6 : arg6.IsWhole) (arg7 : Memref sig .tc .vmem S1x100x80 .f32) (harg7 : arg7.IsWhole) (arg8 : Memref sig .tc .vmem S1x1x1 .f32) (harg8 : arg8.IsWhole) (arg9 : Memref sig .tc .vmem S1x1x1 .f32) (harg9 : arg9.IsWhole) (hc0 : cond2_0 i) (hc1 : cond2_1 i)
    (x0 : Vec F S1x100x2 .f32) (x1 : Vec F S1x100x2 .f32) (x2 : Vec F S1x100x80 .f32) (x3 : Vec F S1x100x2 .f32) (x4 : Vec F S1x100x2 .f32) (x5 : Vec F S1x100x80 .f32) :
    sout2_D_0 c i arg2 harg2 arg3 harg3 arg4 harg4 arg5 harg5 arg6 harg6 arg7 harg7 arg8 harg8 arg9 harg9 hc0 hc1 x0 x1 x2 x3 x4 x5 = step2 x0 x1 x2 x3 x4 x5 Gen.k2_pay2 := by
  unfold sout2_D_0
  rw [View.read_writes_eq_canon _ _ _ (scover2_D_0 c i arg2 harg2 arg3 harg3 arg4 harg4 arg5 harg5 arg6 harg6 arg7 harg7 arg8 harg8 arg9 harg9 hc0 hc1 x0 x1 x2 x3 x4 x5)]
  unfold kernelRun2_D
  dsimp only
  sl_unfold_words
  rw [View.canon_cons_unit_zero (S := S1x1x1) hzero2, View.readCov_unit_zero (S := S1x1x1) _ hzero2]
  simp only [View.readAt_eq_ld, harg2.read_unread, harg3.read_unread, harg4.read_unread, harg5.read_unread, harg6.read_unread, harg7.read_unread, View.ld_unit_zero (S := S1x100x2) hzero2, View.ld_unit_zero (S := S1x100x80) hzero2]

/-- The body leaves in the output block what it leaves in the accumulator: its one store there is the read-back of the
    accumulator after the step's store. -/
theorem out2_D_6_eq (c : Dev nD) (i : grid2.Coords) (arg2 : Memref sig .tc .vmem S1x100x2 .f32) (harg2 : arg2.IsWhole) (arg3 : Memref sig .tc .vmem S1x100x2 .f32) (harg3 : arg3.IsWhole) (arg4 : Memref sig .tc .vmem S1x100x80 .f32) (harg4 : arg4.IsWhole) (arg5 : Memref sig .tc .vmem S1x100x2 .f32) (harg5 : arg5.IsWhole) (arg6 : Memref sig .tc .vmem S1x100x2 .f32) (harg6 : arg6.IsWhole) (arg7 : Memref sig .tc .vmem S1x100x80 .f32) (harg7 : arg7.IsWhole) (arg8 : Memref sig .tc .vmem S1x1x1 .f32) (harg8 : arg8.IsWhole) (arg9 : Memref sig .tc .vmem S1x1x1 .f32) (harg9 : arg9.IsWhole) (hc0 : cond2_0 i) (hc1 : cond2_1 i)
    (x0 : Vec F S1x100x2 .f32) (x1 : Vec F S1x100x2 .f32) (x2 : Vec F S1x100x80 .f32) (x3 : Vec F S1x100x2 .f32) (x4 : Vec F S1x100x2 .f32) (x5 : Vec F S1x100x80 .f32) :
    out2_D_6 c i arg2 harg2 arg3 harg3 arg4 harg4 arg5 harg5 arg6 harg6 arg7 harg7 arg8 harg8 arg9 harg9 hc0 hc1 x0 x1 x2 x3 x4 x5 = sout2_D_0 c i arg2 harg2 arg3 harg3 arg4 harg4 arg5 harg5 arg6 harg6 arg7 harg7 arg8 harg8 arg9 harg9 hc0 hc1 x0 x1 x2 x3 x4 x5 := by
  rw [sout2_D_0_eq]
  unfold out2_D_6
  rw [View.read_writes_eq_canon _ _ _ (cover2_D_6 c i arg2 harg2 arg3 harg3 arg4 harg4 arg5 harg5 arg6 harg6 arg7 harg7 arg8 harg8 arg9 harg9 hc0 hc1 x0 x1 x2 x3 x4 x5)]
  unfold kernelRun2_D
  dsimp only
  sl_unfold_words
  rw [View.canon_unit_zero (S := S1x1x1) hzero2, View.readCov_cons_toLoadRect, View.readCov_unit_zero (S := S1x1x1) _ hzero2]
  simp only [View.readAt_eq_ld, harg2.read_unread, harg3.read_unread, harg4.read_unread, harg5.read_unread, harg6.read_unread, harg7.read_unread, View.ld_unit_zero (S := S1x100x2) hzero2, View.ld_unit_zero (S := S1x100x80) hzero2]

/-- At every point (each is an image's first tile) the accumulator ends at one step from the zero block. -/
theorem scratch_first2 (c : Dev nD) (t : Fin cfg2.N) :
    (outsAt2 V c t.val t.isLt).2 = step2 (iblk2 V c 0 t) (iblk2 V c 1 t) (iblk2 V c 2 t) (iblk2 V c 3 t) (iblk2 V c 4 t) (iblk2 V c 5 t) Gen.k2_pay2 := by
  rw [outsAt2_D V c t]
  exact sout2_D_0_eq (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (hcond2_0 t) (hcond2_1 t) (iblk2 V c 0 t) (iblk2 V c 1 t) (iblk2 V c 2 t) (iblk2 V c 3 t) (iblk2 V c 4 t) (iblk2 V c 5 t)

/-- At every point (each is an image's last tile) the output block ends at the accumulator's contents. -/
theorem out_last2 (c : Dev nD) (t : Fin cfg2.N) :
    (outsAt2 V c t.val t.isLt).1 = (outsAt2 V c t.val t.isLt).2 := by
  rw [outsAt2_D V c t]
  exact out2_D_6_eq (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (hcond2_0 t) (hcond2_1 t) (iblk2 V c 0 t) (iblk2 V c 1 t) (iblk2 V c 2 t) (iblk2 V c 3 t) (iblk2 V c 4 t) (iblk2 V c 5 t)

end Region

end Cert.KernelIdeal.GenR

end
-- ==== Proof.Whole.lean ====
/-
  The program's run, from the three regions' own proof data.

  The first region is entered with the buffers as the host operations before it leave them; what it leaves in its
  output array is named; the second region is entered with that array in place, and so on. The three output arrays'
  final contents are thus defined one after the other, each from the proof data of its region at the contents the
  earlier regions and host operations leave. The run then ends with the result at the last valuation over these three
  arrays, and the frame is the same run with the result forgotten.
-/
import proofs.«120005_j50079318672069_1_alg».proof.Proof.Run
import proofs.«120005_j50079318672069_1_alg».proof.Proof.Reg0
import proofs.«120005_j50079318672069_1_alg».proof.Proof.Reg1
import proofs.«120005_j50079318672069_1_alg».proof.Proof.Reg2
import Mathlib.Tactic.FinCases

noncomputable section

namespace Cert.KernelIdeal.GenR

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

/-- The buffers as the first region finds them. -/
abbrev VA : (c : Dev nD) → (b : Ref sig .tc) → Buf (Elt F) ((c : Thread nD τ).loc b) := fun c b => V3 m c b
/-- What the first region leaves in its output array. -/
def out4 (c : Dev nD) : Buf (Elt F) ((c : Thread nD τ).loc main_v34) := (dat0 (VA m) c).arrAt 6 cfg0.N
/-- The regions' leavings with only the first known. -/
abbrev outs1 : Outs (F := F) := outsOf m (out4 m) (fun c => m ((c : Thread nD τ).loc main_v36)) (fun c => m ((c : Thread nD τ).loc main_v38))
/-- The buffers as the second region finds them. -/
abbrev VB : (c : Dev nD) → (b : Ref sig .tc) → Buf (Elt F) ((c : Thread nD τ).loc b) := fun c b => V5 m (outs1 m) c b
/-- What the second region leaves in its output array. -/
def out6 (c : Dev nD) : Buf (Elt F) ((c : Thread nD τ).loc main_v36) := (dat1 (VB m) c).arrAt 6 cfg1.N
/-- The regions' leavings with the first two known. -/
abbrev outs2 : Outs (F := F) := outsOf m (out4 m) (out6 m) (fun c => m ((c : Thread nD τ).loc main_v38))
/-- The buffers as the third region finds them. -/
abbrev VC : (c : Dev nD) → (b : Ref sig .tc) → Buf (Elt F) ((c : Thread nD τ).loc b) := fun c b => V7 m (outs2 m) c b
/-- What the third region leaves in its output array. -/
def out8 (c : Dev nD) : Buf (Elt F) ((c : Thread nD τ).loc main_v38) := (dat2 (VC m) c).arrAt 6 cfg2.N
/-- What the three regions leave. -/
abbrev outsF : Outs (F := F) := outsOf m (out4 m) (out6 m) (out8 m)

/-- The valuations before the second region read only the first region's output. -/
theorem V5_outsF (c : Dev nD) : V5 m (outsF m) c = V5 m (outs1 m) c := by
  show StableHlo.after hostOps1 (Function.update (V3 m c) (Proc.devRef .tc main_v34) (outsF m 4 main_v34 c))
    = StableHlo.after hostOps1 (Function.update (V3 m c) (Proc.devRef .tc main_v34) (outs1 m 4 main_v34 c))
  rw [show outsF m 4 main_v34 c = out4 m c from outsOf_v34 _ _ _ _ _ _, show outs1 m 4 main_v34 c = out4 m c from outsOf_v34 _ _ _ _ _ _]

/-- The valuations before the third region read only the first two regions' outputs. -/
theorem V7_outsF (c : Dev nD) : V7 m (outsF m) c = V7 m (outs2 m) c := by
  show StableHlo.after hostOps2 (Function.update (StableHlo.after hostOps1 (Function.update (V3 m c) (Proc.devRef .tc main_v34) (outsF m 4 main_v34 c)))
      (Proc.devRef .tc main_v36) (outsF m 6 main_v36 c))
    = StableHlo.after hostOps2 (Function.update (StableHlo.after hostOps1 (Function.update (V3 m c) (Proc.devRef .tc main_v34) (outs2 m 4 main_v34 c)))
      (Proc.devRef .tc main_v36) (outs2 m 6 main_v36 c))
  rw [show outsF m 4 main_v34 c = out4 m c from outsOf_v34 _ _ _ _ _ _, show outs2 m 4 main_v34 c = out4 m c from outsOf_v34 _ _ _ _ _ _,
    show outsF m 6 main_v36 c = out6 m c from outsOf_v36 _ _ _ _ _ _, show outs2 m 6 main_v36 c = out6 m c from outsOf_v36 _ _ _ _ _ _]

/-- The two tables of shares agree. -/
theorem q0_eq : ∀ w : Fin 7, q0 w = qsh0 w := by intro w; fin_cases w <;> rfl
theorem q2_eq : ∀ w : Fin 7, q2 w = qsh2 w := by intro w; fin_cases w <;> rfl

/-- THE RUN of the program: it terminates, nothing faults, the result ends at the last valuation over what the regions
    leave, the arguments as launched. -/
theorem run_main :
    θ_run defs (onTc (τ := τ) (main (F := F))) ⟨m, fun _ => 0, ρ⟩ (fun r => ∀ c : Dev nD,
      r.2.mem ((c.tc : Thread nD τ).loc main_v48) = V9 m (outsF m) c main_v48
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_of m ρ (dat0 (VA m)) (dat1 (VB m)) (dat2 (VC m)) (out4 m) (out6 m) (out8 m)
    (hA0 := fun c w => A_eq0 (VA m) c w) (hq0 := fun _ w => q0_eq w) (howed0 := fun _ _ => rfl) (hrec0 := fun _ _ => rfl)
    (hbody0 := fun c => body_obligation0 (VA m) c) (hin0 := fun c => hin0 (VA m) c) (hout0 := fun c => hout0 (VA m) c)
    (ho4 := fun _ => rfl)
    (hA1 := fun c w => (A_eq1 (VB m) c w).trans (congrFun (V5_outsF m c).symm _)) (hq1 := fun _ _ => rfl) (howed1 := fun _ _ => rfl) (hrec1 := fun _ _ => rfl)
    (hbody1 := fun c => body_obligation1 (VB m) c) (hin1 := fun c => hin1 (VB m) c) (hout1 := fun c => hout1 (VB m) c)
    (ho6 := fun _ => rfl)
    (hA2 := fun c w => (A_eq2 (VC m) c w).trans (congrFun (V7_outsF m c).symm _)) (hq2 := fun _ w => q2_eq w) (howed2 := fun _ _ => rfl) (hrec2 := fun _ _ => rfl)
    (hbody2 := fun c => body_obligation2 (VC m) c) (hin2 := fun c => hin2 (VC m) c) (hout2 := fun c => hout2 (VC m) c)
    (ho8 := fun _ => rfl)

/-- THE FRAME: the run with the result forgotten. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.KernelIdeal.GenR

end
-- ==== Proof.B.Segs.lean ====
/-
  The three kernel regions of the program as segments of its run.

  Between two items of the program a core holds every unscoped buffer whole at known contents, beside its
  generator register at some state and nothing owed. A region takes its windows' arrays out of those buffers at
  the contents it is entered with, runs its pipeline over its proof data, and puts the arrays back: each input
  array as it was, the output array at what the write-backs leave. Where two input windows read ONE array
  (a set of boxes paired with itself) the array is held in two halves of its share, one per window, split on
  entry and joined on exit; both halves hold the entry contents throughout, since no input is written.
-/
import proofs.«120005_j50079318672069_1_alg».proof.Proof.Gen.Kernel.Launch
import proofs.«120005_j50079318672069_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Tactic

noncomputable section

namespace Cert.Kernel.GenR

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- No core owes another anything: no level is assigned. -/
abbrev Lz : GSem nD τ sig → Finset Unit := fun _ => ∅
abbrev lvz : GSem nD τ sig → Unit → ℕ := fun _ _ => 0

/-- What rides beside the buffers through every item: the core's generator register at some state and its dues, at
    nothing. -/
abbrev Rr (c : Dev nD) : sProp 𝕄 := iprop((∃ r, prngReg c r) ∗ ∃ W, owes (c : Thread nD τ) (0 : CellTallies nD τ sig Unit) W)

/-- The three regions' proof data as one family: a literal match, so that the family at a numeral is that
    region's data. -/
def pdats (d0 : (c : Dev nD) → Dat τ (Elt F) Unit ℕ (UR sig nD τ) ℕ cfg0 c) (d1 : (c : Dev nD) → Dat τ (Elt F) Unit ℕ (UR sig nD τ) ℕ cfg1 c)
    (d2 : (c : Dev nD) → Dat τ (Elt F) Unit ℕ (UR sig nD τ) ℕ cfg2 c) :
    (p : Fin 3) → (c : Dev nD) → Dat τ (Elt F) Unit ℕ (UR sig nD τ) ℕ (Pipeline.pin (pcfgs (F := F)) adm p) c
  | ⟨0, _⟩ => fun c => d0 c
  | ⟨1, _⟩ => fun c => d1 c
  | ⟨2, _⟩ => fun c => d2 c

/-- Seven terms under a commutative, associative operation: the fourth, fifth and sixth paired with the first, second and
    third. -/
theorem shuffle7 {α : Type _} (op : α → α → α) [Std.Commutative op] [Std.Associative op] (a0 a1 a2 a3 a4 a5 a6 : α) :
    op a0 (op a1 (op a2 (op a3 (op a4 (op a5 a6))))) = op (op a0 a3) (op (op a1 a4) (op (op a2 a5) a6)) := by
  ac_rfl

/-- The shares region 0 holds its input arrays at: windows `w` and `w + 3` read ONE array, the first through its
    left half, the second through its right half; the output array whole. -/
def qsh0 : Fin 7 → PosShare TreeShare
  | ⟨0, _⟩ => fullShare.left
  | ⟨1, _⟩ => fullShare.left
  | ⟨2, _⟩ => fullShare.left
  | ⟨3, _⟩ => fullShare.right
  | ⟨4, _⟩ => fullShare.right
  | ⟨5, _⟩ => fullShare.right
  | ⟨6, _⟩ => fullShare

/-- The distinct buffers behind region 0's seven windows. -/
theorem img0 : Finset.univ.image (Pipeline.arrRef spec0) = ({main_v24, main_v28, main_v22, main_v34} : Finset (Ref sig .tc)) := by decide

section Shared0
variable (c : Dev nD) (d : Dat τ (Elt F) Unit ℕ (UR sig nD τ) ℕ cfg0 c) (hq : ∀ w, d.q w = qsh0 w)
  (V : (b : Ref sig .tc) → Buf (Elt F) ((c : Thread nD τ).loc b))
  (Fw : (w : Fin cfg0.W) → Buf (Elt F) ((cfg0.win w).arr.view.loc (c : Thread nD τ)))
  (hF : ∀ w, Fw w = V (Pipeline.arrRef spec0 w))

include hq hF in
/-- Region 0's arrays at contents read off `V` are the four buffers behind them, each whole at `V`: an array two
    windows read is the two halves of its share. -/
theorem arrays_eq_arrBufs0 : d.arrays Fw = (Pipeline.arrBufs spec0 c V : sProp 𝕄) := by
  classical
  unfold Pipeline.arrBufs Dat.arrays
  rw [img0, bigSep_W0]
  rw [bigSep_insert (by decide), bigSep_insert (by decide), bigSep_insert (by decide), bigSep_singleton]
  have e : ∀ (w : Fin cfg0.W) (q : PosShare TreeShare), d.share w = q →
      ((View.loc (c : Thread nD τ) (cfg0.win w).arr.view ↦[(cfg0.win w).arr.view.set]{d.share w} Fw w : sProp 𝕄))
        = (((c : Thread nD τ).loc (Pipeline.arrRef spec0 w)) ↦{q} V (Pipeline.arrRef spec0 w)) := fun w q hq' => by
    rw [(arr_whole0 w).set_eq_univ, hF, hq']
  have sL : ∀ w : Fin cfg0.W, (cfg0.win w).isOut = false → d.share w = qsh0 w := fun w h => by
    unfold Dat.share; rw [h]; exact hq w
  have sO : ∀ w : Fin cfg0.W, (cfg0.win w).isOut = true → d.share w = fullShare := fun w h => by
    unfold Dat.share; rw [h]; rfl
  have hs : ∀ r : Ref sig .tc, ((((c : Thread nD τ).loc r) ↦{fullShare} V r : sProp 𝕄))
      = iprop((((c : Thread nD τ).loc r) ↦{fullShare.left} V r) ∗ ((c : Thread nD τ).loc r) ↦{fullShare.right} V r) := fun r =>
    BI.Entails.antisymm (pointsTo_share (PosShare.mem_left_op_right fullShare)).1 (pointsTo_share (PosShare.mem_left_op_right fullShare)).2
  have E6 := e 6 fullShare (sO 6 (by decide))
  have E5 := congrArg₂ BI.sep (e 5 fullShare.right (sL 5 (by decide))) E6
  have E4 := congrArg₂ BI.sep (e 4 fullShare.right (sL 4 (by decide))) E5
  have E3 := congrArg₂ BI.sep (e 3 fullShare.right (sL 3 (by decide))) E4
  have E2 := congrArg₂ BI.sep (e 2 fullShare.left (sL 2 (by decide))) E3
  have E1 := congrArg₂ BI.sep (e 1 fullShare.left (sL 1 (by decide))) E2
  have E0 := congrArg₂ BI.sep (e 0 fullShare.left (sL 0 (by decide))) E1
  refine E0.trans ?_
  have H2 := congrArg₂ BI.sep (hs main_v22) (rfl : ((((c : Thread nD τ).loc main_v34) ↦{fullShare} V main_v34 : sProp 𝕄)) = _)
  have H1 := congrArg₂ BI.sep (hs main_v28) H2
  have H0 := congrArg₂ BI.sep (hs main_v24) H1
  refine Eq.trans ?_ H0.symm
  show (iprop(((c : Thread nD τ).loc main_v24 ↦{fullShare.left} V main_v24) ∗ ((c : Thread nD τ).loc main_v28 ↦{fullShare.left} V main_v28) ∗ ((c : Thread nD τ).loc main_v22 ↦{fullShare.left} V main_v22)
        ∗ ((c : Thread nD τ).loc main_v24 ↦{fullShare.right} V main_v24) ∗ ((c : Thread nD τ).loc main_v28 ↦{fullShare.right} V main_v28) ∗ ((c : Thread nD τ).loc main_v22 ↦{fullShare.right} V main_v22)
        ∗ ((c : Thread nD τ).loc main_v34 ↦{fullShare} V main_v34)) : sProp 𝕄)
      = iprop((((c : Thread nD τ).loc main_v24 ↦{fullShare.left} V main_v24) ∗ ((c : Thread nD τ).loc main_v24 ↦{fullShare.right} V main_v24))
        ∗ (((c : Thread nD τ).loc main_v28 ↦{fullShare.left} V main_v28) ∗ ((c : Thread nD τ).loc main_v28 ↦{fullShare.right} V main_v28))
        ∗ (((c : Thread nD τ).loc main_v22 ↦{fullShare.left} V main_v22) ∗ ((c : Thread nD τ).loc main_v22 ↦{fullShare.right} V main_v22))
        ∗ ((c : Thread nD τ).loc main_v34 ↦{fullShare} V main_v34))
  exact shuffle7 (fun a b : sProp 𝕄 => BI.sep a b) _ _ _ _ _ _ _
end Shared0

/-- The shares region 2 holds its input arrays at: windows `w` and `w + 3` read ONE array, the first through its
    left half, the second through its right half; the output array whole. -/
def qsh2 : Fin 7 → PosShare TreeShare
  | ⟨0, _⟩ => fullShare.left
  | ⟨1, _⟩ => fullShare.left
  | ⟨2, _⟩ => fullShare.left
  | ⟨3, _⟩ => fullShare.right
  | ⟨4, _⟩ => fullShare.right
  | ⟨5, _⟩ => fullShare.right
  | ⟨6, _⟩ => fullShare

/-- The distinct buffers behind region 2's seven windows. -/
theorem img2 : Finset.univ.image (Pipeline.arrRef spec2) = ({main_v29, main_v33, main_v23, main_v38} : Finset (Ref sig .tc)) := by decide

section Shared2
variable (c : Dev nD) (d : Dat τ (Elt F) Unit ℕ (UR sig nD τ) ℕ cfg2 c) (hq : ∀ w, d.q w = qsh2 w)
  (V : (b : Ref sig .tc) → Buf (Elt F) ((c : Thread nD τ).loc b))
  (Fw : (w : Fin cfg2.W) → Buf (Elt F) ((cfg2.win w).arr.view.loc (c : Thread nD τ)))
  (hF : ∀ w, Fw w = V (Pipeline.arrRef spec2 w))

include hq hF in
/-- Region 2's arrays at contents read off `V` are the four buffers behind them, each whole at `V`: an array two
    windows read is the two halves of its share. -/
theorem arrays_eq_arrBufs2 : d.arrays Fw = (Pipeline.arrBufs spec2 c V : sProp 𝕄) := by
  classical
  unfold Pipeline.arrBufs Dat.arrays
  rw [img2, bigSep_W2]
  rw [bigSep_insert (by decide), bigSep_insert (by decide), bigSep_insert (by decide), bigSep_singleton]
  have e : ∀ (w : Fin cfg2.W) (q : PosShare TreeShare), d.share w = q →
      ((View.loc (c : Thread nD τ) (cfg2.win w).arr.view ↦[(cfg2.win w).arr.view.set]{d.share w} Fw w : sProp 𝕄))
        = (((c : Thread nD τ).loc (Pipeline.arrRef spec2 w)) ↦{q} V (Pipeline.arrRef spec2 w)) := fun w q hq' => by
    rw [(arr_whole2 w).set_eq_univ, hF, hq']
  have sL : ∀ w : Fin cfg2.W, (cfg2.win w).isOut = false → d.share w = qsh2 w := fun w h => by
    unfold Dat.share; rw [h]; exact hq w
  have sO : ∀ w : Fin cfg2.W, (cfg2.win w).isOut = true → d.share w = fullShare := fun w h => by
    unfold Dat.share; rw [h]; rfl
  have hs : ∀ r : Ref sig .tc, ((((c : Thread nD τ).loc r) ↦{fullShare} V r : sProp 𝕄))
      = iprop((((c : Thread nD τ).loc r) ↦{fullShare.left} V r) ∗ ((c : Thread nD τ).loc r) ↦{fullShare.right} V r) := fun r =>
    BI.Entails.antisymm (pointsTo_share (PosShare.mem_left_op_right fullShare)).1 (pointsTo_share (PosShare.mem_left_op_right fullShare)).2
  have E6 := e 6 fullShare (sO 6 (by decide))
  have E5 := congrArg₂ BI.sep (e 5 fullShare.right (sL 5 (by decide))) E6
  have E4 := congrArg₂ BI.sep (e 4 fullShare.right (sL 4 (by decide))) E5
  have E3 := congrArg₂ BI.sep (e 3 fullShare.right (sL 3 (by decide))) E4
  have E2 := congrArg₂ BI.sep (e 2 fullShare.left (sL 2 (by decide))) E3
  have E1 := congrArg₂ BI.sep (e 1 fullShare.left (sL 1 (by decide))) E2
  have E0 := congrArg₂ BI.sep (e 0 fullShare.left (sL 0 (by decide))) E1
  refine E0.trans ?_
  have H2 := congrArg₂ BI.sep (hs main_v23) (rfl : ((((c : Thread nD τ).loc main_v38) ↦{fullShare} V main_v38 : sProp 𝕄)) = _)
  have H1 := congrArg₂ BI.sep (hs main_v33) H2
  have H0 := congrArg₂ BI.sep (hs main_v29) H1
  refine Eq.trans ?_ H0.symm
  show (iprop(((c : Thread nD τ).loc main_v29 ↦{fullShare.left} V main_v29) ∗ ((c : Thread nD τ).loc main_v33 ↦{fullShare.left} V main_v33) ∗ ((c : Thread nD τ).loc main_v23 ↦{fullShare.left} V main_v23)
        ∗ ((c : Thread nD τ).loc main_v29 ↦{fullShare.right} V main_v29) ∗ ((c : Thread nD τ).loc main_v33 ↦{fullShare.right} V main_v33) ∗ ((c : Thread nD τ).loc main_v23 ↦{fullShare.right} V main_v23)
        ∗ ((c : Thread nD τ).loc main_v38 ↦{fullShare} V main_v38)) : sProp 𝕄)
      = iprop((((c : Thread nD τ).loc main_v29 ↦{fullShare.left} V main_v29) ∗ ((c : Thread nD τ).loc main_v29 ↦{fullShare.right} V main_v29))
        ∗ (((c : Thread nD τ).loc main_v33 ↦{fullShare.left} V main_v33) ∗ ((c : Thread nD τ).loc main_v33 ↦{fullShare.right} V main_v33))
        ∗ (((c : Thread nD τ).loc main_v23 ↦{fullShare.left} V main_v23) ∗ ((c : Thread nD τ).loc main_v23 ↦{fullShare.right} V main_v23))
        ∗ ((c : Thread nD τ).loc main_v38 ↦{fullShare} V main_v38))
  exact shuffle7 (fun a b : sProp 𝕄 => BI.sep a b) _ _ _ _ _ _ _
end Shared2

section Records

variable (d0 : (c : Dev nD) → Dat τ (Elt F) Unit ℕ (UR sig nD τ) ℕ cfg0 c) (d1 : (c : Dev nD) → Dat τ (Elt F) Unit ℕ (UR sig nD τ) ℕ cfg1 c)
  (d2 : (c : Dev nD) → Dat τ (Elt F) Unit ℕ (UR sig nD τ) ℕ cfg2 c)
  (Win Wout : Dev nD → Valuation τ sig (Elt F))

set_option backward.isDefEq.respectTransparency.types false in
/-- The region of call 0 (a set of boxes paired with itself): windows `w` and `w + 3` read one array, held in the two
    halves of its share. Entered with every unscoped buffer at `Win`, left with them at `Wout`: the output array at what
    the write-backs leave (`hF`), every other buffer as entered (`hrest`). -/
def reg0 (hA : ∀ c w, (d0 c).A w = Win c (Pipeline.arrRef spec0 w)) (hq : ∀ c w, (d0 c).q w = qsh0 w)
    (howed : ∀ c t, (d0 c).owed t = 0) (hrec : ∀ c t, (d0 c).recorded t = Set.univ)
    (hbody : ∀ c, BodyObligation (d0 c) (defs₀ (F := F)) Variants.none () Set.univ)
    (hin : ∀ c, Pipeline.ΦA spec0 c ⊢ (d0 c).Φ 0) (hout : ∀ c, (d0 c).Φ (Fin.last cfg0.N) ⊢ Pipeline.ΦA spec0 c)
    (hF : ∀ c w, (d0 c).arrAt w cfg0.N = Wout c (Pipeline.arrRef spec0 w))
    (hrest : ∀ c (b : Ref sig .tc), b ∉ Finset.univ.image (Pipeline.arrRef spec0) → Wout c b = Win c b) :
    Pipeline.RegionSeg (pcfgs (F := F)) adm (pdats d0 d1 d2) () defs₀ Variants.none Lz lvz 0 where
  win := winFacts₀0
  block_pos := block_pos0
  stage_whole := stage_whole0
  K := PEmpty
  osem k := k.elim
  ho := Pipeline.OwnSemFacts.none _
  hbody c := (hbody c).loose
  hwaits := Pipeline.hwaits_of_owed_zero _ _ _ _ Lz lvz 0 fun c t => howed c t
  pre c := iprop(StableHlo.held (c : Thread nD τ) (Pipeline.ucRefs τ sig) (Win c) ∗ Rr c)
  post c := iprop(StableHlo.held (c : Thread nD τ) (Pipeline.ucRefs τ sig) (Wout c) ∗ Rr c)
  X c := iprop(∃ r, prngReg c r)
  Y c := iprop(∃ r, prngReg c r)
  Z c := Pipeline.unscopedRest (Ix := Unit) (Name := ℕ) (U := UR sig nD τ) (Lvl := ℕ) spec0 c (fun b => Win c b)
  hentry c := by
    rw [Pipeline.ownSems0_none]
    have hsplit : (unscopedBufs c (fun b => Win c b) : sProp 𝕄)
        = iprop((pdats d0 d1 d2 0 c).arrays ((pdats d0 d1 d2 0 c).arrAt · 0) ∗ Pipeline.unscopedRest spec0 c (fun b => Win c b)) := by
      rw [Pipeline.unscopedBufs_split₀ (Pipeline.pin (pcfgs (F := F)) adm) 0 winFacts₀0.arr_unscoped c (fun b => Win c b)]
      exact congrArg₂ BI.sep (arrays_eq_arrBufs0 c (d0 c) (hq c) (fun b => Win c b) ((d0 c).arrAt · 0) (fun w => hA c w)).symm rfl
    rw [Pipeline.unscopedBufs_held] at hsplit
    rw [hsplit]
    iintro ⟨⟨⟨Ha, Hrest⟩, Hp, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [show (pdats d0 d1 d2 0 c).recorded 0 = Set.univ from hrec c 0]; trivial)
      rw [show (pdats d0 d1 d2 0 c).owed 0 = 0 from howed c 0]
      iexact HO
    isplitl [Hp]; · iexact Hp
    iexact Hrest
  hin c :=
    (show _ ⊢ (Pipeline.ΦA spec0 c : sProp 𝕄) from by
      unfold Pipeline.ΦA
      iintro ⟨Hp, -, Hr⟩
      isplitl [Hr]; · iexact Hr
      iexact Hp).trans (hin c)
  hout c := by
    rw [Pipeline.ownSems0_none]
    exact (hout c).trans (show (Pipeline.ΦA spec0 c : sProp 𝕄) ⊢ _ from by
      unfold Pipeline.ΦA
      iintro ⟨Hr, Hp⟩
      isplitl [Hp]; · iexact Hp
      isplitr; · iempintro
      iexact Hr)
  hexit c := by
    have hjoin : iprop((pdats d0 d1 d2 0 c).arrays ((pdats d0 d1 d2 0 c).arrAt · cfg0.N) ∗ Pipeline.unscopedRest spec0 c (fun b => Win c b))
        = (unscopedBufs c (fun b => Wout c b) : sProp 𝕄) := by
      rw [Pipeline.unscopedBufs_split₀ (Pipeline.pin (pcfgs (F := F)) adm) 0 winFacts₀0.arr_unscoped c (fun b => Wout c b)]
      refine congrArg₂ BI.sep (arrays_eq_arrBufs0 c (d0 c) (hq c) (fun b => Wout c b) ((d0 c).arrAt · cfg0.N) (fun w => hF c w)) ?_
      unfold Pipeline.unscopedRest
      exact (bigSep_congr fun b hb => by beta_reduce; rw [hrest c b (Finset.mem_sdiff.mp hb).2])
    rw [Pipeline.unscopedBufs_held] at hjoin
    have hjoin' := Entails.of_eq hjoin
    iintro ⟨Ha, HO, HY, Hrest⟩
    imodintro
    isplitl [Ha Hrest]
    · iapply hjoin'; isplitl [Ha] <;> iassumption
    isplitl [HY]; · iexact HY
    unfold Pipeline.Dat.owesAt Pipeline.owesWithin
    icases HO with ⟨%W, -, HO⟩; iexists W
    rw [show (pdats d0 d1 d2 0 c).owed (Fin.last _) = 0 from howed c _]
    iexact HO

set_option backward.isDefEq.respectTransparency.types false in
/-- The region of the second call (ground truth against predictions): its six input arrays are distinct buffers,
    each held whole. Entered with every unscoped buffer at `Win`, left with them at `Wout`: the output array at what
    the write-backs leave (`hF`), every other buffer as entered (`hrest`). -/
def reg1 (hA : ∀ c w, (d1 c).A w = Win c (Pipeline.arrRef spec1 w)) (hq : ∀ c w, (d1 c).q w = fullShare)
    (howed : ∀ c t, (d1 c).owed t = 0) (hrec : ∀ c t, (d1 c).recorded t = Set.univ)
    (hbody : ∀ c, BodyObligation (d1 c) (defs₀ (F := F)) Variants.none () Set.univ)
    (hin : ∀ c, Pipeline.ΦA spec1 c ⊢ (d1 c).Φ 0) (hout : ∀ c, (d1 c).Φ (Fin.last cfg1.N) ⊢ Pipeline.ΦA spec1 c)
    (hF : ∀ c w, (d1 c).arrAt w cfg1.N = Wout c (Pipeline.arrRef spec1 w))
    (hrest : ∀ c (b : Ref sig .tc), b ∉ Finset.univ.image (Pipeline.arrRef spec1) → Wout c b = Win c b) :
    Pipeline.RegionSeg (pcfgs (F := F)) adm (pdats d0 d1 d2) () defs₀ Variants.none Lz lvz 1 where
  win := launch1.win.to₀
  block_pos := launch1.block_pos
  stage_whole := launch1.stage_whole
  K := PEmpty
  osem k := k.elim
  ho := Pipeline.OwnSemFacts.none _
  hbody c := (hbody c).loose
  hwaits := Pipeline.hwaits_of_owed_zero _ _ _ _ Lz lvz 1 fun c t => howed c t
  pre c := iprop(StableHlo.held (c : Thread nD τ) (Pipeline.ucRefs τ sig) (Win c) ∗ Rr c)
  post c := iprop(StableHlo.held (c : Thread nD τ) (Pipeline.ucRefs τ sig) (Wout c) ∗ Rr c)
  X c := iprop(∃ r, prngReg c r)
  Y c := iprop(∃ r, prngReg c r)
  Z c := Pipeline.unscopedRest (Ix := Unit) (Name := ℕ) (U := UR sig nD τ) (Lvl := ℕ) spec1 c (fun b => Win c b)
  hentry c := by
    rw [Pipeline.ownSems0_none]
    have hsplit := Pipeline.arrays_of_unscopedBufs (p := 1) (pcfgs (F := F)) adm (pdats d0 d1 d2) launch1.win launch1.arr_whole c
      ((pdats d0 d1 d2 1 c).share_full fun w => hq c w) (fun b => Win c b) fun w => hA c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [show (pdats d0 d1 d2 1 c).recorded 0 = Set.univ from hrec c 0]; trivial)
      rw [show (pdats d0 d1 d2 1 c).owed 0 = 0 from howed c 0]
      iexact HO
    isplitl [Hp]; · iexact Hp
    iexact Hrest
  hin c :=
    (show _ ⊢ (Pipeline.ΦA spec1 c : sProp 𝕄) from by
      unfold Pipeline.ΦA
      iintro ⟨Hp, -, Hr⟩
      isplitl [Hr]; · iexact Hr
      iexact Hp).trans (hin c)
  hout c := by
    rw [Pipeline.ownSems0_none]
    exact (hout c).trans (show (Pipeline.ΦA spec1 c : sProp 𝕄) ⊢ _ from by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats d0 d1 d2) ((pdats d0 d1 d2 1 c).share_full fun w => hq c w)
      (fun b => Win c b) (fun b => Wout c b) ((pdats d0 d1 d2 1 c).arrAt · cfg1.N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats d0 d1 d2 1 c).owed (Fin.last _) = 0 from howed c _]
    iexact HO

set_option backward.isDefEq.respectTransparency.types false in
/-- The region of call 2 (a set of boxes paired with itself): windows `w` and `w + 3` read one array, held in the two
    halves of its share. Entered with every unscoped buffer at `Win`, left with them at `Wout`: the output array at what
    the write-backs leave (`hF`), every other buffer as entered (`hrest`). -/
def reg2 (hA : ∀ c w, (d2 c).A w = Win c (Pipeline.arrRef spec2 w)) (hq : ∀ c w, (d2 c).q w = qsh2 w)
    (howed : ∀ c t, (d2 c).owed t = 0) (hrec : ∀ c t, (d2 c).recorded t = Set.univ)
    (hbody : ∀ c, BodyObligation (d2 c) (defs₀ (F := F)) Variants.none () Set.univ)
    (hin : ∀ c, Pipeline.ΦA spec2 c ⊢ (d2 c).Φ 0) (hout : ∀ c, (d2 c).Φ (Fin.last cfg2.N) ⊢ Pipeline.ΦA spec2 c)
    (hF : ∀ c w, (d2 c).arrAt w cfg2.N = Wout c (Pipeline.arrRef spec2 w))
    (hrest : ∀ c (b : Ref sig .tc), b ∉ Finset.univ.image (Pipeline.arrRef spec2) → Wout c b = Win c b) :
    Pipeline.RegionSeg (pcfgs (F := F)) adm (pdats d0 d1 d2) () defs₀ Variants.none Lz lvz 2 where
  win := winFacts₀2
  block_pos := block_pos2
  stage_whole := stage_whole2
  K := PEmpty
  osem k := k.elim
  ho := Pipeline.OwnSemFacts.none _
  hbody c := (hbody c).loose
  hwaits := Pipeline.hwaits_of_owed_zero _ _ _ _ Lz lvz 2 fun c t => howed c t
  pre c := iprop(StableHlo.held (c : Thread nD τ) (Pipeline.ucRefs τ sig) (Win c) ∗ Rr c)
  post c := iprop(StableHlo.held (c : Thread nD τ) (Pipeline.ucRefs τ sig) (Wout c) ∗ Rr c)
  X c := iprop(∃ r, prngReg c r)
  Y c := iprop(∃ r, prngReg c r)
  Z c := Pipeline.unscopedRest (Ix := Unit) (Name := ℕ) (U := UR sig nD τ) (Lvl := ℕ) spec2 c (fun b => Win c b)
  hentry c := by
    rw [Pipeline.ownSems0_none]
    have hsplit : (unscopedBufs c (fun b => Win c b) : sProp 𝕄)
        = iprop((pdats d0 d1 d2 2 c).arrays ((pdats d0 d1 d2 2 c).arrAt · 0) ∗ Pipeline.unscopedRest spec2 c (fun b => Win c b)) := by
      rw [Pipeline.unscopedBufs_split₀ (Pipeline.pin (pcfgs (F := F)) adm) 2 winFacts₀2.arr_unscoped c (fun b => Win c b)]
      exact congrArg₂ BI.sep (arrays_eq_arrBufs2 c (d2 c) (hq c) (fun b => Win c b) ((d2 c).arrAt · 0) (fun w => hA c w)).symm rfl
    rw [Pipeline.unscopedBufs_held] at hsplit
    rw [hsplit]
    iintro ⟨⟨⟨Ha, Hrest⟩, Hp, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [show (pdats d0 d1 d2 2 c).recorded 0 = Set.univ from hrec c 0]; trivial)
      rw [show (pdats d0 d1 d2 2 c).owed 0 = 0 from howed c 0]
      iexact HO
    isplitl [Hp]; · iexact Hp
    iexact Hrest
  hin c :=
    (show _ ⊢ (Pipeline.ΦA spec2 c : sProp 𝕄) from by
      unfold Pipeline.ΦA
      iintro ⟨Hp, -, Hr⟩
      isplitl [Hr]; · iexact Hr
      iexact Hp).trans (hin c)
  hout c := by
    rw [Pipeline.ownSems0_none]
    exact (hout c).trans (show (Pipeline.ΦA spec2 c : sProp 𝕄) ⊢ _ from by
      unfold Pipeline.ΦA
      iintro ⟨Hr, Hp⟩
      isplitl [Hp]; · iexact Hp
      isplitr; · iempintro
      iexact Hr)
  hexit c := by
    have hjoin : iprop((pdats d0 d1 d2 2 c).arrays ((pdats d0 d1 d2 2 c).arrAt · cfg2.N) ∗ Pipeline.unscopedRest spec2 c (fun b => Win c b))
        = (unscopedBufs c (fun b => Wout c b) : sProp 𝕄) := by
      rw [Pipeline.unscopedBufs_split₀ (Pipeline.pin (pcfgs (F := F)) adm) 2 winFacts₀2.arr_unscoped c (fun b => Wout c b)]
      refine congrArg₂ BI.sep (arrays_eq_arrBufs2 c (d2 c) (hq c) (fun b => Wout c b) ((d2 c).arrAt · cfg2.N) (fun w => hF c w)) ?_
      unfold Pipeline.unscopedRest
      exact (bigSep_congr fun b hb => by beta_reduce; rw [hrest c b (Finset.mem_sdiff.mp hb).2])
    rw [Pipeline.unscopedBufs_held] at hjoin
    have hjoin' := Entails.of_eq hjoin
    iintro ⟨Ha, HO, HY, Hrest⟩
    imodintro
    isplitl [Ha Hrest]
    · iapply hjoin'; isplitl [Ha] <;> iassumption
    isplitl [HY]; · iexact HY
    unfold Pipeline.Dat.owesAt Pipeline.owesWithin
    icases HO with ⟨%W, -, HO⟩; iexists W
    rw [show (pdats d0 d1 d2 2 c).owed (Fin.last _) = 0 from howed c _]
    iexact HO

end Records

end Cert.Kernel.GenR

end
-- ==== Proof.B.RunCond.lean ====
/-
  The run of the three-region program with its result named.

  Between two items of the program a core's unscoped buffers are known: the launch memory, then the fold of each
  stretch of host operations, then, after a region, the same with the region's output array at what the region
  leaves. Given a record per region, entered from and left at those contents, the program runs to the end, and the
  final memory holds every unscoped buffer at the last of these valuations: in particular the result, and each
  argument, which no item writes.
-/
import proofs.«120005_j50079318672069_1_alg».proof.Proof.Gen.Kernel.Regions

noncomputable section

namespace Cert.Kernel.GenR

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- The run of the whole program, given the three regions' records: every weakly fair execution from memory `m` with zero
    counters terminates, and every final memory holds the result at what the last valuation says (the host
    operations' fold over the launch memory and what the regions leave) and each argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c)) :
    θ_run defs (onTc (τ := τ) (main (F := F))) ⟨m, fun _ => 0, ρ⟩ (fun r => ∀ c : Dev nD,
      r.2.mem ((c.tc : Thread nD τ).loc main_v48) = V9 m outs c main_v48
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V9 m outs c))
    (hch := fun c => ⟨.rfl, .rfl, .rfl, hpre0 c, hpost0 c, hpre1 c, hpost1 c, hpre2 c, hpost2 c, sep_mono .rfl (hE3 c)⟩)
    (hinit := ?_) (QY := fun c s => s.mem ((c.tc : Thread nD τ).loc main_v48) = V9 m outs c main_v48 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V9 m outs c) s') $$ [Hh HSI]
    · isplitl [Hh] <;> iassumption
    icases Hr with ⟨%h, HSI⟩
    imodintro
    isplitr
    · ipureintro
      exact ⟨h (Proc.devRef .tc main_v48) (Finset.mem_filter.mpr ⟨StableHlo.devRef_mem_tcRefs main_v48, by decide⟩),
        (h (Proc.devRef .tc main_arg0) (Finset.mem_filter.mpr ⟨StableHlo.devRef_mem_tcRefs main_arg0, by decide⟩)).trans (V9_main_arg0 m outs c),
        (h (Proc.devRef .tc main_arg1) (Finset.mem_filter.mpr ⟨StableHlo.devRef_mem_tcRefs main_arg1, by decide⟩)).trans (V9_main_arg1 m outs c),
        (h (Proc.devRef .tc main_arg2) (Finset.mem_filter.mpr ⟨StableHlo.devRef_mem_tcRefs main_arg2, by decide⟩)).trans (V9_main_arg2 m outs c),
        (h (Proc.devRef .tc main_arg3) (Finset.mem_filter.mpr ⟨StableHlo.devRef_mem_tcRefs main_arg3, by decide⟩)).trans (V9_main_arg3 m outs c)⟩
    · iexact HSI

end Cert.Kernel.GenR

end
-- ==== Proof.B.Run.lean ====
/-
  The program's run from the three regions' proof data.

  What the regions leave is three buffers per core: the output arrays of the three calls. A region's output
  array ends at what its write-backs leave; its input arrays, which nothing writes, end as they were entered;
  every other buffer is untouched. With a record per region over those contents, the program runs to its end
  with the result at the last valuation and the arguments as launched.
-/
import proofs.«120005_j50079318672069_1_alg».proof.Proof.B.Segs
import proofs.«120005_j50079318672069_1_alg».proof.Proof.B.RunCond
import Mathlib.Tactic.IntervalCases

noncomputable section

namespace Cert.Kernel.GenR

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the three regions leave, from the three output arrays' final contents; any other buffer is never asked
    for (it is given its launch contents). The item's number plays no part: each output array belongs to one region. -/
def outsOf (o4 : (c : Dev nD) → Buf (Elt F) ((c : Thread nD τ).loc main_v34)) (o6 : (c : Dev nD) → Buf (Elt F) ((c : Thread nD τ).loc main_v36))
    (o8 : (c : Dev nD) → Buf (Elt F) ((c : Thread nD τ).loc main_v38)) : Outs (F := F) :=
  fun _ r c => if h4 : r = main_v34 then h4 ▸ o4 c else if h6 : r = main_v36 then h6 ▸ o6 c else if h8 : r = main_v38 then h8 ▸ o8 c
    else m ((c : Thread nD τ).loc r)

section Outs
variable (o4 : (c : Dev nD) → Buf (Elt F) ((c : Thread nD τ).loc main_v34)) (o6 : (c : Dev nD) → Buf (Elt F) ((c : Thread nD τ).loc main_v36))
  (o8 : (c : Dev nD) → Buf (Elt F) ((c : Thread nD τ).loc main_v38))

theorem outsOf_v34 (J : ℕ) (c : Dev nD) : outsOf m o4 o6 o8 J main_v34 c = o4 c := by
  unfold outsOf; rw [dif_pos rfl]
theorem outsOf_v36 (J : ℕ) (c : Dev nD) : outsOf m o4 o6 o8 J main_v36 c = o6 c := by
  unfold outsOf; rw [dif_neg (by decide), dif_pos rfl]
theorem outsOf_v38 (J : ℕ) (c : Dev nD) : outsOf m o4 o6 o8 J main_v38 c = o8 c := by
  unfold outsOf; rw [dif_neg (by decide), dif_neg (by decide), dif_pos rfl]

end Outs

section Run
variable (d0 : (c : Dev nD) → Dat τ (Elt F) Unit ℕ (UR sig nD τ) ℕ cfg0 c) (d1 : (c : Dev nD) → Dat τ (Elt F) Unit ℕ (UR sig nD τ) ℕ cfg1 c)
  (d2 : (c : Dev nD) → Dat τ (Elt F) Unit ℕ (UR sig nD τ) ℕ cfg2 c)
  (o4 : (c : Dev nD) → Buf (Elt F) ((c : Thread nD τ).loc main_v34)) (o6 : (c : Dev nD) → Buf (Elt F) ((c : Thread nD τ).loc main_v36))
  (o8 : (c : Dev nD) → Buf (Elt F) ((c : Thread nD τ).loc main_v38))

theorem hF0_0 (hA : ∀ c w, (d0 c).A w = V3 m c (Pipeline.arrRef spec0 w)) (c : Dev nD) :
    (d0 c).arrAt 0 cfg0.N = V4 m (outsOf m o4 o6 o8) c (Pipeline.arrRef spec0 0) :=
  ((d0 c).arrAt_in 0 (by decide) _).trans ((hA c 0).trans (V4_of m (outsOf m o4 o6 o8) c main_v24 (by decide)).symm)

theorem hF0_1 (hA : ∀ c w, (d0 c).A w = V3 m c (Pipeline.arrRef spec0 w)) (c : Dev nD) :
    (d0 c).arrAt 1 cfg0.N = V4 m (outsOf m o4 o6 o8) c (Pipeline.arrRef spec0 1) :=
  ((d0 c).arrAt_in 1 (by decide) _).trans ((hA c 1).trans (V4_of m (outsOf m o4 o6 o8) c main_v28 (by decide)).symm)

theorem hF0_2 (hA : ∀ c w, (d0 c).A w = V3 m c (Pipeline.arrRef spec0 w)) (c : Dev nD) :
    (d0 c).arrAt 2 cfg0.N = V4 m (outsOf m o4 o6 o8) c (Pipeline.arrRef spec0 2) :=
  ((d0 c).arrAt_in 2 (by decide) _).trans ((hA c 2).trans (V4_of m (outsOf m o4 o6 o8) c main_v22 (by decide)).symm)

theorem hF0_3 (hA : ∀ c w, (d0 c).A w = V3 m c (Pipeline.arrRef spec0 w)) (c : Dev nD) :
    (d0 c).arrAt 3 cfg0.N = V4 m (outsOf m o4 o6 o8) c (Pipeline.arrRef spec0 3) :=
  ((d0 c).arrAt_in 3 (by decide) _).trans ((hA c 3).trans (V4_of m (outsOf m o4 o6 o8) c main_v24 (by decide)).symm)

theorem hF0_4 (hA : ∀ c w, (d0 c).A w = V3 m c (Pipeline.arrRef spec0 w)) (c : Dev nD) :
    (d0 c).arrAt 4 cfg0.N = V4 m (outsOf m o4 o6 o8) c (Pipeline.arrRef spec0 4) :=
  ((d0 c).arrAt_in 4 (by decide) _).trans ((hA c 4).trans (V4_of m (outsOf m o4 o6 o8) c main_v28 (by decide)).symm)

theorem hF0_5 (hA : ∀ c w, (d0 c).A w = V3 m c (Pipeline.arrRef spec0 w)) (c : Dev nD) :
    (d0 c).arrAt 5 cfg0.N = V4 m (outsOf m o4 o6 o8) c (Pipeline.arrRef spec0 5) :=
  ((d0 c).arrAt_in 5 (by decide) _).trans ((hA c 5).trans (V4_of m (outsOf m o4 o6 o8) c main_v22 (by decide)).symm)

theorem hF0_6 (ho : ∀ c, o4 c = (d0 c).arrAt 6 cfg0.N) (c : Dev nD) :
    (d0 c).arrAt 6 cfg0.N = V4 m (outsOf m o4 o6 o8) c (Pipeline.arrRef spec0 6) := by
  show (d0 c).arrAt 6 cfg0.N = V4 m (outsOf m o4 o6 o8) c main_v34
  have h : V4 m (outsOf m o4 o6 o8) c main_v34 = outsOf m o4 o6 o8 4 main_v34 c := Function.update_self _ _ _
  rw [h, outsOf_v34 m o4 o6 o8 4 c, ho c]

/-- Region 0's arrays at its exit: each input array as it was entered (no input is written), the output array at what
    the write-backs leave. -/
theorem hF0 (hA : ∀ c w, (d0 c).A w = V3 m c (Pipeline.arrRef spec0 w)) (ho : ∀ c, o4 c = (d0 c).arrAt 6 cfg0.N) (c : Dev nD) (w : Fin cfg0.W) :
    (d0 c).arrAt w cfg0.N = V4 m (outsOf m o4 o6 o8) c (Pipeline.arrRef spec0 w) := by
  obtain ⟨k, hk⟩ := w
  have h7 : k < 7 := hk
  interval_cases k
  · exact hF0_0 m d0 o4 o6 o8 hA c
  · exact hF0_1 m d0 o4 o6 o8 hA c
  · exact hF0_2 m d0 o4 o6 o8 hA c
  · exact hF0_3 m d0 o4 o6 o8 hA c
  · exact hF0_4 m d0 o4 o6 o8 hA c
  · exact hF0_5 m d0 o4 o6 o8 hA c
  · exact hF0_6 m d0 o4 o6 o8 ho c

/-- Region 0 leaves every buffer that is no array of its windows as it found it. -/
theorem hrest0 (c : Dev nD) (b : Ref sig .tc) (hb : b ∉ Finset.univ.image (Pipeline.arrRef spec0)) :
    V4 m (outsOf m o4 o6 o8) c b = V3 m c b :=
  V4_of m (outsOf m o4 o6 o8) c b fun hmem => hb (by
    rw [List.mem_singleton.mp hmem]; exact Finset.mem_image.mpr ⟨6, Finset.mem_univ _, rfl⟩)

theorem hF1_0 (hA : ∀ c w, (d1 c).A w = V5 m (outsOf m o4 o6 o8) c (Pipeline.arrRef spec1 w)) (c : Dev nD) :
    (d1 c).arrAt 0 cfg1.N = V6 m (outsOf m o4 o6 o8) c (Pipeline.arrRef spec1 0) :=
  ((d1 c).arrAt_in 0 (by decide) _).trans ((hA c 0).trans (V6_of m (outsOf m o4 o6 o8) c main_v29 (by decide)).symm)

theorem hF1_1 (hA : ∀ c w, (d1 c).A w = V5 m (outsOf m o4 o6 o8) c (Pipeline.arrRef spec1 w)) (c : Dev nD) :
    (d1 c).arrAt 1 cfg1.N = V6 m (outsOf m o4 o6 o8) c (Pipeline.arrRef spec1 1) :=
  ((d1 c).arrAt_in 1 (by decide) _).trans ((hA c 1).trans (V6_of m (outsOf m o4 o6 o8) c main_v33 (by decide)).symm)

theorem hF1_2 (hA : ∀ c w, (d1 c).A w = V5 m (outsOf m o4 o6 o8) c (Pipeline.arrRef spec1 w)) (c : Dev nD) :
    (d1 c).arrAt 2 cfg1.N = V6 m (outsOf m o4 o6 o8) c (Pipeline.arrRef spec1 2) :=
  ((d1 c).arrAt_in 2 (by decide) _).trans ((hA c 2).trans (V6_of m (outsOf m o4 o6 o8) c main_v23 (by decide)).symm)

theorem hF1_3 (hA : ∀ c w, (d1 c).A w = V5 m (outsOf m o4 o6 o8) c (Pipeline.arrRef spec1 w)) (c : Dev nD) :
    (d1 c).arrAt 3 cfg1.N = V6 m (outsOf m o4 o6 o8) c (Pipeline.arrRef spec1 3) :=
  ((d1 c).arrAt_in 3 (by decide) _).trans ((hA c 3).trans (V6_of m (outsOf m o4 o6 o8) c main_v24 (by decide)).symm)

theorem hF1_4 (hA : ∀ c w, (d1 c).A w = V5 m (outsOf m o4 o6 o8) c (Pipeline.arrRef spec1 w)) (c : Dev nD) :
    (d1 c).arrAt 4 cfg1.N = V6 m (outsOf m o4 o6 o8) c (Pipeline.arrRef spec1 4) :=
  ((d1 c).arrAt_in 4 (by decide) _).trans ((hA c 4).trans (V6_of m (outsOf m o4 o6 o8) c main_v28 (by decide)).symm)

theorem hF1_5 (hA : ∀ c w, (d1 c).A w = V5 m (outsOf m o4 o6 o8) c (Pipeline.arrRef spec1 w)) (c : Dev nD) :
    (d1 c).arrAt 5 cfg1.N = V6 m (outsOf m o4 o6 o8) c (Pipeline.arrRef spec1 5) :=
  ((d1 c).arrAt_in 5 (by decide) _).trans ((hA c 5).trans (V6_of m (outsOf m o4 o6 o8) c main_v22 (by decide)).symm)

theorem hF1_6 (ho : ∀ c, o6 c = (d1 c).arrAt 6 cfg1.N) (c : Dev nD) :
    (d1 c).arrAt 6 cfg1.N = V6 m (outsOf m o4 o6 o8) c (Pipeline.arrRef spec1 6) := by
  show (d1 c).arrAt 6 cfg1.N = V6 m (outsOf m o4 o6 o8) c main_v36
  have h : V6 m (outsOf m o4 o6 o8) c main_v36 = outsOf m o4 o6 o8 6 main_v36 c := Function.update_self _ _ _
  rw [h, outsOf_v36 m o4 o6 o8 6 c, ho c]

/-- Region 1's arrays at its exit: each input array as it was entered (no input is written), the output array at what
    the write-backs leave. -/
theorem hF1 (hA : ∀ c w, (d1 c).A w = V5 m (outsOf m o4 o6 o8) c (Pipeline.arrRef spec1 w)) (ho : ∀ c, o6 c = (d1 c).arrAt 6 cfg1.N) (c : Dev nD) (w : Fin cfg1.W) :
    (d1 c).arrAt w cfg1.N = V6 m (outsOf m o4 o6 o8) c (Pipeline.arrRef spec1 w) := by
  obtain ⟨k, hk⟩ := w
  have h7 : k < 7 := hk
  interval_cases k
  · exact hF1_0 m d1 o4 o6 o8 hA c
  · exact hF1_1 m d1 o4 o6 o8 hA c
  · exact hF1_2 m d1 o4 o6 o8 hA c
  · exact hF1_3 m d1 o4 o6 o8 hA c
  · exact hF1_4 m d1 o4 o6 o8 hA c
  · exact hF1_5 m d1 o4 o6 o8 hA c
  · exact hF1_6 m d1 o4 o6 o8 ho c

/-- Region 1 leaves every buffer that is no array of its windows as it found it. -/
theorem hrest1 (c : Dev nD) (b : Ref sig .tc) (hb : b ∉ Finset.univ.image (Pipeline.arrRef spec1)) :
    V6 m (outsOf m o4 o6 o8) c b = V5 m (outsOf m o4 o6 o8) c b :=
  V6_of m (outsOf m o4 o6 o8) c b fun hmem => hb (by
    rw [List.mem_singleton.mp hmem]; exact Finset.mem_image.mpr ⟨6, Finset.mem_univ _, rfl⟩)

theorem hF2_0 (hA : ∀ c w, (d2 c).A w = V7 m (outsOf m o4 o6 o8) c (Pipeline.arrRef spec2 w)) (c : Dev nD) :
    (d2 c).arrAt 0 cfg2.N = V8 m (outsOf m o4 o6 o8) c (Pipeline.arrRef spec2 0) :=
  ((d2 c).arrAt_in 0 (by decide) _).trans ((hA c 0).trans (V8_of m (outsOf m o4 o6 o8) c main_v29 (by decide)).symm)

theorem hF2_1 (hA : ∀ c w, (d2 c).A w = V7 m (outsOf m o4 o6 o8) c (Pipeline.arrRef spec2 w)) (c : Dev nD) :
    (d2 c).arrAt 1 cfg2.N = V8 m (outsOf m o4 o6 o8) c (Pipeline.arrRef spec2 1) :=
  ((d2 c).arrAt_in 1 (by decide) _).trans ((hA c 1).trans (V8_of m (outsOf m o4 o6 o8) c main_v33 (by decide)).symm)

theorem hF2_2 (hA : ∀ c w, (d2 c).A w = V7 m (outsOf m o4 o6 o8) c (Pipeline.arrRef spec2 w)) (c : Dev nD) :
    (d2 c).arrAt 2 cfg2.N = V8 m (outsOf m o4 o6 o8) c (Pipeline.arrRef spec2 2) :=
  ((d2 c).arrAt_in 2 (by decide) _).trans ((hA c 2).trans (V8_of m (outsOf m o4 o6 o8) c main_v23 (by decide)).symm)

theorem hF2_3 (hA : ∀ c w, (d2 c).A w = V7 m (outsOf m o4 o6 o8) c (Pipeline.arrRef spec2 w)) (c : Dev nD) :
    (d2 c).arrAt 3 cfg2.N = V8 m (outsOf m o4 o6 o8) c (Pipeline.arrRef spec2 3) :=
  ((d2 c).arrAt_in 3 (by decide) _).trans ((hA c 3).trans (V8_of m (outsOf m o4 o6 o8) c main_v29 (by decide)).symm)

theorem hF2_4 (hA : ∀ c w, (d2 c).A w = V7 m (outsOf m o4 o6 o8) c (Pipeline.arrRef spec2 w)) (c : Dev nD) :
    (d2 c).arrAt 4 cfg2.N = V8 m (outsOf m o4 o6 o8) c (Pipeline.arrRef spec2 4) :=
  ((d2 c).arrAt_in 4 (by decide) _).trans ((hA c 4).trans (V8_of m (outsOf m o4 o6 o8) c main_v33 (by decide)).symm)

theorem hF2_5 (hA : ∀ c w, (d2 c).A w = V7 m (outsOf m o4 o6 o8) c (Pipeline.arrRef spec2 w)) (c : Dev nD) :
    (d2 c).arrAt 5 cfg2.N = V8 m (outsOf m o4 o6 o8) c (Pipeline.arrRef spec2 5) :=
  ((d2 c).arrAt_in 5 (by decide) _).trans ((hA c 5).trans (V8_of m (outsOf m o4 o6 o8) c main_v23 (by decide)).symm)

theorem hF2_6 (ho : ∀ c, o8 c = (d2 c).arrAt 6 cfg2.N) (c : Dev nD) :
    (d2 c).arrAt 6 cfg2.N = V8 m (outsOf m o4 o6 o8) c (Pipeline.arrRef spec2 6) := by
  show (d2 c).arrAt 6 cfg2.N = V8 m (outsOf m o4 o6 o8) c main_v38
  have h : V8 m (outsOf m o4 o6 o8) c main_v38 = outsOf m o4 o6 o8 8 main_v38 c := Function.update_self _ _ _
  rw [h, outsOf_v38 m o4 o6 o8 8 c, ho c]

/-- Region 2's arrays at its exit: each input array as it was entered (no input is written), the output array at what
    the write-backs leave. -/
theorem hF2 (hA : ∀ c w, (d2 c).A w = V7 m (outsOf m o4 o6 o8) c (Pipeline.arrRef spec2 w)) (ho : ∀ c, o8 c = (d2 c).arrAt 6 cfg2.N) (c : Dev nD) (w : Fin cfg2.W) :
    (d2 c).arrAt w cfg2.N = V8 m (outsOf m o4 o6 o8) c (Pipeline.arrRef spec2 w) := by
  obtain ⟨k, hk⟩ := w
  have h7 : k < 7 := hk
  interval_cases k
  · exact hF2_0 m d2 o4 o6 o8 hA c
  · exact hF2_1 m d2 o4 o6 o8 hA c
  · exact hF2_2 m d2 o4 o6 o8 hA c
  · exact hF2_3 m d2 o4 o6 o8 hA c
  · exact hF2_4 m d2 o4 o6 o8 hA c
  · exact hF2_5 m d2 o4 o6 o8 hA c
  · exact hF2_6 m d2 o4 o6 o8 ho c

/-- Region 2 leaves every buffer that is no array of its windows as it found it. -/
theorem hrest2 (c : Dev nD) (b : Ref sig .tc) (hb : b ∉ Finset.univ.image (Pipeline.arrRef spec2)) :
    V8 m (outsOf m o4 o6 o8) c b = V7 m (outsOf m o4 o6 o8) c b :=
  V8_of m (outsOf m o4 o6 o8) c b fun hmem => hb (by
    rw [List.mem_singleton.mp hmem]; exact Finset.mem_image.mpr ⟨6, Finset.mem_univ _, rfl⟩)

end Run

section RunOf
variable (d0 : (c : Dev nD) → Dat τ (Elt F) Unit ℕ (UR sig nD τ) ℕ cfg0 c) (d1 : (c : Dev nD) → Dat τ (Elt F) Unit ℕ (UR sig nD τ) ℕ cfg1 c)
  (d2 : (c : Dev nD) → Dat τ (Elt F) Unit ℕ (UR sig nD τ) ℕ cfg2 c)
  (o4 : (c : Dev nD) → Buf (Elt F) ((c : Thread nD τ).loc main_v34)) (o6 : (c : Dev nD) → Buf (Elt F) ((c : Thread nD τ).loc main_v36))
  (o8 : (c : Dev nD) → Buf (Elt F) ((c : Thread nD τ).loc main_v38))

set_option backward.isDefEq.respectTransparency.types false in
/-- THE RUN. Given the three regions' proof data — each entered at the contents the items before it leave, its
    shares, nothing owed, its body obligation, its invariant from and back to the class's — and the three output
    arrays' final contents named, every weakly fair execution of the program from memory `m` with zero counters
    terminates, and the final memory holds the result at the last valuation and every argument as launched. -/
theorem run_of
    (hA0 : ∀ c w, (d0 c).A w = V3 m c (Pipeline.arrRef spec0 w)) (hq0 : ∀ c w, (d0 c).q w = qsh0 w)
    (howed0 : ∀ c t, (d0 c).owed t = 0) (hrec0 : ∀ c t, (d0 c).recorded t = Set.univ)
    (hbody0 : ∀ c, BodyObligation (d0 c) (defs₀ (F := F)) Variants.none () Set.univ)
    (hin0 : ∀ c, Pipeline.ΦA spec0 c ⊢ (d0 c).Φ 0) (hout0 : ∀ c, (d0 c).Φ (Fin.last cfg0.N) ⊢ Pipeline.ΦA spec0 c)
    (ho4 : ∀ c, o4 c = (d0 c).arrAt 6 cfg0.N)
    (hA1 : ∀ c w, (d1 c).A w = V5 m (outsOf m o4 o6 o8) c (Pipeline.arrRef spec1 w)) (hq1 : ∀ c w, (d1 c).q w = fullShare)
    (howed1 : ∀ c t, (d1 c).owed t = 0) (hrec1 : ∀ c t, (d1 c).recorded t = Set.univ)
    (hbody1 : ∀ c, BodyObligation (d1 c) (defs₀ (F := F)) Variants.none () Set.univ)
    (hin1 : ∀ c, Pipeline.ΦA spec1 c ⊢ (d1 c).Φ 0) (hout1 : ∀ c, (d1 c).Φ (Fin.last cfg1.N) ⊢ Pipeline.ΦA spec1 c)
    (ho6 : ∀ c, o6 c = (d1 c).arrAt 6 cfg1.N)
    (hA2 : ∀ c w, (d2 c).A w = V7 m (outsOf m o4 o6 o8) c (Pipeline.arrRef spec2 w)) (hq2 : ∀ c w, (d2 c).q w = qsh2 w)
    (howed2 : ∀ c t, (d2 c).owed t = 0) (hrec2 : ∀ c t, (d2 c).recorded t = Set.univ)
    (hbody2 : ∀ c, BodyObligation (d2 c) (defs₀ (F := F)) Variants.none () Set.univ)
    (hin2 : ∀ c, Pipeline.ΦA spec2 c ⊢ (d2 c).Φ 0) (hout2 : ∀ c, (d2 c).Φ (Fin.last cfg2.N) ⊢ Pipeline.ΦA spec2 c)
    (ho8 : ∀ c, o8 c = (d2 c).arrAt 6 cfg2.N) :
    θ_run defs (onTc (τ := τ) (main (F := F))) ⟨m, fun _ => 0, ρ⟩ (fun r => ∀ c : Dev nD,
      r.2.mem ((c.tc : Thread nD τ).loc main_v48) = V9 m (outsOf m o4 o6 o8) c main_v48
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_cond m (emb₁ (Ix := Unit) (Name := ℕ) (Lvl := ℕ)) () Variants.none Lz lvz (fun _ _ => rfl) ρ (outsOf m o4 o6 o8) (pdats d0 d1 d2)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ => Rr)
    (hE0 := Pipeline.initEach Lz lvz fun c => by
      iintro ⟨⟨-, HO, -, Hp, -⟩, -⟩
      imodintro
      isplitl [Hp]; · iexists _; iexact Hp
      iexists ∅; iexact HO)
    (hE3 := fun c => by iintro ⟨-, HO⟩; iexact HO)
    (R0 := reg0 d0 d1 d2 (V3 m) (V4 m (outsOf m o4 o6 o8)) hA0 hq0 howed0 hrec0 hbody0 hin0 hout0
      (hF0 m d0 o4 o6 o8 hA0 ho4) (hrest0 m o4 o6 o8))
    (hpre0 := fun c => .rfl) (hpost0 := fun c => .rfl)
    (R1 := reg1 d0 d1 d2 (V5 m (outsOf m o4 o6 o8)) (V6 m (outsOf m o4 o6 o8)) hA1 hq1 howed1 hrec1 hbody1 hin1 hout1
      (hF1 m d1 o4 o6 o8 hA1 ho6) (hrest1 m o4 o6 o8))
    (hpre1 := fun c => .rfl) (hpost1 := fun c => .rfl)
    (R2 := reg2 d0 d1 d2 (V7 m (outsOf m o4 o6 o8)) (V8 m (outsOf m o4 o6 o8)) hA2 hq2 howed2 hrec2 hbody2 hin2 hout2
      (hF2 m d2 o4 o6 o8 hA2 ho8) (hrest2 m o4 o6 o8))
    (hpre2 := fun c => .rfl) (hpost2 := fun c => .rfl)

end RunOf

end Cert.Kernel.GenR

end
-- ==== Proof.B.Reg0.Runs.lean ====
/-
  What the case runs of the predicted × predicted pair-sum kernel share.

  The kernel runs on the grid (image b, tile j) of 32 × 5 points; point t has b = t / 5 and j = t % 5. Its body
  has two conditionals on j: at the first tile (j = 0) the carried accumulator is reset to zero before use, at the
  last tile (j = 4) the accumulator is copied to the output block. Here: the two conditions in closed form, where
  the output window is idle and where it is written back, the staging memrefs the body is called with at a point,
  each window's block of its array, and the region invariant with the accumulator split off.
-/
import proofs.«120005_j50079318672069_1_alg».proof.Proof.Gen.Kernel.Launch
import proofs.«120005_j50079318672069_1_alg».proof.Proof.Gen.Kernel.Skeleton
import proofs.«120005_j50079318672069_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.GenR

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the buffers' contents when the region is entered: the parameter the region's half is stated at
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (where it is not
    fetched its block index has not moved), for any proof data whose array is the entry contents and whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (where it is not
    fetched its block index has not moved), for any proof data whose array is the entry contents and whose body
    leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (where it is not
    fetched its block index has not moved), for any proof data whose array is the entry contents and whose body
    leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (where it is not
    fetched its block index has not moved), for any proof data whose array is the entry contents and whose body
    leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (where it is not
    fetched its block index has not moved), for any proof data whose array is the entry contents and whose body
    leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not (where it is not
    fetched its block index has not moved), for any proof data whose array is the entry contents and whose body
    leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's two conditions -/

/-- The first conditional's condition (the tile is the image's first), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 5). -/
theorem hcond0_0 : ∀ t : Fin cfg0.N, cond0_0 (grid0.coords t) ↔ t.val % 5 = 0 :=
  (by decide +kernel : ∀ t : Fin grid0.N, cond0_0 (grid0.coords t) ↔ t.val % 5 = 0)

/-- The second conditional's condition (the tile is the image's last), from the grid coordinates. -/
abbrev cond0_1 (i : grid0.Coords) : Prop := k0_cond2 i = 1#1
/-- It holds at the points ≡ 4 (mod 5). -/
theorem hcond0_1 : ∀ t : Fin cfg0.N, cond0_1 (grid0.coords t) ↔ t.val % 5 = 4 :=
  (by decide +kernel : ∀ t : Fin grid0.N, cond0_1 (grid0.coords t) ↔ t.val % 5 = 4)

/-! ## Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Off the last tile the body stores nothing into the output window: it is idle there, -/
theorem idleAt0_6 : ∀ t : Fin cfg0.N, ¬cond0_1 (grid0.coords t) → cfg0.idle 6 (grid0.coords t) = true := by decide +kernel
/-- and its block is not written back there. -/
theorem noFlush0_6 : ∀ t : Fin cfg0.N, ¬cond0_1 (grid0.coords t) → (cfg0.win 6).flush t = false := by decide +kernel
/-- At the last tile the output window is live. -/
theorem liveAt0_6 : ∀ t : Fin cfg0.N, cond0_1 (grid0.coords t) → cfg0.idle 6 (grid0.coords t) = false := by decide +kernel

/-! ## The memrefs the body is called with -/

/-- One staging buffer of the output window, through which its contents are stated (the choice does not matter). -/
abbrev VO0_6 : View sig .tc .vmem S1x1x1 .f32 := (Memref.whole cc0_stg6_0 : Memref sig .tc .vmem S1x1x1 .f32).view
abbrev ms0_0 (t : Fin cfg0.N) : Memref sig .tc .vmem S1x1000x2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1000x2 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1000x80 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x200x2 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x200x2 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x200x80 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x1 .f32 := win0_6.stage (cfg0.slots t 6)
abbrev hs0_6 (t : Fin cfg0.N) : (ms0_6 t).IsWhole := hstage0_6 ((cfg0.slots t 6).cast nbuf0_6)
/-- The accumulator: a whole scoped buffer of the kernel's own, passed beside the windows and carried between points. -/
abbrev scM0_0 : Memref sig .tc .vmem S1x1x1 .f32 := Memref.whole cc0_scratch0
/-- The same as a view: what it holds is stated through it. -/
abbrev VS0_0 : View sig .tc .vmem S1x1x1 .f32 := scM0_0.view

/-- The other scoped buffers of the core (the other calls' staging buffers and accumulators), carried unopened. -/
abbrev rest0 (c : Dev nD) : sProp 𝕄 :=
  Pipeline.scopedRestBut (Ix := Unit) (Name := ℕ) (U := UR sig nD τ) (Lvl := ℕ) (Val := Elt F) spec0 c [cc0_scratch0]

/-- The region invariant of the class with the accumulator split off as a memref owned at some contents. -/
theorem PhiA0_eq (c : Dev nD) :
    (Pipeline.ΦA spec0 c : sProp 𝕄)
      = iprop(iprop((∃ d, owns (c : Thread nD τ) scM0_0 fullShare d) ∗ rest0 (F := F) c) ∗ (∃ r, prngReg c r)) := by
  unfold Pipeline.ΦA; rw [scopedRest0_split]; simp only [scM0_0, owns_whole]; try rfl

end Cert.Kernel.GenR

end
-- ==== Proof.B.Reg0.RunA.lean ====
/-
  The body of the predicted × predicted pair-sum kernel run at the first tile of an image (the accumulator is reset, nothing is copied out): on whole staging memrefs holding the
  six input blocks, the output block's buffer and the accumulator, the body runs to a state with the inputs as they
  were and the stores it made listed per buffer (last first).
-/
import proofs.«120005_j50079318672069_1_alg».proof.Proof.B.Reg0.Runs

set_option maxRecDepth 16384

noncomputable section

namespace Cert.Kernel.GenR

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in the output block's buffer (`L6`) and in the accumulator (`LS0`), last first, at
    the first tile of an image (the accumulator is reset, nothing is copied out), with the proof that the body runs to the continuation holding them. -/
noncomputable def kernelRun0_A (c : Dev nD) (i : grid0.Coords) (arg2 : Memref sig .tc .vmem S1x1000x2 .f32) (harg2 : arg2.IsWhole) (arg3 : Memref sig .tc .vmem S1x1000x2 .f32) (harg3 : arg3.IsWhole) (arg4 : Memref sig .tc .vmem S1x1000x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : cond0_0 i) (hc1 : ¬cond0_1 i)
    (x2 : Vec F S1x1000x2 .f32) (x3 : Vec F S1x1000x2 .f32) (x4 : Vec F S1x1000x80 .f32) (x5 : Vec F S1x200x2 .f32) (x6 : Vec F S1x200x2 .f32) (x7 : Vec F S1x200x80 .f32) :
    Σ' (L6 : List (View.Piece (Elt F) S1x1x1 .f32)), { LS0 : List (View.Piece (Elt F) S1x1x1 .f32) //
      ∀ (xi6 : Vec F S1x1x1 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi6 ∗ (∃ d, owns (c : Thread nD τ) arg9 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__pairwise_sum_kernel i arg2 harg2 arg3 harg3 arg4 harg4 arg5 harg5 arg6 harg6 arg7 harg7 arg8 harg8 arg9 harg9) K } := by
  refine ⟨[], ?_, fun xi6 E K => ?run⟩
  case run =>
    simp only [cc0__pairwise_sum_kernel_eq_skeleton]; unfold cc0__pairwise_sum_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    iexists _; iexact HS0

end Cert.Kernel.GenR

end
-- ==== Proof.B.Reg0.RunB.lean ====
/-
  The body of the predicted × predicted pair-sum kernel run at a middle tile (no reset, nothing copied out): on whole staging memrefs holding the
  six input blocks, the output block's buffer and the accumulator, the body runs to a state with the inputs as they
  were and the stores it made listed per buffer (last first).
-/
import proofs.«120005_j50079318672069_1_alg».proof.Proof.B.Reg0.RunA

set_option maxRecDepth 16384

noncomputable section

namespace Cert.Kernel.GenR

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in the output block's buffer (`L6`) and in the accumulator (`LS0`), last first, at
    a middle tile (no reset, nothing copied out), with the proof that the body runs to the continuation holding them. -/
noncomputable def kernelRun0_B (c : Dev nD) (i : grid0.Coords) (arg2 : Memref sig .tc .vmem S1x1000x2 .f32) (harg2 : arg2.IsWhole) (arg3 : Memref sig .tc .vmem S1x1000x2 .f32) (harg3 : arg3.IsWhole) (arg4 : Memref sig .tc .vmem S1x1000x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : ¬cond0_0 i) (hc1 : ¬cond0_1 i)
    (x2 : Vec F S1x1000x2 .f32) (x3 : Vec F S1x1000x2 .f32) (x4 : Vec F S1x1000x80 .f32) (x5 : Vec F S1x200x2 .f32) (x6 : Vec F S1x200x2 .f32) (x7 : Vec F S1x200x80 .f32) (xs0 : Vec F S1x1x1 .f32) :
    Σ' (L6 : List (View.Piece (Elt F) S1x1x1 .f32)), { LS0 : List (View.Piece (Elt F) S1x1x1 .f32) //
      ∀ (xi6 : Vec F S1x1x1 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi6 ∗ owns (c : Thread nD τ) arg9 fullShare xs0
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__pairwise_sum_kernel i arg2 harg2 arg3 harg3 arg4 harg4 arg5 harg5 arg6 harg6 arg7 harg7 arg8 harg8 arg9 harg9) K } := by
  refine ⟨[], ?_, fun xi6 E K => ?run⟩
  case run =>
    simp only [cc0__pairwise_sum_kernel_eq_skeleton]; unfold cc0__pairwise_sum_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hfs0
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    iexists _; iexact HS0

end Cert.Kernel.GenR

end
-- ==== Proof.B.Reg0.RunC.lean ====
/-
  The body of the predicted × predicted pair-sum kernel run at the last tile of an image (no reset, the accumulator is copied to the output block): on whole staging memrefs holding the
  six input blocks, the output block's buffer and the accumulator, the body runs to a state with the inputs as they
  were and the stores it made listed per buffer (last first).
-/
import proofs.«120005_j50079318672069_1_alg».proof.Proof.B.Reg0.RunB

set_option maxRecDepth 16384

noncomputable section

namespace Cert.Kernel.GenR

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in the output block's buffer (`L6`) and in the accumulator (`LS0`), last first, at
    the last tile of an image (no reset, the accumulator is copied to the output block), with the proof that the body runs to the continuation holding them. -/
noncomputable def kernelRun0_C (c : Dev nD) (i : grid0.Coords) (arg2 : Memref sig .tc .vmem S1x1000x2 .f32) (harg2 : arg2.IsWhole) (arg3 : Memref sig .tc .vmem S1x1000x2 .f32) (harg3 : arg3.IsWhole) (arg4 : Memref sig .tc .vmem S1x1000x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : ¬cond0_0 i) (hc1 : cond0_1 i)
    (x2 : Vec F S1x1000x2 .f32) (x3 : Vec F S1x1000x2 .f32) (x4 : Vec F S1x1000x80 .f32) (x5 : Vec F S1x200x2 .f32) (x6 : Vec F S1x200x2 .f32) (x7 : Vec F S1x200x80 .f32) (xs0 : Vec F S1x1x1 .f32) :
    Σ' (L6 : List (View.Piece (Elt F) S1x1x1 .f32)), { LS0 : List (View.Piece (Elt F) S1x1x1 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg9 fullShare xs0
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0__pairwise_sum_kernel i arg2 harg2 arg3 harg3 arg4 harg4 arg5 harg5 arg6 harg6 arg7 harg7 arg8 harg8 arg9 harg9) K } := by
  refine ⟨?_, ?_, fun E K => ?run⟩
  case run =>
    simp only [cc0__pairwise_sum_kernel_eq_skeleton]; unfold cc0__pairwise_sum_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hfs0
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    iexists _; iexact HS0

end Cert.Kernel.GenR

end
-- ==== Proof.B.Reg0.lean ====
/-
  The predicted × predicted pair-sum kernel, below its region record, at any entry contents `V` of the core's buffers.

  Per case of the body's two conditionals (first tile, middle tile, last tile) what the run's stores leave in the
  accumulator and in the output block's buffer; these point by point along the grid (`outsAt0`: the accumulator
  after point t is the case's stores over what point t − 1 left, except at a first tile where it is reset first);
  the region invariant that carries the accumulator at the previous point's contents; the proof data; the body
  obligation; and the value equations: the accumulator after a point is one step (`step0`: the kernel's
  arithmetic on the six input blocks, added to the accumulator) from zero at a first tile and from the previous
  point's accumulator elsewhere, and at a last tile the output block's buffer holds the accumulator.
-/
import proofs.«120005_j50079318672069_1_alg».proof.Proof.B.Reg0.RunC

set_option maxRecDepth 16384

noncomputable section

namespace Cert.Kernel.GenR

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the output block's buffer and in the accumulator -/

/-- What the case's stores leave in the output block's buffer, read back (no store: a placeholder nothing consults, the window being idle and not written back there). -/
def out0_A_6 (c : Dev nD) (i : grid0.Coords) (arg2 : Memref sig .tc .vmem S1x1000x2 .f32) (harg2 : arg2.IsWhole) (arg3 : Memref sig .tc .vmem S1x1000x2 .f32) (harg3 : arg3.IsWhole) (arg4 : Memref sig .tc .vmem S1x1000x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : cond0_0 i) (hc1 : ¬cond0_1 i)
    (x2 : Vec F S1x1000x2 .f32) (x3 : Vec F S1x1000x2 .f32) (x4 : Vec F S1x1000x80 .f32) (x5 : Vec F S1x200x2 .f32) (x6 : Vec F S1x200x2 .f32) (x7 : Vec F S1x200x80 .f32) : Vec F S1x1x1 .f32 :=
  VO0_6.read (Elt F) (VO0_6.writes (Elt F) VO0_6.junk (kernelRun0_A c i arg2 harg2 arg3 harg3 arg4 harg4 arg5 harg5 arg6 harg6 arg7 harg7 arg8 harg8 arg9 harg9 hc0 hc1 x2 x3 x4 x5 x6 x7).1)

/-- The case's stores into the accumulator cover it. -/
theorem scover0_A_0 (c : Dev nD) (i : grid0.Coords) (arg2 : Memref sig .tc .vmem S1x1000x2 .f32) (harg2 : arg2.IsWhole) (arg3 : Memref sig .tc .vmem S1x1000x2 .f32) (harg3 : arg3.IsWhole) (arg4 : Memref sig .tc .vmem S1x1000x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : cond0_0 i) (hc1 : ¬cond0_1 i)
    (x2 : Vec F S1x1000x2 .f32) (x3 : Vec F S1x1000x2 .f32) (x4 : Vec F S1x1000x80 .f32) (x5 : Vec F S1x200x2 .f32) (x6 : Vec F S1x200x2 .f32) (x7 : Vec F S1x200x80 .f32) (y : S1x1x1.Idx) :
    ∃ pc ∈ (kernelRun0_A c i arg2 harg2 arg3 harg3 arg4 harg4 arg5 harg5 arg6 harg6 arg7 harg7 arg8 harg8 arg9 harg9 hc0 hc1 x2 x3 x4 x5 x6 x7).2.1, y ∈ pc.1.set :=
  View.cover_of_tiledL (kernelRun0_A c i arg2 harg2 arg3 harg3 arg4 harg4 arg5 harg5 arg6 harg6 arg7 harg7 arg8 harg8 arg9 harg9 hc0 hc1 x2 x3 x4 x5 x6 x7).2.1 S1x1x1.size (by sl_kernel_rfl) y

/-- What the case leaves in the accumulator: its stores read back. -/
def sout0_A_0 (c : Dev nD) (i : grid0.Coords) (arg2 : Memref sig .tc .vmem S1x1000x2 .f32) (harg2 : arg2.IsWhole) (arg3 : Memref sig .tc .vmem S1x1000x2 .f32) (harg3 : arg3.IsWhole) (arg4 : Memref sig .tc .vmem S1x1000x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : cond0_0 i) (hc1 : ¬cond0_1 i)
    (x2 : Vec F S1x1000x2 .f32) (x3 : Vec F S1x1000x2 .f32) (x4 : Vec F S1x1000x80 .f32) (x5 : Vec F S1x200x2 .f32) (x6 : Vec F S1x200x2 .f32) (x7 : Vec F S1x200x80 .f32) : Vec F S1x1x1 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x2 x3 x4 x5 x6 x7).2.1)

/-- What the case's stores leave in the output block's buffer, read back (no store: a placeholder nothing consults, the window being idle and not written back there). -/
def out0_B_6 (c : Dev nD) (i : grid0.Coords) (arg2 : Memref sig .tc .vmem S1x1000x2 .f32) (harg2 : arg2.IsWhole) (arg3 : Memref sig .tc .vmem S1x1000x2 .f32) (harg3 : arg3.IsWhole) (arg4 : Memref sig .tc .vmem S1x1000x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : ¬cond0_0 i) (hc1 : ¬cond0_1 i)
    (x2 : Vec F S1x1000x2 .f32) (x3 : Vec F S1x1000x2 .f32) (x4 : Vec F S1x1000x80 .f32) (x5 : Vec F S1x200x2 .f32) (x6 : Vec F S1x200x2 .f32) (x7 : Vec F S1x200x80 .f32) (xs0 : Vec F S1x1x1 .f32) : Vec F S1x1x1 .f32 :=
  VO0_6.read (Elt F) (VO0_6.writes (Elt F) VO0_6.junk (kernelRun0_B c i arg2 harg2 arg3 harg3 arg4 harg4 arg5 harg5 arg6 harg6 arg7 harg7 arg8 harg8 arg9 harg9 hc0 hc1 x2 x3 x4 x5 x6 x7 xs0).1)

/-- The case's stores into the accumulator cover it. -/
theorem scover0_B_0 (c : Dev nD) (i : grid0.Coords) (arg2 : Memref sig .tc .vmem S1x1000x2 .f32) (harg2 : arg2.IsWhole) (arg3 : Memref sig .tc .vmem S1x1000x2 .f32) (harg3 : arg3.IsWhole) (arg4 : Memref sig .tc .vmem S1x1000x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : ¬cond0_0 i) (hc1 : ¬cond0_1 i)
    (x2 : Vec F S1x1000x2 .f32) (x3 : Vec F S1x1000x2 .f32) (x4 : Vec F S1x1000x80 .f32) (x5 : Vec F S1x200x2 .f32) (x6 : Vec F S1x200x2 .f32) (x7 : Vec F S1x200x80 .f32) (xs0 : Vec F S1x1x1 .f32) (y : S1x1x1.Idx) :
    ∃ pc ∈ (kernelRun0_B c i arg2 harg2 arg3 harg3 arg4 harg4 arg5 harg5 arg6 harg6 arg7 harg7 arg8 harg8 arg9 harg9 hc0 hc1 x2 x3 x4 x5 x6 x7 xs0).2.1, y ∈ pc.1.set :=
  View.cover_of_tiledL (kernelRun0_B c i arg2 harg2 arg3 harg3 arg4 harg4 arg5 harg5 arg6 harg6 arg7 harg7 arg8 harg8 arg9 harg9 hc0 hc1 x2 x3 x4 x5 x6 x7 xs0).2.1 S1x1x1.size (by sl_kernel_rfl) y

/-- What the case leaves in the accumulator: its stores read back. -/
def sout0_B_0 (c : Dev nD) (i : grid0.Coords) (arg2 : Memref sig .tc .vmem S1x1000x2 .f32) (harg2 : arg2.IsWhole) (arg3 : Memref sig .tc .vmem S1x1000x2 .f32) (harg3 : arg3.IsWhole) (arg4 : Memref sig .tc .vmem S1x1000x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : ¬cond0_0 i) (hc1 : ¬cond0_1 i)
    (x2 : Vec F S1x1000x2 .f32) (x3 : Vec F S1x1000x2 .f32) (x4 : Vec F S1x1000x80 .f32) (x5 : Vec F S1x200x2 .f32) (x6 : Vec F S1x200x2 .f32) (x7 : Vec F S1x200x80 .f32) (xs0 : Vec F S1x1x1 .f32) : Vec F S1x1x1 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x2 x3 x4 x5 x6 x7 xs0).2.1)

/-- At a last tile the stores into the output block's buffer cover it. -/
theorem cover0_C_6 (c : Dev nD) (i : grid0.Coords) (arg2 : Memref sig .tc .vmem S1x1000x2 .f32) (harg2 : arg2.IsWhole) (arg3 : Memref sig .tc .vmem S1x1000x2 .f32) (harg3 : arg3.IsWhole) (arg4 : Memref sig .tc .vmem S1x1000x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : ¬cond0_0 i) (hc1 : cond0_1 i)
    (x2 : Vec F S1x1000x2 .f32) (x3 : Vec F S1x1000x2 .f32) (x4 : Vec F S1x1000x80 .f32) (x5 : Vec F S1x200x2 .f32) (x6 : Vec F S1x200x2 .f32) (x7 : Vec F S1x200x80 .f32) (xs0 : Vec F S1x1x1 .f32) (y : S1x1x1.Idx) :
    ∃ pc ∈ (kernelRun0_C c i arg2 harg2 arg3 harg3 arg4 harg4 arg5 harg5 arg6 harg6 arg7 harg7 arg8 harg8 arg9 harg9 hc0 hc1 x2 x3 x4 x5 x6 x7 xs0).1, y ∈ pc.1.set :=
  View.cover_of_tiledL (kernelRun0_C c i arg2 harg2 arg3 harg3 arg4 harg4 arg5 harg5 arg6 harg6 arg7 harg7 arg8 harg8 arg9 harg9 hc0 hc1 x2 x3 x4 x5 x6 x7 xs0).1 S1x1x1.size (by sl_kernel_rfl) y

/-- What the case's stores leave in the output block's buffer, read back. -/
def out0_C_6 (c : Dev nD) (i : grid0.Coords) (arg2 : Memref sig .tc .vmem S1x1000x2 .f32) (harg2 : arg2.IsWhole) (arg3 : Memref sig .tc .vmem S1x1000x2 .f32) (harg3 : arg3.IsWhole) (arg4 : Memref sig .tc .vmem S1x1000x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : ¬cond0_0 i) (hc1 : cond0_1 i)
    (x2 : Vec F S1x1000x2 .f32) (x3 : Vec F S1x1000x2 .f32) (x4 : Vec F S1x1000x80 .f32) (x5 : Vec F S1x200x2 .f32) (x6 : Vec F S1x200x2 .f32) (x7 : Vec F S1x200x80 .f32) (xs0 : Vec F S1x1x1 .f32) : Vec F S1x1x1 .f32 :=
  VO0_6.read (Elt F) (VO0_6.writes (Elt F) VO0_6.junk (kernelRun0_C c i arg2 harg2 arg3 harg3 arg4 harg4 arg5 harg5 arg6 harg6 arg7 harg7 arg8 harg8 arg9 harg9 hc0 hc1 x2 x3 x4 x5 x6 x7 xs0).1)

/-- The case's stores into the accumulator cover it. -/
theorem scover0_C_0 (c : Dev nD) (i : grid0.Coords) (arg2 : Memref sig .tc .vmem S1x1000x2 .f32) (harg2 : arg2.IsWhole) (arg3 : Memref sig .tc .vmem S1x1000x2 .f32) (harg3 : arg3.IsWhole) (arg4 : Memref sig .tc .vmem S1x1000x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : ¬cond0_0 i) (hc1 : cond0_1 i)
    (x2 : Vec F S1x1000x2 .f32) (x3 : Vec F S1x1000x2 .f32) (x4 : Vec F S1x1000x80 .f32) (x5 : Vec F S1x200x2 .f32) (x6 : Vec F S1x200x2 .f32) (x7 : Vec F S1x200x80 .f32) (xs0 : Vec F S1x1x1 .f32) (y : S1x1x1.Idx) :
    ∃ pc ∈ (kernelRun0_C c i arg2 harg2 arg3 harg3 arg4 harg4 arg5 harg5 arg6 harg6 arg7 harg7 arg8 harg8 arg9 harg9 hc0 hc1 x2 x3 x4 x5 x6 x7 xs0).2.1, y ∈ pc.1.set :=
  View.cover_of_tiledL (kernelRun0_C c i arg2 harg2 arg3 harg3 arg4 harg4 arg5 harg5 arg6 harg6 arg7 harg7 arg8 harg8 arg9 harg9 hc0 hc1 x2 x3 x4 x5 x6 x7 xs0).2.1 S1x1x1.size (by sl_kernel_rfl) y

/-- What the case leaves in the accumulator: its stores read back. -/
def sout0_C_0 (c : Dev nD) (i : grid0.Coords) (arg2 : Memref sig .tc .vmem S1x1000x2 .f32) (harg2 : arg2.IsWhole) (arg3 : Memref sig .tc .vmem S1x1000x2 .f32) (harg3 : arg3.IsWhole) (arg4 : Memref sig .tc .vmem S1x1000x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : ¬cond0_0 i) (hc1 : cond0_1 i)
    (x2 : Vec F S1x1000x2 .f32) (x3 : Vec F S1x1000x2 .f32) (x4 : Vec F S1x1000x80 .f32) (x5 : Vec F S1x200x2 .f32) (x6 : Vec F S1x200x2 .f32) (x7 : Vec F S1x200x80 .f32) (xs0 : Vec F S1x1x1 .f32) : Vec F S1x1x1 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x2 x3 x4 x5 x6 x7 xs0).2.1)

section
variable (V : (c : Dev nD) → (b : Ref sig .tc) → Buf (Elt F) ((c : Thread nD τ).loc b))

/-! ## Point by point -/

/-- THE ACCUMULATION. What the output block's buffer (first component) and the accumulator (second) hold after the
    body at position `n`: the case the closed forms select at `n`, run at the point's memrefs and input blocks, over
    the accumulator that position `n − 1` left (a first tile does not read it). -/
def outsAt0 (c : Dev nD) : (n : ℕ) → n < cfg0.N → Vec F S1x1x1 .f32 × Vec F S1x1x1 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if h0 : (n + 1) % 5 = 0 then
      if h1 : (n + 1) % 5 = 4 then
        False.elim (by omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩))
    else
      if h1 : (n + 1) % 5 = 4 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2)

/-- `outsAt0` at a first tile. -/
theorem outsAt0_A (c : Dev nD) (t : Fin cfg0.N) (h0 : t.val % 5 = 0) (h1 : ¬t.val % 5 = 4) :
    outsAt0 V c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)) := by
  obtain ⟨n, hn⟩ := t
  cases n with
  | zero => exact rfl
  | succ n => exact (dif_pos h0).trans ((dif_neg h1).trans rfl)

/-- `outsAt0` at a middle tile: over what the point before left. -/
theorem outsAt0_B (c : Dev nD) (t : Fin cfg0.N) (h0 : ¬t.val % 5 = 0) (h1 : ¬t.val % 5 = 4) :
    outsAt0 V c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a last tile: over what the point before left. -/
theorem outsAt0_C (c : Dev nD) (t : Fin cfg0.N) (h0 : ¬t.val % 5 = 0) (h1 : t.val % 5 = 4) :
    outsAt0 V c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The invariant before position `n`: before the first point the class's (every scoped buffer that is no staging
    buffer at some contents, the generator register at some state); afterwards the same with the accumulator at what
    the point before left in it. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 (F := F) c) ∗ (∃ r, prngReg c r)) := by
  cases n with
  | zero => exact absurd rfl hz
  | succ n => rfl

/-! ## The proof data -/

/-- The shares held of the windows' arrays. -/
def q0 : Fin 7 → PosShare TreeShare := fun | 0 => fullShare.left | 1 => fullShare.left | 2 => fullShare.left | 3 => fullShare.right | 4 => fullShare.right | 5 => fullShare.right | 6 => fullShare | ⟨_ + 7, h⟩ => absurd h (Nat.not_lt.2 (Nat.le_add_left _ _))

/-- The proof data on core `c`: the arrays as the region finds them; after the body at point `t` each input's
    buffer at its block and the output's at `outsAt0`'s first component; the invariant `PhiS0`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
  Φ t := PhiS0 V c t.val (Nat.le_of_lt_succ t.isLt)
  q := q0
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 8000000 in
/-- The body at any point: the inputs' memrefs hold their blocks; the closed forms say which case the point is in,
    so that case's run applies; the invariant hands the body the accumulator at what the point before left (at
    anything before the first point) and takes it back at this point's contents; the output block's buffer is handed
    back untouched off the last tile and at the case's stores on it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  have hN : t.val < 160 := lt_of_lt_of_eq t.isLt (show cfg0.N = 160 from N_0)
  by_cases h0 : t.val % 5 = 0
  · by_cases h1 : t.val % 5 = 4
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [Dat.leavesExact_idle (dat0 V c) 6 t (idleAt0_6 t (fun h => h1 ((hcond0_1 t).mp h))) (noFlush0_6 t (fun h => h1 ((hcond0_1 t).mp h)))]
      rw [outsAt0_A V c t h0 h1]
      unfold sout0_A_0; (try dsimp only)
      by_cases hz : t.val = 0
      ·
        rw [PhiS0_castSucc V c t, PhiS0_zero V c _ _ hz, PhiA0_eq]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      ·
        rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · have hz : t.val ≠ 0 := fun e => h0 (by rw [e])
    by_cases h1 : t.val % 5 = 4
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t ((hcond0_1 t).mpr h1)], after0_6]
      rw [outsAt0_C V c t h0 h1]
      unfold out0_C_6 sout0_C_0; (try dsimp only)
      ·
        rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        iintro ⟨H0, H1, H2, H3, H4, H5, ⟨%e6, H6⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover0_C_6 c _ _ _ _ _ _ _ _ _ _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [Dat.leavesExact_idle (dat0 V c) 6 t (idleAt0_6 t (fun h => h1 ((hcond0_1 t).mp h))) (noFlush0_6 t (fun h => h1 ((hcond0_1 t).mp h)))]
      rw [outsAt0_B V c t h0 h1]
      unfold sout0_B_0; (try dsimp only)
      ·
        rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 160 := N_0; omega)

end

end Cert.Kernel.GenR

end
-- ==== Proof.B.Reg1.Runs.lean ====
/-
  What the case runs of the ground-truth × predicted pair-sum kernel share.

  The kernel runs on the grid (image b, tile j) of 32 × 5 points; point t has b = t / 5 and j = t % 5. Its body
  has two conditionals on j: at the first tile (j = 0) the carried accumulator is reset to zero before use, at the
  last tile (j = 4) the accumulator is copied to the output block. Here: the two conditions in closed form, where
  the output window is idle and where it is written back, the staging memrefs the body is called with at a point,
  each window's block of its array, and the region invariant with the accumulator split off.
-/
import proofs.«120005_j50079318672069_1_alg».proof.Proof.Gen.Kernel.Launch
import proofs.«120005_j50079318672069_1_alg».proof.Proof.Gen.Kernel.Skeleton
import proofs.«120005_j50079318672069_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.GenR

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the buffers' contents when the region is entered: the parameter the region's half is stated at
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (where it is not
    fetched its block index has not moved), for any proof data whose array is the entry contents and whose body
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (where it is not
    fetched its block index has not moved), for any proof data whose array is the entry contents and whose body
    leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (where it is not
    fetched its block index has not moved), for any proof data whose array is the entry contents and whose body
    leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (where it is not
    fetched its block index has not moved), for any proof data whose array is the entry contents and whose body
    leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (where it is not
    fetched its block index has not moved), for any proof data whose array is the entry contents and whose body
    leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not (where it is not
    fetched its block index has not moved), for any proof data whose array is the entry contents and whose body
    leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's two conditions -/

/-- The first conditional's condition (the tile is the image's first), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 5). -/
theorem hcond1_0 : ∀ t : Fin cfg1.N, cond1_0 (grid1.coords t) ↔ t.val % 5 = 0 :=
  (by decide +kernel : ∀ t : Fin grid1.N, cond1_0 (grid1.coords t) ↔ t.val % 5 = 0)

/-- The second conditional's condition (the tile is the image's last), from the grid coordinates. -/
abbrev cond1_1 (i : grid1.Coords) : Prop := k1_cond2 i = 1#1
/-- It holds at the points ≡ 4 (mod 5). -/
theorem hcond1_1 : ∀ t : Fin cfg1.N, cond1_1 (grid1.coords t) ↔ t.val % 5 = 4 :=
  (by decide +kernel : ∀ t : Fin grid1.N, cond1_1 (grid1.coords t) ↔ t.val % 5 = 4)

/-! ## Where the windows are idle -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Off the last tile the body stores nothing into the output window: it is idle there, -/
theorem idleAt1_6 : ∀ t : Fin cfg1.N, ¬cond1_1 (grid1.coords t) → cfg1.idle 6 (grid1.coords t) = true := by decide +kernel
/-- and its block is not written back there. -/
theorem noFlush1_6 : ∀ t : Fin cfg1.N, ¬cond1_1 (grid1.coords t) → (cfg1.win 6).flush t = false := by decide +kernel
/-- At the last tile the output window is live. -/
theorem liveAt1_6 : ∀ t : Fin cfg1.N, cond1_1 (grid1.coords t) → cfg1.idle 6 (grid1.coords t) = false := by decide +kernel

/-! ## The memrefs the body is called with -/

/-- One staging buffer of the output window, through which its contents are stated (the choice does not matter). -/
abbrev VO1_6 : View sig .tc .vmem S1x1x1 .f32 := (Memref.whole cc1_stg6_0 : Memref sig .tc .vmem S1x1x1 .f32).view
abbrev ms1_0 (t : Fin cfg1.N) : Memref sig .tc .vmem S1x100x2 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x100x2 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x100x80 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x200x2 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x200x2 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x200x80 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1x1 .f32 := win1_6.stage (cfg1.slots t 6)
abbrev hs1_6 (t : Fin cfg1.N) : (ms1_6 t).IsWhole := hstage1_6 ((cfg1.slots t 6).cast nbuf1_6)
/-- The accumulator: a whole scoped buffer of the kernel's own, passed beside the windows and carried between points. -/
abbrev scM1_0 : Memref sig .tc .vmem S1x1x1 .f32 := Memref.whole cc1_scratch0
/-- The same as a view: what it holds is stated through it. -/
abbrev VS1_0 : View sig .tc .vmem S1x1x1 .f32 := scM1_0.view

/-- The other scoped buffers of the core (the other calls' staging buffers and accumulators), carried unopened. -/
abbrev rest1 (c : Dev nD) : sProp 𝕄 :=
  Pipeline.scopedRestBut (Ix := Unit) (Name := ℕ) (U := UR sig nD τ) (Lvl := ℕ) (Val := Elt F) spec1 c [cc1_scratch0]

/-- The region invariant of the class with the accumulator split off as a memref owned at some contents. -/
theorem PhiA1_eq (c : Dev nD) :
    (Pipeline.ΦA spec1 c : sProp 𝕄)
      = iprop(iprop((∃ d, owns (c : Thread nD τ) scM1_0 fullShare d) ∗ rest1 (F := F) c) ∗ (∃ r, prngReg c r)) := by
  unfold Pipeline.ΦA; rw [scopedRest1_split]; simp only [scM1_0, owns_whole]; try rfl

end Cert.Kernel.GenR

end
-- ==== Proof.B.Reg1.RunA.lean ====
/-
  The body of the ground-truth × predicted pair-sum kernel run at the first tile of an image (the accumulator is reset, nothing is copied out): on whole staging memrefs holding the
  six input blocks, the output block's buffer and the accumulator, the body runs to a state with the inputs as they
  were and the stores it made listed per buffer (last first).
-/
import proofs.«120005_j50079318672069_1_alg».proof.Proof.B.Reg1.Runs

set_option maxRecDepth 16384

noncomputable section

namespace Cert.Kernel.GenR

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in the output block's buffer (`L6`) and in the accumulator (`LS0`), last first, at
    the first tile of an image (the accumulator is reset, nothing is copied out), with the proof that the body runs to the continuation holding them. -/
noncomputable def kernelRun1_A (c : Dev nD) (i : grid1.Coords) (arg2 : Memref sig .tc .vmem S1x100x2 .f32) (harg2 : arg2.IsWhole) (arg3 : Memref sig .tc .vmem S1x100x2 .f32) (harg3 : arg3.IsWhole) (arg4 : Memref sig .tc .vmem S1x100x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : cond1_0 i) (hc1 : ¬cond1_1 i)
    (x2 : Vec F S1x100x2 .f32) (x3 : Vec F S1x100x2 .f32) (x4 : Vec F S1x100x80 .f32) (x5 : Vec F S1x200x2 .f32) (x6 : Vec F S1x200x2 .f32) (x7 : Vec F S1x200x80 .f32) :
    Σ' (L6 : List (View.Piece (Elt F) S1x1x1 .f32)), { LS0 : List (View.Piece (Elt F) S1x1x1 .f32) //
      ∀ (xi6 : Vec F S1x1x1 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi6 ∗ (∃ d, owns (c : Thread nD τ) arg9 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__pairwise_sum_kernel i arg2 harg2 arg3 harg3 arg4 harg4 arg5 harg5 arg6 harg6 arg7 harg7 arg8 harg8 arg9 harg9) K } := by
  refine ⟨[], ?_, fun xi6 E K => ?run⟩
  case run =>
    simp only [cc1__pairwise_sum_kernel_eq_skeleton]; unfold cc1__pairwise_sum_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    iexists _; iexact HS0

end Cert.Kernel.GenR

end
-- ==== Proof.B.Reg1.RunB.lean ====
/-
  The body of the ground-truth × predicted pair-sum kernel run at a middle tile (no reset, nothing copied out): on whole staging memrefs holding the
  six input blocks, the output block's buffer and the accumulator, the body runs to a state with the inputs as they
  were and the stores it made listed per buffer (last first).
-/
import proofs.«120005_j50079318672069_1_alg».proof.Proof.B.Reg1.RunA

set_option maxRecDepth 16384

noncomputable section

namespace Cert.Kernel.GenR

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in the output block's buffer (`L6`) and in the accumulator (`LS0`), last first, at
    a middle tile (no reset, nothing copied out), with the proof that the body runs to the continuation holding them. -/
noncomputable def kernelRun1_B (c : Dev nD) (i : grid1.Coords) (arg2 : Memref sig .tc .vmem S1x100x2 .f32) (harg2 : arg2.IsWhole) (arg3 : Memref sig .tc .vmem S1x100x2 .f32) (harg3 : arg3.IsWhole) (arg4 : Memref sig .tc .vmem S1x100x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : ¬cond1_1 i)
    (x2 : Vec F S1x100x2 .f32) (x3 : Vec F S1x100x2 .f32) (x4 : Vec F S1x100x80 .f32) (x5 : Vec F S1x200x2 .f32) (x6 : Vec F S1x200x2 .f32) (x7 : Vec F S1x200x80 .f32) (xs0 : Vec F S1x1x1 .f32) :
    Σ' (L6 : List (View.Piece (Elt F) S1x1x1 .f32)), { LS0 : List (View.Piece (Elt F) S1x1x1 .f32) //
      ∀ (xi6 : Vec F S1x1x1 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi6 ∗ owns (c : Thread nD τ) arg9 fullShare xs0
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__pairwise_sum_kernel i arg2 harg2 arg3 harg3 arg4 harg4 arg5 harg5 arg6 harg6 arg7 harg7 arg8 harg8 arg9 harg9) K } := by
  refine ⟨[], ?_, fun xi6 E K => ?run⟩
  case run =>
    simp only [cc1__pairwise_sum_kernel_eq_skeleton]; unfold cc1__pairwise_sum_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hfs0
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    iexists _; iexact HS0

end Cert.Kernel.GenR

end
-- ==== Proof.B.Reg1.RunC.lean ====
/-
  The body of the ground-truth × predicted pair-sum kernel run at the last tile of an image (no reset, the accumulator is copied to the output block): on whole staging memrefs holding the
  six input blocks, the output block's buffer and the accumulator, the body runs to a state with the inputs as they
  were and the stores it made listed per buffer (last first).
-/
import proofs.«120005_j50079318672069_1_alg».proof.Proof.B.Reg1.RunB

set_option maxRecDepth 16384

noncomputable section

namespace Cert.Kernel.GenR

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in the output block's buffer (`L6`) and in the accumulator (`LS0`), last first, at
    the last tile of an image (no reset, the accumulator is copied to the output block), with the proof that the body runs to the continuation holding them. -/
noncomputable def kernelRun1_C (c : Dev nD) (i : grid1.Coords) (arg2 : Memref sig .tc .vmem S1x100x2 .f32) (harg2 : arg2.IsWhole) (arg3 : Memref sig .tc .vmem S1x100x2 .f32) (harg3 : arg3.IsWhole) (arg4 : Memref sig .tc .vmem S1x100x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : cond1_1 i)
    (x2 : Vec F S1x100x2 .f32) (x3 : Vec F S1x100x2 .f32) (x4 : Vec F S1x100x80 .f32) (x5 : Vec F S1x200x2 .f32) (x6 : Vec F S1x200x2 .f32) (x7 : Vec F S1x200x80 .f32) (xs0 : Vec F S1x1x1 .f32) :
    Σ' (L6 : List (View.Piece (Elt F) S1x1x1 .f32)), { LS0 : List (View.Piece (Elt F) S1x1x1 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg9 fullShare xs0
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc1__pairwise_sum_kernel i arg2 harg2 arg3 harg3 arg4 harg4 arg5 harg5 arg6 harg6 arg7 harg7 arg8 harg8 arg9 harg9) K } := by
  refine ⟨?_, ?_, fun E K => ?run⟩
  case run =>
    simp only [cc1__pairwise_sum_kernel_eq_skeleton]; unfold cc1__pairwise_sum_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hfs0
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    iexists _; iexact HS0

end Cert.Kernel.GenR

end
-- ==== Proof.B.Reg1.lean ====
/-
  The ground-truth × predicted pair-sum kernel, below its region record, at any entry contents `V` of the core's buffers.

  Per case of the body's two conditionals (first tile, middle tile, last tile) what the run's stores leave in the
  accumulator and in the output block's buffer; these point by point along the grid (`outsAt1`: the accumulator
  after point t is the case's stores over what point t − 1 left, except at a first tile where it is reset first);
  the region invariant that carries the accumulator at the previous point's contents; the proof data; the body
  obligation; and the value equations: the accumulator after a point is one step (`step1`: the kernel's
  arithmetic on the six input blocks, added to the accumulator) from zero at a first tile and from the previous
  point's accumulator elsewhere, and at a last tile the output block's buffer holds the accumulator.
-/
import proofs.«120005_j50079318672069_1_alg».proof.Proof.B.Reg1.RunC

set_option maxRecDepth 16384

noncomputable section

namespace Cert.Kernel.GenR

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the output block's buffer and in the accumulator -/

/-- What the case's stores leave in the output block's buffer, read back (no store: a placeholder nothing consults, the window being idle and not written back there). -/
def out1_A_6 (c : Dev nD) (i : grid1.Coords) (arg2 : Memref sig .tc .vmem S1x100x2 .f32) (harg2 : arg2.IsWhole) (arg3 : Memref sig .tc .vmem S1x100x2 .f32) (harg3 : arg3.IsWhole) (arg4 : Memref sig .tc .vmem S1x100x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : cond1_0 i) (hc1 : ¬cond1_1 i)
    (x2 : Vec F S1x100x2 .f32) (x3 : Vec F S1x100x2 .f32) (x4 : Vec F S1x100x80 .f32) (x5 : Vec F S1x200x2 .f32) (x6 : Vec F S1x200x2 .f32) (x7 : Vec F S1x200x80 .f32) : Vec F S1x1x1 .f32 :=
  VO1_6.read (Elt F) (VO1_6.writes (Elt F) VO1_6.junk (kernelRun1_A c i arg2 harg2 arg3 harg3 arg4 harg4 arg5 harg5 arg6 harg6 arg7 harg7 arg8 harg8 arg9 harg9 hc0 hc1 x2 x3 x4 x5 x6 x7).1)

/-- The case's stores into the accumulator cover it. -/
theorem scover1_A_0 (c : Dev nD) (i : grid1.Coords) (arg2 : Memref sig .tc .vmem S1x100x2 .f32) (harg2 : arg2.IsWhole) (arg3 : Memref sig .tc .vmem S1x100x2 .f32) (harg3 : arg3.IsWhole) (arg4 : Memref sig .tc .vmem S1x100x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : cond1_0 i) (hc1 : ¬cond1_1 i)
    (x2 : Vec F S1x100x2 .f32) (x3 : Vec F S1x100x2 .f32) (x4 : Vec F S1x100x80 .f32) (x5 : Vec F S1x200x2 .f32) (x6 : Vec F S1x200x2 .f32) (x7 : Vec F S1x200x80 .f32) (y : S1x1x1.Idx) :
    ∃ pc ∈ (kernelRun1_A c i arg2 harg2 arg3 harg3 arg4 harg4 arg5 harg5 arg6 harg6 arg7 harg7 arg8 harg8 arg9 harg9 hc0 hc1 x2 x3 x4 x5 x6 x7).2.1, y ∈ pc.1.set :=
  View.cover_of_tiledL (kernelRun1_A c i arg2 harg2 arg3 harg3 arg4 harg4 arg5 harg5 arg6 harg6 arg7 harg7 arg8 harg8 arg9 harg9 hc0 hc1 x2 x3 x4 x5 x6 x7).2.1 S1x1x1.size (by sl_kernel_rfl) y

/-- What the case leaves in the accumulator: its stores read back. -/
def sout1_A_0 (c : Dev nD) (i : grid1.Coords) (arg2 : Memref sig .tc .vmem S1x100x2 .f32) (harg2 : arg2.IsWhole) (arg3 : Memref sig .tc .vmem S1x100x2 .f32) (harg3 : arg3.IsWhole) (arg4 : Memref sig .tc .vmem S1x100x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : cond1_0 i) (hc1 : ¬cond1_1 i)
    (x2 : Vec F S1x100x2 .f32) (x3 : Vec F S1x100x2 .f32) (x4 : Vec F S1x100x80 .f32) (x5 : Vec F S1x200x2 .f32) (x6 : Vec F S1x200x2 .f32) (x7 : Vec F S1x200x80 .f32) : Vec F S1x1x1 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x2 x3 x4 x5 x6 x7).2.1)

/-- What the case's stores leave in the output block's buffer, read back (no store: a placeholder nothing consults, the window being idle and not written back there). -/
def out1_B_6 (c : Dev nD) (i : grid1.Coords) (arg2 : Memref sig .tc .vmem S1x100x2 .f32) (harg2 : arg2.IsWhole) (arg3 : Memref sig .tc .vmem S1x100x2 .f32) (harg3 : arg3.IsWhole) (arg4 : Memref sig .tc .vmem S1x100x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : ¬cond1_1 i)
    (x2 : Vec F S1x100x2 .f32) (x3 : Vec F S1x100x2 .f32) (x4 : Vec F S1x100x80 .f32) (x5 : Vec F S1x200x2 .f32) (x6 : Vec F S1x200x2 .f32) (x7 : Vec F S1x200x80 .f32) (xs0 : Vec F S1x1x1 .f32) : Vec F S1x1x1 .f32 :=
  VO1_6.read (Elt F) (VO1_6.writes (Elt F) VO1_6.junk (kernelRun1_B c i arg2 harg2 arg3 harg3 arg4 harg4 arg5 harg5 arg6 harg6 arg7 harg7 arg8 harg8 arg9 harg9 hc0 hc1 x2 x3 x4 x5 x6 x7 xs0).1)

/-- The case's stores into the accumulator cover it. -/
theorem scover1_B_0 (c : Dev nD) (i : grid1.Coords) (arg2 : Memref sig .tc .vmem S1x100x2 .f32) (harg2 : arg2.IsWhole) (arg3 : Memref sig .tc .vmem S1x100x2 .f32) (harg3 : arg3.IsWhole) (arg4 : Memref sig .tc .vmem S1x100x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : ¬cond1_1 i)
    (x2 : Vec F S1x100x2 .f32) (x3 : Vec F S1x100x2 .f32) (x4 : Vec F S1x100x80 .f32) (x5 : Vec F S1x200x2 .f32) (x6 : Vec F S1x200x2 .f32) (x7 : Vec F S1x200x80 .f32) (xs0 : Vec F S1x1x1 .f32) (y : S1x1x1.Idx) :
    ∃ pc ∈ (kernelRun1_B c i arg2 harg2 arg3 harg3 arg4 harg4 arg5 harg5 arg6 harg6 arg7 harg7 arg8 harg8 arg9 harg9 hc0 hc1 x2 x3 x4 x5 x6 x7 xs0).2.1, y ∈ pc.1.set :=
  View.cover_of_tiledL (kernelRun1_B c i arg2 harg2 arg3 harg3 arg4 harg4 arg5 harg5 arg6 harg6 arg7 harg7 arg8 harg8 arg9 harg9 hc0 hc1 x2 x3 x4 x5 x6 x7 xs0).2.1 S1x1x1.size (by sl_kernel_rfl) y

/-- What the case leaves in the accumulator: its stores read back. -/
def sout1_B_0 (c : Dev nD) (i : grid1.Coords) (arg2 : Memref sig .tc .vmem S1x100x2 .f32) (harg2 : arg2.IsWhole) (arg3 : Memref sig .tc .vmem S1x100x2 .f32) (harg3 : arg3.IsWhole) (arg4 : Memref sig .tc .vmem S1x100x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : ¬cond1_1 i)
    (x2 : Vec F S1x100x2 .f32) (x3 : Vec F S1x100x2 .f32) (x4 : Vec F S1x100x80 .f32) (x5 : Vec F S1x200x2 .f32) (x6 : Vec F S1x200x2 .f32) (x7 : Vec F S1x200x80 .f32) (xs0 : Vec F S1x1x1 .f32) : Vec F S1x1x1 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x2 x3 x4 x5 x6 x7 xs0).2.1)

/-- At a last tile the stores into the output block's buffer cover it. -/
theorem cover1_C_6 (c : Dev nD) (i : grid1.Coords) (arg2 : Memref sig .tc .vmem S1x100x2 .f32) (harg2 : arg2.IsWhole) (arg3 : Memref sig .tc .vmem S1x100x2 .f32) (harg3 : arg3.IsWhole) (arg4 : Memref sig .tc .vmem S1x100x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : cond1_1 i)
    (x2 : Vec F S1x100x2 .f32) (x3 : Vec F S1x100x2 .f32) (x4 : Vec F S1x100x80 .f32) (x5 : Vec F S1x200x2 .f32) (x6 : Vec F S1x200x2 .f32) (x7 : Vec F S1x200x80 .f32) (xs0 : Vec F S1x1x1 .f32) (y : S1x1x1.Idx) :
    ∃ pc ∈ (kernelRun1_C c i arg2 harg2 arg3 harg3 arg4 harg4 arg5 harg5 arg6 harg6 arg7 harg7 arg8 harg8 arg9 harg9 hc0 hc1 x2 x3 x4 x5 x6 x7 xs0).1, y ∈ pc.1.set :=
  View.cover_of_tiledL (kernelRun1_C c i arg2 harg2 arg3 harg3 arg4 harg4 arg5 harg5 arg6 harg6 arg7 harg7 arg8 harg8 arg9 harg9 hc0 hc1 x2 x3 x4 x5 x6 x7 xs0).1 S1x1x1.size (by sl_kernel_rfl) y

/-- What the case's stores leave in the output block's buffer, read back. -/
def out1_C_6 (c : Dev nD) (i : grid1.Coords) (arg2 : Memref sig .tc .vmem S1x100x2 .f32) (harg2 : arg2.IsWhole) (arg3 : Memref sig .tc .vmem S1x100x2 .f32) (harg3 : arg3.IsWhole) (arg4 : Memref sig .tc .vmem S1x100x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : cond1_1 i)
    (x2 : Vec F S1x100x2 .f32) (x3 : Vec F S1x100x2 .f32) (x4 : Vec F S1x100x80 .f32) (x5 : Vec F S1x200x2 .f32) (x6 : Vec F S1x200x2 .f32) (x7 : Vec F S1x200x80 .f32) (xs0 : Vec F S1x1x1 .f32) : Vec F S1x1x1 .f32 :=
  VO1_6.read (Elt F) (VO1_6.writes (Elt F) VO1_6.junk (kernelRun1_C c i arg2 harg2 arg3 harg3 arg4 harg4 arg5 harg5 arg6 harg6 arg7 harg7 arg8 harg8 arg9 harg9 hc0 hc1 x2 x3 x4 x5 x6 x7 xs0).1)

/-- The case's stores into the accumulator cover it. -/
theorem scover1_C_0 (c : Dev nD) (i : grid1.Coords) (arg2 : Memref sig .tc .vmem S1x100x2 .f32) (harg2 : arg2.IsWhole) (arg3 : Memref sig .tc .vmem S1x100x2 .f32) (harg3 : arg3.IsWhole) (arg4 : Memref sig .tc .vmem S1x100x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : cond1_1 i)
    (x2 : Vec F S1x100x2 .f32) (x3 : Vec F S1x100x2 .f32) (x4 : Vec F S1x100x80 .f32) (x5 : Vec F S1x200x2 .f32) (x6 : Vec F S1x200x2 .f32) (x7 : Vec F S1x200x80 .f32) (xs0 : Vec F S1x1x1 .f32) (y : S1x1x1.Idx) :
    ∃ pc ∈ (kernelRun1_C c i arg2 harg2 arg3 harg3 arg4 harg4 arg5 harg5 arg6 harg6 arg7 harg7 arg8 harg8 arg9 harg9 hc0 hc1 x2 x3 x4 x5 x6 x7 xs0).2.1, y ∈ pc.1.set :=
  View.cover_of_tiledL (kernelRun1_C c i arg2 harg2 arg3 harg3 arg4 harg4 arg5 harg5 arg6 harg6 arg7 harg7 arg8 harg8 arg9 harg9 hc0 hc1 x2 x3 x4 x5 x6 x7 xs0).2.1 S1x1x1.size (by sl_kernel_rfl) y

/-- What the case leaves in the accumulator: its stores read back. -/
def sout1_C_0 (c : Dev nD) (i : grid1.Coords) (arg2 : Memref sig .tc .vmem S1x100x2 .f32) (harg2 : arg2.IsWhole) (arg3 : Memref sig .tc .vmem S1x100x2 .f32) (harg3 : arg3.IsWhole) (arg4 : Memref sig .tc .vmem S1x100x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : cond1_1 i)
    (x2 : Vec F S1x100x2 .f32) (x3 : Vec F S1x100x2 .f32) (x4 : Vec F S1x100x80 .f32) (x5 : Vec F S1x200x2 .f32) (x6 : Vec F S1x200x2 .f32) (x7 : Vec F S1x200x80 .f32) (xs0 : Vec F S1x1x1 .f32) : Vec F S1x1x1 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x2 x3 x4 x5 x6 x7 xs0).2.1)

section
variable (V : (c : Dev nD) → (b : Ref sig .tc) → Buf (Elt F) ((c : Thread nD τ).loc b))

/-! ## Point by point -/

/-- THE ACCUMULATION. What the output block's buffer (first component) and the accumulator (second) hold after the
    body at position `n`: the case the closed forms select at `n`, run at the point's memrefs and input blocks, over
    the accumulator that position `n − 1` left (a first tile does not read it). -/
def outsAt1 (c : Dev nD) : (n : ℕ) → n < cfg1.N → Vec F S1x1x1 .f32 × Vec F S1x1x1 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 5 = 0 then
      if h1 : (n + 1) % 5 = 4 then
        False.elim (by omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 5 = 4 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)
      else
        (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)

/-- `outsAt1` at a first tile. -/
theorem outsAt1_A (c : Dev nD) (t : Fin cfg1.N) (h0 : t.val % 5 = 0) (h1 : ¬t.val % 5 = 4) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

/-- `outsAt1` at a middle tile: over what the point before left. -/
theorem outsAt1_B (c : Dev nD) (t : Fin cfg1.N) (h0 : ¬t.val % 5 = 0) (h1 : ¬t.val % 5 = 4) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last tile: over what the point before left. -/
theorem outsAt1_C (c : Dev nD) (t : Fin cfg1.N) (h0 : ¬t.val % 5 = 0) (h1 : t.val % 5 = 4) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The invariant before position `n`: before the first point the class's (every scoped buffer that is no staging
    buffer at some contents, the generator register at some state); afterwards the same with the accumulator at what
    the point before left in it. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ rest1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ rest1 (F := F) c) ∗ (∃ r, prngReg c r)) := by
  cases n with
  | zero => exact absurd rfl hz
  | succ n => rfl

/-! ## The proof data -/

/-- The shares held of the windows' arrays. -/
def q1 : Fin 7 → PosShare TreeShare := fun _ => fullShare

/-- The proof data on core `c`: the arrays as the region finds them; after the body at point `t` each input's
    buffer at its block and the output's at `outsAt1`'s first component; the invariant `PhiS1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q := q1
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
/-- The body at any point: the inputs' memrefs hold their blocks; the closed forms say which case the point is in,
    so that case's run applies; the invariant hands the body the accumulator at what the point before left (at
    anything before the first point) and takes it back at this point's contents; the output block's buffer is handed
    back untouched off the last tile and at the case's stores on it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 160 := lt_of_lt_of_eq t.isLt (show cfg1.N = 160 from N_1)
  by_cases h0 : t.val % 5 = 0
  · by_cases h1 : t.val % 5 = 4
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6 t (fun h => h1 ((hcond1_1 t).mp h))) (noFlush1_6 t (fun h => h1 ((hcond1_1 t).mp h)))]
      rw [outsAt1_A V c t h0 h1]
      unfold sout1_A_0; (try dsimp only)
      by_cases hz : t.val = 0
      ·
        rw [PhiS1_castSucc V c t, PhiS1_zero V c _ _ hz, PhiA1_eq]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      ·
        rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · have hz : t.val ≠ 0 := fun e => h0 (by rw [e])
    by_cases h1 : t.val % 5 = 4
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t ((hcond1_1 t).mpr h1)], after1_6]
      rw [outsAt1_C V c t h0 h1]
      unfold out1_C_6 sout1_C_0; (try dsimp only)
      ·
        rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        iintro ⟨H0, H1, H2, H3, H4, H5, ⟨%e6, H6⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover1_C_6 c _ _ _ _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6 t (fun h => h1 ((hcond1_1 t).mp h))) (noFlush1_6 t (fun h => h1 ((hcond1_1 t).mp h)))]
      rw [outsAt1_B V c t h0 h1]
      unfold sout1_B_0; (try dsimp only)
      ·
        rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 160 := N_1; omega)

end

end Cert.Kernel.GenR

end
-- ==== Proof.B.Reg2.Runs.lean ====
/-
  The ground-truth × ground-truth pair sums (the third kernel region; its grid is 32 images by one tile):
  what the run of its body and the region's proof data share. The body has two conditionals on the tile
  coordinate `j`: "`j` is the first tile" (the scratch accumulator is reset to zero) and "`j` is the last
  tile" (the accumulator is copied to the output block). With one tile per image both hold at every grid
  point. Also: every window is live at every point, the staging memrefs of the seven windows at a point,
  the scratch accumulator as a memref, and the region's invariant with the accumulator's buffer named.
-/
import proofs.«120005_j50079318672069_1_alg».proof.Proof.Gen.Kernel.Launch
import proofs.«120005_j50079318672069_1_alg».proof.Proof.Gen.Kernel.Skeleton
import proofs.«120005_j50079318672069_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.GenR

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]

local notation "𝕄" => MT nD τ sig Unit (Elt F) ℕ (UR sig nD τ) ℕ

/-! ## The body's two conditions -/

/-- "The tile is the image's first": the condition under which the body resets the accumulator, as the body
    computes it from the tile coordinate. -/
abbrev cond2_0 (i : grid2.Coords) : Prop := (Scalar.cmpi .ne (Scalar.extui (Scalar.cmpi .eq (BitVec.ofNat 32 (i 1).val) 0#32)) 0#32) = 1#1
/-- It holds at every point: an image has one tile. -/
theorem hcond2_0 : ∀ t : Fin cfg2.N, cond2_0 (grid2.coords t) :=
  (by decide +kernel : ∀ t : Fin grid2.N, cond2_0 (grid2.coords t))

/-- "The tile is the image's last": the condition under which the body copies the accumulator out. -/
abbrev cond2_1 (i : grid2.Coords) : Prop := k2_cond2 i = 1#1
/-- It holds at every point. -/
theorem hcond2_1 : ∀ t : Fin cfg2.N, cond2_1 (grid2.coords t) :=
  (by decide +kernel : ∀ t : Fin grid2.N, cond2_1 (grid2.coords t))

/-! ## Every window is live at every point -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
/-- The output block is stored into at every point (every tile is a last tile). -/
theorem liveAt2_6 : ∀ t : Fin cfg2.N, cfg2.idle 6 (grid2.coords t) = false := by decide +kernel

/-! ## The memrefs the body is called with -/

/-- One staging buffer of the output window, through which its contents are stated (the choice does not matter). -/
abbrev VO2_6 : View sig .tc .vmem S1x1x1 .f32 := (Memref.whole cc2_stg6_0 : Memref sig .tc .vmem S1x1x1 .f32).view
/-- Each window's current staging memref at point `t`, and its wholeness. -/
abbrev ms2_0 (t : Fin cfg2.N) : Memref sig .tc .vmem S1x100x2 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x100x2 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x100x80 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x100x2 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x100x2 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x100x80 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x1x1 .f32 := win2_6.stage (cfg2.slots t 6)
abbrev hs2_6 (t : Fin cfg2.N) : (ms2_6 t).IsWhole := hstage2_6 ((cfg2.slots t 6).cast nbuf2_6)
/-- The scratch accumulator: a whole scoped buffer of the kernel's own, passed beside the windows. -/
abbrev scM2_0 : Memref sig .tc .vmem S1x1x1 .f32 := Memref.whole cc2_scratch0
/-- The same as a view: what the accumulator holds is stated through it. -/
abbrev VS2_0 : View sig .tc .vmem S1x1x1 .f32 := scM2_0.view

/-- The region's invariant with the accumulator's buffer as a memref owned at some contents, the core's other scoped
    buffers unopened, and the generator register at some state. -/
theorem PhiA2_eq (c : Dev nD) :
    (Pipeline.ΦA spec2 c : sProp 𝕄)
      = iprop(iprop(iprop((∃ d, owns (c : Thread nD τ) scM2_0 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

end Cert.Kernel.GenR

end
-- ==== Proof.B.Reg2.RunD.lean ====
/-
  The ground-truth × ground-truth pair sums: the run of the kernel body at a grid point, in its one control
  case (the tile is both the image's first and its last): on whole staging memrefs, the six inputs' at given
  contents and the output's and the scratch accumulator's at anything, the body runs to the continuation with
  the inputs' as they were and the output's and the accumulator's each with the body's stores written into it.
  The stores (the pieces, last first) are what the run finds.
-/
import proofs.«120005_j50079318672069_1_alg».proof.Proof.B.Reg2.Runs

set_option maxRecDepth 16384

noncomputable section

namespace Cert.Kernel.GenR

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]

local notation "𝕄" => MT nD τ sig Unit (Elt F) ℕ (UR sig nD τ) ℕ

-- (the run's proof term is large: the definition's epilogue walks it past the default budget)
set_option maxHeartbeats 1000000 in
/-- The body's run in the one control case: both conditionals taken. -/
noncomputable def kernelRun2_D (c : Dev nD) (i : grid2.Coords) (arg2 : Memref sig .tc .vmem S1x100x2 .f32) (harg2 : arg2.IsWhole) (arg3 : Memref sig .tc .vmem S1x100x2 .f32) (harg3 : arg3.IsWhole) (arg4 : Memref sig .tc .vmem S1x100x80 .f32) (harg4 : arg4.IsWhole) (arg5 : Memref sig .tc .vmem S1x100x2 .f32) (harg5 : arg5.IsWhole) (arg6 : Memref sig .tc .vmem S1x100x2 .f32) (harg6 : arg6.IsWhole) (arg7 : Memref sig .tc .vmem S1x100x80 .f32) (harg7 : arg7.IsWhole) (arg8 : Memref sig .tc .vmem S1x1x1 .f32) (harg8 : arg8.IsWhole) (arg9 : Memref sig .tc .vmem S1x1x1 .f32) (harg9 : arg9.IsWhole) (hc0 : cond2_0 i) (hc1 : cond2_1 i)
    (x0 : Vec F S1x100x2 .f32) (x1 : Vec F S1x100x2 .f32) (x2 : Vec F S1x100x80 .f32) (x3 : Vec F S1x100x2 .f32) (x4 : Vec F S1x100x2 .f32) (x5 : Vec F S1x100x80 .f32) :
    Σ' (L6 : List (View.Piece (Elt F) S1x1x1 .f32)), { LS0 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc2__pairwise_sum_kernel i arg2 harg2 arg3 harg3 arg4 harg4 arg5 harg5 arg6 harg6 arg7 harg7 arg8 harg8 arg9 harg9) K } := by
  refine ⟨?_, ?_, fun E K => ?run⟩
  case run =>
    simp only [cc2__pairwise_sum_kernel_eq_skeleton]; unfold cc2__pairwise_sum_kernel_skel
    simp only [k2_part1_eq_skeleton, k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Kernel.GenR

end
-- ==== Proof.B.Reg2.lean ====
/-
  The ground-truth × ground-truth pair sums (the third kernel region), at the buffers' contents `V` when the
  region is entered: each window's block at a grid point; what the body leaves in the output block's staging
  buffer and in the scratch accumulator at each point; the region's proof data — the six input windows at a
  half share each of their arrays (windows `w` and `w + 3` read one array), the output at the full share;
  the body obligation; the invariant's entry and exit; and the value equations: at every point the body resets
  the accumulator, adds the point's pair sum to it, and copies it to the output block.
-/
import proofs.«120005_j50079318672069_1_alg».proof.Proof.B.Reg2.RunD
import Idealize.ShloMosaic.Lib.Pipeline.Value

set_option maxRecDepth 16384

noncomputable section

namespace Cert.Kernel.GenR

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, for any proof data whose array is
    `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## What the body leaves in the output block and in the accumulator -/

/-- The body's stores into the output block's staging buffer cover it. -/
theorem cover2_D_6 (c : Dev nD) (i : grid2.Coords) (arg2 : Memref sig .tc .vmem S1x100x2 .f32) (harg2 : arg2.IsWhole) (arg3 : Memref sig .tc .vmem S1x100x2 .f32) (harg3 : arg3.IsWhole) (arg4 : Memref sig .tc .vmem S1x100x80 .f32) (harg4 : arg4.IsWhole) (arg5 : Memref sig .tc .vmem S1x100x2 .f32) (harg5 : arg5.IsWhole) (arg6 : Memref sig .tc .vmem S1x100x2 .f32) (harg6 : arg6.IsWhole) (arg7 : Memref sig .tc .vmem S1x100x80 .f32) (harg7 : arg7.IsWhole) (arg8 : Memref sig .tc .vmem S1x1x1 .f32) (harg8 : arg8.IsWhole) (arg9 : Memref sig .tc .vmem S1x1x1 .f32) (harg9 : arg9.IsWhole) (hc0 : cond2_0 i) (hc1 : cond2_1 i)
    (x0 : Vec F S1x100x2 .f32) (x1 : Vec F S1x100x2 .f32) (x2 : Vec F S1x100x80 .f32) (x3 : Vec F S1x100x2 .f32) (x4 : Vec F S1x100x2 .f32) (x5 : Vec F S1x100x80 .f32) (y : S1x1x1.Idx) :
    ∃ pc ∈ (kernelRun2_D c i arg2 harg2 arg3 harg3 arg4 harg4 arg5 harg5 arg6 harg6 arg7 harg7 arg8 harg8 arg9 harg9 hc0 hc1 x0 x1 x2 x3 x4 x5).1, y ∈ pc.1.set :=
  View.cover_of_tiledL (kernelRun2_D c i arg2 harg2 arg3 harg3 arg4 harg4 arg5 harg5 arg6 harg6 arg7 harg7 arg8 harg8 arg9 harg9 hc0 hc1 x0 x1 x2 x3 x4 x5).1 S1x1x1.size (by sl_kernel_rfl) y

/-- What the body leaves in the output block's staging buffer: its stores read back. -/
def out2_D_6 (c : Dev nD) (i : grid2.Coords) (arg2 : Memref sig .tc .vmem S1x100x2 .f32) (harg2 : arg2.IsWhole) (arg3 : Memref sig .tc .vmem S1x100x2 .f32) (harg3 : arg3.IsWhole) (arg4 : Memref sig .tc .vmem S1x100x80 .f32) (harg4 : arg4.IsWhole) (arg5 : Memref sig .tc .vmem S1x100x2 .f32) (harg5 : arg5.IsWhole) (arg6 : Memref sig .tc .vmem S1x100x2 .f32) (harg6 : arg6.IsWhole) (arg7 : Memref sig .tc .vmem S1x100x80 .f32) (harg7 : arg7.IsWhole) (arg8 : Memref sig .tc .vmem S1x1x1 .f32) (harg8 : arg8.IsWhole) (arg9 : Memref sig .tc .vmem S1x1x1 .f32) (harg9 : arg9.IsWhole) (hc0 : cond2_0 i) (hc1 : cond2_1 i)
    (x0 : Vec F S1x100x2 .f32) (x1 : Vec F S1x100x2 .f32) (x2 : Vec F S1x100x80 .f32) (x3 : Vec F S1x100x2 .f32) (x4 : Vec F S1x100x2 .f32) (x5 : Vec F S1x100x80 .f32) : Vec F S1x1x1 .f32 :=
  VO2_6.read (Elt F) (VO2_6.writes (Elt F) VO2_6.junk (kernelRun2_D c i arg2 harg2 arg3 harg3 arg4 harg4 arg5 harg5 arg6 harg6 arg7 harg7 arg8 harg8 arg9 harg9 hc0 hc1 x0 x1 x2 x3 x4 x5).1)

/-- The body's stores into the accumulator cover it. -/
theorem scover2_D_0 (c : Dev nD) (i : grid2.Coords) (arg2 : Memref sig .tc .vmem S1x100x2 .f32) (harg2 : arg2.IsWhole) (arg3 : Memref sig .tc .vmem S1x100x2 .f32) (harg3 : arg3.IsWhole) (arg4 : Memref sig .tc .vmem S1x100x80 .f32) (harg4 : arg4.IsWhole) (arg5 : Memref sig .tc .vmem S1x100x2 .f32) (harg5 : arg5.IsWhole) (arg6 : Memref sig .tc .vmem S1x100x2 .f32) (harg6 : arg6.IsWhole) (arg7 : Memref sig .tc .vmem S1x100x80 .f32) (harg7 : arg7.IsWhole) (arg8 : Memref sig .tc .vmem S1x1x1 .f32) (harg8 : arg8.IsWhole) (arg9 : Memref sig .tc .vmem S1x1x1 .f32) (harg9 : arg9.IsWhole) (hc0 : cond2_0 i) (hc1 : cond2_1 i)
    (x0 : Vec F S1x100x2 .f32) (x1 : Vec F S1x100x2 .f32) (x2 : Vec F S1x100x80 .f32) (x3 : Vec F S1x100x2 .f32) (x4 : Vec F S1x100x2 .f32) (x5 : Vec F S1x100x80 .f32) (y : S1x1x1.Idx) :
    ∃ pc ∈ (kernelRun2_D c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun2_D c i arg2 harg2 arg3 harg3 arg4 harg4 arg5 harg5 arg6 harg6 arg7 harg7 arg8 harg8 arg9 harg9 hc0 hc1 x0 x1 x2 x3 x4 x5).2.1 S1x1x1.size (by sl_kernel_rfl) y

/-- What the body leaves in the accumulator: its stores read back. -/
def sout2_D_0 (c : Dev nD) (i : grid2.Coords) (arg2 : Memref sig .tc .vmem S1x100x2 .f32) (harg2 : arg2.IsWhole) (arg3 : Memref sig .tc .vmem S1x100x2 .f32) (harg3 : arg3.IsWhole) (arg4 : Memref sig .tc .vmem S1x100x80 .f32) (harg4 : arg4.IsWhole) (arg5 : Memref sig .tc .vmem S1x100x2 .f32) (harg5 : arg5.IsWhole) (arg6 : Memref sig .tc .vmem S1x100x2 .f32) (harg6 : arg6.IsWhole) (arg7 : Memref sig .tc .vmem S1x100x80 .f32) (harg7 : arg7.IsWhole) (arg8 : Memref sig .tc .vmem S1x1x1 .f32) (harg8 : arg8.IsWhole) (arg9 : Memref sig .tc .vmem S1x1x1 .f32) (harg9 : arg9.IsWhole) (hc0 : cond2_0 i) (hc1 : cond2_1 i)
    (x0 : Vec F S1x100x2 .f32) (x1 : Vec F S1x100x2 .f32) (x2 : Vec F S1x100x80 .f32) (x3 : Vec F S1x100x2 .f32) (x4 : Vec F S1x100x2 .f32) (x5 : Vec F S1x100x80 .f32) : Vec F S1x1x1 .f32 :=
  VS2_0.read (Elt F) (VS2_0.writes (Elt F) VS2_0.junk (kernelRun2_D c i arg2 harg2 arg3 harg3 arg4 harg4 arg5 harg5 arg6 harg6 arg7 harg7 arg8 harg8 arg9 harg9 hc0 hc1 x0 x1 x2 x3 x4 x5).2.1)

/-- What the output block's staging buffer (first component) and the accumulator (second) hold after the body
    at position `n`: the body run at the point's memrefs and input blocks. Every point resets the accumulator,
    so nothing is taken from the point before. -/
def outsAt2 (c : Dev nD) (n : ℕ) (hn : n < cfg2.N) : Vec F S1x1x1 .f32 × Vec F S1x1x1 .f32 :=
  (out2_D_6 c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) (ms2_3 ⟨n, hn⟩) (hs2_3 ⟨n, hn⟩) (ms2_4 ⟨n, hn⟩) (hs2_4 ⟨n, hn⟩) (ms2_5 ⟨n, hn⟩) (hs2_5 ⟨n, hn⟩) (ms2_6 ⟨n, hn⟩) (hs2_6 ⟨n, hn⟩) scM2_0 (Memref.isWhole_whole _) (hcond2_0 ⟨n, hn⟩) (hcond2_1 ⟨n, hn⟩) (iblk2 V c 0 ⟨n, hn⟩) (iblk2 V c 1 ⟨n, hn⟩) (iblk2 V c 2 ⟨n, hn⟩) (iblk2 V c 3 ⟨n, hn⟩) (iblk2 V c 4 ⟨n, hn⟩) (iblk2 V c 5 ⟨n, hn⟩), sout2_D_0 c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) (ms2_3 ⟨n, hn⟩) (hs2_3 ⟨n, hn⟩) (ms2_4 ⟨n, hn⟩) (hs2_4 ⟨n, hn⟩) (ms2_5 ⟨n, hn⟩) (hs2_5 ⟨n, hn⟩) (ms2_6 ⟨n, hn⟩) (hs2_6 ⟨n, hn⟩) scM2_0 (Memref.isWhole_whole _) (hcond2_0 ⟨n, hn⟩) (hcond2_1 ⟨n, hn⟩) (iblk2 V c 0 ⟨n, hn⟩) (iblk2 V c 1 ⟨n, hn⟩) (iblk2 V c 2 ⟨n, hn⟩) (iblk2 V c 3 ⟨n, hn⟩) (iblk2 V c 4 ⟨n, hn⟩) (iblk2 V c 5 ⟨n, hn⟩))

theorem outsAt2_D (c : Dev nD) (t : Fin cfg2.N) :
    outsAt2 V c t.val t.isLt = (out2_D_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (hcond2_0 t) (hcond2_1 t) (iblk2 V c 0 t) (iblk2 V c 1 t) (iblk2 V c 2 t) (iblk2 V c 3 t) (iblk2 V c 4 t) (iblk2 V c 5 t), sout2_D_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (hcond2_0 t) (hcond2_1 t) (iblk2 V c 0 t) (iblk2 V c 1 t) (iblk2 V c 2 t) (iblk2 V c 3 t) (iblk2 V c 4 t) (iblk2 V c 5 t)) := rfl

/-! ## The invariant -/

/-- The region's invariant before position `n`: before the first point the accumulator at anything; afterwards at
    what the point before left in it; the core's other scoped buffers and the generator register at anything. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2) ∗ Pipeline.scopedRestBut (Ix := Unit) (Name := ℕ) (U := UR sig nD τ) (Lvl := ℕ) (Val := Elt F) spec2 c [cc2_scratch0]) ∗ (∃ r, prngReg c r)))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare ((outsAt2 V c n hn).2) ∗ Pipeline.scopedRestBut (Ix := Unit) (Name := ℕ) (U := UR sig nD τ) (Lvl := ℕ) (Val := Elt F) spec2 c [cc2_scratch0]) ∗ (∃ r, prngReg c r))) := rfl

theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2) ∗ Pipeline.scopedRestBut (Ix := Unit) (Name := ℕ) (U := UR sig nD τ) (Lvl := ℕ) (Val := Elt F) spec2 c [cc2_scratch0]) ∗ (∃ r, prngReg c r))) := by
  cases n with
  | zero => exact absurd rfl hz
  | succ n => rfl

/-! ## The proof data -/

/-- The shares of the windows' arrays: windows `w` and `w + 3` read one array, each at a half; the output's array whole. -/
def q2 : Fin 7 → PosShare TreeShare
  | ⟨0, _⟩ => fullShare.left
  | ⟨1, _⟩ => fullShare.left
  | ⟨2, _⟩ => fullShare.left
  | ⟨3, _⟩ => fullShare.right
  | ⟨4, _⟩ => fullShare.right
  | ⟨5, _⟩ => fullShare.right
  | ⟨6, _⟩ => fullShare

/-- The region's proof data on core `c`: the arrays as the region finds them; after the body at point `t` each
    input's buffer at its block and the output's at `outsAt2`; the invariant `PhiS2`; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
  Φ t := PhiS2 V c t.val (Nat.le_of_lt_succ t.isLt)
  q := q2
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in
/-- The body at any point: the inputs' memrefs hold their blocks, so the run applies; the invariant hands the body the
    accumulator (at anything, or at what the point before left, which the reset overwrites) and takes it back at this
    point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  rw [show (dat2 V c).leavesExact 6 t = owns (c : Thread nD τ) (ms2_6 t) fullShare ((dat2 V c).after 6 t) from by
    unfold Dat.leavesExact; rw [liveAt2_6 t], after2_6]
  rw [outsAt2_D V c t]
  unfold out2_D_6 sout2_D_0; (try dsimp only)
  by_cases hz : t.val = 0
  · rw [PhiS2_castSucc V c t, PhiS2_zero V c _ _ hz, PhiA2_eq]
    iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun2_D c (grid2.coords t) _ _ _ _ _ _ _ _ _ _ _ _ _ _ _ _ (hcond2_0 t) (hcond2_1 t) (iblk2 V c 0 t) (iblk2 V c 1 t) (iblk2 V c 2 t) (iblk2 V c 3 t) (iblk2 V c 4 t) (iblk2 V c 5 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    iintro ⟨H0, H1, H2, H3, H4, H5, ⟨%e6, H6⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover2_D_0 c _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (cover2_D_6 c _ _ _ _ _ _ _ _ _ _ _ _ _ _ _ _ _ _ _ _ _ _ _ _ _)
  · rw [PhiS2_castSucc V c t, PhiS2_pos V c _ _ hz]
    iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun2_D c (grid2.coords t) _ _ _ _ _ _ _ _ _ _ _ _ _ _ _ _ (hcond2_0 t) (hcond2_1 t) (iblk2 V c 0 t) (iblk2 V c 1 t) (iblk2 V c 2 t) (iblk2 V c 3 t) (iblk2 V c 4 t) (iblk2 V c 5 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexists _; iexact HS0
    iintro ⟨H0, H1, H2, H3, H4, H5, ⟨%e6, H6⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover2_D_0 c _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (cover2_D_6 c _ _ _ _ _ _ _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives the launch's back: the accumulator's contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hrest⟩, Hg⟩
  isplitl [HS0 Hrest]
  · isplitl [HS0]
    · iexists _; iexact HS0
    iexact Hrest
  iexact Hg

/-- The same after the last point. -/
theorem hout2 (c : Dev nD) : (dat2 V c).Φ (Fin.last cfg2.N) ⊢ Pipeline.ΦA spec2 c :=
  Phi_out2 V c _ (by rw [Fin.val_last]; have : cfg2.N = 32 := N_2; omega)

/-! ## The value equations -/

theorem hzero2 : (![0, 0, 0] : Fin 3 → Nat) = fun _ => 0 := funext fun a => by fin_cases a <;> rfl

/-- One point's step of the accumulation as a function of the six input blocks and the accumulator it adds to: the
    accumulator plus the sum, over all pairs of a box of the first set and a box of the second, of the matrix product of the
    two class-weight blocks at the pair times the exponential of half the pairwise term computed from the centres and variances. -/
abbrev step2 (x2 x3 : Vec F S1x100x2 .f32) (x4 : Vec F S1x100x80 .f32) (x5 x6 : Vec F S1x100x2 .f32) (x7 : Vec F S1x100x80 .f32)
    (acc : Vec F S1x1x1 .f32) : FVec F S1x1x1 .f32 :=
  Gen.k2_pay1 (Gen.k2_pay5 x4) (Gen.k2_pay8 x7)
    (Gen.k2_pay23 (Gen.k2_pay9 x2) (Gen.k2_pay10 x2) (Gen.k2_pay11 x3) (Gen.k2_pay12 x3) (Gen.k2_pay13 x5) (Gen.k2_pay14 x5)
      (Gen.k2_pay15 x6) (Gen.k2_pay16 x6) (Gen.k2_pay17 x3) (Gen.k2_pay18 x3) (Gen.k2_pay19 x6) (Gen.k2_pay20 x6)
      (Gen.k2_pay21 x6) (Gen.k2_pay22 x6))
    Gen.k2_pay24 acc

/-- The body leaves in the accumulator one step from the zero block: its last store's value, whose accumulator operand
    is the read-back of the reset's store. -/
theorem sout2_D_0_eq (c : Dev nD) (i : grid2.Coords) (arg2 : Memref sig .tc .vmem S1x100x2 .f32) (harg2 : arg2.IsWhole) (arg3 : Memref sig .tc .vmem S1x100x2 .f32) (harg3 : arg3.IsWhole) (arg4 : Memref sig .tc .vmem S1x100x80 .f32) (harg4 : arg4.IsWhole) (arg5 : Memref sig .tc .vmem S1x100x2 .f32) (harg5 : arg5.IsWhole) (arg6 : Memref sig .tc .vmem S1x100x2 .f32) (harg6 : arg6.IsWhole) (arg7 : Memref sig .tc .vmem S1x100x80 .f32) (harg7 : arg7.IsWhole) (arg8 : Memref sig .tc .vmem S1x1x1 .f32) (harg8 : arg8.IsWhole) (arg9 : Memref sig .tc .vmem S1x1x1 .f32) (harg9 : arg9.IsWhole) (hc0 : cond2_0 i) (hc1 : cond2_1 i)
    (x0 : Vec F S1x100x2 .f32) (x1 : Vec F S1x100x2 .f32) (x2 : Vec F S1x100x80 .f32) (x3 : Vec F S1x100x2 .f32) (x4 : Vec F S1x100x2 .f32) (x5 : Vec F S1x100x80 .f32) :
    sout2_D_0 c i arg2 harg2 arg3 harg3 arg4 harg4 arg5 harg5 arg6 harg6 arg7 harg7 arg8 harg8 arg9 harg9 hc0 hc1 x0 x1 x2 x3 x4 x5 = step2 x0 x1 x2 x3 x4 x5 Gen.k2_pay2 := by
  unfold sout2_D_0
  rw [View.read_writes_eq_canon _ _ _ (scover2_D_0 c i arg2 harg2 arg3 harg3 arg4 harg4 arg5 harg5 arg6 harg6 arg7 harg7 arg8 harg8 arg9 harg9 hc0 hc1 x0 x1 x2 x3 x4 x5)]
  unfold kernelRun2_D
  dsimp only
  sl_unfold_words
  rw [View.canon_cons_unit_zero (S := S1x1x1) hzero2, View.readCov_unit_zero (S := S1x1x1) _ hzero2]
  simp only [View.readAt_eq_ld, harg2.read_unread, harg3.read_unread, harg4.read_unread, harg5.read_unread, harg6.read_unread, harg7.read_unread, View.ld_unit_zero (S := S1x100x2) hzero2, View.ld_unit_zero (S := S1x100x80) hzero2]

/-- The body leaves in the output block what it leaves in the accumulator: its one store there is the read-back of the
    accumulator after the step's store. -/
theorem out2_D_6_eq (c : Dev nD) (i : grid2.Coords) (arg2 : Memref sig .tc .vmem S1x100x2 .f32) (harg2 : arg2.IsWhole) (arg3 : Memref sig .tc .vmem S1x100x2 .f32) (harg3 : arg3.IsWhole) (arg4 : Memref sig .tc .vmem S1x100x80 .f32) (harg4 : arg4.IsWhole) (arg5 : Memref sig .tc .vmem S1x100x2 .f32) (harg5 : arg5.IsWhole) (arg6 : Memref sig .tc .vmem S1x100x2 .f32) (harg6 : arg6.IsWhole) (arg7 : Memref sig .tc .vmem S1x100x80 .f32) (harg7 : arg7.IsWhole) (arg8 : Memref sig .tc .vmem S1x1x1 .f32) (harg8 : arg8.IsWhole) (arg9 : Memref sig .tc .vmem S1x1x1 .f32) (harg9 : arg9.IsWhole) (hc0 : cond2_0 i) (hc1 : cond2_1 i)
    (x0 : Vec F S1x100x2 .f32) (x1 : Vec F S1x100x2 .f32) (x2 : Vec F S1x100x80 .f32) (x3 : Vec F S1x100x2 .f32) (x4 : Vec F S1x100x2 .f32) (x5 : Vec F S1x100x80 .f32) :
    out2_D_6 c i arg2 harg2 arg3 harg3 arg4 harg4 arg5 harg5 arg6 harg6 arg7 harg7 arg8 harg8 arg9 harg9 hc0 hc1 x0 x1 x2 x3 x4 x5 = sout2_D_0 c i arg2 harg2 arg3 harg3 arg4 harg4 arg5 harg5 arg6 harg6 arg7 harg7 arg8 harg8 arg9 harg9 hc0 hc1 x0 x1 x2 x3 x4 x5 := by
  rw [sout2_D_0_eq]
  unfold out2_D_6
  rw [View.read_writes_eq_canon _ _ _ (cover2_D_6 c i arg2 harg2 arg3 harg3 arg4 harg4 arg5 harg5 arg6 harg6 arg7 harg7 arg8 harg8 arg9 harg9 hc0 hc1 x0 x1 x2 x3 x4 x5)]
  unfold kernelRun2_D
  dsimp only
  sl_unfold_words
  rw [View.canon_unit_zero (S := S1x1x1) hzero2, View.readCov_cons_toLoadRect, View.readCov_unit_zero (S := S1x1x1) _ hzero2]
  simp only [View.readAt_eq_ld, harg2.read_unread, harg3.read_unread, harg4.read_unread, harg5.read_unread, harg6.read_unread, harg7.read_unread, View.ld_unit_zero (S := S1x100x2) hzero2, View.ld_unit_zero (S := S1x100x80) hzero2]

/-- At every point (each is an image's first tile) the accumulator ends at one step from the zero block. -/
theorem scratch_first2 (c : Dev nD) (t : Fin cfg2.N) :
    (outsAt2 V c t.val t.isLt).2 = step2 (iblk2 V c 0 t) (iblk2 V c 1 t) (iblk2 V c 2 t) (iblk2 V c 3 t) (iblk2 V c 4 t) (iblk2 V c 5 t) Gen.k2_pay2 := by
  rw [outsAt2_D V c t]
  exact sout2_D_0_eq (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (hcond2_0 t) (hcond2_1 t) (iblk2 V c 0 t) (iblk2 V c 1 t) (iblk2 V c 2 t) (iblk2 V c 3 t) (iblk2 V c 4 t) (iblk2 V c 5 t)

/-- At every point (each is an image's last tile) the output block ends at the accumulator's contents. -/
theorem out_last2 (c : Dev nD) (t : Fin cfg2.N) :
    (outsAt2 V c t.val t.isLt).1 = (outsAt2 V c t.val t.isLt).2 := by
  rw [outsAt2_D V c t]
  exact out2_D_6_eq (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (hcond2_0 t) (hcond2_1 t) (iblk2 V c 0 t) (iblk2 V c 1 t) (iblk2 V c 2 t) (iblk2 V c 3 t) (iblk2 V c 4 t) (iblk2 V c 5 t)

end Region

end Cert.Kernel.GenR

end
-- ==== Proof.B.Whole.lean ====
/-
  The program's run, from the three regions' own proof data.

  The first region is entered with the buffers as the host operations before it leave them; what it leaves in its
  output array is named; the second region is entered with that array in place, and so on. The three output arrays'
  final contents are thus defined one after the other, each from the proof data of its region at the contents the
  earlier regions and host operations leave. The run then ends with the result at the last valuation over these three
  arrays, and the frame is the same run with the result forgotten.
-/
import proofs.«120005_j50079318672069_1_alg».proof.Proof.B.Run
import proofs.«120005_j50079318672069_1_alg».proof.Proof.B.Reg0
import proofs.«120005_j50079318672069_1_alg».proof.Proof.B.Reg1
import proofs.«120005_j50079318672069_1_alg».proof.Proof.B.Reg2
import Mathlib.Tactic.FinCases

noncomputable section

namespace Cert.Kernel.GenR

open Cert.Kernel Cert.Kernel.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

/-- The buffers as the first region finds them. -/
abbrev VA : (c : Dev nD) → (b : Ref sig .tc) → Buf (Elt F) ((c : Thread nD τ).loc b) := fun c b => V3 m c b
/-- What the first region leaves in its output array. -/
def out4 (c : Dev nD) : Buf (Elt F) ((c : Thread nD τ).loc main_v34) := (dat0 (VA m) c).arrAt 6 cfg0.N
/-- The regions' leavings with only the first known. -/
abbrev outs1 : Outs (F := F) := outsOf m (out4 m) (fun c => m ((c : Thread nD τ).loc main_v36)) (fun c => m ((c : Thread nD τ).loc main_v38))
/-- The buffers as the second region finds them. -/
abbrev VB : (c : Dev nD) → (b : Ref sig .tc) → Buf (Elt F) ((c : Thread nD τ).loc b) := fun c b => V5 m (outs1 m) c b
/-- What the second region leaves in its output array. -/
def out6 (c : Dev nD) : Buf (Elt F) ((c : Thread nD τ).loc main_v36) := (dat1 (VB m) c).arrAt 6 cfg1.N
/-- The regions' leavings with the first two known. -/
abbrev outs2 : Outs (F := F) := outsOf m (out4 m) (out6 m) (fun c => m ((c : Thread nD τ).loc main_v38))
/-- The buffers as the third region finds them. -/
abbrev VC : (c : Dev nD) → (b : Ref sig .tc) → Buf (Elt F) ((c : Thread nD τ).loc b) := fun c b => V7 m (outs2 m) c b
/-- What the third region leaves in its output array. -/
def out8 (c : Dev nD) : Buf (Elt F) ((c : Thread nD τ).loc main_v38) := (dat2 (VC m) c).arrAt 6 cfg2.N
/-- What the three regions leave. -/
abbrev outsF : Outs (F := F) := outsOf m (out4 m) (out6 m) (out8 m)

/-- The valuations before the second region read only the first region's output. -/
theorem V5_outsF (c : Dev nD) : V5 m (outsF m) c = V5 m (outs1 m) c := by
  show StableHlo.after hostOps1 (Function.update (V3 m c) (Proc.devRef .tc main_v34) (outsF m 4 main_v34 c))
    = StableHlo.after hostOps1 (Function.update (V3 m c) (Proc.devRef .tc main_v34) (outs1 m 4 main_v34 c))
  rw [show outsF m 4 main_v34 c = out4 m c from outsOf_v34 _ _ _ _ _ _, show outs1 m 4 main_v34 c = out4 m c from outsOf_v34 _ _ _ _ _ _]

/-- The valuations before the third region read only the first two regions' outputs. -/
theorem V7_outsF (c : Dev nD) : V7 m (outsF m) c = V7 m (outs2 m) c := by
  show StableHlo.after hostOps2 (Function.update (StableHlo.after hostOps1 (Function.update (V3 m c) (Proc.devRef .tc main_v34) (outsF m 4 main_v34 c)))
      (Proc.devRef .tc main_v36) (outsF m 6 main_v36 c))
    = StableHlo.after hostOps2 (Function.update (StableHlo.after hostOps1 (Function.update (V3 m c) (Proc.devRef .tc main_v34) (outs2 m 4 main_v34 c)))
      (Proc.devRef .tc main_v36) (outs2 m 6 main_v36 c))
  rw [show outsF m 4 main_v34 c = out4 m c from outsOf_v34 _ _ _ _ _ _, show outs2 m 4 main_v34 c = out4 m c from outsOf_v34 _ _ _ _ _ _,
    show outsF m 6 main_v36 c = out6 m c from outsOf_v36 _ _ _ _ _ _, show outs2 m 6 main_v36 c = out6 m c from outsOf_v36 _ _ _ _ _ _]

/-- The two tables of shares agree. -/
theorem q0_eq : ∀ w : Fin 7, q0 w = qsh0 w := by intro w; fin_cases w <;> rfl
theorem q2_eq : ∀ w : Fin 7, q2 w = qsh2 w := by intro w; fin_cases w <;> rfl

/-- THE RUN of the program: it terminates, nothing faults, the result ends at the last valuation over what the regions
    leave, the arguments as launched. -/
theorem run_main :
    θ_run defs (onTc (τ := τ) (main (F := F))) ⟨m, fun _ => 0, ρ⟩ (fun r => ∀ c : Dev nD,
      r.2.mem ((c.tc : Thread nD τ).loc main_v48) = V9 m (outsF m) c main_v48
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_of m ρ (dat0 (VA m)) (dat1 (VB m)) (dat2 (VC m)) (out4 m) (out6 m) (out8 m)
    (hA0 := fun c w => A_eq0 (VA m) c w) (hq0 := fun _ w => q0_eq w) (howed0 := fun _ _ => rfl) (hrec0 := fun _ _ => rfl)
    (hbody0 := fun c => body_obligation0 (VA m) c) (hin0 := fun c => hin0 (VA m) c) (hout0 := fun c => hout0 (VA m) c)
    (ho4 := fun _ => rfl)
    (hA1 := fun c w => (A_eq1 (VB m) c w).trans (congrFun (V5_outsF m c).symm _)) (hq1 := fun _ _ => rfl) (howed1 := fun _ _ => rfl) (hrec1 := fun _ _ => rfl)
    (hbody1 := fun c => body_obligation1 (VB m) c) (hin1 := fun c => hin1 (VB m) c) (hout1 := fun c => hout1 (VB m) c)
    (ho6 := fun _ => rfl)
    (hA2 := fun c w => (A_eq2 (VC m) c w).trans (congrFun (V7_outsF m c).symm _)) (hq2 := fun _ w => q2_eq w) (howed2 := fun _ _ => rfl) (hrec2 := fun _ _ => rfl)
    (hbody2 := fun c => body_obligation2 (VC m) c) (hin2 := fun c => hin2 (VC m) c) (hout2 := fun c => hout2 (VC m) c)
    (ho8 := fun _ => rfl)

/-- THE FRAME: the run with the result forgotten. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.Kernel.GenR

end
-- ==== Proof.Spec.lean ====
/-
  The divergence between two sets of weighted planar Gaussians with diagonal covariance, as one function of
  six arrays: per image, the predicted boxes' centres, variances and class weights and the ground-truth
  boxes' centres, variances and class weights.

  For a pair of boxes (centre `(m1x, m1y)`, variances `(v1x, v1y)`; centre `(m2x, m2y)`, variances
  `(v2x, v2y)`) write `c = 1/v` for the inverse variances, `s = c₁ + c₂` and `μ = (m₁c₁ + m₂c₂)/s` per axis.
  The pair's exponent is
      δ = ½ · ( (μx²·sx + μy²·sy − q₁ − q₂) − (log sx + log sy + ℓ₁ + ℓ₂) − 2·log 2π ),
  with `q = mx²/vx + my²/vy` and `ℓ = log vx + log vy` of each box. A pair sum is
      ∑ i, ∑ j, ⟨a₁ i, a₂ j⟩ · exp δᵢⱼ,
  and an image's value `2·log pq − log pp − log qq` over the three pair sums ground-truth×predicted,
  ground-truth×ground-truth, predicted×predicted; the loss is minus the sum over the images.

  `q` is spelt in two ways: as the product `(m·m)·(1/v)` (`deltaK`) and as the quotient `(m·m)/v` with the
  two axes summed from zero (`deltaR`). The two agree wherever no variance is zero (`deltaR_eq_deltaK`): off
  zero a quotient is the product with the inverse, and `1·v⁻¹ = v⁻¹`. At a zero variance they differ
  (`0·(1/0) = 0·⊤ = 0` against `0/0`), which is why the claim carries the hypothesis that no width or height
  is zero.
-/
import Idealize.ShloMosaic.PureOps.Ideal
import Idealize.ShloMosaic.PureOps.Ideal.Laws
import Idealize.ShloMosaic.Lib.IdealHost

noncomputable section

namespace Cert.CS

open Idealize.ShloMosaic

/-- The three float literals of the exponent, as the extended reals their patterns denote: `1`, `2·log 2π`
    rounded to single precision, and `½`; and the `2` of the image's value. -/
abbrev one32 : EReal := Ideal.ofBits .f32 0x3F800000#32
abbrev c2 : EReal := Ideal.ofBits .f32 0x406B3F8E#32
abbrev half : EReal := Ideal.ofBits .f32 0x3F000000#32
abbrev two32 : EReal := Ideal.ofBits .f32 0x40000000#32
abbrev zero32 : EReal := Ideal.ofBits .f32 0x00000000#32

theorem one32_eq : one32 = 1 := Ideal.ofBits_one_f32
theorem zero32_eq : zero32 = 0 := Ideal.ofBits_zero_f32

/-- The pair's exponent with each box's `q` as products with the inverse variances. -/
def deltaK (m1x m1y v1x v1y m2x m2y v2x v2y : EReal) : EReal :=
  let cix := Ideal.div one32 v1x
  let ciy := Ideal.div one32 v1y
  let cjx := Ideal.div one32 v2x
  let cjy := Ideal.div one32 v2y
  let sx := cix + cjx
  let sy := ciy + cjy
  let mx := Ideal.div (m1x * cix + m2x * cjx) sx
  let my := Ideal.div (m1y * ciy + m2y * cjy) sy
  let q1 := m1x * m1x * cix + m1y * m1y * ciy
  let q2 := m2x * m2x * cjx + m2y * m2y * cjy
  let l1 := Ideal.log v1x + Ideal.log v1y
  let l2 := Ideal.log v2x + Ideal.log v2y
  half * (((mx * mx * sx + my * my * sy) - q1 - q2) - ((Ideal.log sx + Ideal.log sy) + l1 + l2) - c2)

/-- The same exponent with each two-axis sum taken from zero and each box's `q` as quotients by the variances. -/
def deltaR (m1x m1y v1x v1y m2x m2y v2x v2y : EReal) : EReal :=
  let cix := Ideal.div one32 v1x
  let ciy := Ideal.div one32 v1y
  let cjx := Ideal.div one32 v2x
  let cjy := Ideal.div one32 v2y
  let sx := cix + cjx
  let sy := ciy + cjy
  let mx := Ideal.div (m1x * cix + m2x * cjx) sx
  let my := Ideal.div (m1y * ciy + m2y * cjy) sy
  let q1 := zero32 + (Ideal.div (m1x * m1x) v1x + Ideal.div (m1y * m1y) v1y)
  let q2 := zero32 + (Ideal.div (m2x * m2x) v2x + Ideal.div (m2y * m2y) v2y)
  let l1 := zero32 + (Ideal.log v1x + Ideal.log v1y)
  let l2 := zero32 + (Ideal.log v2x + Ideal.log v2y)
  half * (((zero32 + (mx * mx * sx + my * my * sy)) - q1 - q2) - ((zero32 + (Ideal.log sx + Ideal.log sy)) + l1 + l2) - c2)

/-- Off zero, the product with the inverse of `v` is the quotient by `v`. -/
theorem mul_div_one {a v : EReal} (hv : v ≠ 0) : a * Ideal.div one32 v = Ideal.div a v := by
  unfold Ideal.div
  rw [if_neg hv, if_neg hv, one32_eq, one_mul]

/-- Where no variance is zero the two spellings of the exponent agree. -/
theorem deltaR_eq_deltaK {m1x m1y v1x v1y m2x m2y v2x v2y : EReal}
    (h1x : v1x ≠ 0) (h1y : v1y ≠ 0) (h2x : v2x ≠ 0) (h2y : v2y ≠ 0) :
    deltaR m1x m1y v1x v1y m2x m2y v2x v2y = deltaK m1x m1y v1x v1y m2x m2y v2x v2y := by
  unfold deltaR deltaK
  simp only [zero32_eq, zero_add, mul_div_one h1x, mul_div_one h1y, mul_div_one h2x, mul_div_one h2y]

/-- The weight of a pair of boxes: the inner product of their class-weight rows. -/
def wt {K1 K2 : ℕ} (a1 : Fin K1 → Fin 80 → EReal) (a2 : Fin K2 → Fin 80 → EReal) (i : Fin K1) (j : Fin K2) : EReal :=
  ∑ c : Fin 80, a1 i c * a2 j c

/-- One pair's term of a pair sum. -/
def term {K1 K2 : ℕ} (m1 v1 : Fin K1 → Fin 2 → EReal) (a1 : Fin K1 → Fin 80 → EReal)
    (m2 v2 : Fin K2 → Fin 2 → EReal) (a2 : Fin K2 → Fin 80 → EReal) (i : Fin K1) (j : Fin K2) : EReal :=
  wt a1 a2 i j * Ideal.exp (deltaK (m1 i 0) (m1 i 1) (v1 i 0) (v1 i 1) (m2 j 0) (m2 j 1) (v2 j 0) (v2 j 1))

/-- The pair sum of two sets of boxes. -/
def pairSum {K1 K2 : ℕ} (m1 v1 : Fin K1 → Fin 2 → EReal) (a1 : Fin K1 → Fin 80 → EReal)
    (m2 v2 : Fin K2 → Fin 2 → EReal) (a2 : Fin K2 → Fin 80 → EReal) : EReal :=
  ∑ i : Fin K1, ∑ j : Fin K2, term m1 v1 a1 m2 v2 a2 i j

/-- An image's value from its three pair sums. -/
def perImg (pq pp qq : EReal) : EReal := two32 * Ideal.log pq - Ideal.log pp - Ideal.log qq

/-- The loss: minus the images' values summed from zero. The predicted boxes `pm pv pa` are 1000 per image, the
    ground-truth boxes `gm gv ga` 100. -/
def loss (pm pv : Fin 32 → Fin 1000 → Fin 2 → EReal) (pa : Fin 32 → Fin 1000 → Fin 80 → EReal)
    (gm gv : Fin 32 → Fin 100 → Fin 2 → EReal) (ga : Fin 32 → Fin 100 → Fin 80 → EReal) : EReal :=
  -(zero32 + ∑ b : Fin 32, perImg
      (pairSum (gm b) (gv b) (ga b) (pm b) (pv b) (pa b))
      (pairSum (gm b) (gv b) (ga b) (gm b) (gv b) (ga b))
      (pairSum (pm b) (pv b) (pa b) (pm b) (pv b) (pa b)))

end Cert.CS

end
-- ==== Proof.RefLoss.Arrays.lean ====
/-
  The six arrays the reference's pair sums are taken over, named at literal coordinates: per image `b`, the predicted
  boxes' centres `pm`, variances `pv` and class weights `pa` (1000 boxes) and the ground-truth boxes' centres `gm`,
  variances `gv` and class weights `ga` (100 boxes). A variance is the square of half a width or height, the
  coordinates 2 and 3 of a box (`pv_apply`, `gv_apply`).
-/
import proofs.«120005_j50079318672069_1_alg».proof.Proof.Gen.ReferenceIdeal.Read
import proofs.«120005_j50079318672069_1_alg».proof.Proof.Spec
import Idealize.ShloMosaic.Lib.ValueIdx

noncomputable section

namespace Cert.RefLoss

open Cert.ReferenceIdeal Cert.ReferenceIdeal.Read Idealize.ShloMosaic

/-- The predicted boxes' centres. -/
def pm (x0 : FVec Ideal S32x1000x4 .f32) (b : Fin 32) (n : Fin 1000) (d : Fin 2) : EReal :=
  val_main_v24 (F := Ideal) x0 (ValueIdx.ix3 b n d)
/-- The predicted boxes' variances. -/
def pv (x0 : FVec Ideal S32x1000x4 .f32) (b : Fin 32) (n : Fin 1000) (d : Fin 2) : EReal :=
  val_main_v28 (F := Ideal) x0 (ValueIdx.ix3 b n d)
/-- The predicted boxes' class weights. -/
def pa (x1 : FVec Ideal S32x1000x81 .f32) (b : Fin 32) (n : Fin 1000) (k : Fin 80) : EReal :=
  val_main_v22 (F := Ideal) x1 (ValueIdx.ix3 b n k)
/-- The ground-truth boxes' centres. -/
def gm (x2 : FVec Ideal S32x100x4 .f32) (b : Fin 32) (n : Fin 100) (d : Fin 2) : EReal :=
  val_main_v29 (F := Ideal) x2 (ValueIdx.ix3 b n d)
/-- The ground-truth boxes' variances. -/
def gv (x2 : FVec Ideal S32x100x4 .f32) (b : Fin 32) (n : Fin 100) (d : Fin 2) : EReal :=
  val_main_v33 (F := Ideal) x2 (ValueIdx.ix3 b n d)
/-- The ground-truth boxes' class weights. -/
def ga (x3 : IVec S32x100 32) (b : Fin 32) (n : Fin 100) (k : Fin 80) : EReal :=
  val_main_v23 (F := Ideal) x3 (ValueIdx.ix3 b n k)

/-- A predicted box's variance on axis `d` is the square of half its extent, the box's coordinate `d + 2`. -/
theorem pv_apply (x0 : FVec Ideal S32x1000x4 .f32) (b : Fin 32) (n : Fin 1000) (d : Fin 2) :
    pv x0 b n d = Ideal.div (x0 (ValueIdx.ix3 b n ⟨d.val + 2, by omega⟩)) Cert.CS.two32
      * Ideal.div (x0 (ValueIdx.ix3 b n ⟨d.val + 2, by omega⟩)) Cert.CS.two32 := by
  have e : idx_main_v25 (ValueIdx.ix3 b n d) = ValueIdx.ix3 b n ⟨d.val + 2, by omega⟩ :=
    funext fun a => Fin.ext (by
      match a with
      | ⟨0, _⟩ => rfl
      | ⟨1, _⟩ => rfl
      | ⟨2, _⟩ => show 2 + d.val = d.val + 2; omega)
  unfold pv
  rw [val_main_v28_apply, val_main_v27_apply, val_main_v25_apply, val_main_v26_apply, val_main_cst_4_apply, e]
  rfl

/-- A ground-truth box's variance on axis `d` likewise. -/
theorem gv_apply (x2 : FVec Ideal S32x100x4 .f32) (b : Fin 32) (n : Fin 100) (d : Fin 2) :
    gv x2 b n d = Ideal.div (x2 (ValueIdx.ix3 b n ⟨d.val + 2, by omega⟩)) Cert.CS.two32
      * Ideal.div (x2 (ValueIdx.ix3 b n ⟨d.val + 2, by omega⟩)) Cert.CS.two32 := by
  have e : idx_main_v30 (ValueIdx.ix3 b n d) = ValueIdx.ix3 b n ⟨d.val + 2, by omega⟩ :=
    funext fun a => Fin.ext (by
      match a with
      | ⟨0, _⟩ => rfl
      | ⟨1, _⟩ => rfl
      | ⟨2, _⟩ => show 2 + d.val = d.val + 2; omega)
  unfold gv
  rw [val_main_v33_apply, val_main_v32_apply, val_main_v30_apply, val_main_v31_apply, val_main_cst_5_apply, e]
  rfl

end Cert.RefLoss

end
-- ==== Proof.HostSide.lean ====
/-
  The host side of the tiled program, at the extended reals.

  Before its three tiled regions the program prepares six arrays from its arguments — per image the predicted boxes'
  centres, variances and class weights and the ground-truth boxes' centres, variances and class weights — by the same
  operations, in the same order, as the plain program: they are therefore the plain program's six arrays, as functions
  of the arguments (`pm_eq` … `ga_eq`). No later item of the program writes them: each region finds them as the
  prefix left them (`V5_v22` … `V7_v33`). After the regions, the program takes each region's per-image result
  `[32, 1, 1]` as a vector `[32]`, forms `2·log pq − log pp − log qq` per image, sums the images from zero and
  negates: the loss of the three per-image pair sums (`tail_val`).
-/
import proofs.«120005_j50079318672069_1_alg».proof.Proof.Gen.KernelIdeal.Regions
import proofs.«120005_j50079318672069_1_alg».proof.Proof.Gen.ReferenceIdeal.Read
import proofs.«120005_j50079318672069_1_alg».proof.Proof.Spec
import proofs.«120005_j50079318672069_1_alg».proof.Proof.RefLoss.Arrays
import Idealize.ShloMosaic.Lib.IdealHost

noncomputable section

namespace Cert.KVal

open Cert.KernelIdeal Cert.KernelIdeal.Gen Idealize.ShloMosaic Idealize.ShloMosaic.TcCoe

variable (m : (ℓ : Loc nD τ sig) → Buf (Elt Ideal) ℓ) (c : Dev nD)

/-- The predicted boxes' centres, as the regions find them. -/
def pm (b : Fin 32) (n : Fin 1000) (d : Fin 2) : EReal :=
  (V3 (F := Ideal) m c main_v24 : S32x1000x2.Idx → EReal) (ValueIdx.ix3 b n d)
/-- The predicted boxes' variances. -/
def pv (b : Fin 32) (n : Fin 1000) (d : Fin 2) : EReal :=
  (V3 (F := Ideal) m c main_v28 : S32x1000x2.Idx → EReal) (ValueIdx.ix3 b n d)
/-- The predicted boxes' class weights. -/
def pa (b : Fin 32) (n : Fin 1000) (k : Fin 80) : EReal :=
  (V3 (F := Ideal) m c main_v22 : S32x1000x80.Idx → EReal) (ValueIdx.ix3 b n k)
/-- The ground-truth boxes' centres. -/
def gm (b : Fin 32) (n : Fin 100) (d : Fin 2) : EReal :=
  (V3 (F := Ideal) m c main_v29 : S32x100x2.Idx → EReal) (ValueIdx.ix3 b n d)
/-- The ground-truth boxes' variances. -/
def gv (b : Fin 32) (n : Fin 100) (d : Fin 2) : EReal :=
  (V3 (F := Ideal) m c main_v33 : S32x100x2.Idx → EReal) (ValueIdx.ix3 b n d)
/-- The ground-truth boxes' class weights. -/
def ga (b : Fin 32) (n : Fin 100) (k : Fin 80) : EReal :=
  (V3 (F := Ideal) m c main_v23 : S32x100x80.Idx → EReal) (ValueIdx.ix3 b n k)

/-- The arguments are as launched when the prefix reads them: no earlier operation writes an argument. -/
theorem V2_arg0 : V2 (F := Ideal) m c main_arg0 = m ((c.tc : Thread nD τ).loc main_arg0) :=
  (V2_of m c main_arg0 (by decide)).trans <| (V1_of m c main_arg0 (by decide)).trans rfl
theorem V2_arg2 : V2 (F := Ideal) m c main_arg2 = m ((c.tc : Thread nD τ).loc main_arg2) :=
  (V2_of m c main_arg2 (by decide)).trans <| (V1_of m c main_arg2 (by decide)).trans rfl
theorem V1_arg3 : V1 (F := Ideal) m c main_arg3 = m ((c.tc : Thread nD τ).loc main_arg3) :=
  (V1_of m c main_arg3 (by decide)).trans rfl

/-! ## The six arrays are the plain program's -/

/-- The predicted boxes' centres: the slice of the first argument's coordinates 0 and 1. -/
theorem V3_v24 : (V3 (F := Ideal) m c main_v24)
    = Cert.ReferenceIdeal.Read.val_main_v24 (F := Ideal) (m ((c.tc : Thread nD τ).loc main_arg0)) := by
  have h0 := V2_arg0 m c
  show StableHlo.after hostOps0_2 (V2 (F := Ideal) m c) (Proc.devRef .tc main_v24) = _
  generalize V2 (F := Ideal) m c = W at h0 ⊢
  after_results
  rw [h0]; rfl

/-- The predicted boxes' variances: half the slice of coordinates 2 and 3, squared. -/
theorem V3_v28 : (V3 (F := Ideal) m c main_v28)
    = Cert.ReferenceIdeal.Read.val_main_v28 (F := Ideal) (m ((c.tc : Thread nD τ).loc main_arg0)) := by
  have h0 := V2_arg0 m c
  show StableHlo.after hostOps0_2 (V2 (F := Ideal) m c) (Proc.devRef .tc main_v28) = _
  generalize V2 (F := Ideal) m c = W at h0 ⊢
  after_results
  rw [h0]; rfl

/-- The ground-truth boxes' centres. -/
theorem V3_v29 : (V3 (F := Ideal) m c main_v29)
    = Cert.ReferenceIdeal.Read.val_main_v29 (F := Ideal) (m ((c.tc : Thread nD τ).loc main_arg2)) := by
  have h0 := V2_arg2 m c
  show StableHlo.after hostOps0_2 (V2 (F := Ideal) m c) (Proc.devRef .tc main_v29) = _
  generalize V2 (F := Ideal) m c = W at h0 ⊢
  after_results
  rw [h0]; rfl

/-- The ground-truth boxes' variances. -/
theorem V3_v33 : (V3 (F := Ideal) m c main_v33)
    = Cert.ReferenceIdeal.Read.val_main_v33 (F := Ideal) (m ((c.tc : Thread nD τ).loc main_arg2)) := by
  have h0 := V2_arg2 m c
  show StableHlo.after hostOps0_2 (V2 (F := Ideal) m c) (Proc.devRef .tc main_v33) = _
  generalize V2 (F := Ideal) m c = W at h0 ⊢
  after_results
  rw [h0]; rfl

/-- The ground-truth boxes' class weights: the one-hot rows of the labels. -/
theorem V3_v23 : (V3 (F := Ideal) m c main_v23)
    = Cert.ReferenceIdeal.Read.val_main_v23 (F := Ideal) (m ((c.tc : Thread nD τ).loc main_arg3)) := by
  have h0 := V1_arg3 m c
  refine (V3_of m c main_v23 (by decide)).trans ?_
  show StableHlo.after hostOps0_1 (V1 (F := Ideal) m c) (Proc.devRef .tc main_v23) = _
  generalize V1 (F := Ideal) m c = W at h0 ⊢
  after_results
  rw [h0]; rfl

/-- The predicted boxes' class weights: the objectness' logistic times the softmax of the eighty class scores. -/
theorem V3_v22 : (V3 (F := Ideal) m c main_v22)
    = Cert.ReferenceIdeal.Read.val_main_v22 (F := Ideal) (m ((c.tc : Thread nD τ).loc main_arg1)) := by
  have h0 : V0 (F := Ideal) m c main_arg1 = m ((c.tc : Thread nD τ).loc main_arg1) := rfl
  refine (V3_of m c main_v22 (by decide)).trans <| (V2_of m c main_v22 (by decide)).trans ?_
  show StableHlo.after hostOps0 (V0 (F := Ideal) m c) (Proc.devRef .tc main_v22) = _
  generalize V0 (F := Ideal) m c = W at h0 ⊢
  after_results_simp
  rw [h0]; rfl

theorem pm_eq : pm m c = Cert.RefLoss.pm (m ((c.tc : Thread nD τ).loc main_arg0)) :=
  funext fun _ => funext fun _ => funext fun _ => congrFun (V3_v24 m c) _
theorem pv_eq : pv m c = Cert.RefLoss.pv (m ((c.tc : Thread nD τ).loc main_arg0)) :=
  funext fun _ => funext fun _ => funext fun _ => congrFun (V3_v28 m c) _
theorem pa_eq : pa m c = Cert.RefLoss.pa (m ((c.tc : Thread nD τ).loc main_arg1)) :=
  funext fun _ => funext fun _ => funext fun _ => congrFun (V3_v22 m c) _
theorem gm_eq : gm m c = Cert.RefLoss.gm (m ((c.tc : Thread nD τ).loc main_arg2)) :=
  funext fun _ => funext fun _ => funext fun _ => congrFun (V3_v29 m c) _
theorem gv_eq : gv m c = Cert.RefLoss.gv (m ((c.tc : Thread nD τ).loc main_arg2)) :=
  funext fun _ => funext fun _ => funext fun _ => congrFun (V3_v33 m c) _
theorem ga_eq : ga m c = Cert.RefLoss.ga (m ((c.tc : Thread nD τ).loc main_arg3)) :=
  funext fun _ => funext fun _ => funext fun _ => congrFun (V3_v23 m c) _

/-! ## The six arrays reach the later regions unchanged -/

variable (outs : Outs (F := Ideal))

theorem V5_v22 : V5 (F := Ideal) m outs c main_v22 = V3 (F := Ideal) m c main_v22 :=
  (V5_of m outs c main_v22 (by decide)).trans (V4_of m outs c main_v22 (by decide))
theorem V5_v23 : V5 (F := Ideal) m outs c main_v23 = V3 (F := Ideal) m c main_v23 :=
  (V5_of m outs c main_v23 (by decide)).trans (V4_of m outs c main_v23 (by decide))
theorem V5_v24 : V5 (F := Ideal) m outs c main_v24 = V3 (F := Ideal) m c main_v24 :=
  (V5_of m outs c main_v24 (by decide)).trans (V4_of m outs c main_v24 (by decide))
theorem V5_v28 : V5 (F := Ideal) m outs c main_v28 = V3 (F := Ideal) m c main_v28 :=
  (V5_of m outs c main_v28 (by decide)).trans (V4_of m outs c main_v28 (by decide))
theorem V5_v29 : V5 (F := Ideal) m outs c main_v29 = V3 (F := Ideal) m c main_v29 :=
  (V5_of m outs c main_v29 (by decide)).trans (V4_of m outs c main_v29 (by decide))
theorem V5_v33 : V5 (F := Ideal) m outs c main_v33 = V3 (F := Ideal) m c main_v33 :=
  (V5_of m outs c main_v33 (by decide)).trans (V4_of m outs c main_v33 (by decide))

theorem V7_v22 : V7 (F := Ideal) m outs c main_v22 = V3 (F := Ideal) m c main_v22 :=
  (V7_of m outs c main_v22 (by decide)).trans <| (V6_of m outs c main_v22 (by decide)).trans (V5_v22 m c outs)
theorem V7_v23 : V7 (F := Ideal) m outs c main_v23 = V3 (F := Ideal) m c main_v23 :=
  (V7_of m outs c main_v23 (by decide)).trans <| (V6_of m outs c main_v23 (by decide)).trans (V5_v23 m c outs)
theorem V7_v24 : V7 (F := Ideal) m outs c main_v24 = V3 (F := Ideal) m c main_v24 :=
  (V7_of m outs c main_v24 (by decide)).trans <| (V6_of m outs c main_v24 (by decide)).trans (V5_v24 m c outs)
theorem V7_v28 : V7 (F := Ideal) m outs c main_v28 = V3 (F := Ideal) m c main_v28 :=
  (V7_of m outs c main_v28 (by decide)).trans <| (V6_of m outs c main_v28 (by decide)).trans (V5_v28 m c outs)
theorem V7_v29 : V7 (F := Ideal) m outs c main_v29 = V3 (F := Ideal) m c main_v29 :=
  (V7_of m outs c main_v29 (by decide)).trans <| (V6_of m outs c main_v29 (by decide)).trans (V5_v29 m c outs)
theorem V7_v33 : V7 (F := Ideal) m outs c main_v33 = V3 (F := Ideal) m c main_v33 :=
  (V7_of m outs c main_v33 (by decide)).trans <| (V6_of m outs c main_v33 (by decide)).trans (V5_v33 m c outs)

end Cert.KVal

end
-- ==== Proof.HostTail.lean ====
/-
  The end of the tiled program, at the extended reals.

  After its three tiled regions the program takes each region's per-image result `[32, 1, 1]` as a vector `[32]`,
  forms `2·log pq − log pp − log qq` per image — `pq` the second region's result, `pp` the third's, `qq` the first's —,
  sums the images from zero and negates: the loss of the three per-image pair sums (`tail_val`). Each reshape reads
  `(b, 0, 0)` at `b`; the regions' results stay in their buffers until the tail reads them, no later item writing
  them.
-/
import proofs.«120005_j50079318672069_1_alg».proof.Proof.Gen.KernelIdeal.Regions
import proofs.«120005_j50079318672069_1_alg».proof.Proof.Spec
import Idealize.ShloMosaic.Lib.IdealHost
import Idealize.ShloMosaic.Lib.Pipeline.Value

noncomputable section

namespace Cert.KVal

open Cert.KernelIdeal Cert.KernelIdeal.Gen Idealize.ShloMosaic Idealize.ShloMosaic.TcCoe

variable (m : (ℓ : Loc nD τ sig) → Buf (Elt Ideal) ℓ) (c : Dev nD)

/-- A rank-1 index set is its coordinate's range … -/
def idxEquiv1 {n : Nat} : (⟨1, ![n]⟩ : Shape).Idx ≃ Fin n where
  toFun i := i 0
  invFun a := ValueIdx.ix1 a
  left_inv i := (ValueIdx.eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ValueIdx.ix1 a) := by
  rw [← Equiv.sum_comp (idxEquiv1 (n := n)).symm f]
  rfl

/-- A `[32, 1, 1]` array taken as a vector `[32]` reads, at `b`, the array at `(b, 0, 0)`. -/
theorem reshape_at (x : S32x1x1.Idx → EReal) (h : S32x1x1.ShapeCasts S32) (b : Fin 32) :
    shapeCast S32 x h (ValueIdx.ix1 b) = x (ValueIdx.ix3 b 0 0) := by
  refine shapeCast_apply x h _ _ ?_
  rw [Shape.rowMajor_val_three, Shape.rowMajor_val_one]
  show (b.val * 1 + 0) * 1 + 0 = b.val
  omega

/-- The tail's arithmetic on three vectors: per entry `2·log a − log b − log c`, summed from zero, negated. -/
theorem tail_pure (a b cc : S32.Idx → EReal) (hb : S_.BroadcastsInDim S32 (![] : Fin 0 → Fin S32.rank))
    (hr : S32.ReducesTo [0] S_) (hu : 0 < S_.numel) (y : S_.Idx) :
    Host.negf (Host.reduceAdd (F := Ideal)
        (subf (subf (mulf (broadcastInDim S32 ![] hb (constant (F := Ideal) S_ .f32 0x40000000#32)) (Host.log a)) (Host.log b))
          (Host.log cc))
        (constant (F := Ideal) S_ .f32 0x00000000#32) hr hu) y
      = -(Cert.CS.zero32 + ∑ i : Fin 32,
          Cert.CS.perImg (a (ValueIdx.ix1 i)) (b (ValueIdx.ix1 i)) (cc (ValueIdx.ix1 i))) := by
  show -(Host.reduceAdd (F := Ideal) _ (constant (F := Ideal) S_ .f32 0x00000000#32) hr hu y) = _
  rw [ValueIdx.hostReduceAdd_apply, Ideal.hostReduceAdd_total hr (fun b => b.elim0), sum_idx1]
  rfl

variable (outs : Outs (F := Ideal))

/-- The first region's result as a vector, as the next item leaves it. -/
theorem V5_v35 (i : Fin 32) : (V5 (F := Ideal) m outs c main_v35 : S32.Idx → EReal) (ValueIdx.ix1 i)
    = (outs 4 main_v34 c : S32x1x1.Idx → EReal) (ValueIdx.ix3 i 0 0) := by
  have h : V4 (F := Ideal) m outs c main_v34 = outs 4 main_v34 c := Function.update_self ..
  show StableHlo.after hostOps1 (V4 (F := Ideal) m outs c) (Proc.devRef .tc main_v35) (ValueIdx.ix1 i) = _
  generalize V4 (F := Ideal) m outs c = W at h ⊢
  after_results
  rw [h]
  exact reshape_at _ _ i

/-- The second region's result as a vector. -/
theorem V7_v37 (i : Fin 32) : (V7 (F := Ideal) m outs c main_v37 : S32.Idx → EReal) (ValueIdx.ix1 i)
    = (outs 6 main_v36 c : S32x1x1.Idx → EReal) (ValueIdx.ix3 i 0 0) := by
  have h : V6 (F := Ideal) m outs c main_v36 = outs 6 main_v36 c := Function.update_self ..
  show StableHlo.after hostOps2 (V6 (F := Ideal) m outs c) (Proc.devRef .tc main_v37) (ValueIdx.ix1 i) = _
  generalize V6 (F := Ideal) m outs c = W at h ⊢
  after_results
  rw [h]
  exact reshape_at _ _ i

/-- The first region's vector reaches the tail: no later item writes it. -/
theorem V8_v35 : V8 (F := Ideal) m outs c main_v35 = V5 (F := Ideal) m outs c main_v35 :=
  (V8_of m outs c main_v35 (by decide)).trans <| (V7_of m outs c main_v35 (by decide)).trans
    (V6_of m outs c main_v35 (by decide))
/-- The second region's vector reaches the tail. -/
theorem V8_v37 : V8 (F := Ideal) m outs c main_v37 = V7 (F := Ideal) m outs c main_v37 :=
  V8_of m outs c main_v37 (by decide)

/-- THE TAIL: the program's result is minus the images' values summed from zero, each image's value taken from the
    three regions' results at that image. -/
theorem tail_val (y : S_.Idx) :
    (V9 (F := Ideal) m outs c main_v48 : S_.Idx → EReal) y
      = -(Cert.CS.zero32 + ∑ b : Fin 32, Cert.CS.perImg
          ((outs 6 main_v36 c : S32x1x1.Idx → EReal) (ValueIdx.ix3 b 0 0))
          ((outs 8 main_v38 c : S32x1x1.Idx → EReal) (ValueIdx.ix3 b 0 0))
          ((outs 4 main_v34 c : S32x1x1.Idx → EReal) (ValueIdx.ix3 b 0 0))) := by
  have h38 : V8 (F := Ideal) m outs c main_v38 = outs 8 main_v38 c := Function.update_self ..
  have h37 : ∀ i : Fin 32, (V8 (F := Ideal) m outs c main_v37 : S32.Idx → EReal) (ValueIdx.ix1 i)
      = (outs 6 main_v36 c : S32x1x1.Idx → EReal) (ValueIdx.ix3 i 0 0) :=
    fun i => (congrFun (V8_v37 m c outs) _).trans (V7_v37 m c outs i)
  have h35 : ∀ i : Fin 32, (V8 (F := Ideal) m outs c main_v35 : S32.Idx → EReal) (ValueIdx.ix1 i)
      = (outs 4 main_v34 c : S32x1x1.Idx → EReal) (ValueIdx.ix3 i 0 0) :=
    fun i => (congrFun (V8_v35 m c outs) _).trans (V5_v35 m c outs i)
  show StableHlo.after hostOps3 (V8 (F := Ideal) m outs c) (Proc.devRef .tc main_v48) y = _
  generalize V8 (F := Ideal) m outs c = W at h38 h37 h35 ⊢
  after_results
  refine (tail_pure _ _ _ _ _ _ y).trans ?_
  refine congrArg Neg.neg (congrArg (Cert.CS.zero32 + ·) (Finset.sum_congr rfl fun i _ => ?_))
  rw [h37 i, h35 i, h38]
  exact congrArg (fun t => Cert.CS.perImg _ t _) (reshape_at _ _ i)

end Cert.KVal

end
-- ==== Proof.Reg0.Values.lean ====
/-
  The values of the predicted × predicted pair-sum kernel's accumulator and output block, point by point.

  One step of the kernel (`step0`) takes the six input blocks and the accumulator to the accumulator plus the
  tile's pair sum (the kernel's arithmetic, as the payloads of its loads). Each case's run stores exactly that: at a
  first tile over the zero block the reset stored, elsewhere over what the point before left; and at a last tile
  the output block's buffer receives the accumulator just stored. Read off the stores the runs found: every load
  and store is through the whole-buffer rectangle at zero offsets.
-/
import proofs.«120005_j50079318672069_1_alg».proof.Proof.Reg0
import Idealize.ShloMosaic.Lib.Pipeline.Value

set_option maxRecDepth 16384

noncomputable section

namespace Cert.KernelIdeal.GenR

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3_0 : (![0, 0, 0] : Fin 3 → Nat) = fun _ => 0 := funext fun a => by fin_cases a <;> rfl

/-- One step: the accumulator `acc` plus the tile's pair sum, from the six input blocks (the first set's centres,
    variances and class weights, then the second set's tile of the same). -/
abbrev step0 (x2 : Vec F S1x1000x2 .f32) (x3 : Vec F S1x1000x2 .f32) (x4 : Vec F S1x1000x80 .f32) (x5 : Vec F S1x200x2 .f32) (x6 : Vec F S1x200x2 .f32) (x7 : Vec F S1x200x80 .f32) (acc : Vec F S1x1x1 .f32) : FVec F S1x1x1 .f32 :=
  k0_pay1 (k0_pay5 x4) (k0_pay8 x7) (k0_pay23 (k0_pay9 x2) (k0_pay10 x2) (k0_pay11 x3) (k0_pay12 x3) (k0_pay13 x5) (k0_pay14 x5) (k0_pay15 x6) (k0_pay16 x6) (k0_pay17 x3) (k0_pay18 x3) (k0_pay19 x6) (k0_pay20 x6) (k0_pay21 x6) (k0_pay22 x6)) k0_pay24 acc

/-! ## What each case's stores leave -/

/-- At a first tile the accumulator is left at one step from the zero block: the reset's store is read back by the
    step's load. -/
theorem sout0_A_eq (c : Dev nD) (i : grid0.Coords) (arg2 : Memref sig .tc .vmem S1x1000x2 .f32) (harg2 : arg2.IsWhole) (arg3 : Memref sig .tc .vmem S1x1000x2 .f32) (harg3 : arg3.IsWhole) (arg4 : Memref sig .tc .vmem S1x1000x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : cond0_0 i) (hc1 : ¬cond0_1 i)
    (x2 : Vec F S1x1000x2 .f32) (x3 : Vec F S1x1000x2 .f32) (x4 : Vec F S1x1000x80 .f32) (x5 : Vec F S1x200x2 .f32) (x6 : Vec F S1x200x2 .f32) (x7 : Vec F S1x200x80 .f32) :
    sout0_A_0 c i arg2 harg2 arg3 harg3 arg4 harg4 arg5 harg5 arg6 harg6 arg7 harg7 arg8 harg8 arg9 harg9 hc0 hc1 x2 x3 x4 x5 x6 x7 = step0 x2 x3 x4 x5 x6 x7 k0_pay2 := by
  unfold sout0_A_0
  rw [View.read_writes_eq_canon _ _ _ (scover0_A_0 c i arg2 harg2 arg3 harg3 arg4 harg4 arg5 harg5 arg6 harg6 arg7 harg7 arg8 harg8 arg9 harg9 hc0 hc1 x2 x3 x4 x5 x6 x7)]
  unfold kernelRun0_A
  dsimp only
  sl_unfold_words
  rw [View.canon_cons_unit_zero (S := S1x1x1) hz3_0, View.readCov_unit_zero (S := S1x1x1) _ hz3_0]
  simp only [View.readAt_eq_ld, harg2.read_unread, harg3.read_unread, harg4.read_unread, harg5.read_unread, harg6.read_unread, harg7.read_unread, View.ld_unit_zero (S := S1x1000x2) hz3_0, View.ld_unit_zero (S := S1x1000x80) hz3_0, View.ld_unit_zero (S := S1x200x2) hz3_0, View.ld_unit_zero (S := S1x200x80) hz3_0, View.ld_unit_zero (S := S1x1x1) hz3_0]

/-- At a middle tile the accumulator is left at one step from what it held. -/
theorem sout0_B_eq (c : Dev nD) (i : grid0.Coords) (arg2 : Memref sig .tc .vmem S1x1000x2 .f32) (harg2 : arg2.IsWhole) (arg3 : Memref sig .tc .vmem S1x1000x2 .f32) (harg3 : arg3.IsWhole) (arg4 : Memref sig .tc .vmem S1x1000x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : ¬cond0_0 i) (hc1 : ¬cond0_1 i)
    (x2 : Vec F S1x1000x2 .f32) (x3 : Vec F S1x1000x2 .f32) (x4 : Vec F S1x1000x80 .f32) (x5 : Vec F S1x200x2 .f32) (x6 : Vec F S1x200x2 .f32) (x7 : Vec F S1x200x80 .f32) (xs0 : Vec F S1x1x1 .f32) :
    sout0_B_0 c i arg2 harg2 arg3 harg3 arg4 harg4 arg5 harg5 arg6 harg6 arg7 harg7 arg8 harg8 arg9 harg9 hc0 hc1 x2 x3 x4 x5 x6 x7 xs0 = step0 x2 x3 x4 x5 x6 x7 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x2 x3 x4 x5 x6 x7 xs0)]
  unfold kernelRun0_B
  dsimp only
  sl_unfold_words
  rw [View.canon_unit_zero (S := S1x1x1) hz3_0]
  simp only [View.readAt_eq_ld, harg2.read_unread, harg3.read_unread, harg4.read_unread, harg5.read_unread, harg6.read_unread, harg7.read_unread, harg9.read_unread, View.ld_unit_zero (S := S1x1000x2) hz3_0, View.ld_unit_zero (S := S1x1000x80) hz3_0, View.ld_unit_zero (S := S1x200x2) hz3_0, View.ld_unit_zero (S := S1x200x80) hz3_0, View.ld_unit_zero (S := S1x1x1) hz3_0]

/-- At a last tile likewise, -/
theorem sout0_C_eq (c : Dev nD) (i : grid0.Coords) (arg2 : Memref sig .tc .vmem S1x1000x2 .f32) (harg2 : arg2.IsWhole) (arg3 : Memref sig .tc .vmem S1x1000x2 .f32) (harg3 : arg3.IsWhole) (arg4 : Memref sig .tc .vmem S1x1000x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : ¬cond0_0 i) (hc1 : cond0_1 i)
    (x2 : Vec F S1x1000x2 .f32) (x3 : Vec F S1x1000x2 .f32) (x4 : Vec F S1x1000x80 .f32) (x5 : Vec F S1x200x2 .f32) (x6 : Vec F S1x200x2 .f32) (x7 : Vec F S1x200x80 .f32) (xs0 : Vec F S1x1x1 .f32) :
    sout0_C_0 c i arg2 harg2 arg3 harg3 arg4 harg4 arg5 harg5 arg6 harg6 arg7 harg7 arg8 harg8 arg9 harg9 hc0 hc1 x2 x3 x4 x5 x6 x7 xs0 = step0 x2 x3 x4 x5 x6 x7 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x2 x3 x4 x5 x6 x7 xs0)]
  unfold kernelRun0_C
  dsimp only
  sl_unfold_words
  rw [View.canon_unit_zero (S := S1x1x1) hz3_0]
  simp only [View.readAt_eq_ld, harg2.read_unread, harg3.read_unread, harg4.read_unread, harg5.read_unread, harg6.read_unread, harg7.read_unread, harg9.read_unread, View.ld_unit_zero (S := S1x1000x2) hz3_0, View.ld_unit_zero (S := S1x1000x80) hz3_0, View.ld_unit_zero (S := S1x200x2) hz3_0, View.ld_unit_zero (S := S1x200x80) hz3_0, View.ld_unit_zero (S := S1x1x1) hz3_0]

/-- and the output block's buffer receives the accumulator read back after that store. -/
theorem out0_C_eq (c : Dev nD) (i : grid0.Coords) (arg2 : Memref sig .tc .vmem S1x1000x2 .f32) (harg2 : arg2.IsWhole) (arg3 : Memref sig .tc .vmem S1x1000x2 .f32) (harg3 : arg3.IsWhole) (arg4 : Memref sig .tc .vmem S1x1000x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : ¬cond0_0 i) (hc1 : cond0_1 i)
    (x2 : Vec F S1x1000x2 .f32) (x3 : Vec F S1x1000x2 .f32) (x4 : Vec F S1x1000x80 .f32) (x5 : Vec F S1x200x2 .f32) (x6 : Vec F S1x200x2 .f32) (x7 : Vec F S1x200x80 .f32) (xs0 : Vec F S1x1x1 .f32) :
    out0_C_6 c i arg2 harg2 arg3 harg3 arg4 harg4 arg5 harg5 arg6 harg6 arg7 harg7 arg8 harg8 arg9 harg9 hc0 hc1 x2 x3 x4 x5 x6 x7 xs0 = step0 x2 x3 x4 x5 x6 x7 xs0 := by
  unfold out0_C_6
  rw [View.read_writes_eq_canon _ _ _ (cover0_C_6 c i arg2 harg2 arg3 harg3 arg4 harg4 arg5 harg5 arg6 harg6 arg7 harg7 arg8 harg8 arg9 harg9 hc0 hc1 x2 x3 x4 x5 x6 x7 xs0)]
  unfold kernelRun0_C
  dsimp only
  sl_unfold_words
  rw [View.canon_unit_zero (S := S1x1x1) hz3_0, View.readCov_unit_zero (S := S1x1x1) _ hz3_0]
  simp only [View.readAt_eq_ld, harg2.read_unread, harg3.read_unread, harg4.read_unread, harg5.read_unread, harg6.read_unread, harg7.read_unread, harg9.read_unread, View.ld_unit_zero (S := S1x1000x2) hz3_0, View.ld_unit_zero (S := S1x1000x80) hz3_0, View.ld_unit_zero (S := S1x200x2) hz3_0, View.ld_unit_zero (S := S1x200x80) hz3_0, View.ld_unit_zero (S := S1x1x1) hz3_0]

section
variable (V : (c : Dev nD) → (b : Ref sig .tc) → Buf (Elt F) ((c : Thread nD τ).loc b))

/-! ## Point by point -/

/-- After a first tile the accumulator is one step from zero. -/
theorem scratch_first0 (c : Dev nD) (t : Fin cfg0.N) (h : t.val % 5 = 0) :
    (outsAt0 V c t.val t.isLt).2 = step0 (iblk0 V c 0 t) (iblk0 V c 1 t) (iblk0 V c 2 t) (iblk0 V c 3 t) (iblk0 V c 4 t) (iblk0 V c 5 t) k0_pay2 := by
  have h1 : ¬t.val % 5 = 4 := by omega
  rw [outsAt0_A V c t h h1]
  dsimp only
  exact sout0_A_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h) (fun h' => h1 ((hcond0_1 t).mp h')) (iblk0 V c 0 t) (iblk0 V c 1 t) (iblk0 V c 2 t) (iblk0 V c 3 t) (iblk0 V c 4 t) (iblk0 V c 5 t)

/-- After any other tile it is one step from what the point before left. -/
theorem scratch_later0 (c : Dev nD) (t : Fin cfg0.N) (h : ¬t.val % 5 = 0) :
    (outsAt0 V c t.val t.isLt).2 = step0 (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2 := by
  by_cases h1 : t.val % 5 = 4
  · rw [outsAt0_C V c t h h1]
    dsimp only
    exact sout0_C_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h' => h ((hcond0_0 t).mp h')) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2
  · rw [outsAt0_B V c t h h1]
    dsimp only
    exact sout0_B_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h' => h ((hcond0_0 t).mp h')) (fun h' => h1 ((hcond0_1 t).mp h')) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2

/-- After a last tile the output block's buffer holds the accumulator. -/
theorem out_last0 (c : Dev nD) (t : Fin cfg0.N) (h : t.val % 5 = 4) :
    (outsAt0 V c t.val t.isLt).1 = (outsAt0 V c t.val t.isLt).2 := by
  have h0 : ¬t.val % 5 = 0 := by omega
  rw [outsAt0_C V c t h0 h]
  dsimp only
  exact (out0_C_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h' => h0 ((hcond0_0 t).mp h')) ((hcond0_1 t).mpr h) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2).trans
    (sout0_C_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h' => h0 ((hcond0_0 t).mp h')) ((hcond0_1 t).mpr h) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2).symm

end

end Cert.KernelIdeal.GenR

end
-- ==== Proof.PayLib.lean ====
/-
  Small facts used to read the three kernel bodies' arithmetic at an index: a block as rows, a column of a
  block, a column broadcast along rows, the contraction over the class weights of a product with a
  transposed right operand, and the sum over a [1, K, T] array as a double sum.
-/
import Idealize.ShloMosaic.Lib.ValueLayout
import Idealize.ShloMosaic.PureOps.Ideal.Laws
import proofs.«120005_j50079318672069_1_alg».proof.Proof.Spec

noncomputable section

namespace Cert.Pay

open Idealize.ShloMosaic Idealize.ShloMosaic.ValueIdx

/-- A block [1, K, 2] as K rows of two entries. -/
def rows2 {K : ℕ} (v : (⟨3, ![1, K, 2]⟩ : Shape).Idx → EReal) : Fin K → Fin 2 → EReal :=
  fun i d => v (ix3 (0 : Fin 1) i d)

/-- A block [1, K, 80] as K rows of eighty entries. -/
def rows80 {K : ℕ} (v : (⟨3, ![1, K, 80]⟩ : Shape).Idx → EReal) : Fin K → Fin 80 → EReal :=
  fun i c => v (ix3 (0 : Fin 1) i c)

/-- The logarithm and the exponential of an array are taken entry by entry. -/
theorem log_apply {s : Shape} {φ : FTy} (x : FVec Ideal s φ) (i : s.Idx) : log x i = Ideal.log (x i) := rfl
theorem exp_apply {s : Shape} {φ : FTy} (x : FVec Ideal s φ) (i : s.Idx) : exp x i = Ideal.exp (x i) := rfl

variable {α : Type}

/-- The first column of a block [1, K, 2], cut from the block seen as [K, 2], reads row i's first entry. -/
theorem col0_apply {K : ℕ} (v : (⟨3, ![1, K, 2]⟩ : Shape).Idx → α)
    (h1 : (⟨3, ![1, K, 2]⟩ : Shape).ShapeCasts ⟨2, ![K, 2]⟩)
    (h2 : (⟨2, ![K, 2]⟩ : Shape).Slices ![0, 0] ⟨2, ![K, 1]⟩) (i : Fin K) (u : Fin 1) :
    extractStridedSlice ⟨2, ![K, 1]⟩ ![0, 0] (shapeCast ⟨2, ![K, 2]⟩ v h1) h2 (ix2 i u) = v (ix3 (0 : Fin 1) i (0 : Fin 2)) := by
  rw [slice2_axis1_apply 0 _ h2 i u (0 : Fin 2) (by have := u.isLt; show 0 = 0 + u.val; omega), shapeCast_1ab_ab_apply]

/-- The second column likewise reads row i's second entry. -/
theorem col1_apply {K : ℕ} (v : (⟨3, ![1, K, 2]⟩ : Shape).Idx → α)
    (h1 : (⟨3, ![1, K, 2]⟩ : Shape).ShapeCasts ⟨2, ![K, 2]⟩)
    (h2 : (⟨2, ![K, 2]⟩ : Shape).Slices ![0, 1] ⟨2, ![K, 1]⟩) (i : Fin K) (u : Fin 1) :
    extractStridedSlice ⟨2, ![K, 1]⟩ ![0, 1] (shapeCast ⟨2, ![K, 2]⟩ v h1) h2 (ix2 i u) = v (ix3 (0 : Fin 1) i (1 : Fin 2)) := by
  rw [slice2_axis1_apply 1 _ h2 i u (1 : Fin 2) (by have := u.isLt; show 1 = 1 + u.val; omega), shapeCast_1ab_ab_apply]

/-- A column [a, 1] broadcast to [a, b] reads, at (p, c), the column's entry p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index set of a [1, a, b] array is the product of its last two coordinate ranges … -/
def idxEquiv3u {a b : ℕ} : (⟨3, ![1, a, b]⟩ : Shape).Idx ≃ Fin a × Fin b where
  toFun i := (i 1, i 2)
  invFun p := ix3 (0 : Fin 1) p.1 p.2
  left_inv i := by
    funext d
    match d with
    | ⟨0, _⟩ => exact Subsingleton.elim (α := Fin 1) _ _
    | ⟨1, _⟩ => rfl
    | ⟨2, _⟩ => rfl
  right_inv _ := rfl

/-- … so a sum over it is the double sum over them. -/
theorem sum_idx3u {M : Type*} [AddCommMonoid M] {a b : ℕ} (f : (⟨3, ![1, a, b]⟩ : Shape).Idx → M) :
    ∑ i, f i = ∑ p : Fin a, ∑ q : Fin b, f (ix3 (0 : Fin 1) p q) := by
  rw [← Equiv.sum_comp (idxEquiv3u (a := a) (b := b)).symm f, Fintype.sum_prod_type]
  rfl

/-- A product with the right operand contracted on its last axis, accumulated into the zero array, reads at (p, q)
    the inner product of row p of the left operand with row q of the right. -/
theorem matmul_transposedRhs_apply {M K N : ℕ} {φ₁ φ₂ : FTy} (prec : Option ContractPrecision)
    (l : FVec Ideal ⟨2, ![M, K]⟩ φ₁) (r : FVec Ideal ⟨2, ![N, K]⟩ φ₂) (p : Fin M) (q : Fin N) :
    FloatOps.matmul (DotDims.transposedRhs M K N) prec l r (constant (F := Ideal) ⟨2, ![M, N]⟩ .f32 0x00000000#32) (ix2 p q)
      = ∑ k : Fin K, l (ix2 p k) * r (ix2 q k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have l0 : ∀ kk, ((DotDims.transposedRhs M K N).lhsIdx (ix2 p q) kk 0).val = p.val := fun kk => by
    unfold DotDims.lhsIdx
    rw [dif_neg (show ¬(0 : Fin 2) ∈ (DotDims.transposedRhs M K N).lhsBatch from List.not_mem_nil),
      dif_pos (show (0 : Fin 2) ∈ (DotDims.transposedRhs M K N).lhsNonContracting from List.mem_singleton.mpr rfl)]
    rfl
  have r0 : ∀ kk, ((DotDims.transposedRhs M K N).rhsIdx (ix2 p q) kk 0).val = q.val := fun kk => by
    unfold DotDims.rhsIdx
    rw [dif_neg (show ¬(0 : Fin 2) ∈ (DotDims.transposedRhs M K N).rhsBatch from List.not_mem_nil),
      dif_pos (show (0 : Fin 2) ∈ (DotDims.transposedRhs M K N).rhsNonContracting from List.mem_singleton.mpr rfl)]
    rfl
  have el : (DotDims.transposedRhs M K N).lhsIdx (ix2 p q) ((contrEquiv1 (DotDims.transposedRhs M K N) K rfl rfl).symm k) = ix2 p k :=
    funext fun a => Fin.ext (by
      match a with
      | ⟨0, _⟩ => exact l0 _
      | ⟨1, _⟩ => exact ((DotDims.transposedRhs M K N).lhsIdx_val_of_single rfl _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact r0 _
      | ⟨1, _⟩ => exact ((DotDims.transposedRhs M K N).rhsIdx_val_of_single rfl _ _).trans hk)
  rw [el, er]

/-- The sum of a [1, a, b] array over its last two axes into [1], read at [1, 1, 1]'s index after the cast and
    the extraction, is the double sum of the [a, b] array it was cast from. -/
theorem total_apply {a b : ℕ} (x : FVec Ideal ⟨2, ![a, b]⟩ .f32)
    (hc : (⟨2, ![a, b]⟩ : Shape).ShapeCasts ⟨3, ![1, a, b]⟩)
    (hr : (⟨3, ![1, a, b]⟩ : Shape).Reduces [1, 2] ⟨1, ![1]⟩) (hφ : FKind.Formats .f32)
    (hacc : (0x00000000#32 : BitVec 32) = 0x00000000#32)
    (hc' : (⟨1, ![1]⟩ : Shape).ShapeCasts ⟨3, ![1, 1, 1]⟩)
    (hp : ∀ a, (![0, 0, 0] : Fin 3 → Nat) a < (⟨3, ![1, 1, 1]⟩ : Shape).size a) :
    extractAt ![0, 0, 0] (shapeCast ⟨3, ![1, 1, 1]⟩
        (multiReduction (F := Ideal) .add [1, 2] ⟨1, ![1]⟩ (shapeCast ⟨3, ![1, a, b]⟩ x hc) 0x00000000#32 hr hφ hacc) hc') hp
      = ∑ p : Fin a, ∑ q : Fin b, x (ix2 p q) := by
  unfold extractAt shapeCast
  refine (Ideal.multiReduction_add_total _ 0x00000000#32 hr (fun b => by
    match b with
    | ⟨0, _⟩ => rfl) hφ hacc _).trans ?_
  rw [sum_idx3u]
  refine Finset.sum_congr rfl fun p _ => Finset.sum_congr rfl fun q _ => ?_
  exact shapeCast_ab_1ab_apply x hc 0 p q

end Cert.Pay
end
-- ==== Proof.Pay0.lean ====
/-
  Kernel 0's body read at an index: 1000 boxes of the first set against a tile of 200 boxes of the second.
  With the six blocks as rows (centres, variances and class weights of each set) the value the body stores is the
  accumulator plus the sum, over the 1000 × 200 pairs, of the pair's weight times the exponential of the pair's
  exponent: each column of a centre or variance block is a row's entry, a column broadcast along the tile and a
  transposed column broadcast along the first set put the two boxes of a pair side by side, the product of the two
  class-weight blocks is the inner product of the pair's rows, and the sum over the whole tile is the double sum.
-/
import proofs.«120005_j50079318672069_1_alg».proof.Proof.Gen.KernelIdeal.Skeleton
import proofs.«120005_j50079318672069_1_alg».proof.Proof.PayLib

noncomputable section

namespace Cert.Pay

open Idealize.ShloMosaic Idealize.ShloMosaic.ValueIdx Cert.KernelIdeal Cert.KernelIdeal.Gen

/-- The value kernel 0's body stores into its accumulator, as a function of the six blocks and the accumulator. -/
abbrev step0 (v3 v5 : Vec Ideal S1x1000x2 .f32) (v7 : Vec Ideal S1x1000x80 .f32) (v9 v11 : Vec Ideal S1x200x2 .f32)
    (v13 : Vec Ideal S1x200x80 .f32) (v99 : Vec Ideal S1x1x1 .f32) : FVec Ideal S1x1x1 .f32 :=
  k0_pay1 (k0_pay5 v7) (k0_pay8 v13)
    (k0_pay23 (k0_pay9 v3) (k0_pay10 v3) (k0_pay11 v5) (k0_pay12 v5) (k0_pay13 v9) (k0_pay14 v9) (k0_pay15 v11) (k0_pay16 v11)
      (k0_pay17 v5) (k0_pay18 v5) (k0_pay19 v11) (k0_pay20 v11) (k0_pay21 v11) (k0_pay22 v11))
    k0_pay24 v99

namespace K0

section Columns
variable (v3 v5 : Vec Ideal S1x1000x2 .f32) (v9 v11 : Vec Ideal S1x200x2 .f32) (i : Fin 1000) (jj : Fin 200) (u : Fin 1)

/-! The columns of the centre and variance blocks: entry 0 or 1 of a row. -/

theorem pay9_apply : k0_pay9 (F := Ideal) v3 (ix2 i u) = rows2 v3 i 0 := by
  unfold k0_pay9 k0_pay3; exact col0_apply v3 _ _ i u
theorem pay10_apply : k0_pay10 (F := Ideal) v3 (ix2 i u) = rows2 v3 i 1 := by
  unfold k0_pay10 k0_pay3; exact col1_apply v3 _ _ i u
theorem pay11_apply : k0_pay11 (F := Ideal) v5 (ix2 i u) = rows2 v5 i 0 := by
  unfold k0_pay11 k0_pay4; exact col0_apply v5 _ _ i u
theorem pay12_apply : k0_pay12 (F := Ideal) v5 (ix2 i u) = rows2 v5 i 1 := by
  unfold k0_pay12 k0_pay4; exact col1_apply v5 _ _ i u
theorem pay13_apply : k0_pay13 (F := Ideal) v9 (ix2 jj u) = rows2 v9 jj 0 := by
  unfold k0_pay13 k0_pay6; exact col0_apply v9 _ _ jj u
theorem pay14_apply : k0_pay14 (F := Ideal) v9 (ix2 jj u) = rows2 v9 jj 1 := by
  unfold k0_pay14 k0_pay6; exact col1_apply v9 _ _ jj u
theorem pay15_apply : k0_pay15 (F := Ideal) v11 (ix2 jj u) = rows2 v11 jj 0 := by
  unfold k0_pay15 k0_pay7; exact col0_apply v11 _ _ jj u
theorem pay16_apply : k0_pay16 (F := Ideal) v11 (ix2 jj u) = rows2 v11 jj 1 := by
  unfold k0_pay16 k0_pay7; exact col1_apply v11 _ _ jj u

/-! The inverse variances, as columns and (for the second set) as rows. -/

theorem pay17_apply : k0_pay17 (F := Ideal) v5 (ix2 i u) = Ideal.div Cert.CS.one32 (rows2 v5 i 0) := by
  unfold k0_pay17; exact congrArg (Ideal.div Cert.CS.one32) (pay11_apply v5 i u)
theorem pay18_apply : k0_pay18 (F := Ideal) v5 (ix2 i u) = Ideal.div Cert.CS.one32 (rows2 v5 i 1) := by
  unfold k0_pay18; exact congrArg (Ideal.div Cert.CS.one32) (pay12_apply v5 i u)
theorem pay19_apply : k0_pay19 (F := Ideal) v11 (ix2 jj u) = Ideal.div Cert.CS.one32 (rows2 v11 jj 0) := by
  unfold k0_pay19; exact congrArg (Ideal.div Cert.CS.one32) (pay15_apply v11 jj u)
theorem pay20_apply : k0_pay20 (F := Ideal) v11 (ix2 jj u) = Ideal.div Cert.CS.one32 (rows2 v11 jj 1) := by
  unfold k0_pay20; exact congrArg (Ideal.div Cert.CS.one32) (pay16_apply v11 jj u)
theorem pay21_apply : k0_pay21 (F := Ideal) v11 (ix2 u jj) = Ideal.div Cert.CS.one32 (rows2 v11 jj 0) := by
  unfold k0_pay21; exact (transpose_ix2_apply _ _ u jj).trans (pay19_apply v11 jj u)
theorem pay22_apply : k0_pay22 (F := Ideal) v11 (ix2 u jj) = Ideal.div Cert.CS.one32 (rows2 v11 jj 1) := by
  unfold k0_pay22; exact (transpose_ix2_apply _ _ u jj).trans (pay20_apply v11 jj u)

/-- Half the bracket of the pair (i, jj), as the body computes it on the whole tile, is the pair's exponent:
    every operation of the bracket is elementwise once the columns are broadcast, and the exponent is the same
    expression of the two boxes' entries. -/
theorem delta_apply :
    mulf (k0_pay24 (F := Ideal))
        (k0_pay23 (k0_pay9 v3) (k0_pay10 v3) (k0_pay11 v5) (k0_pay12 v5) (k0_pay13 v9) (k0_pay14 v9) (k0_pay15 v11) (k0_pay16 v11)
          (k0_pay17 v5) (k0_pay18 v5) (k0_pay19 v11) (k0_pay20 v11) (k0_pay21 v11) (k0_pay22 v11)) (ix2 i jj)
      = Cert.CS.deltaK (rows2 v3 i 0) (rows2 v3 i 1) (rows2 v5 i 0) (rows2 v5 i 1)
          (rows2 v9 jj 0) (rows2 v9 jj 1) (rows2 v11 jj 0) (rows2 v11 jj 1) := by
  unfold k0_pay23 k0_pay24 Cert.CS.deltaK
  simp only [mulf_apply, addf_apply, subf_apply, divf_apply, log_apply, broadcast_apply,
    broadcastTo_a1_ab_apply, broadcastTo_1b_ab_apply]
  rw [transpose_ix2_apply, transpose_ix2_apply, transpose_ix2_apply, transpose_ix2_apply]
  simp only [mulf_apply, addf_apply, log_apply,
    pay9_apply, pay10_apply, pay11_apply, pay12_apply, pay13_apply, pay14_apply, pay15_apply, pay16_apply,
    pay17_apply, pay18_apply, pay19_apply, pay20_apply, pay21_apply, pay22_apply]
  rfl

end Columns

section Weights
variable (v7 : Vec Ideal S1x1000x80 .f32) (v13 : Vec Ideal S1x200x80 .f32) (i : Fin 1000) (jj : Fin 200) (c : Fin 80)

theorem pay5_apply : k0_pay5 (F := Ideal) v7 (ix2 i c) = rows80 v7 i c := by
  unfold k0_pay5; exact shapeCast_1ab_ab_apply v7 _ i c
theorem pay8_apply : k0_pay8 (F := Ideal) v13 (ix2 jj c) = rows80 v13 jj c := by
  unfold k0_pay8; exact shapeCast_1ab_ab_apply v13 _ jj c

/-- The product of the two blocks of class weights, at (i, jj), is the pair's weight. -/
theorem weight_apply :
    matmul dot_S1000x80_S200x80_S1000x200_1_1_0_0_n_n none (k0_pay5 (F := Ideal) v7) (k0_pay8 (F := Ideal) v13)
        (constant (F := Ideal) S1000x200 .f32 0x00000000#32) (ix2 i jj)
      = Cert.CS.wt (rows80 v7) (rows80 v13) i jj := by
  have e : dot_S1000x80_S200x80_S1000x200_1_1_0_0_n_n = DotDims.transposedRhs 1000 80 200 := rfl
  rw [e]
  refine (matmul_transposedRhs_apply none _ _ i jj).trans ?_
  unfold Cert.CS.wt
  exact Finset.sum_congr rfl fun c _ => by rw [pay5_apply, pay8_apply]

end Weights

end K0

/-- The value the body writes into its accumulator at the first tile of an image. -/
theorem zero0_apply (y : S1x1x1.Idx) : k0_pay2 (F := Ideal) y = Cert.CS.zero32 := by
  unfold k0_pay2; rw [shapeCast_self]; rfl

/-- One step of the body: the accumulator plus the tile's sum of the pairs' terms. -/
theorem step0_apply (v3 v5 : Vec Ideal S1x1000x2 .f32) (v7 : Vec Ideal S1x1000x80 .f32) (v9 v11 : Vec Ideal S1x200x2 .f32)
    (v13 : Vec Ideal S1x200x80 .f32) (v99 : Vec Ideal S1x1x1 .f32) (y : S1x1x1.Idx) :
    step0 v3 v5 v7 v9 v11 v13 v99 y
      = v99 y + (Cert.CS.zero32 + ∑ i : Fin 1000, ∑ jj : Fin 200,
          Cert.CS.term (rows2 v3) (rows2 v5) (rows80 v7) (rows2 v9) (rows2 v11) (rows80 v13) i jj) := by
  unfold step0 k0_pay1
  simp only [shapeCast_self, addf_apply, broadcast_apply]
  rw [total_apply, Cert.CS.zero32_eq, zero_add]
  refine congrArg (v99 y + ·) (Finset.sum_congr rfl fun i _ => Finset.sum_congr rfl fun jj _ => ?_)
  rw [mulf_apply, exp_apply, K0.weight_apply, K0.delta_apply]
  rfl

end Cert.Pay

end
-- ==== Proof.Sums.lean ====
/-
  Two re-indexings of a finite sum over the extended reals: a sum over `Fin (T * B)` as a sum over `T` tiles of
  `B` consecutive indices each, and a sum over two indices spelt out. The extended reals are an additive commutative
  monoid, so these are the general facts about finite sums, read at the sizes the computation uses.
-/
import Mathlib.Algebra.BigOperators.Fin
import Mathlib.Data.Fintype.BigOperators
import Mathlib.Logic.Equiv.Fin.Basic
import Mathlib.Data.EReal.Basic

namespace Cert.Sums

/-- Index `jj` of tile `t`, of `T` tiles of `B` indices each, is an index below `T * B`. -/
theorem tile_lt {T B : ℕ} (t : Fin T) (jj : Fin B) : B * t.val + jj.val < T * B :=
  calc B * t.val + jj.val < B * t.val + B := Nat.add_lt_add_left jj.isLt _
    _ = B * (t.val + 1) := (Nat.mul_succ B t.val).symm
    _ ≤ B * T := Nat.mul_le_mul_left B t.isLt
    _ = T * B := Nat.mul_comm B T

/-- A sum over `Fin (T * B)` is the sum over the `T` tiles of the sums over each tile's `B` consecutive indices:
    the index `B * t + jj` runs through every index exactly once as `(t, jj)` runs through the pairs. -/
theorem sum_tiles {M : Type*} [AddCommMonoid M] (T B : ℕ) (f : Fin (T * B) → M) :
    ∑ j : Fin (T * B), f j = ∑ t : Fin T, ∑ jj : Fin B, f ⟨B * t.val + jj.val, tile_lt t jj⟩ := by
  rw [← (finProdFinEquiv (m := T) (n := B)).sum_comp, Fintype.sum_prod_type]
  refine Finset.sum_congr rfl fun t _ => Finset.sum_congr rfl fun jj _ => congrArg f (Fin.ext ?_)
  show jj.val + B * t.val = B * t.val + jj.val
  exact Nat.add_comm _ _

/-- A sum over a thousand indices as five tiles of two hundred. -/
theorem sum_tiles5 (f : Fin 1000 → EReal) :
    ∑ j : Fin 1000, f j = ∑ t : Fin 5, ∑ jj : Fin 200, f ⟨200 * t.val + jj.val, by omega⟩ :=
  sum_tiles 5 200 f

/-- A sum over a hundred indices as one tile of a hundred. -/
theorem sum_tiles1 (f : Fin 100 → EReal) :
    ∑ j : Fin 100, f j = ∑ t : Fin 1, ∑ jj : Fin 100, f ⟨100 * t.val + jj.val, by omega⟩ :=
  sum_tiles 1 100 f

/-- A sum over two indices is the sum of its two terms. -/
theorem sum_two (f : Fin 2 → EReal) : ∑ d : Fin 2, f d = f 0 + f 1 :=
  Fin.sum_univ_two f

end Cert.Sums
-- ==== Proof.KVal0.lean ====
/-
  The first kernel region's output array is the predicted × predicted pair sums.

  The region runs five grid points per image, one per tile of 200 boxes of the second set: point `5·b + s` reads the
  first set's blocks of image `b` and tile `s` of the second set's, and adds to the accumulator (reset at the image's
  first tile) the sum of the terms of the pairs (box of the first set, box of the tile). After the image's last tile
  the accumulator holds the five tiles' sums, which is the sum over all pairs; it is copied to the output block and
  written back to entry `b` of the output array.
-/
import proofs.«120005_j50079318672069_1_alg».proof.Proof.Reg0.Values
import proofs.«120005_j50079318672069_1_alg».proof.Proof.Pay0
import proofs.«120005_j50079318672069_1_alg».proof.Proof.Sums
import Idealize.ShloMosaic.Lib.Pipeline.Value
import Idealize.ShloMosaic.Lib.ValueIdx

noncomputable section

namespace Cert.KVal

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.GenR Cert.CS Cert.Pay

variable (V : (c : Dev nD) → (b : Ref sig .tc) → Buf (Elt Ideal) ((c : Thread nD τ).loc b))

/-! ## The windows' block indices at point `t`: image `t / 5`, and for the second set tile `t % 5` -/

theorem idx0_0 : ∀ t : Fin cfg0.N, win0_0.index t 0 = t.val / 5 ∧ win0_0.index t 1 = 0 ∧ win0_0.index t 2 = 0 :=
  (by decide +kernel : ∀ t : Fin grid0.N, win0_0.index t 0 = t.val / 5 ∧ win0_0.index t 1 = 0 ∧ win0_0.index t 2 = 0)
theorem idx0_1 : ∀ t : Fin cfg0.N, win0_1.index t 0 = t.val / 5 ∧ win0_1.index t 1 = 0 ∧ win0_1.index t 2 = 0 :=
  (by decide +kernel : ∀ t : Fin grid0.N, win0_1.index t 0 = t.val / 5 ∧ win0_1.index t 1 = 0 ∧ win0_1.index t 2 = 0)
theorem idx0_2 : ∀ t : Fin cfg0.N, win0_2.index t 0 = t.val / 5 ∧ win0_2.index t 1 = 0 ∧ win0_2.index t 2 = 0 :=
  (by decide +kernel : ∀ t : Fin grid0.N, win0_2.index t 0 = t.val / 5 ∧ win0_2.index t 1 = 0 ∧ win0_2.index t 2 = 0)
theorem idx0_3 : ∀ t : Fin cfg0.N, win0_3.index t 0 = t.val / 5 ∧ win0_3.index t 1 = t.val % 5 ∧ win0_3.index t 2 = 0 :=
  (by decide +kernel : ∀ t : Fin grid0.N, win0_3.index t 0 = t.val / 5 ∧ win0_3.index t 1 = t.val % 5 ∧ win0_3.index t 2 = 0)
theorem idx0_4 : ∀ t : Fin cfg0.N, win0_4.index t 0 = t.val / 5 ∧ win0_4.index t 1 = t.val % 5 ∧ win0_4.index t 2 = 0 :=
  (by decide +kernel : ∀ t : Fin grid0.N, win0_4.index t 0 = t.val / 5 ∧ win0_4.index t 1 = t.val % 5 ∧ win0_4.index t 2 = 0)
theorem idx0_5 : ∀ t : Fin cfg0.N, win0_5.index t 0 = t.val / 5 ∧ win0_5.index t 1 = t.val % 5 ∧ win0_5.index t 2 = 0 :=
  (by decide +kernel : ∀ t : Fin grid0.N, win0_5.index t 0 = t.val / 5 ∧ win0_5.index t 1 = t.val % 5 ∧ win0_5.index t 2 = 0)
theorem idx0_6 : ∀ t : Fin cfg0.N, win0_6.index t 0 = t.val / 5 ∧ win0_6.index t 1 = 0 ∧ win0_6.index t 2 = 0 :=
  (by decide +kernel : ∀ t : Fin grid0.N, win0_6.index t 0 = t.val / 5 ∧ win0_6.index t 1 = 0 ∧ win0_6.index t 2 = 0)

/-! ## The six input blocks as rows of their arrays -/

section Blocks
variable (c : Dev nD) (t : Fin cfg0.N) (b : Fin 32) (s : Fin 5) (hb : t.val = 5 * b.val + s.val)
include hb

/-- The first set's centres: rows `(b, i, ·)` of the array. -/
theorem rows0_0 : rows2 (iblk0 V c 0 t) = fun i d => (V c main_v24 : S32x1000x2.Idx → EReal) (ix3 b i d) := by
  have hi := idx0_0 t
  have hs := s.isLt
  funext i d
  unfold rows2 iblk0
  rw [View.read_apply]
  show V c main_v24 _ = V c main_v24 _
  congr 1
  funext a
  apply Fin.ext
  match a with
  | ⟨0, _⟩ => show win0_0.index t 0 * 1 + 1 * (0 : ℕ) = b.val; rw [hi.1]; omega
  | ⟨1, _⟩ => show win0_0.index t 1 * 1000 + 1 * i.val = i.val; rw [hi.2.1]; omega
  | ⟨2, _⟩ => show win0_0.index t 2 * 2 + 1 * d.val = d.val; rw [hi.2.2]; omega

/-- The first set's variances: rows `(b, i, ·)` of the array. -/
theorem rows0_1 : rows2 (iblk0 V c 1 t) = fun i d => (V c main_v28 : S32x1000x2.Idx → EReal) (ix3 b i d) := by
  have hi := idx0_1 t
  have hs := s.isLt
  funext i d
  unfold rows2 iblk0
  rw [View.read_apply]
  show V c main_v28 _ = V c main_v28 _
  congr 1
  funext a
  apply Fin.ext
  match a with
  | ⟨0, _⟩ => show win0_1.index t 0 * 1 + 1 * (0 : ℕ) = b.val; rw [hi.1]; omega
  | ⟨1, _⟩ => show win0_1.index t 1 * 1000 + 1 * i.val = i.val; rw [hi.2.1]; omega
  | ⟨2, _⟩ => show win0_1.index t 2 * 2 + 1 * d.val = d.val; rw [hi.2.2]; omega

/-- The first set's class weights: rows `(b, i, ·)` of the array. -/
theorem rows0_2 : rows80 (iblk0 V c 2 t) = fun i k => (V c main_v22 : S32x1000x80.Idx → EReal) (ix3 b i k) := by
  have hi := idx0_2 t
  have hs := s.isLt
  funext i k
  unfold rows80 iblk0
  rw [View.read_apply]
  show V c main_v22 _ = V c main_v22 _
  congr 1
  funext a
  apply Fin.ext
  match a with
  | ⟨0, _⟩ => show win0_2.index t 0 * 1 + 1 * (0 : ℕ) = b.val; rw [hi.1]; omega
  | ⟨1, _⟩ => show win0_2.index t 1 * 1000 + 1 * i.val = i.val; rw [hi.2.1]; omega
  | ⟨2, _⟩ => show win0_2.index t 2 * 80 + 1 * k.val = k.val; rw [hi.2.2]; omega

/-- The second set's tile of centres: rows `(b, 200·s + jj, ·)` of the array. -/
theorem rows0_3 : rows2 (iblk0 V c 3 t)
    = fun (jj : Fin 200) d => (V c main_v24 : S32x1000x2.Idx → EReal) (ix3 b (⟨200 * s.val + jj.val, by omega⟩ : Fin 1000) d) := by
  have hi := idx0_3 t
  have hs := s.isLt
  funext jj d
  unfold rows2 iblk0
  rw [View.read_apply]
  show V c main_v24 _ = V c main_v24 _
  congr 1
  funext a
  apply Fin.ext
  match a with
  | ⟨0, _⟩ => show win0_3.index t 0 * 1 + 1 * (0 : ℕ) = b.val; rw [hi.1]; omega
  | ⟨1, _⟩ => show win0_3.index t 1 * 200 + 1 * jj.val = 200 * s.val + jj.val; rw [hi.2.1]; omega
  | ⟨2, _⟩ => show win0_3.index t 2 * 2 + 1 * d.val = d.val; rw [hi.2.2]; omega

/-- The second set's tile of variances: rows `(b, 200·s + jj, ·)` of the array. -/
theorem rows0_4 : rows2 (iblk0 V c 4 t)
    = fun (jj : Fin 200) d => (V c main_v28 : S32x1000x2.Idx → EReal) (ix3 b (⟨200 * s.val + jj.val, by omega⟩ : Fin 1000) d) := by
  have hi := idx0_4 t
  have hs := s.isLt
  funext jj d
  unfold rows2 iblk0
  rw [View.read_apply]
  show V c main_v28 _ = V c main_v28 _
  congr 1
  funext a
  apply Fin.ext
  match a with
  | ⟨0, _⟩ => show win0_4.index t 0 * 1 + 1 * (0 : ℕ) = b.val; rw [hi.1]; omega
  | ⟨1, _⟩ => show win0_4.index t 1 * 200 + 1 * jj.val = 200 * s.val + jj.val; rw [hi.2.1]; omega
  | ⟨2, _⟩ => show win0_4.index t 2 * 2 + 1 * d.val = d.val; rw [hi.2.2]; omega

/-- The second set's tile of class weights: rows `(b, 200·s + jj, ·)` of the array. -/
theorem rows0_5 : rows80 (iblk0 V c 5 t)
    = fun (jj : Fin 200) k => (V c main_v22 : S32x1000x80.Idx → EReal) (ix3 b (⟨200 * s.val + jj.val, by omega⟩ : Fin 1000) k) := by
  have hi := idx0_5 t
  have hs := s.isLt
  funext jj k
  unfold rows80 iblk0
  rw [View.read_apply]
  show V c main_v22 _ = V c main_v22 _
  congr 1
  funext a
  apply Fin.ext
  match a with
  | ⟨0, _⟩ => show win0_5.index t 0 * 1 + 1 * (0 : ℕ) = b.val; rw [hi.1]; omega
  | ⟨1, _⟩ => show win0_5.index t 1 * 200 + 1 * jj.val = 200 * s.val + jj.val; rw [hi.2.1]; omega
  | ⟨2, _⟩ => show win0_5.index t 2 * 80 + 1 * k.val = k.val; rw [hi.2.2]; omega

end Blocks

/-! ## The tiles' sums and the accumulator -/

/-- The pair sum of image `b` over the arrays the region reads. -/
def ps0 (c : Dev nD) (b : Fin 32) : EReal :=
  pairSum (fun i d => (V c main_v24 : S32x1000x2.Idx → EReal) (ix3 b i d))
    (fun i d => (V c main_v28 : S32x1000x2.Idx → EReal) (ix3 b i d))
    (fun i k => (V c main_v22 : S32x1000x80.Idx → EReal) (ix3 b i k))
    (fun i d => (V c main_v24 : S32x1000x2.Idx → EReal) (ix3 b i d))
    (fun i d => (V c main_v28 : S32x1000x2.Idx → EReal) (ix3 b i d))
    (fun i k => (V c main_v22 : S32x1000x80.Idx → EReal) (ix3 b i k))

/-- The sum of the terms of the pairs (box of the first set, box of tile `s` of the second set) of image `b`. -/
def tile0 (c : Dev nD) (b : Fin 32) (s : Fin 5) : EReal :=
  ∑ i : Fin 1000, ∑ jj : Fin 200, term (fun i d => (V c main_v24 : S32x1000x2.Idx → EReal) (ix3 b i d))
    (fun i d => (V c main_v28 : S32x1000x2.Idx → EReal) (ix3 b i d))
    (fun i k => (V c main_v22 : S32x1000x80.Idx → EReal) (ix3 b i k))
    (fun i d => (V c main_v24 : S32x1000x2.Idx → EReal) (ix3 b i d))
    (fun i d => (V c main_v28 : S32x1000x2.Idx → EReal) (ix3 b i d))
    (fun i k => (V c main_v22 : S32x1000x80.Idx → EReal) (ix3 b i k)) i (⟨200 * s.val + jj.val, by omega⟩ : Fin 1000)

/-- The same for a tile named by a natural number: zero from five on. -/
def tileN0 (c : Dev nD) (b : Fin 32) (s : ℕ) : EReal := if h : s < 5 then tile0 V c b ⟨s, h⟩ else 0

/-- The sum a step adds at point `5·b + s` is tile `s`'s sum. -/
theorem tile0_at (c : Dev nD) (t : Fin cfg0.N) (b : Fin 32) (s : Fin 5) (hb : t.val = 5 * b.val + s.val) :
    (∑ i : Fin 1000, ∑ jj : Fin 200, term (rows2 (iblk0 V c 0 t)) (rows2 (iblk0 V c 1 t)) (rows80 (iblk0 V c 2 t))
        (rows2 (iblk0 V c 3 t)) (rows2 (iblk0 V c 4 t)) (rows80 (iblk0 V c 5 t)) i jj) = tile0 V c b s := by
  rw [rows0_0 V c t b s hb, rows0_1 V c t b s hb, rows0_2 V c t b s hb, rows0_3 V c t b s hb, rows0_4 V c t b s hb,
    rows0_5 V c t b s hb]
  rfl

/-- The accumulator does not depend on how a point is named. -/
theorem acc0_congr (c : Dev nD) (u v : ℕ) (hu : u < cfg0.N) (hv : v < cfg0.N) (e : u = v) :
    (outsAt0 V c u hu).2 = (outsAt0 V c v hv).2 := by
  subst e; rfl

/-- After tile `j` of image `b` the accumulator holds the sums of the tiles `0 … j`. -/
theorem acc0 (c : Dev nD) (b : Fin 32) (y : S1x1x1.Idx) : ∀ (j : ℕ) (_ : j < 5) (h : 5 * b.val + j < cfg0.N),
    ((outsAt0 V c (5 * b.val + j) h).2 : S1x1x1.Idx → EReal) y = ∑ s ∈ Finset.range (j + 1), tileN0 V c b s
  | 0, _, h => by
    obtain ⟨t, ht⟩ : ∃ t : Fin cfg0.N, t.val = 5 * b.val + 0 := ⟨⟨_, h⟩, rfl⟩
    rw [acc0_congr V c _ t.val h t.isLt ht.symm, scratch_first0 V c t (by omega)]
    refine (Cert.Pay.step0_apply _ _ _ _ _ _ _ y).trans ?_
    rw [zero0_apply, tile0_at V c t b ⟨0, by omega⟩ ht, zero32_eq, zero_add, zero_add, Finset.sum_range_one]
    unfold tileN0
    rw [dif_pos (by omega)]
  | j + 1, hj, h => by
    obtain ⟨t, ht⟩ : ∃ t : Fin cfg0.N, t.val = 5 * b.val + (j + 1) := ⟨⟨_, h⟩, rfl⟩
    have h' : 5 * b.val + j < cfg0.N := by omega
    rw [acc0_congr V c _ t.val h t.isLt ht.symm, scratch_later0 V c t (by omega)]
    refine (Cert.Pay.step0_apply _ _ _ _ _ _ _ y).trans ?_
    rw [acc0_congr V c (t.val - 1) (5 * b.val + j) _ h' (by omega), acc0 c b y j (by omega) h',
      tile0_at V c t b ⟨j + 1, hj⟩ ht, zero32_eq, zero_add, Finset.sum_range_succ _ (j + 1)]
    unfold tileN0
    rw [dif_pos hj]

/-- The five tiles' sums are the sum over all pairs. -/
theorem tiles0_sum (c : Dev nD) (b : Fin 32) : ∑ s ∈ Finset.range 5, tileN0 V c b s = ps0 V c b := by
  rw [Finset.sum_range]
  have e : ∀ s : Fin 5, tileN0 V c b s.val = tile0 V c b s := fun s => by
    unfold tileN0; rw [dif_pos s.isLt]
  simp only [e]
  unfold tile0 ps0 pairSum
  rw [Finset.sum_comm]
  exact Finset.sum_congr rfl fun i _ => (Cert.Sums.sum_tiles5 _).symm

/-! ## The output -/

/-- What the body leaves in the output block after image `b`'s last tile: the image's pair sum. -/
theorem point0 (c : Dev nD) (t : Fin cfg0.N) (b : Fin 32) (hb : t.val = 5 * b.val + 4) (y : S1x1x1.Idx) :
    ((outsAt0 V c t.val t.isLt).1 : S1x1x1.Idx → EReal) y = ps0 V c b := by
  have h : 5 * b.val + 4 < cfg0.N := hb ▸ t.isLt
  rw [out_last0 V c t (by omega), acc0_congr V c t.val (5 * b.val + 4) t.isLt h hb, acc0 V c b y 4 (by omega) h]
  exact tiles0_sum V c b

/-- Every point that writes back writes, to its image's entry, the image's pair sum. -/
theorem flushed0 (c : Dev nD) (t : Fin cfg0.N) (hf : (cfg0.win 6).flush t = true) :
    (dat0 V c).flushed 6 t
      = ((cfg0.win 6).blk t).view.read (Elt Ideal) (fun i : S32x1x1.Idx => ps0 V c ⟨(i 0).val, (i 0).isLt⟩) := by
  have hN : cfg0.N = 160 := N_0
  have hi := idx0_6 t
  have h4 : t.val % 5 = 4 := (flush0_6 t).mp hf
  funext y
  rw [View.read_apply]
  show (cfg0.win 6).cut (cfg0.grid.coords t) ((dat0 V c).after 6 t) y = _
  rw [after0_6]
  refine (point0 V c t ⟨t.val / 5, by omega⟩ (by show t.val = 5 * (t.val / 5) + 4; omega) _).trans
    (congrArg (ps0 V c) (Fin.ext ?_))
  have hy : (y 0).val < 1 := (y 0).isLt
  show t.val / 5 = win0_6.index t 0 * 1 + 1 * (y 0).val
  rw [hi.1]; omega

/-- The region's output array ends holding, at entry `b`, the pair sum of image `b`. -/
theorem region0_value (c : Dev nD) (b : Fin 32) :
    ((dat0 V c).arrAt 6 cfg0.N : S32x1x1.Idx → EReal) (ix3 b 0 0)
      = pairSum (fun i d => (V c main_v24 : S32x1000x2.Idx → EReal) (ix3 b i d))
    (fun i d => (V c main_v28 : S32x1000x2.Idx → EReal) (ix3 b i d))
    (fun i k => (V c main_v22 : S32x1000x80.Idx → EReal) (ix3 b i k))
          (fun i d => (V c main_v24 : S32x1000x2.Idx → EReal) (ix3 b i d))
    (fun i d => (V c main_v28 : S32x1000x2.Idx → EReal) (ix3 b i d))
    (fun i k => (V c main_v22 : S32x1000x80.Idx → EReal) (ix3 b i k)) := by
  have hN : cfg0.N = 160 := N_0
  obtain ⟨t, ht⟩ : ∃ t : Fin cfg0.N, t.val = 5 * b.val + 4 := ⟨⟨5 * b.val + 4, by omega⟩, rfl⟩
  have hi := idx0_6 t
  refine ((dat0 V c).arrAt_apply_of_mem 6 _ (flushed0 V c) cfg0.N t (ix3 b 0 0) t.isLt
    ((flush0_6 t).mpr (by omega)) ?_).trans ?_
  · show (ix3 b 0 0 : S32x1x1.Idx) ∈ ((View.whole main_v34).slice (win0_6.rect t)).set
    rw [View.set_slice_whole, Rect.mem_set_unit]
    intro a
    match a with
    | ⟨0, _⟩ =>
      show win0_6.index t 0 * 1 ≤ b.val ∧ b.val < win0_6.index t 0 * 1 + 1
      rw [hi.1]; omega
    | ⟨1, _⟩ =>
      show win0_6.index t 1 * 1 ≤ 0 ∧ 0 < win0_6.index t 1 * 1 + 1
      rw [hi.2.1]; omega
    | ⟨2, _⟩ =>
      show win0_6.index t 2 * 1 ≤ 0 ∧ 0 < win0_6.index t 2 * 1 + 1
      rw [hi.2.2]; omega
  · rfl

end Cert.KVal

end
-- ==== Proof.Reg1.Values.lean ====
/-
  The values of the ground-truth × predicted pair-sum kernel's accumulator and output block, point by point.

  One step of the kernel (`step1`) takes the six input blocks and the accumulator to the accumulator plus the
  tile's pair sum (the kernel's arithmetic, as the payloads of its loads). Each case's run stores exactly that: at a
  first tile over the zero block the reset stored, elsewhere over what the point before left; and at a last tile
  the output block's buffer receives the accumulator just stored. Read off the stores the runs found: every load
  and store is through the whole-buffer rectangle at zero offsets.
-/
import proofs.«120005_j50079318672069_1_alg».proof.Proof.Reg1
import Idealize.ShloMosaic.Lib.Pipeline.Value

set_option maxRecDepth 16384

noncomputable section

namespace Cert.KernelIdeal.GenR

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3_1 : (![0, 0, 0] : Fin 3 → Nat) = fun _ => 0 := funext fun a => by fin_cases a <;> rfl

/-- One step: the accumulator `acc` plus the tile's pair sum, from the six input blocks (the first set's centres,
    variances and class weights, then the second set's tile of the same). -/
abbrev step1 (x2 : Vec F S1x100x2 .f32) (x3 : Vec F S1x100x2 .f32) (x4 : Vec F S1x100x80 .f32) (x5 : Vec F S1x200x2 .f32) (x6 : Vec F S1x200x2 .f32) (x7 : Vec F S1x200x80 .f32) (acc : Vec F S1x1x1 .f32) : FVec F S1x1x1 .f32 :=
  k1_pay1 (k1_pay5 x4) (k1_pay8 x7) (k1_pay23 (k1_pay9 x2) (k1_pay10 x2) (k1_pay11 x3) (k1_pay12 x3) (k1_pay13 x5) (k1_pay14 x5) (k1_pay15 x6) (k1_pay16 x6) (k1_pay17 x3) (k1_pay18 x3) (k1_pay19 x6) (k1_pay20 x6) (k1_pay21 x6) (k1_pay22 x6)) k1_pay24 acc

/-! ## What each case's stores leave -/

/-- At a first tile the accumulator is left at one step from the zero block: the reset's store is read back by the
    step's load. -/
theorem sout1_A_eq (c : Dev nD) (i : grid1.Coords) (arg2 : Memref sig .tc .vmem S1x100x2 .f32) (harg2 : arg2.IsWhole) (arg3 : Memref sig .tc .vmem S1x100x2 .f32) (harg3 : arg3.IsWhole) (arg4 : Memref sig .tc .vmem S1x100x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : cond1_0 i) (hc1 : ¬cond1_1 i)
    (x2 : Vec F S1x100x2 .f32) (x3 : Vec F S1x100x2 .f32) (x4 : Vec F S1x100x80 .f32) (x5 : Vec F S1x200x2 .f32) (x6 : Vec F S1x200x2 .f32) (x7 : Vec F S1x200x80 .f32) :
    sout1_A_0 c i arg2 harg2 arg3 harg3 arg4 harg4 arg5 harg5 arg6 harg6 arg7 harg7 arg8 harg8 arg9 harg9 hc0 hc1 x2 x3 x4 x5 x6 x7 = step1 x2 x3 x4 x5 x6 x7 k1_pay2 := by
  unfold sout1_A_0
  rw [View.read_writes_eq_canon _ _ _ (scover1_A_0 c i arg2 harg2 arg3 harg3 arg4 harg4 arg5 harg5 arg6 harg6 arg7 harg7 arg8 harg8 arg9 harg9 hc0 hc1 x2 x3 x4 x5 x6 x7)]
  unfold kernelRun1_A
  dsimp only
  sl_unfold_words
  rw [View.canon_cons_unit_zero (S := S1x1x1) hz3_1, View.readCov_unit_zero (S := S1x1x1) _ hz3_1]
  simp only [View.readAt_eq_ld, harg2.read_unread, harg3.read_unread, harg4.read_unread, harg5.read_unread, harg6.read_unread, harg7.read_unread, View.ld_unit_zero (S := S1x100x2) hz3_1, View.ld_unit_zero (S := S1x100x80) hz3_1, View.ld_unit_zero (S := S1x200x2) hz3_1, View.ld_unit_zero (S := S1x200x80) hz3_1, View.ld_unit_zero (S := S1x1x1) hz3_1]

/-- At a middle tile the accumulator is left at one step from what it held. -/
theorem sout1_B_eq (c : Dev nD) (i : grid1.Coords) (arg2 : Memref sig .tc .vmem S1x100x2 .f32) (harg2 : arg2.IsWhole) (arg3 : Memref sig .tc .vmem S1x100x2 .f32) (harg3 : arg3.IsWhole) (arg4 : Memref sig .tc .vmem S1x100x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : ¬cond1_1 i)
    (x2 : Vec F S1x100x2 .f32) (x3 : Vec F S1x100x2 .f32) (x4 : Vec F S1x100x80 .f32) (x5 : Vec F S1x200x2 .f32) (x6 : Vec F S1x200x2 .f32) (x7 : Vec F S1x200x80 .f32) (xs0 : Vec F S1x1x1 .f32) :
    sout1_B_0 c i arg2 harg2 arg3 harg3 arg4 harg4 arg5 harg5 arg6 harg6 arg7 harg7 arg8 harg8 arg9 harg9 hc0 hc1 x2 x3 x4 x5 x6 x7 xs0 = step1 x2 x3 x4 x5 x6 x7 xs0 := by
  unfold sout1_B_0
  rw [View.read_writes_eq_canon _ _ _ (scover1_B_0 c i arg2 harg2 arg3 harg3 arg4 harg4 arg5 harg5 arg6 harg6 arg7 harg7 arg8 harg8 arg9 harg9 hc0 hc1 x2 x3 x4 x5 x6 x7 xs0)]
  unfold kernelRun1_B
  dsimp only
  sl_unfold_words
  rw [View.canon_unit_zero (S := S1x1x1) hz3_1]
  simp only [View.readAt_eq_ld, harg2.read_unread, harg3.read_unread, harg4.read_unread, harg5.read_unread, harg6.read_unread, harg7.read_unread, harg9.read_unread, View.ld_unit_zero (S := S1x100x2) hz3_1, View.ld_unit_zero (S := S1x100x80) hz3_1, View.ld_unit_zero (S := S1x200x2) hz3_1, View.ld_unit_zero (S := S1x200x80) hz3_1, View.ld_unit_zero (S := S1x1x1) hz3_1]

/-- At a last tile likewise, -/
theorem sout1_C_eq (c : Dev nD) (i : grid1.Coords) (arg2 : Memref sig .tc .vmem S1x100x2 .f32) (harg2 : arg2.IsWhole) (arg3 : Memref sig .tc .vmem S1x100x2 .f32) (harg3 : arg3.IsWhole) (arg4 : Memref sig .tc .vmem S1x100x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : cond1_1 i)
    (x2 : Vec F S1x100x2 .f32) (x3 : Vec F S1x100x2 .f32) (x4 : Vec F S1x100x80 .f32) (x5 : Vec F S1x200x2 .f32) (x6 : Vec F S1x200x2 .f32) (x7 : Vec F S1x200x80 .f32) (xs0 : Vec F S1x1x1 .f32) :
    sout1_C_0 c i arg2 harg2 arg3 harg3 arg4 harg4 arg5 harg5 arg6 harg6 arg7 harg7 arg8 harg8 arg9 harg9 hc0 hc1 x2 x3 x4 x5 x6 x7 xs0 = step1 x2 x3 x4 x5 x6 x7 xs0 := by
  unfold sout1_C_0
  rw [View.read_writes_eq_canon _ _ _ (scover1_C_0 c i arg2 harg2 arg3 harg3 arg4 harg4 arg5 harg5 arg6 harg6 arg7 harg7 arg8 harg8 arg9 harg9 hc0 hc1 x2 x3 x4 x5 x6 x7 xs0)]
  unfold kernelRun1_C
  dsimp only
  sl_unfold_words
  rw [View.canon_unit_zero (S := S1x1x1) hz3_1]
  simp only [View.readAt_eq_ld, harg2.read_unread, harg3.read_unread, harg4.read_unread, harg5.read_unread, harg6.read_unread, harg7.read_unread, harg9.read_unread, View.ld_unit_zero (S := S1x100x2) hz3_1, View.ld_unit_zero (S := S1x100x80) hz3_1, View.ld_unit_zero (S := S1x200x2) hz3_1, View.ld_unit_zero (S := S1x200x80) hz3_1, View.ld_unit_zero (S := S1x1x1) hz3_1]

/-- and the output block's buffer receives the accumulator read back after that store. -/
theorem out1_C_eq (c : Dev nD) (i : grid1.Coords) (arg2 : Memref sig .tc .vmem S1x100x2 .f32) (harg2 : arg2.IsWhole) (arg3 : Memref sig .tc .vmem S1x100x2 .f32) (harg3 : arg3.IsWhole) (arg4 : Memref sig .tc .vmem S1x100x80 .f32) (harg4 : arg4.IsWhole) (arg5 : Memref sig .tc .vmem S1x200x2 .f32) (harg5 : arg5.IsWhole) (arg6 : Memref sig .tc .vmem S1x200x2 .f32) (harg6 : arg6.IsWhole) (arg7 : Memref sig .tc .vmem S1x200x80 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : cond1_1 i)
    (x2 : Vec F S1x100x2 .f32) (x3 : Vec F S1x100x2 .f32) (x4 : Vec F S1x100x80 .f32) (x5 : Vec F S1x200x2 .f32) (x6 : Vec F S1x200x2 .f32) (x7 : Vec F S1x200x80 .f32) (xs0 : Vec F S1x1x1 .f32) :
    out1_C_6 c i arg2 harg2 arg3 harg3 arg4 harg4 arg5 harg5 arg6 harg6 arg7 harg7 arg8 harg8 arg9 harg9 hc0 hc1 x2 x3 x4 x5 x6 x7 xs0 = step1 x2 x3 x4 x5 x6 x7 xs0 := by
  unfold out1_C_6
  rw [View.read_writes_eq_canon _ _ _ (cover1_C_6 c i arg2 harg2 arg3 harg3 arg4 harg4 arg5 harg5 arg6 harg6 arg7 harg7 arg8 harg8 arg9 harg9 hc0 hc1 x2 x3 x4 x5 x6 x7 xs0)]
  unfold kernelRun1_C
  dsimp only
  sl_unfold_words
  rw [View.canon_unit_zero (S := S1x1x1) hz3_1, View.readCov_unit_zero (S := S1x1x1) _ hz3_1]
  simp only [View.readAt_eq_ld, harg2.read_unread, harg3.read_unread, harg4.read_unread, harg5.read_unread, harg6.read_unread, harg7.read_unread, harg9.read_unread, View.ld_unit_zero (S := S1x100x2) hz3_1, View.ld_unit_zero (S := S1x100x80) hz3_1, View.ld_unit_zero (S := S1x200x2) hz3_1, View.ld_unit_zero (S := S1x200x80) hz3_1, View.ld_unit_zero (S := S1x1x1) hz3_1]

section
variable (V : (c : Dev nD) → (b : Ref sig .tc) → Buf (Elt F) ((c : Thread nD τ).loc b))

/-! ## Point by point -/

/-- After a first tile the accumulator is one step from zero. -/
theorem scratch_first1 (c : Dev nD) (t : Fin cfg1.N) (h : t.val % 5 = 0) :
    (outsAt1 V c t.val t.isLt).2 = step1 (iblk1 V c 0 t) (iblk1 V c 1 t) (iblk1 V c 2 t) (iblk1 V c 3 t) (iblk1 V c 4 t) (iblk1 V c 5 t) k1_pay2 := by
  have h1 : ¬t.val % 5 = 4 := by omega
  rw [outsAt1_A V c t h h1]
  dsimp only
  exact sout1_A_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h) (fun h' => h1 ((hcond1_1 t).mp h')) (iblk1 V c 0 t) (iblk1 V c 1 t) (iblk1 V c 2 t) (iblk1 V c 3 t) (iblk1 V c 4 t) (iblk1 V c 5 t)

/-- After any other tile it is one step from what the point before left. -/
theorem scratch_later1 (c : Dev nD) (t : Fin cfg1.N) (h : ¬t.val % 5 = 0) :
    (outsAt1 V c t.val t.isLt).2 = step1 (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2 := by
  by_cases h1 : t.val % 5 = 4
  · rw [outsAt1_C V c t h h1]
    dsimp only
    exact sout1_C_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h' => h ((hcond1_0 t).mp h')) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2
  · rw [outsAt1_B V c t h h1]
    dsimp only
    exact sout1_B_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h' => h ((hcond1_0 t).mp h')) (fun h' => h1 ((hcond1_1 t).mp h')) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2

/-- After a last tile the output block's buffer holds the accumulator. -/
theorem out_last1 (c : Dev nD) (t : Fin cfg1.N) (h : t.val % 5 = 4) :
    (outsAt1 V c t.val t.isLt).1 = (outsAt1 V c t.val t.isLt).2 := by
  have h0 : ¬t.val % 5 = 0 := by omega
  rw [outsAt1_C V c t h0 h]
  dsimp only
  exact (out1_C_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h' => h0 ((hcond1_0 t).mp h')) ((hcond1_1 t).mpr h) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2).trans
    (sout1_C_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h' => h0 ((hcond1_0 t).mp h')) ((hcond1_1 t).mpr h) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2).symm

end

end Cert.KernelIdeal.GenR

end
-- ==== Proof.Pay1.lean ====
/-
  Kernel 1's body read at an index: 100 boxes of the first set against a tile of 200 boxes of the second.
  With the six blocks as rows (centres, variances and class weights of each set) the value the body stores is the
  accumulator plus the sum, over the 100 × 200 pairs, of the pair's weight times the exponential of the pair's
  exponent: each column of a centre or variance block is a row's entry, a column broadcast along the tile and a
  transposed column broadcast along the first set put the two boxes of a pair side by side, the product of the two
  class-weight blocks is the inner product of the pair's rows, and the sum over the whole tile is the double sum.
-/
import proofs.«120005_j50079318672069_1_alg».proof.Proof.Gen.KernelIdeal.Skeleton
import proofs.«120005_j50079318672069_1_alg».proof.Proof.PayLib

noncomputable section

namespace Cert.Pay

open Idealize.ShloMosaic Idealize.ShloMosaic.ValueIdx Cert.KernelIdeal Cert.KernelIdeal.Gen

/-- The value kernel 1's body stores into its accumulator, as a function of the six blocks and the accumulator. -/
abbrev step1 (v3 v5 : Vec Ideal S1x100x2 .f32) (v7 : Vec Ideal S1x100x80 .f32) (v9 v11 : Vec Ideal S1x200x2 .f32)
    (v13 : Vec Ideal S1x200x80 .f32) (v99 : Vec Ideal S1x1x1 .f32) : FVec Ideal S1x1x1 .f32 :=
  k1_pay1 (k1_pay5 v7) (k1_pay8 v13)
    (k1_pay23 (k1_pay9 v3) (k1_pay10 v3) (k1_pay11 v5) (k1_pay12 v5) (k1_pay13 v9) (k1_pay14 v9) (k1_pay15 v11) (k1_pay16 v11)
      (k1_pay17 v5) (k1_pay18 v5) (k1_pay19 v11) (k1_pay20 v11) (k1_pay21 v11) (k1_pay22 v11))
    k1_pay24 v99

namespace K1

section Columns
variable (v3 v5 : Vec Ideal S1x100x2 .f32) (v9 v11 : Vec Ideal S1x200x2 .f32) (i : Fin 100) (jj : Fin 200) (u : Fin 1)

/-! The columns of the centre and variance blocks: entry 0 or 1 of a row. -/

theorem pay9_apply : k1_pay9 (F := Ideal) v3 (ix2 i u) = rows2 v3 i 0 := by
  unfold k1_pay9 k1_pay3; exact col0_apply v3 _ _ i u
theorem pay10_apply : k1_pay10 (F := Ideal) v3 (ix2 i u) = rows2 v3 i 1 := by
  unfold k1_pay10 k1_pay3; exact col1_apply v3 _ _ i u
theorem pay11_apply : k1_pay11 (F := Ideal) v5 (ix2 i u) = rows2 v5 i 0 := by
  unfold k1_pay11 k1_pay4; exact col0_apply v5 _ _ i u
theorem pay12_apply : k1_pay12 (F := Ideal) v5 (ix2 i u) = rows2 v5 i 1 := by
  unfold k1_pay12 k1_pay4; exact col1_apply v5 _ _ i u
theorem pay13_apply : k1_pay13 (F := Ideal) v9 (ix2 jj u) = rows2 v9 jj 0 := by
  unfold k1_pay13 k1_pay6; exact col0_apply v9 _ _ jj u
theorem pay14_apply : k1_pay14 (F := Ideal) v9 (ix2 jj u) = rows2 v9 jj 1 := by
  unfold k1_pay14 k1_pay6; exact col1_apply v9 _ _ jj u
theorem pay15_apply : k1_pay15 (F := Ideal) v11 (ix2 jj u) = rows2 v11 jj 0 := by
  unfold k1_pay15 k1_pay7; exact col0_apply v11 _ _ jj u
theorem pay16_apply : k1_pay16 (F := Ideal) v11 (ix2 jj u) = rows2 v11 jj 1 := by
  unfold k1_pay16 k1_pay7; exact col1_apply v11 _ _ jj u

/-! The inverse variances, as columns and (for the second set) as rows. -/

theorem pay17_apply : k1_pay17 (F := Ideal) v5 (ix2 i u) = Ideal.div Cert.CS.one32 (rows2 v5 i 0) := by
  unfold k1_pay17; exact congrArg (Ideal.div Cert.CS.one32) (pay11_apply v5 i u)
theorem pay18_apply : k1_pay18 (F := Ideal) v5 (ix2 i u) = Ideal.div Cert.CS.one32 (rows2 v5 i 1) := by
  unfold k1_pay18; exact congrArg (Ideal.div Cert.CS.one32) (pay12_apply v5 i u)
theorem pay19_apply : k1_pay19 (F := Ideal) v11 (ix2 jj u) = Ideal.div Cert.CS.one32 (rows2 v11 jj 0) := by
  unfold k1_pay19; exact congrArg (Ideal.div Cert.CS.one32) (pay15_apply v11 jj u)
theorem pay20_apply : k1_pay20 (F := Ideal) v11 (ix2 jj u) = Ideal.div Cert.CS.one32 (rows2 v11 jj 1) := by
  unfold k1_pay20; exact congrArg (Ideal.div Cert.CS.one32) (pay16_apply v11 jj u)
theorem pay21_apply : k1_pay21 (F := Ideal) v11 (ix2 u jj) = Ideal.div Cert.CS.one32 (rows2 v11 jj 0) := by
  unfold k1_pay21; exact (transpose_ix2_apply _ _ u jj).trans (pay19_apply v11 jj u)
theorem pay22_apply : k1_pay22 (F := Ideal) v11 (ix2 u jj) = Ideal.div Cert.CS.one32 (rows2 v11 jj 1) := by
  unfold k1_pay22; exact (transpose_ix2_apply _ _ u jj).trans (pay20_apply v11 jj u)

/-- Half the bracket of the pair (i, jj), as the body computes it on the whole tile, is the pair's exponent:
    every operation of the bracket is elementwise once the columns are broadcast, and the exponent is the same
    expression of the two boxes' entries. -/
theorem delta_apply :
    mulf (k1_pay24 (F := Ideal))
        (k1_pay23 (k1_pay9 v3) (k1_pay10 v3) (k1_pay11 v5) (k1_pay12 v5) (k1_pay13 v9) (k1_pay14 v9) (k1_pay15 v11) (k1_pay16 v11)
          (k1_pay17 v5) (k1_pay18 v5) (k1_pay19 v11) (k1_pay20 v11) (k1_pay21 v11) (k1_pay22 v11)) (ix2 i jj)
      = Cert.CS.deltaK (rows2 v3 i 0) (rows2 v3 i 1) (rows2 v5 i 0) (rows2 v5 i 1)
          (rows2 v9 jj 0) (rows2 v9 jj 1) (rows2 v11 jj 0) (rows2 v11 jj 1) := by
  unfold k1_pay23 k1_pay24 Cert.CS.deltaK
  simp only [mulf_apply, addf_apply, subf_apply, divf_apply, log_apply, broadcast_apply,
    broadcastTo_a1_ab_apply, broadcastTo_1b_ab_apply]
  rw [transpose_ix2_apply, transpose_ix2_apply, transpose_ix2_apply, transpose_ix2_apply]
  simp only [mulf_apply, addf_apply, log_apply,
    pay9_apply, pay10_apply, pay11_apply, pay12_apply, pay13_apply, pay14_apply, pay15_apply, pay16_apply,
    pay17_apply, pay18_apply, pay19_apply, pay20_apply, pay21_apply, pay22_apply]
  rfl

end Columns

section Weights
variable (v7 : Vec Ideal S1x100x80 .f32) (v13 : Vec Ideal S1x200x80 .f32) (i : Fin 100) (jj : Fin 200) (c : Fin 80)

theorem pay5_apply : k1_pay5 (F := Ideal) v7 (ix2 i c) = rows80 v7 i c := by
  unfold k1_pay5; exact shapeCast_1ab_ab_apply v7 _ i c
theorem pay8_apply : k1_pay8 (F := Ideal) v13 (ix2 jj c) = rows80 v13 jj c := by
  unfold k1_pay8; exact shapeCast_1ab_ab_apply v13 _ jj c

/-- The product of the two blocks of class weights, at (i, jj), is the pair's weight. -/
theorem weight_apply :
    matmul dot_S100x80_S200x80_S100x200_1_1_0_0_n_n none (k1_pay5 (F := Ideal) v7) (k1_pay8 (F := Ideal) v13)
        (constant (F := Ideal) S100x200 .f32 0x00000000#32) (ix2 i jj)
      = Cert.CS.wt (rows80 v7) (rows80 v13) i jj := by
  have e : dot_S100x80_S200x80_S100x200_1_1_0_0_n_n = DotDims.transposedRhs 100 80 200 := rfl
  rw [e]
  refine (matmul_transposedRhs_apply none _ _ i jj).trans ?_
  unfold Cert.CS.wt
  exact Finset.sum_congr rfl fun c _ => by rw [pay5_apply, pay8_apply]

end Weights

end K1

/-- The value the body writes into its accumulator at the first tile of an image. -/
theorem zero1_apply (y : S1x1x1.Idx) : k1_pay2 (F := Ideal) y = Cert.CS.zero32 := by
  unfold k1_pay2; rw [shapeCast_self]; rfl

/-- One step of the body: the accumulator plus the tile's sum of the pairs' terms. -/
theorem step1_apply (v3 v5 : Vec Ideal S1x100x2 .f32) (v7 : Vec Ideal S1x100x80 .f32) (v9 v11 : Vec Ideal S1x200x2 .f32)
    (v13 : Vec Ideal S1x200x80 .f32) (v99 : Vec Ideal S1x1x1 .f32) (y : S1x1x1.Idx) :
    step1 v3 v5 v7 v9 v11 v13 v99 y
      = v99 y + (Cert.CS.zero32 + ∑ i : Fin 100, ∑ jj : Fin 200,
          Cert.CS.term (rows2 v3) (rows2 v5) (rows80 v7) (rows2 v9) (rows2 v11) (rows80 v13) i jj) := by
  unfold step1 k1_pay1
  simp only [shapeCast_self, addf_apply, broadcast_apply]
  rw [total_apply, Cert.CS.zero32_eq, zero_add]
  refine congrArg (v99 y + ·) (Finset.sum_congr rfl fun i _ => Finset.sum_congr rfl fun jj _ => ?_)
  rw [mulf_apply, exp_apply, K1.weight_apply, K1.delta_apply]
  rfl

end Cert.Pay

end
-- ==== Proof.KVal1.lean ====
/-
  The second kernel region's output array is the ground-truth × predicted pair sums.

  The region runs on the grid (image b, tile s) of 32 × 5 points, point 5·b + s. The point reads the image's
  ground-truth blocks whole (a hundred boxes: centres, variances, class weights) and tile s of the image's
  predicted boxes (boxes 200·s … 200·s + 199). At the image's first tile the accumulator restarts from zero; every
  point adds to it the sum of its 100 × 200 pairs' terms; at the image's last tile the accumulator is copied to the
  output block, which is written back to entry b of the output array. The five tiles' sums are the sums over the
  five consecutive runs of two hundred predicted boxes, so together, the two sums exchanged, they are the sum over
  all the pairs: that entry ends holding the pair sum of image b.
-/
import proofs.«120005_j50079318672069_1_alg».proof.Proof.Reg1.Values
import proofs.«120005_j50079318672069_1_alg».proof.Proof.Pay1
import proofs.«120005_j50079318672069_1_alg».proof.Proof.Sums
import Idealize.ShloMosaic.Lib.Pipeline.Value
import Idealize.ShloMosaic.Lib.ValueIdx

noncomputable section

namespace Cert.KVal

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.GenR Cert.CS Cert.Pay

variable (V : (c : Dev nD) → (b : Ref sig .tc) → Buf (Elt Ideal) ((c : Thread nD τ).loc b))

/-! ## The windows' blocks at point t: image t / 5 for every window, tile t % 5 for the predicted boxes' -/

theorem idx1_0 : ∀ t : Fin cfg1.N, win1_0.index t 0 = t.val / 5 ∧ win1_0.index t 1 = 0 ∧ win1_0.index t 2 = 0 :=
  (by decide +kernel : ∀ t : Fin grid1.N, win1_0.index t 0 = t.val / 5 ∧ win1_0.index t 1 = 0 ∧ win1_0.index t 2 = 0)
theorem idx1_1 : ∀ t : Fin cfg1.N, win1_1.index t 0 = t.val / 5 ∧ win1_1.index t 1 = 0 ∧ win1_1.index t 2 = 0 :=
  (by decide +kernel : ∀ t : Fin grid1.N, win1_1.index t 0 = t.val / 5 ∧ win1_1.index t 1 = 0 ∧ win1_1.index t 2 = 0)
theorem idx1_2 : ∀ t : Fin cfg1.N, win1_2.index t 0 = t.val / 5 ∧ win1_2.index t 1 = 0 ∧ win1_2.index t 2 = 0 :=
  (by decide +kernel : ∀ t : Fin grid1.N, win1_2.index t 0 = t.val / 5 ∧ win1_2.index t 1 = 0 ∧ win1_2.index t 2 = 0)
theorem idx1_3 : ∀ t : Fin cfg1.N, win1_3.index t 0 = t.val / 5 ∧ win1_3.index t 1 = t.val % 5 ∧ win1_3.index t 2 = 0 :=
  (by decide +kernel : ∀ t : Fin grid1.N, win1_3.index t 0 = t.val / 5 ∧ win1_3.index t 1 = t.val % 5 ∧ win1_3.index t 2 = 0)
theorem idx1_4 : ∀ t : Fin cfg1.N, win1_4.index t 0 = t.val / 5 ∧ win1_4.index t 1 = t.val % 5 ∧ win1_4.index t 2 = 0 :=
  (by decide +kernel : ∀ t : Fin grid1.N, win1_4.index t 0 = t.val / 5 ∧ win1_4.index t 1 = t.val % 5 ∧ win1_4.index t 2 = 0)
theorem idx1_5 : ∀ t : Fin cfg1.N, win1_5.index t 0 = t.val / 5 ∧ win1_5.index t 1 = t.val % 5 ∧ win1_5.index t 2 = 0 :=
  (by decide +kernel : ∀ t : Fin grid1.N, win1_5.index t 0 = t.val / 5 ∧ win1_5.index t 1 = t.val % 5 ∧ win1_5.index t 2 = 0)
theorem idx1_6 : ∀ t : Fin cfg1.N, win1_6.index t 0 = t.val / 5 ∧ win1_6.index t 1 = 0 ∧ win1_6.index t 2 = 0 :=
  (by decide +kernel : ∀ t : Fin grid1.N, win1_6.index t 0 = t.val / 5 ∧ win1_6.index t 1 = 0 ∧ win1_6.index t 2 = 0)

/-! ## The six input blocks as rows of their arrays -/

section Blocks
variable (c : Dev nD) (t : Fin cfg1.N) (b : Fin 32) (s : Fin 5) (ht : t.val = 5 * b.val + s.val)
include ht

/-- The ground-truth centres at a point of image b: rows (b, i, ·) of the centres' array. -/
theorem rows1_0 : rows2 (iblk1 V c 0 t) = fun i d => (V c main_v29 : S32x100x2.Idx → EReal) (ix3 b i d) := by
  have hi := idx1_0 t
  funext i d
  unfold rows2 iblk1
  rw [View.read_apply]
  show V c main_v29 _ = V c main_v29 _
  congr 1
  funext a
  apply Fin.ext
  match a with
  | ⟨0, _⟩ => show win1_0.index t 0 * 1 + 1 * (0 : ℕ) = b.val; rw [hi.1]; omega
  | ⟨1, _⟩ => show win1_0.index t 1 * 100 + 1 * i.val = i.val; rw [hi.2.1]; omega
  | ⟨2, _⟩ => show win1_0.index t 2 * 2 + 1 * d.val = d.val; rw [hi.2.2]; omega

/-- The ground-truth variances. -/
theorem rows1_1 : rows2 (iblk1 V c 1 t) = fun i d => (V c main_v33 : S32x100x2.Idx → EReal) (ix3 b i d) := by
  have hi := idx1_1 t
  funext i d
  unfold rows2 iblk1
  rw [View.read_apply]
  show V c main_v33 _ = V c main_v33 _
  congr 1
  funext a
  apply Fin.ext
  match a with
  | ⟨0, _⟩ => show win1_1.index t 0 * 1 + 1 * (0 : ℕ) = b.val; rw [hi.1]; omega
  | ⟨1, _⟩ => show win1_1.index t 1 * 100 + 1 * i.val = i.val; rw [hi.2.1]; omega
  | ⟨2, _⟩ => show win1_1.index t 2 * 2 + 1 * d.val = d.val; rw [hi.2.2]; omega

/-- The ground-truth class weights. -/
theorem rows1_2 : rows80 (iblk1 V c 2 t) = fun i k => (V c main_v23 : S32x100x80.Idx → EReal) (ix3 b i k) := by
  have hi := idx1_2 t
  funext i k
  unfold rows80 iblk1
  rw [View.read_apply]
  show V c main_v23 _ = V c main_v23 _
  congr 1
  funext a
  apply Fin.ext
  match a with
  | ⟨0, _⟩ => show win1_2.index t 0 * 1 + 1 * (0 : ℕ) = b.val; rw [hi.1]; omega
  | ⟨1, _⟩ => show win1_2.index t 1 * 100 + 1 * i.val = i.val; rw [hi.2.1]; omega
  | ⟨2, _⟩ => show win1_2.index t 2 * 80 + 1 * k.val = k.val; rw [hi.2.2]; omega

/-- The predicted centres of tile s of image b: rows (b, 200·s + jj, ·) of the centres' array. -/
theorem rows1_3 : rows2 (iblk1 V c 3 t) = fun jj d => (V c main_v24 : S32x1000x2.Idx → EReal) (ix3 b ⟨200 * s.val + jj.val, by have := s.isLt; have := jj.isLt; omega⟩ d) := by
  have hi := idx1_3 t
  funext jj d
  unfold rows2 iblk1
  rw [View.read_apply]
  show V c main_v24 _ = V c main_v24 _
  congr 1
  funext a
  apply Fin.ext
  match a with
  | ⟨0, _⟩ => show win1_3.index t 0 * 1 + 1 * (0 : ℕ) = b.val; rw [hi.1]; omega
  | ⟨1, _⟩ => show win1_3.index t 1 * 200 + 1 * jj.val = 200 * s.val + jj.val; rw [hi.2.1]; omega
  | ⟨2, _⟩ => show win1_3.index t 2 * 2 + 1 * d.val = d.val; rw [hi.2.2]; omega

/-- The predicted variances of the tile. -/
theorem rows1_4 : rows2 (iblk1 V c 4 t) = fun jj d => (V c main_v28 : S32x1000x2.Idx → EReal) (ix3 b ⟨200 * s.val + jj.val, by have := s.isLt; have := jj.isLt; omega⟩ d) := by
  have hi := idx1_4 t
  funext jj d
  unfold rows2 iblk1
  rw [View.read_apply]
  show V c main_v28 _ = V c main_v28 _
  congr 1
  funext a
  apply Fin.ext
  match a with
  | ⟨0, _⟩ => show win1_4.index t 0 * 1 + 1 * (0 : ℕ) = b.val; rw [hi.1]; omega
  | ⟨1, _⟩ => show win1_4.index t 1 * 200 + 1 * jj.val = 200 * s.val + jj.val; rw [hi.2.1]; omega
  | ⟨2, _⟩ => show win1_4.index t 2 * 2 + 1 * d.val = d.val; rw [hi.2.2]; omega

/-- The predicted class weights of the tile. -/
theorem rows1_5 : rows80 (iblk1 V c 5 t) = fun jj k => (V c main_v22 : S32x1000x80.Idx → EReal) (ix3 b ⟨200 * s.val + jj.val, by have := s.isLt; have := jj.isLt; omega⟩ k) := by
  have hi := idx1_5 t
  funext jj k
  unfold rows80 iblk1
  rw [View.read_apply]
  show V c main_v22 _ = V c main_v22 _
  congr 1
  funext a
  apply Fin.ext
  match a with
  | ⟨0, _⟩ => show win1_5.index t 0 * 1 + 1 * (0 : ℕ) = b.val; rw [hi.1]; omega
  | ⟨1, _⟩ => show win1_5.index t 1 * 200 + 1 * jj.val = 200 * s.val + jj.val; rw [hi.2.1]; omega
  | ⟨2, _⟩ => show win1_5.index t 2 * 80 + 1 * k.val = k.val; rw [hi.2.2]; omega

end Blocks

/-! ## The accumulator over an image's tiles -/

/-- The pair sum of image b over the arrays the region reads. -/
def ps1 (c : Dev nD) (b : Fin 32) : EReal :=
  pairSum (fun i d => (V c main_v29 : S32x100x2.Idx → EReal) (ix3 b i d))
    (fun i d => (V c main_v33 : S32x100x2.Idx → EReal) (ix3 b i d))
    (fun i k => (V c main_v23 : S32x100x80.Idx → EReal) (ix3 b i k))
    (fun j d => (V c main_v24 : S32x1000x2.Idx → EReal) (ix3 b j d))
    (fun j d => (V c main_v28 : S32x1000x2.Idx → EReal) (ix3 b j d))
    (fun j k => (V c main_v22 : S32x1000x80.Idx → EReal) (ix3 b j k))

/-- The part of image b's pair sum that tile s contributes: the pairs whose predicted box is one of the tile's. -/
def tile1 (c : Dev nD) (b : Fin 32) (s : Fin 5) : EReal :=
  ∑ i : Fin 100, ∑ jj : Fin 200,
    term (fun i d => (V c main_v29 : S32x100x2.Idx → EReal) (ix3 b i d))
      (fun i d => (V c main_v33 : S32x100x2.Idx → EReal) (ix3 b i d))
      (fun i k => (V c main_v23 : S32x100x80.Idx → EReal) (ix3 b i k))
      (fun j d => (V c main_v24 : S32x1000x2.Idx → EReal) (ix3 b j d))
      (fun j d => (V c main_v28 : S32x1000x2.Idx → EReal) (ix3 b j d))
      (fun j k => (V c main_v22 : S32x1000x80.Idx → EReal) (ix3 b j k))
      i ⟨200 * s.val + jj.val, by have := s.isLt; have := jj.isLt; omega⟩

/-- One step at the point of image b and tile s adds the tile's part to the accumulator. -/
theorem step1_at (c : Dev nD) (t : Fin cfg1.N) (b : Fin 32) (s : Fin 5) (ht : t.val = 5 * b.val + s.val)
    (acc : Vec Ideal S1x1x1 .f32) (y : S1x1x1.Idx) :
    GenR.step1 (iblk1 V c 0 t) (iblk1 V c 1 t) (iblk1 V c 2 t) (iblk1 V c 3 t) (iblk1 V c 4 t) (iblk1 V c 5 t) acc y
      = acc y + tile1 V c b s := by
  refine (Cert.Pay.step1_apply _ _ _ _ _ _ _ y).trans ?_
  rw [rows1_0 V c t b s ht, rows1_1 V c t b s ht, rows1_2 V c t b s ht, rows1_3 V c t b s ht, rows1_4 V c t b s ht,
    rows1_5 V c t b s ht, zero32_eq, zero_add]
  rfl

/-- After tile j of image b the accumulator holds the parts of tiles 0 … j. -/
theorem acc1 (c : Dev nD) (b : Fin 32) (y : S1x1x1.Idx) :
    ∀ (j : ℕ) (hj : j < 5) (t : Fin cfg1.N), t.val = 5 * b.val + j →
      ((outsAt1 V c t.val t.isLt).2 : S1x1x1.Idx → EReal) y
        = ∑ s : Fin (j + 1), tile1 V c b ⟨s.val, by have := s.isLt; omega⟩
  | 0, hj, t, ht => by
    rw [scratch_first1 V c t (by omega)]
    refine (step1_at V c t b ⟨0, hj⟩ ht _ y).trans ?_
    rw [zero1_apply, zero32_eq, zero_add]
    exact (Fin.sum_univ_one (fun s : Fin 1 => tile1 V c b ⟨s.val, by have := s.isLt; omega⟩)).symm
  | j + 1, hj, t, ht => by
    have hN : cfg1.N = 160 := N_1
    rw [scratch_later1 V c t (by omega)]
    refine (step1_at V c t b ⟨j + 1, hj⟩ ht _ y).trans ?_
    have ih := acc1 c b y j (by omega) ⟨t.val - 1, by have := t.isLt; omega⟩ (by show t.val - 1 = 5 * b.val + j; omega)
    rw [Fin.sum_univ_castSucc]
    exact congrArg (· + tile1 V c b ⟨j + 1, hj⟩) ih

/-- The five tiles' parts are the image's pair sum: the sum over the predicted boxes, tile by tile, exchanged with the
    sum over the ground-truth boxes. -/
theorem tiles1 (c : Dev nD) (b : Fin 32) : ∑ s : Fin 5, tile1 V c b s = ps1 V c b := by
  unfold tile1 ps1 pairSum
  rw [Finset.sum_comm]
  exact Finset.sum_congr rfl fun i _ => (Cert.Sums.sum_tiles5 _).symm

/-- What the body leaves in the output block at the last tile of image b: the image's pair sum. -/
theorem point1 (c : Dev nD) (t : Fin cfg1.N) (b : Fin 32) (ht : t.val = 5 * b.val + 4) (y : S1x1x1.Idx) :
    ((outsAt1 V c t.val t.isLt).1 : S1x1x1.Idx → EReal) y = ps1 V c b := by
  rw [out_last1 V c t (by omega), acc1 V c b y 4 (by omega) t ht]
  exact tiles1 V c b

/-! ## The output -/

/-- Every last tile writes back, to its image's entry, the image's pair sum. -/
theorem flushed1 (c : Dev nD) (t : Fin cfg1.N) (hf : (cfg1.win 6).flush t = true) :
    (dat1 V c).flushed 6 t
      = ((cfg1.win 6).blk t).view.read (Elt Ideal) (fun i : S32x1x1.Idx => ps1 V c ⟨(i 0).val, (i 0).isLt⟩) := by
  have hN : cfg1.N = 160 := N_1
  have h4 : t.val % 5 = 4 := (flush1_6 t).mp hf
  have hi := idx1_6 t
  funext y
  rw [View.read_apply]
  show (cfg1.win 6).cut (cfg1.grid.coords t) ((dat1 V c).after 6 t) y = _
  rw [after1_6]
  refine (point1 V c t ⟨t.val / 5, by have := t.isLt; omega⟩ (by show t.val = 5 * (t.val / 5) + 4; omega) _).trans
    (congrArg (ps1 V c) (Fin.ext ?_))
  have hy : (y 0).val < 1 := (y 0).isLt
  show t.val / 5 = win1_6.index t 0 * 1 + 1 * (y 0).val
  rw [hi.1]; omega

/-- The region's output array ends holding, at entry b, the pair sum of image b. -/
theorem region1_value (c : Dev nD) (b : Fin 32) :
    ((dat1 V c).arrAt 6 cfg1.N : S32x1x1.Idx → EReal) (ix3 b 0 0)
      = pairSum (fun i d => (V c main_v29 : S32x100x2.Idx → EReal) (ix3 b i d))
          (fun i d => (V c main_v33 : S32x100x2.Idx → EReal) (ix3 b i d))
          (fun i k => (V c main_v23 : S32x100x80.Idx → EReal) (ix3 b i k))
          (fun j d => (V c main_v24 : S32x1000x2.Idx → EReal) (ix3 b j d))
          (fun j d => (V c main_v28 : S32x1000x2.Idx → EReal) (ix3 b j d))
          (fun j k => (V c main_v22 : S32x1000x80.Idx → EReal) (ix3 b j k)) := by
  have hN : cfg1.N = 160 := N_1
  obtain ⟨t, ht⟩ : ∃ t : Fin cfg1.N, t.val = 5 * b.val + 4 := ⟨⟨5 * b.val + 4, by have := b.isLt; omega⟩, rfl⟩
  have hi := idx1_6 t
  refine ((dat1 V c).arrAt_apply_of_mem 6 _ (flushed1 V c) cfg1.N t (ix3 b 0 0) t.isLt ((flush1_6 t).mpr (by omega)) ?_).trans ?_
  · show (ix3 b 0 0 : S32x1x1.Idx) ∈ ((View.whole main_v36).slice (win1_6.rect t)).set
    rw [View.set_slice_whole, Rect.mem_set_unit]
    intro a
    match a with
    | ⟨0, _⟩ =>
      show win1_6.index t 0 * 1 ≤ b.val ∧ b.val < win1_6.index t 0 * 1 + 1
      rw [hi.1]; omega
    | ⟨1, _⟩ =>
      show win1_6.index t 1 * 1 ≤ 0 ∧ 0 < win1_6.index t 1 * 1 + 1
      rw [hi.2.1]; omega
    | ⟨2, _⟩ =>
      show win1_6.index t 2 * 1 ≤ 0 ∧ 0 < win1_6.index t 2 * 1 + 1
      rw [hi.2.2]; omega
  · rfl

end Cert.KVal

end
-- ==== Proof.Pay2.lean ====
/-
  Kernel 2's body read at an index: 100 boxes of the first set against a tile of 100 boxes of the second.
  With the six blocks as rows (centres, variances and class weights of each set) the value the body stores is the
  accumulator plus the sum, over the 100 × 100 pairs, of the pair's weight times the exponential of the pair's
  exponent: each column of a centre or variance block is a row's entry, a column broadcast along the tile and a
  transposed column broadcast along the first set put the two boxes of a pair side by side, the product of the two
  class-weight blocks is the inner product of the pair's rows, and the sum over the whole tile is the double sum.
-/
import proofs.«120005_j50079318672069_1_alg».proof.Proof.Gen.KernelIdeal.Skeleton
import proofs.«120005_j50079318672069_1_alg».proof.Proof.PayLib

noncomputable section

namespace Cert.Pay

open Idealize.ShloMosaic Idealize.ShloMosaic.ValueIdx Cert.KernelIdeal Cert.KernelIdeal.Gen

/-- The value kernel 2's body stores into its accumulator, as a function of the six blocks and the accumulator. -/
abbrev step2 (v3 v5 : Vec Ideal S1x100x2 .f32) (v7 : Vec Ideal S1x100x80 .f32) (v9 v11 : Vec Ideal S1x100x2 .f32)
    (v13 : Vec Ideal S1x100x80 .f32) (v99 : Vec Ideal S1x1x1 .f32) : FVec Ideal S1x1x1 .f32 :=
  k2_pay1 (k2_pay5 v7) (k2_pay8 v13)
    (k2_pay23 (k2_pay9 v3) (k2_pay10 v3) (k2_pay11 v5) (k2_pay12 v5) (k2_pay13 v9) (k2_pay14 v9) (k2_pay15 v11) (k2_pay16 v11)
      (k2_pay17 v5) (k2_pay18 v5) (k2_pay19 v11) (k2_pay20 v11) (k2_pay21 v11) (k2_pay22 v11))
    k2_pay24 v99

namespace K2

section Columns
variable (v3 v5 : Vec Ideal S1x100x2 .f32) (v9 v11 : Vec Ideal S1x100x2 .f32) (i : Fin 100) (jj : Fin 100) (u : Fin 1)

/-! The columns of the centre and variance blocks: entry 0 or 1 of a row. -/

theorem pay9_apply : k2_pay9 (F := Ideal) v3 (ix2 i u) = rows2 v3 i 0 := by
  unfold k2_pay9 k2_pay3; exact col0_apply v3 _ _ i u
theorem pay10_apply : k2_pay10 (F := Ideal) v3 (ix2 i u) = rows2 v3 i 1 := by
  unfold k2_pay10 k2_pay3; exact col1_apply v3 _ _ i u
theorem pay11_apply : k2_pay11 (F := Ideal) v5 (ix2 i u) = rows2 v5 i 0 := by
  unfold k2_pay11 k2_pay4; exact col0_apply v5 _ _ i u
theorem pay12_apply : k2_pay12 (F := Ideal) v5 (ix2 i u) = rows2 v5 i 1 := by
  unfold k2_pay12 k2_pay4; exact col1_apply v5 _ _ i u
theorem pay13_apply : k2_pay13 (F := Ideal) v9 (ix2 jj u) = rows2 v9 jj 0 := by
  unfold k2_pay13 k2_pay6; exact col0_apply v9 _ _ jj u
theorem pay14_apply : k2_pay14 (F := Ideal) v9 (ix2 jj u) = rows2 v9 jj 1 := by
  unfold k2_pay14 k2_pay6; exact col1_apply v9 _ _ jj u
theorem pay15_apply : k2_pay15 (F := Ideal) v11 (ix2 jj u) = rows2 v11 jj 0 := by
  unfold k2_pay15 k2_pay7; exact col0_apply v11 _ _ jj u
theorem pay16_apply : k2_pay16 (F := Ideal) v11 (ix2 jj u) = rows2 v11 jj 1 := by
  unfold k2_pay16 k2_pay7; exact col1_apply v11 _ _ jj u

/-! The inverse variances, as columns and (for the second set) as rows. -/

theorem pay17_apply : k2_pay17 (F := Ideal) v5 (ix2 i u) = Ideal.div Cert.CS.one32 (rows2 v5 i 0) := by
  unfold k2_pay17; exact congrArg (Ideal.div Cert.CS.one32) (pay11_apply v5 i u)
theorem pay18_apply : k2_pay18 (F := Ideal) v5 (ix2 i u) = Ideal.div Cert.CS.one32 (rows2 v5 i 1) := by
  unfold k2_pay18; exact congrArg (Ideal.div Cert.CS.one32) (pay12_apply v5 i u)
theorem pay19_apply : k2_pay19 (F := Ideal) v11 (ix2 jj u) = Ideal.div Cert.CS.one32 (rows2 v11 jj 0) := by
  unfold k2_pay19; exact congrArg (Ideal.div Cert.CS.one32) (pay15_apply v11 jj u)
theorem pay20_apply : k2_pay20 (F := Ideal) v11 (ix2 jj u) = Ideal.div Cert.CS.one32 (rows2 v11 jj 1) := by
  unfold k2_pay20; exact congrArg (Ideal.div Cert.CS.one32) (pay16_apply v11 jj u)
theorem pay21_apply : k2_pay21 (F := Ideal) v11 (ix2 u jj) = Ideal.div Cert.CS.one32 (rows2 v11 jj 0) := by
  unfold k2_pay21; exact (transpose_ix2_apply _ _ u jj).trans (pay19_apply v11 jj u)
theorem pay22_apply : k2_pay22 (F := Ideal) v11 (ix2 u jj) = Ideal.div Cert.CS.one32 (rows2 v11 jj 1) := by
  unfold k2_pay22; exact (transpose_ix2_apply _ _ u jj).trans (pay20_apply v11 jj u)

/-- Half the bracket of the pair (i, jj), as the body computes it on the whole tile, is the pair's exponent:
    every operation of the bracket is elementwise once the columns are broadcast, and the exponent is the same
    expression of the two boxes' entries. -/
theorem delta_apply :
    mulf (k2_pay24 (F := Ideal))
        (k2_pay23 (k2_pay9 v3) (k2_pay10 v3) (k2_pay11 v5) (k2_pay12 v5) (k2_pay13 v9) (k2_pay14 v9) (k2_pay15 v11) (k2_pay16 v11)
          (k2_pay17 v5) (k2_pay18 v5) (k2_pay19 v11) (k2_pay20 v11) (k2_pay21 v11) (k2_pay22 v11)) (ix2 i jj)
      = Cert.CS.deltaK (rows2 v3 i 0) (rows2 v3 i 1) (rows2 v5 i 0) (rows2 v5 i 1)
          (rows2 v9 jj 0) (rows2 v9 jj 1) (rows2 v11 jj 0) (rows2 v11 jj 1) := by
  unfold k2_pay23 k2_pay24 Cert.CS.deltaK
  simp only [mulf_apply, addf_apply, subf_apply, divf_apply, log_apply, broadcast_apply,
    broadcastTo_a1_ab_apply, broadcastTo_1b_ab_apply]
  rw [transpose_ix2_apply, transpose_ix2_apply, transpose_ix2_apply, transpose_ix2_apply]
  simp only [mulf_apply, addf_apply, log_apply,
    pay9_apply, pay10_apply, pay11_apply, pay12_apply, pay13_apply, pay14_apply, pay15_apply, pay16_apply,
    pay17_apply, pay18_apply, pay19_apply, pay20_apply, pay21_apply, pay22_apply]
  rfl

end Columns

section Weights
variable (v7 : Vec Ideal S1x100x80 .f32) (v13 : Vec Ideal S1x100x80 .f32) (i : Fin 100) (jj : Fin 100) (c : Fin 80)

theorem pay5_apply : k2_pay5 (F := Ideal) v7 (ix2 i c) = rows80 v7 i c := by
  unfold k2_pay5; exact shapeCast_1ab_ab_apply v7 _ i c
theorem pay8_apply : k2_pay8 (F := Ideal) v13 (ix2 jj c) = rows80 v13 jj c := by
  unfold k2_pay8; exact shapeCast_1ab_ab_apply v13 _ jj c

/-- The product of the two blocks of class weights, at (i, jj), is the pair's weight. -/
theorem weight_apply :
    matmul dot_S100x80_S100x80_S100x100_1_1_0_0_n_n none (k2_pay5 (F := Ideal) v7) (k2_pay8 (F := Ideal) v13)
        (constant (F := Ideal) S100x100 .f32 0x00000000#32) (ix2 i jj)
      = Cert.CS.wt (rows80 v7) (rows80 v13) i jj := by
  have e : dot_S100x80_S100x80_S100x100_1_1_0_0_n_n = DotDims.transposedRhs 100 80 100 := rfl
  rw [e]
  refine (matmul_transposedRhs_apply none _ _ i jj).trans ?_
  unfold Cert.CS.wt
  exact Finset.sum_congr rfl fun c _ => by rw [pay5_apply, pay8_apply]

end Weights

end K2

/-- The value the body writes into its accumulator at the first tile of an image. -/
theorem zero2_apply (y : S1x1x1.Idx) : k2_pay2 (F := Ideal) y = Cert.CS.zero32 := by
  unfold k2_pay2; rw [shapeCast_self]; rfl

/-- One step of the body: the accumulator plus the tile's sum of the pairs' terms. -/
theorem step2_apply (v3 v5 : Vec Ideal S1x100x2 .f32) (v7 : Vec Ideal S1x100x80 .f32) (v9 v11 : Vec Ideal S1x100x2 .f32)
    (v13 : Vec Ideal S1x100x80 .f32) (v99 : Vec Ideal S1x1x1 .f32) (y : S1x1x1.Idx) :
    step2 v3 v5 v7 v9 v11 v13 v99 y
      = v99 y + (Cert.CS.zero32 + ∑ i : Fin 100, ∑ jj : Fin 100,
          Cert.CS.term (rows2 v3) (rows2 v5) (rows80 v7) (rows2 v9) (rows2 v11) (rows80 v13) i jj) := by
  unfold step2 k2_pay1
  simp only [shapeCast_self, addf_apply, broadcast_apply]
  rw [total_apply, Cert.CS.zero32_eq, zero_add]
  refine congrArg (v99 y + ·) (Finset.sum_congr rfl fun i _ => Finset.sum_congr rfl fun jj _ => ?_)
  rw [mulf_apply, exp_apply, K2.weight_apply, K2.delta_apply]
  rfl

end Cert.Pay

end
-- ==== Proof.KVal2.lean ====
/-
  The third kernel region's output array is the ground-truth × ground-truth pair sums.

  The region runs one grid point per image: the point of image `b` reads the image's six blocks (the ground-truth
  boxes' centres, variances and class weights, once as the first set and once as the second), resets the accumulator,
  adds the sum of all the pairs' terms to it and copies it to the output block, which is written back to entry `b`
  of the output array. So that entry ends holding the pair sum of image `b`.
-/
import proofs.«120005_j50079318672069_1_alg».proof.Proof.Reg2
import proofs.«120005_j50079318672069_1_alg».proof.Proof.Pay2
import Idealize.ShloMosaic.Lib.Pipeline.Value
import Idealize.ShloMosaic.Lib.ValueIdx

noncomputable section

namespace Cert.KVal

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.GenR Cert.CS Cert.Pay

variable (V : (c : Dev nD) → (b : Ref sig .tc) → Buf (Elt Ideal) ((c : Thread nD τ).loc b))

/-! ## Every window's block at the point of image `b` is block `(b, 0, 0)` -/

theorem idx2_0 : ∀ t : Fin cfg2.N, win2_0.index t 0 = t.val ∧ win2_0.index t 1 = 0 ∧ win2_0.index t 2 = 0 :=
  (by decide +kernel : ∀ t : Fin grid2.N, win2_0.index t 0 = t.val ∧ win2_0.index t 1 = 0 ∧ win2_0.index t 2 = 0)
theorem idx2_1 : ∀ t : Fin cfg2.N, win2_1.index t 0 = t.val ∧ win2_1.index t 1 = 0 ∧ win2_1.index t 2 = 0 :=
  (by decide +kernel : ∀ t : Fin grid2.N, win2_1.index t 0 = t.val ∧ win2_1.index t 1 = 0 ∧ win2_1.index t 2 = 0)
theorem idx2_2 : ∀ t : Fin cfg2.N, win2_2.index t 0 = t.val ∧ win2_2.index t 1 = 0 ∧ win2_2.index t 2 = 0 :=
  (by decide +kernel : ∀ t : Fin grid2.N, win2_2.index t 0 = t.val ∧ win2_2.index t 1 = 0 ∧ win2_2.index t 2 = 0)
theorem idx2_3 : ∀ t : Fin cfg2.N, win2_3.index t 0 = t.val ∧ win2_3.index t 1 = 0 ∧ win2_3.index t 2 = 0 :=
  (by decide +kernel : ∀ t : Fin grid2.N, win2_3.index t 0 = t.val ∧ win2_3.index t 1 = 0 ∧ win2_3.index t 2 = 0)
theorem idx2_4 : ∀ t : Fin cfg2.N, win2_4.index t 0 = t.val ∧ win2_4.index t 1 = 0 ∧ win2_4.index t 2 = 0 :=
  (by decide +kernel : ∀ t : Fin grid2.N, win2_4.index t 0 = t.val ∧ win2_4.index t 1 = 0 ∧ win2_4.index t 2 = 0)
theorem idx2_5 : ∀ t : Fin cfg2.N, win2_5.index t 0 = t.val ∧ win2_5.index t 1 = 0 ∧ win2_5.index t 2 = 0 :=
  (by decide +kernel : ∀ t : Fin grid2.N, win2_5.index t 0 = t.val ∧ win2_5.index t 1 = 0 ∧ win2_5.index t 2 = 0)
theorem idx2_6 : ∀ t : Fin cfg2.N, win2_6.index t 0 = t.val ∧ win2_6.index t 1 = 0 ∧ win2_6.index t 2 = 0 :=
  (by decide +kernel : ∀ t : Fin grid2.N, win2_6.index t 0 = t.val ∧ win2_6.index t 1 = 0 ∧ win2_6.index t 2 = 0)

/-! ## The six input blocks as rows of their arrays -/

section Blocks
variable (c : Dev nD) (t : Fin cfg2.N) (b : Fin 32) (hb : t.val = b.val)
include hb

/-- The first set's centres at the point of image `b`: rows `(b, i, ·)` of the centres' array. -/
theorem rows2_0 : rows2 (iblk2 V c 0 t) = fun i d => (V c main_v29 : S32x100x2.Idx → EReal) (ix3 b i d) := by
  have hi := idx2_0 t
  funext i d
  unfold rows2 iblk2
  rw [View.read_apply]
  show V c main_v29 _ = V c main_v29 _
  congr 1
  funext a
  apply Fin.ext
  match a with
  | ⟨0, _⟩ => show win2_0.index t 0 * 1 + 1 * (0 : ℕ) = b.val; rw [hi.1]; omega
  | ⟨1, _⟩ => show win2_0.index t 1 * 100 + 1 * i.val = i.val; rw [hi.2.1]; omega
  | ⟨2, _⟩ => show win2_0.index t 2 * 2 + 1 * d.val = d.val; rw [hi.2.2]; omega

/-- The first set's variances. -/
theorem rows2_1 : rows2 (iblk2 V c 1 t) = fun i d => (V c main_v33 : S32x100x2.Idx → EReal) (ix3 b i d) := by
  have hi := idx2_1 t
  funext i d
  unfold rows2 iblk2
  rw [View.read_apply]
  show V c main_v33 _ = V c main_v33 _
  congr 1
  funext a
  apply Fin.ext
  match a with
  | ⟨0, _⟩ => show win2_1.index t 0 * 1 + 1 * (0 : ℕ) = b.val; rw [hi.1]; omega
  | ⟨1, _⟩ => show win2_1.index t 1 * 100 + 1 * i.val = i.val; rw [hi.2.1]; omega
  | ⟨2, _⟩ => show win2_1.index t 2 * 2 + 1 * d.val = d.val; rw [hi.2.2]; omega

/-- The first set's class weights. -/
theorem rows2_2 : rows80 (iblk2 V c 2 t) = fun i k => (V c main_v23 : S32x100x80.Idx → EReal) (ix3 b i k) := by
  have hi := idx2_2 t
  funext i k
  unfold rows80 iblk2
  rw [View.read_apply]
  show V c main_v23 _ = V c main_v23 _
  congr 1
  funext a
  apply Fin.ext
  match a with
  | ⟨0, _⟩ => show win2_2.index t 0 * 1 + 1 * (0 : ℕ) = b.val; rw [hi.1]; omega
  | ⟨1, _⟩ => show win2_2.index t 1 * 100 + 1 * i.val = i.val; rw [hi.2.1]; omega
  | ⟨2, _⟩ => show win2_2.index t 2 * 80 + 1 * k.val = k.val; rw [hi.2.2]; omega

/-- The second set's centres. -/
theorem rows2_3 : rows2 (iblk2 V c 3 t) = fun i d => (V c main_v29 : S32x100x2.Idx → EReal) (ix3 b i d) := by
  have hi := idx2_3 t
  funext i d
  unfold rows2 iblk2
  rw [View.read_apply]
  show V c main_v29 _ = V c main_v29 _
  congr 1
  funext a
  apply Fin.ext
  match a with
  | ⟨0, _⟩ => show win2_3.index t 0 * 1 + 1 * (0 : ℕ) = b.val; rw [hi.1]; omega
  | ⟨1, _⟩ => show win2_3.index t 1 * 100 + 1 * i.val = i.val; rw [hi.2.1]; omega
  | ⟨2, _⟩ => show win2_3.index t 2 * 2 + 1 * d.val = d.val; rw [hi.2.2]; omega

/-- The second set's variances. -/
theorem rows2_4 : rows2 (iblk2 V c 4 t) = fun i d => (V c main_v33 : S32x100x2.Idx → EReal) (ix3 b i d) := by
  have hi := idx2_4 t
  funext i d
  unfold rows2 iblk2
  rw [View.read_apply]
  show V c main_v33 _ = V c main_v33 _
  congr 1
  funext a
  apply Fin.ext
  match a with
  | ⟨0, _⟩ => show win2_4.index t 0 * 1 + 1 * (0 : ℕ) = b.val; rw [hi.1]; omega
  | ⟨1, _⟩ => show win2_4.index t 1 * 100 + 1 * i.val = i.val; rw [hi.2.1]; omega
  | ⟨2, _⟩ => show win2_4.index t 2 * 2 + 1 * d.val = d.val; rw [hi.2.2]; omega

/-- The second set's class weights. -/
theorem rows2_5 : rows80 (iblk2 V c 5 t) = fun i k => (V c main_v23 : S32x100x80.Idx → EReal) (ix3 b i k) := by
  have hi := idx2_5 t
  funext i k
  unfold rows80 iblk2
  rw [View.read_apply]
  show V c main_v23 _ = V c main_v23 _
  congr 1
  funext a
  apply Fin.ext
  match a with
  | ⟨0, _⟩ => show win2_5.index t 0 * 1 + 1 * (0 : ℕ) = b.val; rw [hi.1]; omega
  | ⟨1, _⟩ => show win2_5.index t 1 * 100 + 1 * i.val = i.val; rw [hi.2.1]; omega
  | ⟨2, _⟩ => show win2_5.index t 2 * 80 + 1 * k.val = k.val; rw [hi.2.2]; omega

end Blocks

/-! ## The output -/

/-- The pair sum of image `b` over the arrays the region reads. -/
def ps2 (c : Dev nD) (b : Fin 32) : EReal :=
  pairSum (fun i d => (V c main_v29 : S32x100x2.Idx → EReal) (ix3 b i d))
    (fun i d => (V c main_v33 : S32x100x2.Idx → EReal) (ix3 b i d))
    (fun i k => (V c main_v23 : S32x100x80.Idx → EReal) (ix3 b i k))
    (fun i d => (V c main_v29 : S32x100x2.Idx → EReal) (ix3 b i d))
    (fun i d => (V c main_v33 : S32x100x2.Idx → EReal) (ix3 b i d))
    (fun i k => (V c main_v23 : S32x100x80.Idx → EReal) (ix3 b i k))

/-- What the body leaves in the output block at the point of image `b`: the image's pair sum. -/
theorem point2 (c : Dev nD) (t : Fin cfg2.N) (b : Fin 32) (hb : t.val = b.val) (y : S1x1x1.Idx) :
    ((outsAt2 V c t.val t.isLt).1 : S1x1x1.Idx → EReal) y = ps2 V c b := by
  rw [out_last2, scratch_first2]
  refine (Cert.Pay.step2_apply _ _ _ _ _ _ _ y).trans ?_
  rw [zero2_apply, rows2_0 V c t b hb, rows2_1 V c t b hb, rows2_2 V c t b hb, rows2_3 V c t b hb, rows2_4 V c t b hb,
    rows2_5 V c t b hb, zero32_eq, zero_add, zero_add]
  rfl

/-- Every point writes back, to its image's entry, the image's pair sum. -/
theorem flushed2 (c : Dev nD) (t : Fin cfg2.N) (hf : (cfg2.win 6).flush t = true) :
    (dat2 V c).flushed 6 t
      = ((cfg2.win 6).blk t).view.read (Elt Ideal) (fun i : S32x1x1.Idx => ps2 V c ⟨(i 0).val, (i 0).isLt⟩) := by
  have hN : cfg2.N = 32 := N_2
  have hi := idx2_6 t
  funext y
  rw [View.read_apply]
  show (cfg2.win 6).cut (cfg2.grid.coords t) ((dat2 V c).after 6 t) y = _
  rw [after2_6]
  refine (point2 V c t ⟨t.val, by omega⟩ rfl _).trans (congrArg (ps2 V c) (Fin.ext ?_))
  have hy : (y 0).val < 1 := (y 0).isLt
  show t.val = win2_6.index t 0 * 1 + 1 * (y 0).val
  rw [hi.1]; omega

/-- The region's output array ends holding, at entry `b`, the pair sum of image `b`. -/
theorem region2_value (c : Dev nD) (b : Fin 32) :
    ((dat2 V c).arrAt 6 cfg2.N : S32x1x1.Idx → EReal) (ix3 b 0 0)
      = pairSum (fun i d => (V c main_v29 : S32x100x2.Idx → EReal) (ix3 b i d))
          (fun i d => (V c main_v33 : S32x100x2.Idx → EReal) (ix3 b i d))
          (fun i k => (V c main_v23 : S32x100x80.Idx → EReal) (ix3 b i k))
          (fun i d => (V c main_v29 : S32x100x2.Idx → EReal) (ix3 b i d))
          (fun i d => (V c main_v33 : S32x100x2.Idx → EReal) (ix3 b i d))
          (fun i k => (V c main_v23 : S32x100x80.Idx → EReal) (ix3 b i k)) := by
  have hN : cfg2.N = 32 := N_2
  obtain ⟨t, ht⟩ : ∃ t : Fin cfg2.N, t.val = b.val := ⟨⟨b.val, by omega⟩, rfl⟩
  have hi := idx2_6 t
  refine ((dat2 V c).arrAt_apply_of_mem 6 _ (flushed2 V c) cfg2.N t (ix3 b 0 0) t.isLt (flush2_6 t) ?_).trans ?_
  · show (ix3 b 0 0 : S32x1x1.Idx) ∈ ((View.whole main_v38).slice (win2_6.rect t)).set
    rw [View.set_slice_whole, Rect.mem_set_unit]
    intro a
    match a with
    | ⟨0, _⟩ =>
      show win2_6.index t 0 * 1 ≤ b.val ∧ b.val < win2_6.index t 0 * 1 + 1
      rw [hi.1]; omega
    | ⟨1, _⟩ =>
      show win2_6.index t 1 * 1 ≤ 0 ∧ 0 < win2_6.index t 1 * 1 + 1
      rw [hi.2.1]; omega
    | ⟨2, _⟩ =>
      show win2_6.index t 2 * 1 ≤ 0 ∧ 0 < win2_6.index t 2 * 1 + 1
      rw [hi.2.2]; omega
  · rfl

end Cert.KVal

end
-- ==== Proof.KernelLoss.lean ====
/-
  The tiled program's result is the loss of the six arrays.

  The program's tail forms, per image, 2·log pq − log pp − log qq of the three regions' entries for the image, sums
  the images from zero and negates. Each region's entry for image b is a pair sum over the arrays the region finds:
  the second region's is ground truth × predictions, the third's ground truth × ground truth, the first's
  predictions × predictions. Every region finds the six arrays as the program's prefix left them, and those are the
  plain program's six arrays of the arguments. So the result is the loss of those six arrays.
-/
import proofs.«120005_j50079318672069_1_alg».proof.Proof.Whole
import proofs.«120005_j50079318672069_1_alg».proof.Proof.HostSide
import proofs.«120005_j50079318672069_1_alg».proof.Proof.HostTail
import proofs.«120005_j50079318672069_1_alg».proof.Proof.KVal0
import proofs.«120005_j50079318672069_1_alg».proof.Proof.KVal1
import proofs.«120005_j50079318672069_1_alg».proof.Proof.KVal2

noncomputable section

namespace Cert.KVal

open Idealize.ShloMosaic Idealize.ShloMosaic.TcCoe Idealize.SL.Sem Idealize.ShloMosaic.ValueIdx
open Cert.KernelIdeal Cert.KernelIdeal.Gen Cert.KernelIdeal.GenR Cert.CS

variable (m : (ℓ : Loc nD τ sig) → Buf (Elt Ideal) ℓ) (c : Dev nD)

/-! ## The arrays each region finds are the plain program's -/

section First
theorem pm_VA (b : Fin 32) :
    (fun (i : Fin 1000) (d : Fin 2) => (VA m c main_v24 : S32x1000x2.Idx → EReal) (ix3 b i d))
      = Cert.RefLoss.pm (m ((c.tc : Thread nD τ).loc main_arg0)) b := by
  rw [← pm_eq m c]
  rfl
theorem pv_VA (b : Fin 32) :
    (fun (i : Fin 1000) (d : Fin 2) => (VA m c main_v28 : S32x1000x2.Idx → EReal) (ix3 b i d))
      = Cert.RefLoss.pv (m ((c.tc : Thread nD τ).loc main_arg0)) b := by
  rw [← pv_eq m c]
  rfl
theorem pa_VA (b : Fin 32) :
    (fun (i : Fin 1000) (k : Fin 80) => (VA m c main_v22 : S32x1000x80.Idx → EReal) (ix3 b i k))
      = Cert.RefLoss.pa (m ((c.tc : Thread nD τ).loc main_arg1)) b := by
  rw [← pa_eq m c]
  rfl
end First

section Second
theorem pm_VB (b : Fin 32) :
    (fun (i : Fin 1000) (d : Fin 2) => (VB m c main_v24 : S32x1000x2.Idx → EReal) (ix3 b i d))
      = Cert.RefLoss.pm (m ((c.tc : Thread nD τ).loc main_arg0)) b := by
  rw [← pm_eq m c]
  exact funext fun _ => funext fun _ => congrFun (V5_v24 m c (outs1 m)) _
theorem pv_VB (b : Fin 32) :
    (fun (i : Fin 1000) (d : Fin 2) => (VB m c main_v28 : S32x1000x2.Idx → EReal) (ix3 b i d))
      = Cert.RefLoss.pv (m ((c.tc : Thread nD τ).loc main_arg0)) b := by
  rw [← pv_eq m c]
  exact funext fun _ => funext fun _ => congrFun (V5_v28 m c (outs1 m)) _
theorem pa_VB (b : Fin 32) :
    (fun (i : Fin 1000) (k : Fin 80) => (VB m c main_v22 : S32x1000x80.Idx → EReal) (ix3 b i k))
      = Cert.RefLoss.pa (m ((c.tc : Thread nD τ).loc main_arg1)) b := by
  rw [← pa_eq m c]
  exact funext fun _ => funext fun _ => congrFun (V5_v22 m c (outs1 m)) _
theorem gm_VB (b : Fin 32) :
    (fun (i : Fin 100) (d : Fin 2) => (VB m c main_v29 : S32x100x2.Idx → EReal) (ix3 b i d))
      = Cert.RefLoss.gm (m ((c.tc : Thread nD τ).loc main_arg2)) b := by
  rw [← gm_eq m c]
  exact funext fun _ => funext fun _ => congrFun (V5_v29 m c (outs1 m)) _
theorem gv_VB (b : Fin 32) :
    (fun (i : Fin 100) (d : Fin 2) => (VB m c main_v33 : S32x100x2.Idx → EReal) (ix3 b i d))
      = Cert.RefLoss.gv (m ((c.tc : Thread nD τ).loc main_arg2)) b := by
  rw [← gv_eq m c]
  exact funext fun _ => funext fun _ => congrFun (V5_v33 m c (outs1 m)) _
theorem ga_VB (b : Fin 32) :
    (fun (i : Fin 100) (k : Fin 80) => (VB m c main_v23 : S32x100x80.Idx → EReal) (ix3 b i k))
      = Cert.RefLoss.ga (m ((c.tc : Thread nD τ).loc main_arg3)) b := by
  rw [← ga_eq m c]
  exact funext fun _ => funext fun _ => congrFun (V5_v23 m c (outs1 m)) _
end Second

section Third
theorem gm_VC (b : Fin 32) :
    (fun (i : Fin 100) (d : Fin 2) => (VC m c main_v29 : S32x100x2.Idx → EReal) (ix3 b i d))
      = Cert.RefLoss.gm (m ((c.tc : Thread nD τ).loc main_arg2)) b := by
  rw [← gm_eq m c]
  exact funext fun _ => funext fun _ => congrFun (V7_v29 m c (outs2 m)) _
theorem gv_VC (b : Fin 32) :
    (fun (i : Fin 100) (d : Fin 2) => (VC m c main_v33 : S32x100x2.Idx → EReal) (ix3 b i d))
      = Cert.RefLoss.gv (m ((c.tc : Thread nD τ).loc main_arg2)) b := by
  rw [← gv_eq m c]
  exact funext fun _ => funext fun _ => congrFun (V7_v33 m c (outs2 m)) _
theorem ga_VC (b : Fin 32) :
    (fun (i : Fin 100) (k : Fin 80) => (VC m c main_v23 : S32x100x80.Idx → EReal) (ix3 b i k))
      = Cert.RefLoss.ga (m ((c.tc : Thread nD τ).loc main_arg3)) b := by
  rw [← ga_eq m c]
  exact funext fun _ => funext fun _ => congrFun (V7_v23 m c (outs2 m)) _
end Third

/-! ## The three regions' entries for image b -/

/-- The first region's entry: predictions × predictions. -/
theorem entry_pp (b : Fin 32) :
    (outsF m 4 main_v34 c : S32x1x1.Idx → EReal) (ix3 b 0 0)
      = pairSum (Cert.RefLoss.pm (m ((c.tc : Thread nD τ).loc main_arg0)) b) (Cert.RefLoss.pv (m ((c.tc : Thread nD τ).loc main_arg0)) b) (Cert.RefLoss.pa (m ((c.tc : Thread nD τ).loc main_arg1)) b) (Cert.RefLoss.pm (m ((c.tc : Thread nD τ).loc main_arg0)) b) (Cert.RefLoss.pv (m ((c.tc : Thread nD τ).loc main_arg0)) b) (Cert.RefLoss.pa (m ((c.tc : Thread nD τ).loc main_arg1)) b) := by
  have e : outsF m 4 main_v34 c = out4 m c := outsOf_v34 m _ _ _ 4 c
  have h := region0_value (VA m) c b
  rw [pm_VA m c b, pv_VA m c b, pa_VA m c b] at h
  exact (congrFun e _).trans h

/-- The second region's entry: ground truth × predictions. -/
theorem entry_gp (b : Fin 32) :
    (outsF m 6 main_v36 c : S32x1x1.Idx → EReal) (ix3 b 0 0)
      = pairSum (Cert.RefLoss.gm (m ((c.tc : Thread nD τ).loc main_arg2)) b) (Cert.RefLoss.gv (m ((c.tc : Thread nD τ).loc main_arg2)) b) (Cert.RefLoss.ga (m ((c.tc : Thread nD τ).loc main_arg3)) b) (Cert.RefLoss.pm (m ((c.tc : Thread nD τ).loc main_arg0)) b) (Cert.RefLoss.pv (m ((c.tc : Thread nD τ).loc main_arg0)) b) (Cert.RefLoss.pa (m ((c.tc : Thread nD τ).loc main_arg1)) b) := by
  have e : outsF m 6 main_v36 c = out6 m c := outsOf_v36 m _ _ _ 6 c
  have h := region1_value (VB m) c b
  rw [gm_VB m c b, gv_VB m c b, ga_VB m c b, pm_VB m c b, pv_VB m c b, pa_VB m c b] at h
  exact (congrFun e _).trans h

/-- The third region's entry: ground truth × ground truth. -/
theorem entry_gg (b : Fin 32) :
    (outsF m 8 main_v38 c : S32x1x1.Idx → EReal) (ix3 b 0 0)
      = pairSum (Cert.RefLoss.gm (m ((c.tc : Thread nD τ).loc main_arg2)) b) (Cert.RefLoss.gv (m ((c.tc : Thread nD τ).loc main_arg2)) b) (Cert.RefLoss.ga (m ((c.tc : Thread nD τ).loc main_arg3)) b) (Cert.RefLoss.gm (m ((c.tc : Thread nD τ).loc main_arg2)) b) (Cert.RefLoss.gv (m ((c.tc : Thread nD τ).loc main_arg2)) b) (Cert.RefLoss.ga (m ((c.tc : Thread nD τ).loc main_arg3)) b) := by
  have e : outsF m 8 main_v38 c = out8 m c := outsOf_v38 m _ _ _ 8 c
  have h := region2_value (VC m) c b
  rw [gm_VC m c b, gv_VC m c b, ga_VC m c b] at h
  exact (congrFun e _).trans h

/-- THE RESULT: the loss of the plain program's six arrays of the arguments. -/
theorem kernel_result (y : S_.Idx) :
    (V9 (F := Ideal) m (Cert.KernelIdeal.GenR.outsF m) c main_v48 : S_.Idx → EReal) y
      = Cert.CS.loss (Cert.RefLoss.pm (m ((c.tc : Thread nD τ).loc main_arg0))) (Cert.RefLoss.pv (m ((c.tc : Thread nD τ).loc main_arg0)))
          (Cert.RefLoss.pa (m ((c.tc : Thread nD τ).loc main_arg1))) (Cert.RefLoss.gm (m ((c.tc : Thread nD τ).loc main_arg2)))
          (Cert.RefLoss.gv (m ((c.tc : Thread nD τ).loc main_arg2))) (Cert.RefLoss.ga (m ((c.tc : Thread nD τ).loc main_arg3))) := by
  refine (tail_val m c (outsF m) y).trans ?_
  unfold Cert.CS.loss
  refine congrArg (Neg.neg : EReal → EReal) (congrArg ((zero32 : EReal) + ·) (Finset.sum_congr rfl fun b _ => ?_))
  rw [entry_gp m c b, entry_gg m c b, entry_pp m c b]

end Cert.KVal

end
-- ==== Proof.PreFacts.lean ====
/-
  What the precondition says of the arrays, entry by entry, at the extended reals.

  The precondition is a conjunction of five `all`s: every entry of the predicted boxes, of the class scores and of the
  ground-truth boxes is below `+∞` in absolute value, and every width and height — the last two of a box's four
  entries — of the predicted and of the ground-truth boxes is different from zero. An `all` that holds holds at every
  index; an extended real whose absolute value `max x (-x)` is below `⊤` is a real; so every width and height is a
  nonzero real. The variance of an axis is the square of half the width or height: a nonzero real halved and squared
  is not zero.
-/
import proofs.«120005_j50079318672069_1_alg».proof.Pre_finite_inputs
import proofs.«120005_j50079318672069_1_alg».proof.Proof.Spec
import Idealize.ShloMosaic.Lib.ReduceAll
import Idealize.ShloMosaic.Lib.IdealHost
import Idealize.ShloMosaic.Lib.Pipeline.Value

noncomputable section

namespace Cert.PreFacts

open Idealize.ShloMosaic Cert.Pre_finite_inputs

/-- The scalar shape has one index. -/
instance : Subsingleton S_.Idx := ⟨fun a b => funext fun d => d.elim0⟩

/-- A truth value as a one-bit word is 1 exactly when it is true. -/
theorem ofBool_eq_one (b : Bool) : BitVec.ofBool b = 1#1 ↔ b = true := by cases b <;> decide

/-- An extended real whose absolute value is below `+∞` is a real. -/
theorem real_of_abs_lt_top {x : EReal}
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  rw [ofBool_eq_one] at h
  induction x using EReal.rec with
  | bot => simp at h
  | coe r => exact ⟨r, rfl⟩
  | top => simp at h

/-- An extended real that compares unequal to the zero word is not zero. -/
theorem ne_zero_of_une {x : EReal}
    (h : Ideal.cmp .une x (Ideal.ofBits .f32 0x00000000#32) = 1#1) : x ≠ 0 := by
  rw [Ideal.ofBits_zero_f32] at h
  unfold Ideal.cmp at h
  rw [ofBool_eq_one] at h
  simpa using h

variable [Cert.Pre_finite_inputs.Facts]

/-- The precondition's five conjuncts, each at every index: the three arrays' entries are reals, and the widths and
    heights (entries 2 and 3 of a box, read through the slice from 2) are not zero. -/
theorem decode (x0 : FVec Ideal S32x1000x4 .f32) (x1 : FVec Ideal S32x1000x81 .f32) (x2 : FVec Ideal S32x100x4 .f32)
    (x3 : IVec S32x100 32) (h : fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal))
      ∧ (∀ j, extractStridedSlice S32x1000x2 ![0, 0, 2] x0 Facts.slices_S32x1000x4_S32x1000x2_0_0_2 j ≠ 0)
      ∧ (∀ j, extractStridedSlice S32x100x2 ![0, 0, 2] x2 Facts.slices_S32x100x4_S32x100x2_0_0_2 j ≠ 0) := by
  have e := congrFun h ValueIdx.ix0
  dsimp only [fn, fn_part1] at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  refine ⟨fun i => ?_, fun i => ?_, fun i => ?_, fun j => ?_, fun j => ?_⟩
  · exact real_of_abs_lt_top (Host.reduce_andi_all _ _ _ _ _ e0 i)
  · exact real_of_abs_lt_top (Host.reduce_andi_all _ _ _ _ _ e1 i)
  · exact real_of_abs_lt_top (Host.reduce_andi_all _ _ _ _ _ e2 i)
  · exact ne_zero_of_une (Host.reduce_andi_all _ _ _ _ _ e3 j)
  · exact ne_zero_of_une (Host.reduce_andi_all _ _ _ _ _ e4 j)

/-- Entry `d + 2` of a box of a `[32, N, 4]` array is entry `d` of the slice from 2 along the last axis. -/
theorem slice_at {N : ℕ} (x : (⟨3, ![32, N, 4]⟩ : Shape).Idx → EReal)
    (hs : (⟨3, ![32, N, 4]⟩ : Shape).Slices ![0, 0, 2] ⟨3, ![32, N, 2]⟩) (b : Fin 32) (n : Fin N) (d : Fin 2) :
    extractStridedSlice ⟨3, ![32, N, 2]⟩ ![0, 0, 2] x hs (ValueIdx.ix3 b n d)
      = x (ValueIdx.ix3 b n ⟨d.val + 2, by omega⟩) := by
  refine extractStridedSlice_apply _ _ _ _ _ fun a => ?_
  match a with
  | ⟨0, _⟩ => show b.val = 0 + b.val; omega
  | ⟨1, _⟩ => show n.val = 0 + n.val; omega
  | ⟨2, _⟩ => show d.val + 2 = 2 + d.val; omega

/-- Every width and height of a predicted box is a nonzero real. -/
theorem wh_pred (x0 : FVec Ideal S32x1000x4 .f32) (x1 : FVec Ideal S32x1000x81 .f32) (x2 : FVec Ideal S32x100x4 .f32)
    (x3 : IVec S32x100 32) (h : fn (F := Ideal) x0 x1 x2 x3 = fun _ => 1#1) (b : Fin 32) (n : Fin 1000) (d : Fin 2) :
    ∃ r : ℝ, r ≠ 0 ∧ x0 (ValueIdx.ix3 b n ⟨d.val + 2, by omega⟩) = (r : EReal) := by
  obtain ⟨f0, -, -, g0, -⟩ := decode x0 x1 x2 x3 h
  obtain ⟨r, hr⟩ := f0 (ValueIdx.ix3 b n ⟨d.val + 2, by omega⟩)
  have hne := g0 (ValueIdx.ix3 b n d)
  rw [slice_at x0 _ b n d, hr] at hne
  exact ⟨r, fun h0 => hne (by rw [h0]; rfl), hr⟩

/-- Every width and height of a ground-truth box is a nonzero real. -/
theorem wh_gt (x0 : FVec Ideal S32x1000x4 .f32) (x1 : FVec Ideal S32x1000x81 .f32) (x2 : FVec Ideal S32x100x4 .f32)
    (x3 : IVec S32x100 32) (h : fn (F := Ideal) x0 x1 x2 x3 = fun _ => 1#1) (b : Fin 32) (n : Fin 100) (d : Fin 2) :
    ∃ r : ℝ, r ≠ 0 ∧ x2 (ValueIdx.ix3 b n ⟨d.val + 2, by omega⟩) = (r : EReal) := by
  obtain ⟨-, -, f2, -, g2⟩ := decode x0 x1 x2 x3 h
  obtain ⟨r, hr⟩ := f2 (ValueIdx.ix3 b n ⟨d.val + 2, by omega⟩)
  have hne := g2 (ValueIdx.ix3 b n d)
  rw [slice_at x2 _ b n d, hr] at hne
  exact ⟨r, fun h0 => hne (by rw [h0]; rfl), hr⟩

omit [Cert.Pre_finite_inputs.Facts] in
/-- The word `0x40000000` denotes the real 2. -/
theorem two32_eq : Cert.CS.two32 = ((2 : ℝ) : EReal) := by
  simp [Ideal.ofBits, Ideal.ieee, -EReal.coe_mul]; norm_num

omit [Cert.Pre_finite_inputs.Facts] in
/-- Half a nonzero real, squared, is not zero. -/
theorem sq_half_ne_zero {x : EReal} (r : ℝ) (hr : r ≠ 0) (hx : x = (r : EReal)) :
    Ideal.div x Cert.CS.two32 * Ideal.div x Cert.CS.two32 ≠ 0 := by
  subst hx
  rw [two32_eq, Ideal.div_coe (by norm_num : (2 : ℝ) ≠ 0), ← EReal.coe_mul, ← EReal.coe_mul]
  have h2 : r * (1 / 2) ≠ 0 := mul_ne_zero hr (by norm_num)
  exact_mod_cast mul_ne_zero h2 h2

end Cert.PreFacts

end
-- ==== Proof.RefLoss.Reduce2.lean ====
/-
  A sum over the two trailing axes of a rank-3 array, read at an index.

  The exact sum of an array over a list of axes puts, at each index of the result, the initial value plus the sum of
  the operand's elements whose index drops to it. For a rank-3 array `[n0, n1, n2]` summed over its axes 1 and 2 the
  elements dropping to `b` are those at `(b, i, j)`, so the result at `b` is the initial value plus the double sum
  `∑ i, ∑ j` of the operand at `(b, i, j)` (`hostReduceAdd_trailing2`). Also: a sum over a rank-1 or rank-3 index set
  as the iterated sum over its coordinates.
-/
import Idealize.ShloMosaic.PureOps.Ideal.Laws
import Idealize.ShloMosaic.Lib.ValueIdx

noncomputable section

namespace Cert.RefLoss

open Idealize.ShloMosaic Idealize.ShloMosaic.ValueIdx

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Dropping the two trailing coordinates of `(a, i, j)` leaves `a`. -/
theorem drop_trailing2 {n0 n1 n2 : Nat} (h : (⟨3, ![n0, n1, n2]⟩ : Shape).ReducesTo [1, 2] ⟨1, ![n0]⟩)
    (a : Fin n0) (i : Fin n1) (j : Fin n2) : h.drop (ix3 a i j) = ix1 a := by
  funext d
  match d with
  | ⟨0, _⟩ => exact Fin.ext rfl

/-- The exact sum of a rank-3 array over its axes 1 and 2, at `b`: the initial value plus `∑ i, ∑ j` of the array at
    `(b, i, j)`. -/
theorem hostReduceAdd_trailing2 {n0 n1 n2 : Nat} (h : (⟨3, ![n0, n1, n2]⟩ : Shape).ReducesTo [1, 2] ⟨1, ![n0]⟩)
    (x : (⟨3, ![n0, n1, n2]⟩ : Shape).Idx → EReal) (init : EReal) (b : Fin n0) :
    Ideal.hostReduceAdd h x init (ix1 b) = init + ∑ i : Fin n1, ∑ j : Fin n2, x (ix3 b i j) := by
  unfold Ideal.hostReduceAdd
  congr 1
  rw [Finset.sum_filter, sum_idx3, Finset.sum_eq_single b]
  · refine Finset.sum_congr rfl fun i _ => Finset.sum_congr rfl fun j _ => ?_
    rw [if_pos (drop_trailing2 h b i j)]
  · intro a _ hab
    refine Finset.sum_eq_zero fun i _ => Finset.sum_eq_zero fun j _ => ?_
    rw [if_neg]
    rw [drop_trailing2 h a i j]
    intro e
    exact hab (congrFun e 0)
  · intro hb
    exact absurd (Finset.mem_univ b) hb

end Cert.RefLoss

end
-- ==== Proof.RefLoss.PairGP.lean ====
/-
  The pair sum of the ground-truth boxes with the predicted boxes, read off the reference program.

  For image `b`, ground-truth box `i` and predicted box `j`: the inverse variances of the two boxes and their sum
  per axis, the combined centre per axis, the three two-axis sums of squares and the three of logarithms (each an
  initial zero plus the sum over the two axes) make up the exponent in its quotient spelling `deltaR`; the weight is
  the inner product of the two class-weight rows; their product with the exponential is one term of the pair sum, and
  the sum over `(i, j)` from zero is the pair sum.
-/
import proofs.«120005_j50079318672069_1_alg».proof.Proof.RefLoss.Arrays
import proofs.«120005_j50079318672069_1_alg».proof.Proof.RefLoss.Reduce2

noncomputable section

namespace Cert.RefLoss.GP

open Cert.ReferenceIdeal Cert.ReferenceIdeal.Read Idealize.ShloMosaic Idealize.ShloMosaic.ValueIdx Cert.CS Cert.RefLoss

/-- Two index functions of rank 2, 3 or 4 agree when their coordinates do, coordinate by coordinate. -/
local macro "idx2" : tactic => `(tactic| exact funext fun a => Fin.ext (by
  match a with
  | ⟨0, _⟩ => rfl
  | ⟨1, _⟩ => rfl))
local macro "idx3" : tactic => `(tactic| exact funext fun a => Fin.ext (by
  match a with
  | ⟨0, _⟩ => rfl
  | ⟨1, _⟩ => rfl
  | ⟨2, _⟩ => rfl))
local macro "idx4" : tactic => `(tactic| exact funext fun a => Fin.ext (by
  match a with
  | ⟨0, _⟩ => rfl
  | ⟨1, _⟩ => rfl
  | ⟨2, _⟩ => rfl
  | ⟨3, _⟩ => rfl))

variable (x0 : FVec Ideal S32x1000x4 .f32) (x1 : FVec Ideal S32x1000x81 .f32) (x2 : FVec Ideal S32x100x4 .f32)
  (x3 : IVec S32x100 32) (b : Fin 32) (i : Fin 100) (j : Fin 1000) (d : Fin 2)

/-- The row box's inverse variance on axis `d`. -/
theorem ci_at : val_main_v42 (F := Ideal) x2 (ix4 b i j d) = Ideal.div one32 (gv x2 b i d) := by
  have e : idx_main_v36 (idx_main_v42 (ix4 b i j d)) = ix3 b i d := by idx3
  rw [val_main_v42_apply, val_main_v38_apply, val_main_v37_apply, val_main_cst_6_apply, val_main_v36_apply, e]
  rfl

/-- The column box's inverse variance on axis `d`. -/
theorem cj_at : val_main_v43 (F := Ideal) x0 (ix4 b i j d) = Ideal.div one32 (pv x0 b j d) := by
  have e : idx_main_v39 (idx_main_v43 (ix4 b i j d)) = ix3 b j d := by idx3
  rw [val_main_v43_apply, val_main_v41_apply, val_main_v40_apply, val_main_cst_7_apply, val_main_v39_apply, e]
  rfl

/-- The sum of the two inverse variances. -/
theorem s_at : val_main_v44 (F := Ideal) x0 x2 (ix4 b i j d)
    = Ideal.div one32 (gv x2 b i d) + Ideal.div one32 (pv x0 b j d) := by
  rw [val_main_v44_apply, ci_at, cj_at]
  rfl

/-- The row box's centre times its inverse variance. -/
theorem mci_at : val_main_v49 (F := Ideal) x2 (ix4 b i j d) = gm x2 b i d * Ideal.div one32 (gv x2 b i d) := by
  have e1 : idx_main_v45 (idx_main_v49 (ix4 b i j d)) = ix3 b i d := by idx3
  have e2 : idx_main_v36 (idx_main_v49 (ix4 b i j d)) = ix3 b i d := by idx3
  rw [val_main_v49_apply, val_main_v46_apply, val_main_v45_apply, val_main_v38_apply, val_main_v37_apply,
    val_main_cst_6_apply, val_main_v36_apply, e1, e2]
  rfl

/-- The column box's centre times its inverse variance. -/
theorem mcj_at : val_main_v50 (F := Ideal) x0 (ix4 b i j d) = pm x0 b j d * Ideal.div one32 (pv x0 b j d) := by
  have e1 : idx_main_v47 (idx_main_v50 (ix4 b i j d)) = ix3 b j d := by idx3
  have e2 : idx_main_v39 (idx_main_v50 (ix4 b i j d)) = ix3 b j d := by idx3
  rw [val_main_v50_apply, val_main_v48_apply, val_main_v47_apply, val_main_v41_apply, val_main_v40_apply,
    val_main_cst_7_apply, val_main_v39_apply, e1, e2]
  rfl

/-- The combined centre squared times the summed inverse variance, on axis `d`. -/
theorem quad_at : val_main_v54 (F := Ideal) x0 x2 (ix4 b i j d)
    = Ideal.div (gm x2 b i d * Ideal.div one32 (gv x2 b i d) + pm x0 b j d * Ideal.div one32 (pv x0 b j d))
          (Ideal.div one32 (gv x2 b i d) + Ideal.div one32 (pv x0 b j d))
        * Ideal.div (gm x2 b i d * Ideal.div one32 (gv x2 b i d) + pm x0 b j d * Ideal.div one32 (pv x0 b j d))
          (Ideal.div one32 (gv x2 b i d) + Ideal.div one32 (pv x0 b j d))
        * (Ideal.div one32 (gv x2 b i d) + Ideal.div one32 (pv x0 b j d)) := by
  rw [val_main_v54_apply, val_main_v53_apply, val_main_v52_apply, val_main_v51_apply, s_at, mci_at, mcj_at]
  rfl

/-- Its sum over the two axes, from zero. -/
theorem quadSum_at : val_main_v55 (F := Ideal) x0 x2 (ix3 b i j)
    = zero32 + (val_main_v54 (F := Ideal) x0 x2 (ix4 b i j 0) + val_main_v54 (F := Ideal) x0 x2 (ix4 b i j 1)) := by
  have e0 : idx_main_v55 (ix3 b i j) 0 = ix4 b i j 0 := by idx4
  have e1 : idx_main_v55 (ix3 b i j) 1 = ix4 b i j 1 := by idx4
  rw [val_main_v55_apply, Fin.sum_univ_two, e0, e1]
  rfl

/-- The row box's `q`: its squared centre over its variance, summed over the two axes from zero. -/
theorem qi_at : val_main_v60 (F := Ideal) x2 (ix3 b i j)
    = zero32 + (Ideal.div (gm x2 b i 0 * gm x2 b i 0) (gv x2 b i 0) + Ideal.div (gm x2 b i 1 * gm x2 b i 1) (gv x2 b i 1)) := by
  have e : idx_main_v59 (idx_main_v60 (ix3 b i j)) = ix2 b i := by idx2
  have e0 : idx_main_v58 (ix2 b i) 0 = ix3 b i 0 := by idx3
  have e1 : idx_main_v58 (ix2 b i) 1 = ix3 b i 1 := by idx3
  rw [val_main_v60_apply, val_main_v59_apply, e, val_main_v58_apply, Fin.sum_univ_two, e0, e1,
    val_main_v57_apply, val_main_v57_apply, val_main_v56_apply, val_main_v56_apply]
  rfl

/-- The column box's `q`. -/
theorem qj_at : val_main_v66 (F := Ideal) x0 (ix3 b i j)
    = zero32 + (Ideal.div (pm x0 b j 0 * pm x0 b j 0) (pv x0 b j 0) + Ideal.div (pm x0 b j 1 * pm x0 b j 1) (pv x0 b j 1)) := by
  have e : idx_main_v65 (idx_main_v66 (ix3 b i j)) = ix2 b j := by idx2
  have e0 : idx_main_v64 (ix2 b j) 0 = ix3 b j 0 := by idx3
  have e1 : idx_main_v64 (ix2 b j) 1 = ix3 b j 1 := by idx3
  rw [val_main_v66_apply, val_main_v65_apply, e, val_main_v64_apply, Fin.sum_univ_two, e0, e1,
    val_main_v63_apply, val_main_v63_apply, val_main_v62_apply, val_main_v62_apply]
  rfl

/-- The logarithms of the summed inverse variances, summed over the two axes from zero. -/
theorem logS_at : val_main_v69 (F := Ideal) x0 x2 (ix3 b i j)
    = zero32 + (Ideal.log (val_main_v44 (F := Ideal) x0 x2 (ix4 b i j 0)) + Ideal.log (val_main_v44 (F := Ideal) x0 x2 (ix4 b i j 1))) := by
  have e0 : idx_main_v69 (ix3 b i j) 0 = ix4 b i j 0 := by idx4
  have e1 : idx_main_v69 (ix3 b i j) 1 = ix4 b i j 1 := by idx4
  rw [val_main_v69_apply, Fin.sum_univ_two, e0, e1, val_main_v68_apply, val_main_v68_apply]
  rfl

/-- The row box's `ℓ`: the logarithms of its variances summed from zero. -/
theorem li_at : val_main_v73 (F := Ideal) x2 (ix3 b i j)
    = zero32 + (Ideal.log (gv x2 b i 0) + Ideal.log (gv x2 b i 1)) := by
  have e : idx_main_v72 (idx_main_v73 (ix3 b i j)) = ix2 b i := by idx2
  have e0 : idx_main_v71 (ix2 b i) 0 = ix3 b i 0 := by idx3
  have e1 : idx_main_v71 (ix2 b i) 1 = ix3 b i 1 := by idx3
  rw [val_main_v73_apply, val_main_v72_apply, e, val_main_v71_apply, Fin.sum_univ_two, e0, e1,
    val_main_v70_apply, val_main_v70_apply]
  rfl

/-- The column box's `ℓ`. -/
theorem lj_at : val_main_v78 (F := Ideal) x0 (ix3 b i j)
    = zero32 + (Ideal.log (pv x0 b j 0) + Ideal.log (pv x0 b j 1)) := by
  have e : idx_main_v77 (idx_main_v78 (ix3 b i j)) = ix2 b j := by idx2
  have e0 : idx_main_v76 (ix2 b j) 0 = ix3 b j 0 := by idx3
  have e1 : idx_main_v76 (ix2 b j) 1 = ix3 b j 1 := by idx3
  rw [val_main_v78_apply, val_main_v77_apply, e, val_main_v76_apply, Fin.sum_univ_two, e0, e1,
    val_main_v75_apply, val_main_v75_apply]
  rfl

/-- The pair's exponent, in the quotient spelling. -/
theorem delta_at : val_main_v84 (F := Ideal) x0 x2 (ix3 b i j)
    = deltaR (gm x2 b i 0) (gm x2 b i 1) (gv x2 b i 0) (gv x2 b i 1) (pm x0 b j 0) (pm x0 b j 1) (pv x0 b j 0) (pv x0 b j 1) := by
  rw [val_main_v84_apply, val_main_v83_apply, val_main_cst_15_apply, val_main_v82_apply, val_main_v81_apply,
    val_main_cst_14_apply, val_main_v80_apply, val_main_v79_apply, val_main_v74_apply, val_main_v67_apply,
    val_main_v61_apply, quadSum_at, quad_at, quad_at, qi_at, qj_at, logS_at, s_at, s_at, li_at, lj_at]
  rfl

/-- The pair's weight: the inner product of the two class-weight rows. -/
theorem wt_at : val_main_v35 (F := Ideal) x1 x3 (ix3 b i j) = wt (ga x3 b) (pa x1 b) i j := by
  rw [val_main_v35_apply]
  unfold Cert.CS.wt
  refine Finset.sum_congr rfl fun k _ => ?_
  have el : lidx_main_v35 (ix3 b i j) k = ix3 b i k := by idx3
  have er : idx_main_v34 (ridx_main_v35 (ix3 b i j) k) = ix3 b j k := by idx3
  rw [val_main_v34_apply, el, er]
  rfl

/-- One term of the pair sum, where no variance is zero. -/
theorem term_at (hpv : ∀ b n d, pv x0 b n d ≠ 0) (hgv : ∀ b n d, gv x2 b n d ≠ 0) :
    val_main_v86 (F := Ideal) x0 x1 x2 x3 (ix3 b i j)
      = term (gm x2 b) (gv x2 b) (ga x3 b) (pm x0 b) (pv x0 b) (pa x1 b) i j := by
  rw [val_main_v86_apply, val_main_v85_apply, wt_at, delta_at,
    deltaR_eq_deltaK (hgv b i 0) (hgv b i 1) (hpv b j 0) (hpv b j 1)]
  rfl

/-- The pair sum of image `b`. -/
theorem pairSum_at (hpv : ∀ b n d, pv x0 b n d ≠ 0) (hgv : ∀ b n d, gv x2 b n d ≠ 0) :
    val_main_v87 (F := Ideal) x0 x1 x2 x3 (ix1 b)
      = pairSum (gm x2 b) (gv x2 b) (ga x3 b) (pm x0 b) (pv x0 b) (pa x1 b) := by
  have ht : ∀ i j, val_main_v86 (F := Ideal) x0 x1 x2 x3 (ix3 b i j)
      = term (gm x2 b) (gv x2 b) (ga x3 b) (pm x0 b) (pv x0 b) (pa x1 b) i j :=
    fun i j => term_at x0 x1 x2 x3 b i j hpv hgv
  unfold val_main_v87
  generalize val_main_v86 (F := Ideal) x0 x1 x2 x3 = y at ht ⊢
  simp only [Host.reduceAdd, Ideal.hostReduceAdd_def]
  rw [hostReduceAdd_trailing2, val_main_cst_16_apply]
  unfold Cert.CS.pairSum
  simp only [ht]
  exact (congrArg (· + _) zero32_eq).trans (zero_add _)

end Cert.RefLoss.GP

end
-- ==== Proof.RefLoss.PairGG.lean ====
/-
  The pair sum of the ground-truth boxes with themselves, read off the reference program.

  For image `b` and ground-truth boxes `i` and `j`: the inverse variances of the two boxes and their sum
  per axis, the combined centre per axis, the three two-axis sums of squares and the three of logarithms (each an
  initial zero plus the sum over the two axes) make up the exponent in its quotient spelling `deltaR`; the weight is
  the inner product of the two class-weight rows; their product with the exponential is one term of the pair sum, and
  the sum over `(i, j)` from zero is the pair sum.
-/
import proofs.«120005_j50079318672069_1_alg».proof.Proof.RefLoss.Arrays
import proofs.«120005_j50079318672069_1_alg».proof.Proof.RefLoss.Reduce2

noncomputable section

namespace Cert.RefLoss.GG

open Cert.ReferenceIdeal Cert.ReferenceIdeal.Read Idealize.ShloMosaic Idealize.ShloMosaic.ValueIdx Cert.CS Cert.RefLoss

/-- Two index functions of rank 2, 3 or 4 agree when their coordinates do, coordinate by coordinate. -/
local macro "idx2" : tactic => `(tactic| exact funext fun a => Fin.ext (by
  match a with
  | ⟨0, _⟩ => rfl
  | ⟨1, _⟩ => rfl))
local macro "idx3" : tactic => `(tactic| exact funext fun a => Fin.ext (by
  match a with
  | ⟨0, _⟩ => rfl
  | ⟨1, _⟩ => rfl
  | ⟨2, _⟩ => rfl))
local macro "idx4" : tactic => `(tactic| exact funext fun a => Fin.ext (by
  match a with
  | ⟨0, _⟩ => rfl
  | ⟨1, _⟩ => rfl
  | ⟨2, _⟩ => rfl
  | ⟨3, _⟩ => rfl))

variable (x2 : FVec Ideal S32x100x4 .f32) (x3 : IVec S32x100 32) (b : Fin 32) (i : Fin 100) (j : Fin 100) (d : Fin 2)

/-- The row box's inverse variance on axis `d`. -/
theorem ci_at : val_main_v96 (F := Ideal) x2 (ix4 b i j d) = Ideal.div one32 (gv x2 b i d) := by
  have e : idx_main_v90 (idx_main_v96 (ix4 b i j d)) = ix3 b i d := by idx3
  rw [val_main_v96_apply, val_main_v92_apply, val_main_v91_apply, val_main_cst_17_apply, val_main_v90_apply, e]
  rfl

/-- The column box's inverse variance on axis `d`. -/
theorem cj_at : val_main_v97 (F := Ideal) x2 (ix4 b i j d) = Ideal.div one32 (gv x2 b j d) := by
  have e : idx_main_v93 (idx_main_v97 (ix4 b i j d)) = ix3 b j d := by idx3
  rw [val_main_v97_apply, val_main_v95_apply, val_main_v94_apply, val_main_cst_18_apply, val_main_v93_apply, e]
  rfl

/-- The sum of the two inverse variances. -/
theorem s_at : val_main_v98 (F := Ideal) x2 (ix4 b i j d)
    = Ideal.div one32 (gv x2 b i d) + Ideal.div one32 (gv x2 b j d) := by
  rw [val_main_v98_apply, ci_at, cj_at]
  rfl

/-- The row box's centre times its inverse variance. -/
theorem mci_at : val_main_v103 (F := Ideal) x2 (ix4 b i j d) = gm x2 b i d * Ideal.div one32 (gv x2 b i d) := by
  have e1 : idx_main_v99 (idx_main_v103 (ix4 b i j d)) = ix3 b i d := by idx3
  have e2 : idx_main_v90 (idx_main_v103 (ix4 b i j d)) = ix3 b i d := by idx3
  rw [val_main_v103_apply, val_main_v100_apply, val_main_v99_apply, val_main_v92_apply, val_main_v91_apply,
    val_main_cst_17_apply, val_main_v90_apply, e1, e2]
  rfl

/-- The column box's centre times its inverse variance. -/
theorem mcj_at : val_main_v104 (F := Ideal) x2 (ix4 b i j d) = gm x2 b j d * Ideal.div one32 (gv x2 b j d) := by
  have e1 : idx_main_v101 (idx_main_v104 (ix4 b i j d)) = ix3 b j d := by idx3
  have e2 : idx_main_v93 (idx_main_v104 (ix4 b i j d)) = ix3 b j d := by idx3
  rw [val_main_v104_apply, val_main_v102_apply, val_main_v101_apply, val_main_v95_apply, val_main_v94_apply,
    val_main_cst_18_apply, val_main_v93_apply, e1, e2]
  rfl

/-- The combined centre squared times the summed inverse variance, on axis `d`. -/
theorem quad_at : val_main_v108 (F := Ideal) x2 (ix4 b i j d)
    = Ideal.div (gm x2 b i d * Ideal.div one32 (gv x2 b i d) + gm x2 b j d * Ideal.div one32 (gv x2 b j d))
          (Ideal.div one32 (gv x2 b i d) + Ideal.div one32 (gv x2 b j d))
        * Ideal.div (gm x2 b i d * Ideal.div one32 (gv x2 b i d) + gm x2 b j d * Ideal.div one32 (gv x2 b j d))
          (Ideal.div one32 (gv x2 b i d) + Ideal.div one32 (gv x2 b j d))
        * (Ideal.div one32 (gv x2 b i d) + Ideal.div one32 (gv x2 b j d)) := by
  rw [val_main_v108_apply, val_main_v107_apply, val_main_v106_apply, val_main_v105_apply, s_at, mci_at, mcj_at]
  rfl

/-- Its sum over the two axes, from zero. -/
theorem quadSum_at : val_main_v109 (F := Ideal) x2 (ix3 b i j)
    = zero32 + (val_main_v108 (F := Ideal) x2 (ix4 b i j 0) + val_main_v108 (F := Ideal) x2 (ix4 b i j 1)) := by
  have e0 : idx_main_v109 (ix3 b i j) 0 = ix4 b i j 0 := by idx4
  have e1 : idx_main_v109 (ix3 b i j) 1 = ix4 b i j 1 := by idx4
  rw [val_main_v109_apply, Fin.sum_univ_two, e0, e1]
  rfl

/-- The row box's `q`: its squared centre over its variance, summed over the two axes from zero. -/
theorem qi_at : val_main_v114 (F := Ideal) x2 (ix3 b i j)
    = zero32 + (Ideal.div (gm x2 b i 0 * gm x2 b i 0) (gv x2 b i 0) + Ideal.div (gm x2 b i 1 * gm x2 b i 1) (gv x2 b i 1)) := by
  have e : idx_main_v113 (idx_main_v114 (ix3 b i j)) = ix2 b i := by idx2
  have e0 : idx_main_v112 (ix2 b i) 0 = ix3 b i 0 := by idx3
  have e1 : idx_main_v112 (ix2 b i) 1 = ix3 b i 1 := by idx3
  rw [val_main_v114_apply, val_main_v113_apply, e, val_main_v112_apply, Fin.sum_univ_two, e0, e1,
    val_main_v111_apply, val_main_v111_apply, val_main_v110_apply, val_main_v110_apply]
  rfl

/-- The column box's `q`. -/
theorem qj_at : val_main_v120 (F := Ideal) x2 (ix3 b i j)
    = zero32 + (Ideal.div (gm x2 b j 0 * gm x2 b j 0) (gv x2 b j 0) + Ideal.div (gm x2 b j 1 * gm x2 b j 1) (gv x2 b j 1)) := by
  have e : idx_main_v119 (idx_main_v120 (ix3 b i j)) = ix2 b j := by idx2
  have e0 : idx_main_v118 (ix2 b j) 0 = ix3 b j 0 := by idx3
  have e1 : idx_main_v118 (ix2 b j) 1 = ix3 b j 1 := by idx3
  rw [val_main_v120_apply, val_main_v119_apply, e, val_main_v118_apply, Fin.sum_univ_two, e0, e1,
    val_main_v117_apply, val_main_v117_apply, val_main_v116_apply, val_main_v116_apply]
  rfl

/-- The logarithms of the summed inverse variances, summed over the two axes from zero. -/
theorem logS_at : val_main_v123 (F := Ideal) x2 (ix3 b i j)
    = zero32 + (Ideal.log (val_main_v98 (F := Ideal) x2 (ix4 b i j 0)) + Ideal.log (val_main_v98 (F := Ideal) x2 (ix4 b i j 1))) := by
  have e0 : idx_main_v123 (ix3 b i j) 0 = ix4 b i j 0 := by idx4
  have e1 : idx_main_v123 (ix3 b i j) 1 = ix4 b i j 1 := by idx4
  rw [val_main_v123_apply, Fin.sum_univ_two, e0, e1, val_main_v122_apply, val_main_v122_apply]
  rfl

/-- The row box's `ℓ`: the logarithms of its variances summed from zero. -/
theorem li_at : val_main_v127 (F := Ideal) x2 (ix3 b i j)
    = zero32 + (Ideal.log (gv x2 b i 0) + Ideal.log (gv x2 b i 1)) := by
  have e : idx_main_v126 (idx_main_v127 (ix3 b i j)) = ix2 b i := by idx2
  have e0 : idx_main_v125 (ix2 b i) 0 = ix3 b i 0 := by idx3
  have e1 : idx_main_v125 (ix2 b i) 1 = ix3 b i 1 := by idx3
  rw [val_main_v127_apply, val_main_v126_apply, e, val_main_v125_apply, Fin.sum_univ_two, e0, e1,
    val_main_v124_apply, val_main_v124_apply]
  rfl

/-- The column box's `ℓ`. -/
theorem lj_at : val_main_v132 (F := Ideal) x2 (ix3 b i j)
    = zero32 + (Ideal.log (gv x2 b j 0) + Ideal.log (gv x2 b j 1)) := by
  have e : idx_main_v131 (idx_main_v132 (ix3 b i j)) = ix2 b j := by idx2
  have e0 : idx_main_v130 (ix2 b j) 0 = ix3 b j 0 := by idx3
  have e1 : idx_main_v130 (ix2 b j) 1 = ix3 b j 1 := by idx3
  rw [val_main_v132_apply, val_main_v131_apply, e, val_main_v130_apply, Fin.sum_univ_two, e0, e1,
    val_main_v129_apply, val_main_v129_apply]
  rfl

/-- The pair's exponent, in the quotient spelling. -/
theorem delta_at : val_main_v138 (F := Ideal) x2 (ix3 b i j)
    = deltaR (gm x2 b i 0) (gm x2 b i 1) (gv x2 b i 0) (gv x2 b i 1) (gm x2 b j 0) (gm x2 b j 1) (gv x2 b j 0) (gv x2 b j 1) := by
  rw [val_main_v138_apply, val_main_v137_apply, val_main_cst_26_apply, val_main_v136_apply, val_main_v135_apply,
    val_main_cst_25_apply, val_main_v134_apply, val_main_v133_apply, val_main_v128_apply, val_main_v121_apply,
    val_main_v115_apply, quadSum_at, quad_at, quad_at, qi_at, qj_at, logS_at, s_at, s_at, li_at, lj_at]
  rfl

/-- The pair's weight: the inner product of the two class-weight rows. -/
theorem wt_at : val_main_v89 (F := Ideal) x3 (ix3 b i j) = wt (ga x3 b) (ga x3 b) i j := by
  rw [val_main_v89_apply]
  unfold Cert.CS.wt
  refine Finset.sum_congr rfl fun k _ => ?_
  have el : lidx_main_v89 (ix3 b i j) k = ix3 b i k := by idx3
  have er : idx_main_v88 (ridx_main_v89 (ix3 b i j) k) = ix3 b j k := by idx3
  rw [val_main_v88_apply, el, er]
  rfl

/-- One term of the pair sum, where no variance is zero. -/
theorem term_at (hgv : ∀ b n d, gv x2 b n d ≠ 0) :
    val_main_v140 (F := Ideal) x2 x3 (ix3 b i j)
      = term (gm x2 b) (gv x2 b) (ga x3 b) (gm x2 b) (gv x2 b) (ga x3 b) i j := by
  rw [val_main_v140_apply, val_main_v139_apply, wt_at, delta_at,
    deltaR_eq_deltaK (hgv b i 0) (hgv b i 1) (hgv b j 0) (hgv b j 1)]
  rfl

/-- The pair sum of image `b`. -/
theorem pairSum_at (hgv : ∀ b n d, gv x2 b n d ≠ 0) :
    val_main_v141 (F := Ideal) x2 x3 (ix1 b)
      = pairSum (gm x2 b) (gv x2 b) (ga x3 b) (gm x2 b) (gv x2 b) (ga x3 b) := by
  have ht : ∀ i j, val_main_v140 (F := Ideal) x2 x3 (ix3 b i j)
      = term (gm x2 b) (gv x2 b) (ga x3 b) (gm x2 b) (gv x2 b) (ga x3 b) i j :=
    fun i j => term_at x2 x3 b i j hgv
  unfold val_main_v141
  generalize val_main_v140 (F := Ideal) x2 x3 = y at ht ⊢
  simp only [Host.reduceAdd, Ideal.hostReduceAdd_def]
  rw [hostReduceAdd_trailing2, val_main_cst_27_apply]
  unfold Cert.CS.pairSum
  simp only [ht]
  exact (congrArg (· + _) zero32_eq).trans (zero_add _)

end Cert.RefLoss.GG

end
-- ==== Proof.RefLoss.PairPP.lean ====
/-
  The pair sum of the predicted boxes with themselves, read off the reference program.

  For image `b` and predicted boxes `i` and `j`: the inverse variances of the two boxes and their sum
  per axis, the combined centre per axis, the three two-axis sums of squares and the three of logarithms (each an
  initial zero plus the sum over the two axes) make up the exponent in its quotient spelling `deltaR`; the weight is
  the inner product of the two class-weight rows; their product with the exponential is one term of the pair sum, and
  the sum over `(i, j)` from zero is the pair sum.
-/
import proofs.«120005_j50079318672069_1_alg».proof.Proof.RefLoss.Arrays
import proofs.«120005_j50079318672069_1_alg».proof.Proof.RefLoss.Reduce2

noncomputable section

namespace Cert.RefLoss.PP

open Cert.ReferenceIdeal Cert.ReferenceIdeal.Read Idealize.ShloMosaic Idealize.ShloMosaic.ValueIdx Cert.CS Cert.RefLoss

/-- Two index functions of rank 2, 3 or 4 agree when their coordinates do, coordinate by coordinate. -/
local macro "idx2" : tactic => `(tactic| exact funext fun a => Fin.ext (by
  match a with
  | ⟨0, _⟩ => rfl
  | ⟨1, _⟩ => rfl))
local macro "idx3" : tactic => `(tactic| exact funext fun a => Fin.ext (by
  match a with
  | ⟨0, _⟩ => rfl
  | ⟨1, _⟩ => rfl
  | ⟨2, _⟩ => rfl))
local macro "idx4" : tactic => `(tactic| exact funext fun a => Fin.ext (by
  match a with
  | ⟨0, _⟩ => rfl
  | ⟨1, _⟩ => rfl
  | ⟨2, _⟩ => rfl
  | ⟨3, _⟩ => rfl))

variable (x0 : FVec Ideal S32x1000x4 .f32) (x1 : FVec Ideal S32x1000x81 .f32) (b : Fin 32) (i : Fin 1000) (j : Fin 1000) (d : Fin 2)

/-- The row box's inverse variance on axis `d`. -/
theorem ci_at : val_main_v150 (F := Ideal) x0 (ix4 b i j d) = Ideal.div one32 (pv x0 b i d) := by
  have e : idx_main_v144 (idx_main_v150 (ix4 b i j d)) = ix3 b i d := by idx3
  rw [val_main_v150_apply, val_main_v146_apply, val_main_v145_apply, val_main_cst_28_apply, val_main_v144_apply, e]
  rfl

/-- The column box's inverse variance on axis `d`. -/
theorem cj_at : val_main_v151 (F := Ideal) x0 (ix4 b i j d) = Ideal.div one32 (pv x0 b j d) := by
  have e : idx_main_v147 (idx_main_v151 (ix4 b i j d)) = ix3 b j d := by idx3
  rw [val_main_v151_apply, val_main_v149_apply, val_main_v148_apply, val_main_cst_29_apply, val_main_v147_apply, e]
  rfl

/-- The sum of the two inverse variances. -/
theorem s_at : val_main_v152 (F := Ideal) x0 (ix4 b i j d)
    = Ideal.div one32 (pv x0 b i d) + Ideal.div one32 (pv x0 b j d) := by
  rw [val_main_v152_apply, ci_at, cj_at]
  rfl

/-- The row box's centre times its inverse variance. -/
theorem mci_at : val_main_v157 (F := Ideal) x0 (ix4 b i j d) = pm x0 b i d * Ideal.div one32 (pv x0 b i d) := by
  have e1 : idx_main_v153 (idx_main_v157 (ix4 b i j d)) = ix3 b i d := by idx3
  have e2 : idx_main_v144 (idx_main_v157 (ix4 b i j d)) = ix3 b i d := by idx3
  rw [val_main_v157_apply, val_main_v154_apply, val_main_v153_apply, val_main_v146_apply, val_main_v145_apply,
    val_main_cst_28_apply, val_main_v144_apply, e1, e2]
  rfl

/-- The column box's centre times its inverse variance. -/
theorem mcj_at : val_main_v158 (F := Ideal) x0 (ix4 b i j d) = pm x0 b j d * Ideal.div one32 (pv x0 b j d) := by
  have e1 : idx_main_v155 (idx_main_v158 (ix4 b i j d)) = ix3 b j d := by idx3
  have e2 : idx_main_v147 (idx_main_v158 (ix4 b i j d)) = ix3 b j d := by idx3
  rw [val_main_v158_apply, val_main_v156_apply, val_main_v155_apply, val_main_v149_apply, val_main_v148_apply,
    val_main_cst_29_apply, val_main_v147_apply, e1, e2]
  rfl

/-- The combined centre squared times the summed inverse variance, on axis `d`. -/
theorem quad_at : val_main_v162 (F := Ideal) x0 (ix4 b i j d)
    = Ideal.div (pm x0 b i d * Ideal.div one32 (pv x0 b i d) + pm x0 b j d * Ideal.div one32 (pv x0 b j d))
          (Ideal.div one32 (pv x0 b i d) + Ideal.div one32 (pv x0 b j d))
        * Ideal.div (pm x0 b i d * Ideal.div one32 (pv x0 b i d) + pm x0 b j d * Ideal.div one32 (pv x0 b j d))
          (Ideal.div one32 (pv x0 b i d) + Ideal.div one32 (pv x0 b j d))
        * (Ideal.div one32 (pv x0 b i d) + Ideal.div one32 (pv x0 b j d)) := by
  rw [val_main_v162_apply, val_main_v161_apply, val_main_v160_apply, val_main_v159_apply, s_at, mci_at, mcj_at]
  rfl

/-- Its sum over the two axes, from zero. -/
theorem quadSum_at : val_main_v163 (F := Ideal) x0 (ix3 b i j)
    = zero32 + (val_main_v162 (F := Ideal) x0 (ix4 b i j 0) + val_main_v162 (F := Ideal) x0 (ix4 b i j 1)) := by
  have e0 : idx_main_v163 (ix3 b i j) 0 = ix4 b i j 0 := by idx4
  have e1 : idx_main_v163 (ix3 b i j) 1 = ix4 b i j 1 := by idx4
  rw [val_main_v163_apply, Fin.sum_univ_two, e0, e1]
  rfl

/-- The row box's `q`: its squared centre over its variance, summed over the two axes from zero. -/
theorem qi_at : val_main_v168 (F := Ideal) x0 (ix3 b i j)
    = zero32 + (Ideal.div (pm x0 b i 0 * pm x0 b i 0) (pv x0 b i 0) + Ideal.div (pm x0 b i 1 * pm x0 b i 1) (pv x0 b i 1)) := by
  have e : idx_main_v167 (idx_main_v168 (ix3 b i j)) = ix2 b i := by idx2
  have e0 : idx_main_v166 (ix2 b i) 0 = ix3 b i 0 := by idx3
  have e1 : idx_main_v166 (ix2 b i) 1 = ix3 b i 1 := by idx3
  rw [val_main_v168_apply, val_main_v167_apply, e, val_main_v166_apply, Fin.sum_univ_two, e0, e1,
    val_main_v165_apply, val_main_v165_apply, val_main_v164_apply, val_main_v164_apply]
  rfl

/-- The column box's `q`. -/
theorem qj_at : val_main_v174 (F := Ideal) x0 (ix3 b i j)
    = zero32 + (Ideal.div (pm x0 b j 0 * pm x0 b j 0) (pv x0 b j 0) + Ideal.div (pm x0 b j 1 * pm x0 b j 1) (pv x0 b j 1)) := by
  have e : idx_main_v173 (idx_main_v174 (ix3 b i j)) = ix2 b j := by idx2
  have e0 : idx_main_v172 (ix2 b j) 0 = ix3 b j 0 := by idx3
  have e1 : idx_main_v172 (ix2 b j) 1 = ix3 b j 1 := by idx3
  rw [val_main_v174_apply, val_main_v173_apply, e, val_main_v172_apply, Fin.sum_univ_two, e0, e1,
    val_main_v171_apply, val_main_v171_apply, val_main_v170_apply, val_main_v170_apply]
  rfl

/-- The logarithms of the summed inverse variances, summed over the two axes from zero. -/
theorem logS_at : val_main_v177 (F := Ideal) x0 (ix3 b i j)
    = zero32 + (Ideal.log (val_main_v152 (F := Ideal) x0 (ix4 b i j 0)) + Ideal.log (val_main_v152 (F := Ideal) x0 (ix4 b i j 1))) := by
  have e0 : idx_main_v177 (ix3 b i j) 0 = ix4 b i j 0 := by idx4
  have e1 : idx_main_v177 (ix3 b i j) 1 = ix4 b i j 1 := by idx4
  rw [val_main_v177_apply, Fin.sum_univ_two, e0, e1, val_main_v176_apply, val_main_v176_apply]
  rfl

/-- The row box's `ℓ`: the logarithms of its variances summed from zero. -/
theorem li_at : val_main_v181 (F := Ideal) x0 (ix3 b i j)
    = zero32 + (Ideal.log (pv x0 b i 0) + Ideal.log (pv x0 b i 1)) := by
  have e : idx_main_v180 (idx_main_v181 (ix3 b i j)) = ix2 b i := by idx2
  have e0 : idx_main_v179 (ix2 b i) 0 = ix3 b i 0 := by idx3
  have e1 : idx_main_v179 (ix2 b i) 1 = ix3 b i 1 := by idx3
  rw [val_main_v181_apply, val_main_v180_apply, e, val_main_v179_apply, Fin.sum_univ_two, e0, e1,
    val_main_v178_apply, val_main_v178_apply]
  rfl

/-- The column box's `ℓ`. -/
theorem lj_at : val_main_v186 (F := Ideal) x0 (ix3 b i j)
    = zero32 + (Ideal.log (pv x0 b j 0) + Ideal.log (pv x0 b j 1)) := by
  have e : idx_main_v185 (idx_main_v186 (ix3 b i j)) = ix2 b j := by idx2
  have e0 : idx_main_v184 (ix2 b j) 0 = ix3 b j 0 := by idx3
  have e1 : idx_main_v184 (ix2 b j) 1 = ix3 b j 1 := by idx3
  rw [val_main_v186_apply, val_main_v185_apply, e, val_main_v184_apply, Fin.sum_univ_two, e0, e1,
    val_main_v183_apply, val_main_v183_apply]
  rfl

/-- The pair's exponent, in the quotient spelling. -/
theorem delta_at : val_main_v192 (F := Ideal) x0 (ix3 b i j)
    = deltaR (pm x0 b i 0) (pm x0 b i 1) (pv x0 b i 0) (pv x0 b i 1) (pm x0 b j 0) (pm x0 b j 1) (pv x0 b j 0) (pv x0 b j 1) := by
  rw [val_main_v192_apply, val_main_v191_apply, val_main_cst_37_apply, val_main_v190_apply, val_main_v189_apply,
    val_main_cst_36_apply, val_main_v188_apply, val_main_v187_apply, val_main_v182_apply, val_main_v175_apply,
    val_main_v169_apply, quadSum_at, quad_at, quad_at, qi_at, qj_at, logS_at, s_at, s_at, li_at, lj_at]
  rfl

/-- The pair's weight: the inner product of the two class-weight rows. -/
theorem wt_at : val_main_v143 (F := Ideal) x1 (ix3 b i j) = wt (pa x1 b) (pa x1 b) i j := by
  rw [val_main_v143_apply]
  unfold Cert.CS.wt
  refine Finset.sum_congr rfl fun k _ => ?_
  have el : lidx_main_v143 (ix3 b i j) k = ix3 b i k := by idx3
  have er : idx_main_v142 (ridx_main_v143 (ix3 b i j) k) = ix3 b j k := by idx3
  rw [val_main_v142_apply, el, er]
  rfl

/-- One term of the pair sum, where no variance is zero. -/
theorem term_at (hpv : ∀ b n d, pv x0 b n d ≠ 0) :
    val_main_v194 (F := Ideal) x0 x1 (ix3 b i j)
      = term (pm x0 b) (pv x0 b) (pa x1 b) (pm x0 b) (pv x0 b) (pa x1 b) i j := by
  rw [val_main_v194_apply, val_main_v193_apply, wt_at, delta_at,
    deltaR_eq_deltaK (hpv b i 0) (hpv b i 1) (hpv b j 0) (hpv b j 1)]
  rfl

/-- The pair sum of image `b`. -/
theorem pairSum_at (hpv : ∀ b n d, pv x0 b n d ≠ 0) :
    val_main_v195 (F := Ideal) x0 x1 (ix1 b)
      = pairSum (pm x0 b) (pv x0 b) (pa x1 b) (pm x0 b) (pv x0 b) (pa x1 b) := by
  have ht : ∀ i j, val_main_v194 (F := Ideal) x0 x1 (ix3 b i j)
      = term (pm x0 b) (pv x0 b) (pa x1 b) (pm x0 b) (pv x0 b) (pa x1 b) i j :=
    fun i j => term_at x0 x1 b i j hpv
  unfold val_main_v195
  generalize val_main_v194 (F := Ideal) x0 x1 = y at ht ⊢
  simp only [Host.reduceAdd, Ideal.hostReduceAdd_def]
  rw [hostReduceAdd_trailing2, val_main_cst_38_apply]
  unfold Cert.CS.pairSum
  simp only [ht]
  exact (congrArg (· + _) zero32_eq).trans (zero_add _)

end Cert.RefLoss.PP

end
-- ==== Proof.RefLoss.lean ====
/-
  The reference's scalar is the loss of the six arrays.

  Per image the reference takes `2·log pq − log pp − log qq` of its three pair sums (ground-truth×predicted,
  ground-truth×ground-truth, predicted×predicted), sums the 32 images' values from zero and negates. With each pair
  sum read as `Cert.CS.pairSum` of the boxes' arrays (where no variance is zero), that is `Cert.CS.loss`.
-/
import proofs.«120005_j50079318672069_1_alg».proof.Proof.RefLoss.PairGP
import proofs.«120005_j50079318672069_1_alg».proof.Proof.RefLoss.PairGG
import proofs.«120005_j50079318672069_1_alg».proof.Proof.RefLoss.PairPP

noncomputable section

namespace Cert.RefLoss

open Cert.ReferenceIdeal Cert.ReferenceIdeal.Read Idealize.ShloMosaic Idealize.ShloMosaic.ValueIdx Cert.CS

/-- One image's value: `2·log pq − log pp − log qq` of its three pair sums. -/
theorem perImg_at (x0 : FVec Ideal S32x1000x4 .f32) (x1 : FVec Ideal S32x1000x81 .f32) (x2 : FVec Ideal S32x100x4 .f32)
    (x3 : IVec S32x100 32) (hpv : ∀ b n d, pv x0 b n d ≠ 0) (hgv : ∀ b n d, gv x2 b n d ≠ 0) (b : Fin 32) :
    val_main_v202 (F := Ideal) x0 x1 x2 x3 (ix1 b)
      = perImg (pairSum (gm x2 b) (gv x2 b) (ga x3 b) (pm x0 b) (pv x0 b) (pa x1 b))
          (pairSum (gm x2 b) (gv x2 b) (ga x3 b) (gm x2 b) (gv x2 b) (ga x3 b))
          (pairSum (pm x0 b) (pv x0 b) (pa x1 b) (pm x0 b) (pv x0 b) (pa x1 b)) := by
  rw [val_main_v202_apply, val_main_v200_apply, val_main_v198_apply, val_main_v197_apply, val_main_cst_39_apply,
    val_main_v196_apply, val_main_v199_apply, val_main_v201_apply, GP.pairSum_at x0 x1 x2 x3 b hpv hgv,
    GG.pairSum_at x2 x3 b hgv, PP.pairSum_at x0 x1 b hpv]
  rfl

/-- Where no variance vanishes the reference's scalar is the loss of the six arrays. -/
theorem ref_loss (x0 : FVec Ideal S32x1000x4 .f32) (x1 : FVec Ideal S32x1000x81 .f32) (x2 : FVec Ideal S32x100x4 .f32)
    (x3 : IVec S32x100 32) (hpv : ∀ b n d, pv x0 b n d ≠ 0) (hgv : ∀ b n d, gv x2 b n d ≠ 0) (i : S_.Idx) :
    val_main_v204 (F := Ideal) x0 x1 x2 x3 i = Cert.CS.loss (pm x0) (pv x0) (pa x1) (gm x2) (gv x2) (ga x3) := by
  rw [val_main_v204_apply, val_main_v203_apply, val_main_cst_40_apply, sum_idx1]
  simp only [perImg_at x0 x1 x2 x3 hpv hgv]
  rfl

end Cert.RefLoss

end
-- ==== Proof.PreBridge.lean ====
/-
  The precondition gives the reference's hypotheses.

  The reference's scalar is the loss of the six arrays wherever no variance is zero. The precondition makes every
  width and height of a box a nonzero real; a box's variance on an axis is the square of half that width or height,
  and a nonzero real halved and squared is not zero. So under the precondition no variance of a predicted or of a
  ground-truth box is zero, and the reference's scalar is the loss.
-/
import proofs.«120005_j50079318672069_1_alg».proof.Proof.PreFacts
import proofs.«120005_j50079318672069_1_alg».proof.Proof.RefLoss

noncomputable section

namespace Cert.PreBridge

open Idealize.ShloMosaic Cert.ReferenceIdeal

variable [Cert.Pre_finite_inputs.Facts]

/-- Under the precondition no variance of a predicted box is zero. -/
theorem pv_ne (x0 : FVec Ideal S32x1000x4 .f32) (x1 : FVec Ideal S32x1000x81 .f32) (x2 : FVec Ideal S32x100x4 .f32)
    (x3 : IVec S32x100 32) (h : Cert.Pre_finite_inputs.fn (F := Ideal) x0 x1 x2 x3 = fun _ => 1#1) :
    ∀ b n d, Cert.RefLoss.pv x0 b n d ≠ 0 := by
  intro b n d
  obtain ⟨r, hr, hx⟩ := Cert.PreFacts.wh_pred x0 x1 x2 x3 h b n d
  rw [Cert.RefLoss.pv_apply]
  exact Cert.PreFacts.sq_half_ne_zero r hr hx

/-- Under the precondition no variance of a ground-truth box is zero. -/
theorem gv_ne (x0 : FVec Ideal S32x1000x4 .f32) (x1 : FVec Ideal S32x1000x81 .f32) (x2 : FVec Ideal S32x100x4 .f32)
    (x3 : IVec S32x100 32) (h : Cert.Pre_finite_inputs.fn (F := Ideal) x0 x1 x2 x3 = fun _ => 1#1) :
    ∀ b n d, Cert.RefLoss.gv x2 b n d ≠ 0 := by
  intro b n d
  obtain ⟨r, hr, hx⟩ := Cert.PreFacts.wh_gt x0 x1 x2 x3 h b n d
  rw [Cert.RefLoss.gv_apply]
  exact Cert.PreFacts.sq_half_ne_zero r hr hx

/-- Under the precondition the reference's scalar is the loss of the six arrays. -/
theorem ref_value (x0 : FVec Ideal S32x1000x4 .f32) (x1 : FVec Ideal S32x1000x81 .f32) (x2 : FVec Ideal S32x100x4 .f32)
    (x3 : IVec S32x100 32) (h : Cert.Pre_finite_inputs.fn (F := Ideal) x0 x1 x2 x3 = fun _ => 1#1) (i : S_.Idx) :
    Cert.ReferenceIdeal.Read.val_main_v204 (F := Ideal) x0 x1 x2 x3 i
      = Cert.CS.loss (Cert.RefLoss.pm x0) (Cert.RefLoss.pv x0) (Cert.RefLoss.pa x1) (Cert.RefLoss.gm x2) (Cert.RefLoss.gv x2) (Cert.RefLoss.ga x3) :=
  Cert.RefLoss.ref_loss x0 x1 x2 x3 (pv_ne x0 x1 x2 x3 h) (gv_ne x0 x1 x2 x3 h) i

end Cert.PreBridge

end
-- ==== Proof.lean ====
/-
  A closed-form divergence between two weighted sets of planar Gaussians, computed tile by tile, against its
  whole-array formulation.

  Each image carries 1000 predicted boxes and 100 ground-truth boxes; a box is a Gaussian with centre (x, y) and
  diagonal covariance ((w/2)², (h/2)²), weighted by a row of 80 class weights (for a prediction the sigmoid of
  its last score times the softmax of the others; for a ground-truth box the one-hot row of its label). For two
  sets of boxes the PAIR SUM is  ∑ᵢ ∑ⱼ ⟨aᵢ, aⱼ⟩ · exp δᵢⱼ,  with δ the log of the integral of the product of the two
  densities (Proof/Spec.lean); the loss is  −∑ over the images of  2·log pq − log pp − log qq  over the three pair
  sums ground truth × predictions, ground truth × ground truth, predictions × predictions.

  One program computes each pair sum with the first set resident and the second set streamed in tiles of 200
  boxes (one tile for the 100 ground-truth boxes), adding each tile's sum into an accumulator that is reset at an
  image's first tile and copied out at its last; the other forms the whole arrays of pairs at once. On the
  extended reals the two agree: a tile's sum is a sub-sum of the whole (Proof/KVal0.lean … KVal2.lean, Proof/Sums.lean),
  the host operations before and after the three calls are the same in both (Proof/HostSide.lean,
  Proof/HostTail.lean), and the one term the two spell differently, mx²·(1/vx) + my²·(1/vy) against mx²/vx + my²/vy
  summed from zero, is the same wherever no variance is zero (Proof/Spec.lean) — which is the hypothesis that no
  width or height is zero (Proof/PreFacts.lean, Proof/PreBridge.lean); at a zero variance with a zero centre coordinate
  the two differ (0·(1/0) = 0 against 0/0).

  That each program runs to its end without fault and leaves its arguments unchanged is, for the tiled program,
  the run of its three calls (Proof/Whole.lean for the idealized program, Proof/B/Whole.lean for the same text read at
  machine words): each call's body steps through its loads, its arithmetic and its stores at every grid point
  (Proof/Reg0.lean … Reg2.lean), the calls' arrays are taken out of and put back among the core's buffers around
  each call (Proof/Segs.lean), and the host operations between them fold over the buffers (Proof/RunCond.lean,
  Proof/Run.lean). The same run names the result, which Proof/KernelLoss.lean evaluates to the loss.
-/
import proofs.«120005_j50079318672069_1_alg».proof.Defs
import proofs.«120005_j50079318672069_1_alg».proof.Proof.Gen.Kernel
import proofs.«120005_j50079318672069_1_alg».proof.Proof.Gen.KernelIdeal
import proofs.«120005_j50079318672069_1_alg».proof.Proof.Gen.ReferenceIdeal
import proofs.«120005_j50079318672069_1_alg».proof.Proof.Gen.ReferenceIdeal.Run
import proofs.«120005_j50079318672069_1_alg».proof.Proof.Gen.ReferenceIdeal.Read
import proofs.«120005_j50079318672069_1_alg».proof.Proof.Gen.Pre_finite_inputs
import proofs.«120005_j50079318672069_1_alg».proof.Proof.Whole
import proofs.«120005_j50079318672069_1_alg».proof.Proof.B.Whole
import proofs.«120005_j50079318672069_1_alg».proof.Proof.KernelLoss
import proofs.«120005_j50079318672069_1_alg».proof.Proof.PreBridge
import Idealize.ShloMosaic.Adequacy
import Idealize.ShloMosaic.Init

noncomputable section

namespace Cert.Proof

open Idealize.ShloMosaic Idealize.SL.Sem

/-- The word-level program runs to its end, faults nowhere, and leaves its arguments unchanged. -/
theorem frame_k : Cert.frame_Kernel (hKernel := Cert.Kernel.Gen.facts) (hPre_finite_inputs := Cert.Pre_finite_inputs.Gen.facts) :=
  fun m g _ => Cert.Kernel.GenR.frame (F := Bits) m g

/-- So does the same program read over the extended reals. -/
theorem frame_ki : Cert.frame_KernelIdeal (hKernelIdeal := Cert.KernelIdeal.Gen.facts) (hPre_finite_inputs := Cert.Pre_finite_inputs.Gen.facts) :=
  fun m g _ => Cert.KernelIdeal.GenR.frame (F := Ideal) m g

/-- And the whole-array program: its run with the result forgotten. -/
theorem frame_ri : Cert.frame_ReferenceIdeal (hReferenceIdeal := Cert.ReferenceIdeal.Gen.facts) (hPre_finite_inputs := Cert.Pre_finite_inputs.Gen.facts) :=
  fun m g _ => (θ_run Cert.ReferenceIdeal.defs _ _).mono (fun _ h c => (h c).2) (Cert.ReferenceIdeal.Value.run (F := Ideal) m g)

/-- Over the extended reals both programs, from memories that agree on the arguments, end with the loss of the six
    arrays the host operations make of the arguments: the tiled program by its run and the evaluation of its three
    pair sums, the whole-array program by its run read one operation at a time, where no width or height is zero. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' hpre hagree
  have hp : ∀ c : Dev Cert.KernelIdeal.nD, _ := hpre
  refine ⟨fun c _ => Cert.CS.loss
      (Cert.RefLoss.pm (m ((c.tc : Thread Cert.KernelIdeal.nD Cert.KernelIdeal.τ).loc Cert.KernelIdeal.main_arg0)))
      (Cert.RefLoss.pv (m ((c.tc : Thread Cert.KernelIdeal.nD Cert.KernelIdeal.τ).loc Cert.KernelIdeal.main_arg0)))
      (Cert.RefLoss.pa (m ((c.tc : Thread Cert.KernelIdeal.nD Cert.KernelIdeal.τ).loc Cert.KernelIdeal.main_arg1)))
      (Cert.RefLoss.gm (m ((c.tc : Thread Cert.KernelIdeal.nD Cert.KernelIdeal.τ).loc Cert.KernelIdeal.main_arg2)))
      (Cert.RefLoss.gv (m ((c.tc : Thread Cert.KernelIdeal.nD Cert.KernelIdeal.τ).loc Cert.KernelIdeal.main_arg2)))
      (Cert.RefLoss.ga (m ((c.tc : Thread Cert.KernelIdeal.nD Cert.KernelIdeal.τ).loc Cert.KernelIdeal.main_arg3))), ?_, ?_⟩
  · exact (θ_run Cert.KernelIdeal.defs _ _).mono
      (fun r h c => ⟨(h c).1.trans (funext fun y => Cert.KVal.kernel_result m c y), (h c).2⟩)
      (Cert.KernelIdeal.GenR.run_main (F := Ideal) m g)
  · refine (θ_run Cert.ReferenceIdeal.defs _ _).mono (fun r h c => ⟨(h c).1.trans ?_, (h c).2⟩)
      (Cert.ReferenceIdeal.Value.run (F := Ideal) m' g')
    rw [Cert.ReferenceIdeal.Read.val_main_v204_eq, (hagree c).1, (hagree c).2.1, (hagree c).2.2.1, (hagree c).2.2.2]
    funext i
    haveI : Cert.Pre_finite_inputs.Facts := Cert.Pre_finite_inputs.Gen.facts
    exact Cert.PreBridge.ref_value _ _ _ _ (hp c) i

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
